-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v166)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v166) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v252) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S100000 : Shape := ⟨1, ![100000]⟩
abbrev S1600000x2 : Shape := ⟨2, ![1600000, 2]⟩
abbrev S2048x768 : Shape := ⟨2, ![2048, 768]⟩
abbrev S32x64 : Shape := ⟨2, ![32, 64]⟩
abbrev S64 : Shape := ⟨1, ![64]⟩
abbrev S2x64 : Shape := ⟨2, ![2, 64]⟩
abbrev S3x64x64 : Shape := ⟨3, ![3, 64, 64]⟩
abbrev S3x64 : Shape := ⟨2, ![3, 64]⟩
abbrev S64x64 : Shape := ⟨2, ![64, 64]⟩
abbrev S768x64 : Shape := ⟨2, ![768, 64]⟩
abbrev S128x64 : Shape := ⟨2, ![128, 64]⟩
abbrev S64x1 : Shape := ⟨2, ![64, 1]⟩
abbrev S1 : Shape := ⟨1, ![1]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S1600000x2 : S_.BroadcastsInDim S1600000x2 (![] : Fin 0 → Fin S1600000x2.rank)
  reducesTo_S1600000x2_S_d0_1 : S1600000x2.ReducesTo [0, 1] S_
  bcast_S_S2048x768 : S_.BroadcastsInDim S2048x768 (![] : Fin 0 → Fin S2048x768.rank)
  reducesTo_S2048x768_S_d0_1 : S2048x768.ReducesTo [0, 1] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S2x64 : S_.BroadcastsInDim S2x64 (![] : Fin 0 → Fin S2x64.rank)
  reducesTo_S2x64_S_d0_1 : S2x64.ReducesTo [0, 1] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S64x64 : S_.BroadcastsInDim S64x64 (![] : Fin 0 → Fin S64x64.rank)
  reducesTo_S64x64_S_d0_1 : S64x64.ReducesTo [0, 1] S_
  bcast_S_S768x64 : S_.BroadcastsInDim S768x64 (![] : Fin 0 → Fin S768x64.rank)
  reducesTo_S768x64_S_d0_1 : S768x64.ReducesTo [0, 1] S_
  bcast_S_S128x64 : S_.BroadcastsInDim S128x64 (![] : Fin 0 → Fin S128x64.rank)
  reducesTo_S128x64_S_d0_1 : S128x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part7 {F : FTy → Type} [FloatOps F] (main_v118 : IVec S_ 1) (main_v119 : FVec F S1 .f32) : IVec S_ 1 :=
  let main_cst_46 : FVec F S_ .f32 := constant S_ .f32 0x7F800000#32
  let main_v120 : FVec F S1 .f32 := broadcastInDim S1 ![] bcast_S_S1 main_cst_46
  let main_v121 : IVec S1 1 := cmpf .olt main_v119 main_v120
  let main_c_47 : IVec S_ 1 := constantI S_ 1 1#1
  let main_v122 : IVec S_ 1 := (fun x v => Host.reduce IntOp.andi x v reducesTo_S1_S_d0 h_S_) main_v121 main_c_47
  let main_v123 : IVec S_ 1 := andi main_v118 main_v122
  main_v123

def fn_part6 {F : FTy → Type} [FloatOps F] (main_arg23 : FVec F S128x64 .f32) (main_arg24 : FVec F S64 .f32) (main_arg25 : FVec F S64x1 .f32) (main_arg26 : FVec F S1 .f32) (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  let main_v104 : FVec F S128x64 .f32 := Host.absf main_arg23
  let main_cst_40 : FVec F S_ .f32 := constant S_ .f32 0x7F800000#32
  let main_v105 : FVec F S128x64 .f32 := broadcastInDim S128x64 ![] bcast_S_S128x64 main_cst_40
  let main_v106 : IVec S128x64 1 := cmpf .olt main_v104 main_v105
  let main_c_41 : IVec S_ 1 := constantI S_ 1 1#1
  let main_v107 : IVec S_ 1 := (fun x v => Host.reduce IntOp.andi x v reducesTo_S128x64_S_d0_1 h_S_) main_v106 main_c_41
  let main_v108 : IVec S_ 1 := andi main_v103 main_v107
  let main_v109 : FVec F S64 .f32 := Host.absf main_arg24
  let main_cst_42 : FVec F S_ .f32 := constant S_ .f32 0x7F800000#32
  let main_v110 : FVec F S64 .f32 := broadcastInDim S64 ![] bcast_S_S64 main_cst_42
  let main_v111 : IVec S64 1 := cmpf .olt main_v109 main_v110
  let main_c_43 : IVec S_ 1 := constantI S_ 1 1#1
  let main_v112 : IVec S_ 1 := (fun x v => Host.reduce IntOp.andi x v reducesTo_S64_S_d0 h_S_) main_v111 main_c_43
  let main_v113 : IVec S_ 1 := andi main_v108 main_v112
  let main_v114 : FVec F S64x1 .f32 := Host.absf main_arg25
  let main_cst_44 : FVec F S_ .f32 := constant S_ .f32 0x7F800000#32
  let main_v115 : FVec F S64x1 .f32 := broadcastInDim S64x1 ![] bcast_S_S64x1 main_cst_44
  let main_v116 : IVec S64x1 1 := cmpf .olt main_v114 main_v115
  let main_c_45 : IVec S_ 1 := constantI S_ 1 1#1
  let main_v117 : IVec S_ 1 := (fun x v => Host.reduce IntOp.andi x v reducesTo_S64x1_S_d0_1 h_S_) main_v116 main_c_45
  let main_v118 : IVec S_ 1 := andi main_v113 main_v117
  let main_v119 : FVec F S1 .f32 := Host.absf main_arg26
  fn_part7 (F := F) main_v118 main_v119

def fn_part5 {F : FTy → Type} [FloatOps F] (main_arg20 : FVec F S64 .f32) (main_arg21 : FVec F S768x64 .f32) (main_arg22 : FVec F S64 .f32) (main_arg23 : FVec F S128x64 .f32) (main_arg24 : FVec F S64 .f32) (main_arg25 : FVec F S64x1 .f32) (main_arg26 : FVec F S1 .f32) (main_v83 : IVec S_ 1) (main_v84 : FVec F S64x64 .f32) (main_cst_32 : FVec F S_ .f32) : IVec S_ 1 :=
  let main_v85 : FVec F S64x64 .f32 := broadcastInDim S64x64 ![] bcast_S_S64x64 main_cst_32
  let main_v86 : IVec S64x64 1 := cmpf .olt main_v84 main_v85
  let main_c_33 : IVec S_ 1 := constantI S_ 1 1#1
  let main_v87 : IVec S_ 1 := (fun x v => Host.reduce IntOp.andi x v reducesTo_S64x64_S_d0_1 h_S_) main_v86 main_c_33
  let main_v88 : IVec S_ 1 := andi main_v83 main_v87
  let main_v89 : FVec F S64 .f32 := Host.absf main_arg20
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S768x64 .f32 := Host.absf main_arg21
  let main_cst_36 : FVec F S_ .f32 := constant S_ .f32 0x7F800000#32
  let main_v95 : FVec F S768x64 .f32 := broadcastInDim S768x64 ![] bcast_S_S768x64 main_cst_36
  let main_v96 : IVec S768x64 1 := cmpf .olt main_v94 main_v95
  let main_c_37 : IVec S_ 1 := constantI S_ 1 1#1
  let main_v97 : IVec S_ 1 := (fun x v => Host.reduce IntOp.andi x v reducesTo_S768x64_S_d0_1 h_S_) main_v96 main_c_37
  let main_v98 : IVec S_ 1 := andi main_v93 main_v97
  let main_v99 : FVec F S64 .f32 := Host.absf main_arg22
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_arg23 main_arg24 main_arg25 main_arg26 main_v98 main_v101 main_c_39

def fn_part4 {F : FTy → Type} [FloatOps F] (main_arg16 : FVec F S3x64 .f32) (main_arg17 : FVec F S64x64 .f32) (main_arg18 : FVec F S64 .f32) (main_arg19 : FVec F S64x64 .f32) (main_arg20 : FVec F S64 .f32) (main_arg21 : FVec F S768x64 .f32) (main_arg22 : FVec F S64 .f32) (main_arg23 : FVec F S128x64 .f32) (main_arg24 : FVec F S64 .f32) (main_arg25 : FVec F S64x1 .f32) (main_arg26 : FVec F S1 .f32) (main_v63 : IVec S_ 1) (main_v67 : IVec S_ 1) : IVec S_ 1 :=
  let main_v68 : IVec S_ 1 := andi main_v63 main_v67
  let main_v69 : FVec F S3x64 .f32 := Host.absf main_arg16
  let main_cst_26 : FVec F S_ .f32 := constant S_ .f32 0x7F800000#32
  let main_v70 : FVec F S3x64 .f32 := broadcastInDim S3x64 ![] bcast_S_S3x64 main_cst_26
  let main_v71 : IVec S3x64 1 := cmpf .olt main_v69 main_v70
  let main_c_27 : IVec S_ 1 := constantI S_ 1 1#1
  let main_v72 : IVec S_ 1 := (fun x v => Host.reduce IntOp.andi x v reducesTo_S3x64_S_d0_1 h_S_) main_v71 main_c_27
  let main_v73 : IVec S_ 1 := andi main_v68 main_v72
  let main_v74 : FVec F S64x64 .f32 := Host.absf main_arg17
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S64 .f32 := Host.absf main_arg18
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64x64 .f32 := Host.absf main_arg19
  let main_cst_32 : FVec F S_ .f32 := constant S_ .f32 0x7F800000#32
  fn_part5 (F := F) main_arg20 main_arg21 main_arg22 main_arg23 main_arg24 main_arg25 main_arg26 main_v83 main_v84 main_cst_32

def fn_part3 {F : FTy → Type} [FloatOps F] (main_arg13 : FVec F S3x64 .f32) (main_arg14 : FVec F S3x64 .f32) (main_arg15 : FVec F S3x64 .f32) (main_arg16 : FVec F S3x64 .f32) (main_arg17 : FVec F S64x64 .f32) (main_arg18 : FVec F S64 .f32) (main_arg19 : FVec F S64x64 .f32) (main_arg20 : FVec F S64 .f32) (main_arg21 : FVec F S768x64 .f32) (main_arg22 : FVec F S64 .f32) (main_arg23 : FVec F S128x64 .f32) (main_arg24 : FVec F S64 .f32) (main_arg25 : FVec F S64x1 .f32) (main_arg26 : FVec F S1 .f32) (main_v48 : IVec S_ 1) (main_v49 : FVec F S3x64 .f32) (main_v50 : FVec F S3x64 .f32) : IVec S_ 1 :=
  let main_v51 : IVec S3x64 1 := cmpf .olt main_v49 main_v50
  let main_c_19 : IVec S_ 1 := constantI S_ 1 1#1
  let main_v52 : IVec S_ 1 := (fun x v => Host.reduce IntOp.andi x v reducesTo_S3x64_S_d0_1 h_S_) main_v51 main_c_19
  let main_v53 : IVec S_ 1 := andi main_v48 main_v52
  let main_v54 : FVec F S3x64 .f32 := Host.absf main_arg13
  let main_cst_20 : FVec F S_ .f32 := constant S_ .f32 0x7F800000#32
  let main_v55 : FVec F S3x64 .f32 := broadcastInDim S3x64 ![] bcast_S_S3x64 main_cst_20
  let main_v56 : IVec S3x64 1 := cmpf .olt main_v54 main_v55
  let main_c_21 : IVec S_ 1 := constantI S_ 1 1#1
  let main_v57 : IVec S_ 1 := (fun x v => Host.reduce IntOp.andi x v reducesTo_S3x64_S_d0_1 h_S_) main_v56 main_c_21
  let main_v58 : IVec S_ 1 := andi main_v53 main_v57
  let main_v59 : FVec F S3x64 .f32 := Host.absf main_arg14
  let main_cst_22 : FVec F S_ .f32 := constant S_ .f32 0x7F800000#32
  let main_v60 : FVec F S3x64 .f32 := broadcastInDim S3x64 ![] bcast_S_S3x64 main_cst_22
  let main_v61 : IVec S3x64 1 := cmpf .olt main_v59 main_v60
  let main_c_23 : IVec S_ 1 := constantI S_ 1 1#1
  let main_v62 : IVec S_ 1 := (fun x v => Host.reduce IntOp.andi x v reducesTo_S3x64_S_d0_1 h_S_) main_v61 main_c_23
  let main_v63 : IVec S_ 1 := andi main_v58 main_v62
  let main_v64 : FVec F S3x64 .f32 := Host.absf main_arg15
  let main_cst_24 : FVec F S_ .f32 := constant S_ .f32 0x7F800000#32
  let main_v65 : FVec F S3x64 .f32 := broadcastInDim S3x64 ![] bcast_S_S3x64 main_cst_24
  let main_v66 : IVec S3x64 1 := cmpf .olt main_v64 main_v65
  let main_c_25 : IVec S_ 1 := constantI S_ 1 1#1
  let main_v67 : IVec S_ 1 := (fun x v => Host.reduce IntOp.andi x v reducesTo_S3x64_S_d0_1 h_S_) main_v66 main_c_25
  fn_part4 (F := F) main_arg16 main_arg17 main_arg18 main_arg19 main_arg20 main_arg21 main_arg22 main_arg23 main_arg24 main_arg25 main_arg26 main_v63 main_v67

def fn_part2 {F : FTy → Type} [FloatOps F] (main_arg9 : FVec F S3x64x64 .f32) (main_arg10 : FVec F S3x64 .f32) (main_arg11 : FVec F S3x64x64 .f32) (main_arg12 : FVec F S3x64 .f32) (main_arg13 : FVec F S3x64 .f32) (main_arg14 : FVec F S3x64 .f32) (main_arg15 : FVec F S3x64 .f32) (main_arg16 : FVec F S3x64 .f32) (main_arg17 : FVec F S64x64 .f32) (main_arg18 : FVec F S64 .f32) (main_arg19 : FVec F S64x64 .f32) (main_arg20 : FVec F S64 .f32) (main_arg21 : FVec F S768x64 .f32) (main_arg22 : FVec F S64 .f32) (main_arg23 : FVec F S128x64 .f32) (main_arg24 : FVec F S64 .f32) (main_arg25 : FVec F S64x1 .f32) (main_arg26 : FVec F S1 .f32) (main_v33 : IVec S_ 1) : IVec S_ 1 :=
  let main_v34 : FVec F S3x64x64 .f32 := Host.absf main_arg9
  let main_cst_12 : FVec F S_ .f32 := constant S_ .f32 0x7F800000#32
  let main_v35 : FVec F S3x64x64 .f32 := broadcastInDim S3x64x64 ![] bcast_S_S3x64x64 main_cst_12
  let main_v36 : IVec S3x64x64 1 := cmpf .olt main_v34 main_v35
  let main_c_13 : IVec S_ 1 := constantI S_ 1 1#1
  let main_v37 : IVec S_ 1 := (fun x v => Host.reduce IntOp.andi x v reducesTo_S3x64x64_S_d0_1_2 h_S_) main_v36 main_c_13
  let main_v38 : IVec S_ 1 := andi main_v33 main_v37
  let main_v39 : FVec F S3x64 .f32 := Host.absf main_arg10
  let main_cst_14 : FVec F S_ .f32 := constant S_ .f32 0x7F800000#32
  let main_v40 : FVec F S3x64 .f32 := broadcastInDim S3x64 ![] bcast_S_S3x64 main_cst_14
  let main_v41 : IVec S3x64 1 := cmpf .olt main_v39 main_v40
  let main_c_15 : IVec S_ 1 := constantI S_ 1 1#1
  let main_v42 : IVec S_ 1 := (fun x v => Host.reduce IntOp.andi x v reducesTo_S3x64_S_d0_1 h_S_) main_v41 main_c_15
  let main_v43 : IVec S_ 1 := andi main_v38 main_v42
  let main_v44 : FVec F S3x64x64 .f32 := Host.absf main_arg11
  let main_cst_16 : FVec F S_ .f32 := constant S_ .f32 0x7F800000#32
  let main_v45 : FVec F S3x64x64 .f32 := broadcastInDim S3x64x64 ![] bcast_S_S3x64x64 main_cst_16
  let main_v46 : IVec S3x64x64 1 := cmpf .olt main_v44 main_v45
  let main_c_17 : IVec S_ 1 := constantI S_ 1 1#1
  let main_v47 : IVec S_ 1 := (fun x v => Host.reduce IntOp.andi x v reducesTo_S3x64x64_S_d0_1_2 h_S_) main_v46 main_c_17
  let main_v48 : IVec S_ 1 := andi main_v43 main_v47
  let main_v49 : FVec F S3x64 .f32 := Host.absf main_arg12
  let main_cst_18 : FVec F S_ .f32 := constant S_ .f32 0x7F800000#32
  let main_v50 : FVec F S3x64 .f32 := broadcastInDim S3x64 ![] bcast_S_S3x64 main_cst_18
  fn_part3 (F := F) main_arg13 main_arg14 main_arg15 main_arg16 main_arg17 main_arg18 main_arg19 main_arg20 main_arg21 main_arg22 main_arg23 main_arg24 main_arg25 main_arg26 main_v48 main_v49 main_v50

def fn_part1 {F : FTy → Type} [FloatOps F] (main_arg6 : FVec F S64 .f32) (main_arg7 : FVec F S2x64 .f32) (main_arg8 : FVec F S64 .f32) (main_arg9 : FVec F S3x64x64 .f32) (main_arg10 : FVec F S3x64 .f32) (main_arg11 : FVec F S3x64x64 .f32) (main_arg12 : FVec F S3x64 .f32) (main_arg13 : FVec F S3x64 .f32) (main_arg14 : FVec F S3x64 .f32) (main_arg15 : FVec F S3x64 .f32) (main_arg16 : FVec F S3x64 .f32) (main_arg17 : FVec F S64x64 .f32) (main_arg18 : FVec F S64 .f32) (main_arg19 : FVec F S64x64 .f32) (main_arg20 : FVec F S64 .f32) (main_arg21 : FVec F S768x64 .f32) (main_arg22 : FVec F S64 .f32) (main_arg23 : FVec F S128x64 .f32) (main_arg24 : FVec F S64 .f32) (main_arg25 : FVec F S64x1 .f32) (main_arg26 : FVec F S1 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S2x64 .f32 := Host.absf main_arg7
  let main_cst_8 : FVec F S_ .f32 := constant S_ .f32 0x7F800000#32
  let main_v25 : FVec F S2x64 .f32 := broadcastInDim S2x64 ![] bcast_S_S2x64 main_cst_8
  let main_v26 : IVec S2x64 1 := cmpf .olt main_v24 main_v25
  let main_c_9 : IVec S_ 1 := constantI S_ 1 1#1
  let main_v27 : IVec S_ 1 := (fun x v => Host.reduce IntOp.andi x v reducesTo_S2x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_v33

def fn {F : FTy → Type} [FloatOps F] (main_arg0 : FVec F S100000x32 .f32) (main_arg1 : IVec S2x1600000 32) (main_arg2 : IVec S100000 32) (main_arg3 : FVec F S1600000x2 .f32) (main_arg4 : FVec F S2048x768 .f32) (main_arg5 : FVec F S32x64 .f32) (main_arg6 : FVec F S64 .f32) (main_arg7 : FVec F S2x64 .f32) (main_arg8 : FVec F S64 .f32) (main_arg9 : FVec F S3x64x64 .f32) (main_arg10 : FVec F S3x64 .f32) (main_arg11 : FVec F S3x64x64 .f32) (main_arg12 : FVec F S3x64 .f32) (main_arg13 : FVec F S3x64 .f32) (main_arg14 : FVec F S3x64 .f32) (main_arg15 : FVec F S3x64 .f32) (main_arg16 : FVec F S3x64 .f32) (main_arg17 : FVec F S64x64 .f32) (main_arg18 : FVec F S64 .f32) (main_arg19 : FVec F S64x64 .f32) (main_arg20 : FVec F S64 .f32) (main_arg21 : FVec F S768x64 .f32) (main_arg22 : FVec F S64 .f32) (main_arg23 : FVec F S128x64 .f32) (main_arg24 : FVec F S64 .f32) (main_arg25 : FVec F S64x1 .f32) (main_arg26 : FVec F S1 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S1600000x2 .f32 := Host.absf main_arg3
  let main_cst_0 : FVec F S_ .f32 := constant S_ .f32 0x7F800000#32
  let main_v5 : FVec F S1600000x2 .f32 := broadcastInDim S1600000x2 ![] bcast_S_S1600000x2 main_cst_0
  let main_v6 : IVec S1600000x2 1 := cmpf .olt main_v4 main_v5
  let main_c_1 : IVec S_ 1 := constantI S_ 1 1#1
  let main_v7 : IVec S_ 1 := (fun x v => Host.reduce IntOp.andi x v reducesTo_S1600000x2_S_d0_1 h_S_) main_v6 main_c_1
  let main_v8 : IVec S_ 1 := andi main_v3 main_v7
  let main_v9 : FVec F S2048x768 .f32 := Host.absf main_arg4
  let main_cst_2 : FVec F S_ .f32 := constant S_ .f32 0x7F800000#32
  let main_v10 : FVec F S2048x768 .f32 := broadcastInDim S2048x768 ![] bcast_S_S2048x768 main_cst_2
  let main_v11 : IVec S2048x768 1 := cmpf .olt main_v9 main_v10
  let main_c_3 : IVec S_ 1 := constantI S_ 1 1#1
  let main_v12 : IVec S_ 1 := (fun x v => Host.reduce IntOp.andi x v reducesTo_S2048x768_S_d0_1 h_S_) main_v11 main_c_3
  let main_v13 : IVec S_ 1 := andi main_v8 main_v12
  let main_v14 : FVec F S32x64 .f32 := Host.absf main_arg5
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S100000x32 : Shape := ⟨2, ![100000, 32]⟩
abbrev S2x1600000 : Shape := ⟨2, ![2, 1600000]⟩
abbrev S100000 : Shape := ⟨1, ![100000]⟩
abbrev S1600000x2 : Shape := ⟨2, ![1600000, 2]⟩
abbrev S2048x768 : Shape := ⟨2, ![2048, 768]⟩
abbrev S32x64 : Shape := ⟨2, ![32, 64]⟩
abbrev S64 : Shape := ⟨1, ![64]⟩
abbrev S2x64 : Shape := ⟨2, ![2, 64]⟩
abbrev S3x64x64 : Shape := ⟨3, ![3, 64, 64]⟩
abbrev S3x64 : Shape := ⟨2, ![3, 64]⟩
abbrev S64x64 : Shape := ⟨2, ![64, 64]⟩
abbrev S768x64 : Shape := ⟨2, ![768, 64]⟩
abbrev S128x64 : Shape := ⟨2, ![128, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S1x64 : Shape := ⟨2, ![1, 64]⟩
abbrev S100000x64 : Shape := ⟨2, ![100000, 64]⟩
abbrev S10000x32 : Shape := ⟨2, ![10000, 32]⟩
abbrev S10000x64 : Shape := ⟨2, ![10000, 64]⟩
abbrev S_ : Shape := ⟨0, ![]⟩
abbrev S2048x64 : Shape := ⟨2, ![2048, 64]⟩
abbrev S100000x1 : Shape := ⟨2, ![100000, 1]⟩
abbrev S1600000x1 : Shape := ⟨2, ![1600000, 1]⟩
abbrev S1600000x64 : Shape := ⟨2, ![1600000, 64]⟩
abbrev S6400x64 : Shape := ⟨2, ![6400, 64]⟩
abbrev S6400x2 : Shape := ⟨2, ![6400, 2]⟩
abbrev S1x64x64 : Shape := ⟨3, ![1, 64, 64]⟩
abbrev S2000x64 : Shape := ⟨2, ![2000, 64]⟩
abbrev S2048 : Shape := ⟨1, ![2048]⟩
abbrev S2048x1 : Shape := ⟨2, ![2048, 1]⟩
abbrev S1x1 : Shape := ⟨2, ![1, 1]⟩

abbrev nBuf : Space → Nat
  | .hbm => 216
  | .vmem => 94
  | .smem => 0
  | _ => 0

abbrev hbmTy0_0 (i : Nat) : BufTy := match i % 128 with
  | 0 => ⟨S100000x32, .f32⟩
  | 1 => ⟨S2x1600000, .i32⟩
  | 2 => ⟨S100000, .i32⟩
  | 3 => ⟨S1600000x2, .f32⟩
  | 4 => ⟨S2048x768, .f32⟩
  | 5 => ⟨S32x64, .f32⟩
  | 6 => ⟨S64, .f32⟩
  | 7 => ⟨S2x64, .f32⟩
  | 8 => ⟨S64, .f32⟩
  | 9 => ⟨S3x64x64, .f32⟩
  | 10 => ⟨S3x64, .f32⟩
  | 11 => ⟨S3x64x64, .f32⟩
  | 12 => ⟨S3x64, .f32⟩
  | 13 => ⟨S3x64, .f32⟩
  | 14 => ⟨S3x64, .f32⟩
  | 15 => ⟨S3x64, .f32⟩
  | 16 => ⟨S3x64, .f32⟩
  | 17 => ⟨S64x64, .f32⟩
  | 18 => ⟨S64, .f32⟩
  | 19 => ⟨S64x64, .f32⟩
  | 20 => ⟨S64, .f32⟩
  | 21 => ⟨S768x64, .f32⟩
  | 22 => ⟨S64, .f32⟩
  | 23 => ⟨S128x64, .f32⟩
  | 24 => ⟨S64, .f32⟩
  | 25 => ⟨S64x1, .f32⟩
  | 26 => ⟨S1, .f32⟩
  | 27 => ⟨S1x1600000, .i32⟩
  | 28 => ⟨S1600000, .i32⟩
  | 29 => ⟨S1x1600000, .i32⟩
  | 30 => ⟨S1600000, .i32⟩
  | 31 => ⟨S1x64, .f32⟩
  | 32 => ⟨S100000x64, .f32⟩
  | 33 => ⟨S_, .f32⟩
  | 34 => ⟨S2048x64, .f32⟩
  | 35 => ⟨S1x64, .f32⟩
  | 36 => ⟨S_, .i32⟩
  | 37 => ⟨S100000, .i32⟩
  | 38 => ⟨S100000, .i1⟩
  | 39 => ⟨S_, .i32⟩
  | 40 => ⟨S100000, .i32⟩
  | 41 => ⟨S100000, .i32⟩
  | 42 => ⟨S100000, .i32⟩
  | 43 => ⟨S100000x1, .i32⟩
  | 44 => ⟨S100000x64, .f32⟩
  | 45 => ⟨S100000x64, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000x64, .f32⟩
  | 55 => ⟨S1600000x64, .f32⟩
  | 56 => ⟨S_, .f32⟩
  | 57 => ⟨S100000x64, .f32⟩
  | 58 => ⟨S1600000x1, .i32⟩
  | 59 => ⟨S100000x64, .f32⟩
  | 60 => ⟨S1x64x64, .f32⟩
  | 61 => ⟨S64x64, .f32⟩
  | 62 => ⟨S1x64, .f32⟩
  | 63 => ⟨S64, .f32⟩
  | 64 => ⟨S1x64, .f32⟩
  | 65 => ⟨S1x64x64, .f32⟩
  | 66 => ⟨S64x64, .f32⟩
  | 67 => ⟨S1x64, .f32⟩
  | 68 => ⟨S64, .f32⟩
  | 69 => ⟨S1x64, .f32⟩
  | 70 => ⟨S1x64, .f32⟩
  | 71 => ⟨S64, .f32⟩
  | 72 => ⟨S1x64, .f32⟩
  | 73 => ⟨S1x64, .f32⟩
  | 74 => ⟨S64, .f32⟩
  | 75 => ⟨S1x64, .f32⟩
  | 76 => ⟨S1x64, .f32⟩
  | 77 => ⟨S64, .f32⟩
  | 78 => ⟨S1x64, .f32⟩
  | 79 => ⟨S1x64, .f32⟩
  | 80 => ⟨S64, .f32⟩
  | 81 => ⟨S1x64, .f32⟩
  | 82 => ⟨S100000x64, .f32⟩
  | 83 => ⟨S_, .f32⟩
  | 84 => ⟨S2048x64, .f32⟩
  | 85 => ⟨S100000x1, .i32⟩
  | 86 => ⟨S2048x64, .f32⟩
  | 87 => ⟨S1x64, .f32⟩
  | 88 => ⟨S1x64, .f32⟩
  | 89 => ⟨S2048x64, .f32⟩
  | 90 => ⟨S2048x64, .f32⟩
  | 91 => ⟨S_, .i32⟩
  | 92 => ⟨S100000, .i32⟩
  | 93 => ⟨S100000, .i1⟩
  | 94 => ⟨S_, .i32⟩
  | 95 => ⟨S100000, .i32⟩
  | 96 => ⟨S100000, .i32⟩
  | 97 => ⟨S100000, .i32⟩
  | 98 => ⟨S100000x1, .i32⟩
  | 99 => ⟨S100000x64, .f32⟩
  | 100 => ⟨S100000x64, .f32⟩
  | 101 => ⟨S_, .i32⟩
  | 102 => ⟨S1600000, .i32⟩
  | 103 => ⟨S1600000, .i1⟩
  | 104 => ⟨S_, .i32⟩
  | 105 => ⟨S1600000, .i32⟩
  | 106 => ⟨S1600000, .i32⟩
  | 107 => ⟨S1600000, .i32⟩
  | 108 => ⟨S1600000x1, .i32⟩
  | 109 => ⟨S1600000x64, .f32⟩
  | 110 => ⟨S1600000x64, .f32⟩
  | 111 => ⟨S_, .f32⟩
  | 112 => ⟨S100000x64, .f32⟩
  | 113 => ⟨S1600000x1, .i32⟩
  | 114 => ⟨S100000x64, .f32⟩
  | 115 => ⟨S1x64x64, .f32⟩
  | 116 => ⟨S64x64, .f32⟩
  | 117 => ⟨S1x64, .f32⟩
  | 118 => ⟨S64, .f32⟩
  | 119 => ⟨S1x64, .f32⟩
  | 120 => ⟨S1x64x64, .f32⟩
  | 121 => ⟨S64x64, .f32⟩
  | 122 => ⟨S1x64, .f32⟩
  | 123 => ⟨S64, .f32⟩
  | 124 => ⟨S1x64, .f32⟩
  | 125 => ⟨S1x64, .f32⟩
  | 126 => ⟨S64, .f32⟩
  | 127 => ⟨S1x64, .f32⟩
  | _ => ⟨S100000x32, .f32⟩

abbrev hbmTy0_1 (i : Nat) : BufTy := match i % 128 with
  | 0 => ⟨S1x64, .f32⟩
  | 1 => ⟨S64, .f32⟩
  | 2 => ⟨S1x64, .f32⟩
  | 3 => ⟨S1x64, .f32⟩
  | 4 => ⟨S64, .f32⟩
  | 5 => ⟨S1x64, .f32⟩
  | 6 => ⟨S1x64, .f32⟩
  | 7 => ⟨S64, .f32⟩
  | 8 => ⟨S1x64, .f32⟩
  | 9 => ⟨S100000x64, .f32⟩
  | 10 => ⟨S_, .f32⟩
  | 11 => ⟨S2048x64, .f32⟩
  | 12 => ⟨S100000x1, .i32⟩
  | 13 => ⟨S2048x64, .f32⟩
  | 14 => ⟨S1x64, .f32⟩
  | 15 => ⟨S1x64, .f32⟩
  | 16 => ⟨S2048x64, .f32⟩
  | 17 => ⟨S2048x64, .f32⟩
  | 18 => ⟨S_, .i32⟩
  | 19 => ⟨S100000, .i32⟩
  | 20 => ⟨S100000, .i1⟩
  | 21 => ⟨S_, .i32⟩
  | 22 => ⟨S100000, .i32⟩
  | 23 => ⟨S100000, .i32⟩
  | 24 => ⟨S100000, .i32⟩
  | 25 => ⟨S100000x1, .i32⟩
  | 26 => ⟨S100000x64, .f32⟩
  | 27 => ⟨S100000x64, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000x64, .f32⟩
  | 37 => ⟨S1600000x64, .f32⟩
  | 38 => ⟨S_, .f32⟩
  | 39 => ⟨S100000x64, .f32⟩
  | 40 => ⟨S1600000x1, .i32⟩
  | 41 => ⟨S100000x64, .f32⟩
  | 42 => ⟨S1x64x64, .f32⟩
  | 43 => ⟨S64x64, .f32⟩
  | 44 => ⟨S1x64, .f32⟩
  | 45 => ⟨S64, .f32⟩
  | 46 => ⟨S1x64, .f32⟩
  | 47 => ⟨S1x64x64, .f32⟩
  | 48 => ⟨S64x64, .f32⟩
  | 49 => ⟨S1x64, .f32⟩
  | 50 => ⟨S64, .f32⟩
  | 51 => ⟨S1x64, .f32⟩
  | 52 => ⟨S1x64, .f32⟩
  | 53 => ⟨S64, .f32⟩
  | 54 => ⟨S1x64, .f32⟩
  | 55 => ⟨S1x64, .f32⟩
  | 56 => ⟨S64, .f32⟩
  | 57 => ⟨S1x64, .f32⟩
  | 58 => ⟨S1x64, .f32⟩
  | 59 => ⟨S64, .f32⟩
  | 60 => ⟨S1x64, .f32⟩
  | 61 => ⟨S1x64, .f32⟩
  | 62 => ⟨S64, .f32⟩
  | 63 => ⟨S1x64, .f32⟩
  | 64 => ⟨S100000x64, .f32⟩
  | 65 => ⟨S_, .f32⟩
  | 66 => ⟨S100000, .f32⟩
  | 67 => ⟨S_, .f32⟩
  | 68 => ⟨S2048, .f32⟩
  | 69 => ⟨S100000x1, .i32⟩
  | 70 => ⟨S2048, .f32⟩
  | 71 => ⟨S_, .f32⟩
  | 72 => ⟨S2048x64, .f32⟩
  | 73 => ⟨S100000x1, .i32⟩
  | 74 => ⟨S2048x64, .f32⟩
  | 75 => ⟨S_, .f32⟩
  | 76 => ⟨S2048, .f32⟩
  | 77 => ⟨S2048, .f32⟩
  | 78 => ⟨S2048x1, .f32⟩
  | 79 => ⟨S2048x64, .f32⟩
  | 80 => ⟨S2048x64, .f32⟩
  | 81 => ⟨S64x64, .f32⟩
  | 82 => ⟨S64x64, .f32⟩
  | 83 => ⟨S1x64, .f32⟩
  | 84 => ⟨S1x64, .f32⟩
  | 85 => ⟨S1x1, .f32⟩
  | 86 => ⟨S2048x1, .f32⟩
  | 87 => ⟨S2048, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | .local _ .vmem, ⟨0, _⟩ => ⟨S10000x32, .f32⟩
  | .local _ .vmem, ⟨1, _⟩ => ⟨S10000x32, .f32⟩
  | .local _ .vmem, ⟨2, _⟩ => ⟨S32x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S6400x64, .f32⟩
  | .local _ .vmem, ⟨7, _⟩ => ⟨S6400x64, .f32⟩
  | .local _ .vmem, ⟨8, _⟩ => ⟨S6400x2, .f32⟩
  | .local _ .vmem, ⟨9, _⟩ => ⟨S6400x2, .f32⟩
  | .local _ .vmem, ⟨10, _⟩ => ⟨S2x64, .f32⟩
  | .local _ .vmem, ⟨11, _⟩ => ⟨S1x64, .f32⟩
  | .local _ .vmem, ⟨12, _⟩ => ⟨S6400x64, .f32⟩
  | .local _ .vmem, ⟨13, _⟩ => ⟨S6400x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S64x64, .f32⟩
  | .local _ .vmem, ⟨19, _⟩ => ⟨S1x64, .f32⟩
  | .local _ .vmem, ⟨20, _⟩ => ⟨S64x64, .f32⟩
  | .local _ .vmem, ⟨21, _⟩ => ⟨S1x64, .f32⟩
  | .local _ .vmem, ⟨22, _⟩ => ⟨S1x64, .f32⟩
  | .local _ .vmem, ⟨23, _⟩ => ⟨S1x64, .f32⟩
  | .local _ .vmem, ⟨24, _⟩ => ⟨S1x64, .f32⟩
  | .local _ .vmem, ⟨25, _⟩ => ⟨S1x64, .f32⟩
  | .local _ .vmem, ⟨26, _⟩ => ⟨S2000x64, .f32⟩
  | .local _ .vmem, ⟨27, _⟩ => ⟨S2000x64, .f32⟩
  | .local _ .vmem, ⟨28, _⟩ => ⟨S2048x64, .f32⟩
  | .local _ .vmem, ⟨29, _⟩ => ⟨S64x64, .f32⟩
  | .local _ .vmem, ⟨30, _⟩ => ⟨S1x64, .f32⟩
  | .local _ .vmem, ⟨31, _⟩ => ⟨S64x64, .f32⟩
  | .local _ .vmem, ⟨32, _⟩ => ⟨S1x64, .f32⟩
  | .local _ .vmem, ⟨33, _⟩ => ⟨S2048x64, .f32⟩
  | .local _ .vmem, ⟨34, _⟩ => ⟨S6400x64, .f32⟩
  | .local _ .vmem, ⟨35, _⟩ => ⟨S6400x64, .f32⟩
  | .local _ .vmem, ⟨36, _⟩ => ⟨S6400x2, .f32⟩
  | .local _ .vmem, ⟨37, _⟩ => ⟨S6400x2, .f32⟩
  | .local _ .vmem, ⟨38, _⟩ => ⟨S2x64, .f32⟩
  | .local _ .vmem, ⟨39, _⟩ => ⟨S1x64, .f32⟩
  | .local _ .vmem, ⟨40, _⟩ => ⟨S6400x64, .f32⟩
  | .local _ .vmem, ⟨41, _⟩ => ⟨S6400x64, .f32⟩
  | .local _ .vmem, ⟨42, _⟩ => ⟨S2000x64, .f32⟩
  | .local _ .vmem, ⟨43, _⟩ => ⟨S2000x64, .f32⟩
  | .local _ .vmem, ⟨44, _⟩ => ⟨S2000x64, .f32⟩
  | .local _ .vmem, ⟨45, _⟩ => ⟨S2000x64, .f32⟩
  | .local _ .vmem, ⟨46, _⟩ => ⟨S64x64, .f32⟩
  | .local _ .vmem, ⟨47, _⟩ => ⟨S1x64, .f32⟩
  | .local _ .vmem, ⟨48, _⟩ => ⟨S64x64, .f32⟩
  | .local _ .vmem, ⟨49, _⟩ => ⟨S1x64, .f32⟩
  | .local _ .vmem, ⟨50, _⟩ => ⟨S1x64, .f32⟩
  | .local _ .vmem, ⟨51, _⟩ => ⟨S1x64, .f32⟩
  | .local _ .vmem, ⟨52, _⟩ => ⟨S1x64, .f32⟩
  | .local _ .vmem, ⟨53, _⟩ => ⟨S1x64, .f32⟩
  | .local _ .vmem, ⟨54, _⟩ => ⟨S2000x64, .f32⟩
  | .local _ .vmem, ⟨55, _⟩ => ⟨S2000x64, .f32⟩
  | .local _ .vmem, ⟨56, _⟩ => ⟨S2048x64, .f32⟩
  | .local _ .vmem, ⟨57, _⟩ => ⟨S64x64, .f32⟩
  | .local _ .vmem, ⟨58, _⟩ => ⟨S1x64, .f32⟩
  | .local _ .vmem, ⟨59, _⟩ => ⟨S64x64, .f32⟩
  | .local _ .vmem, ⟨60, _⟩ => ⟨S1x64, .f32⟩
  | .local _ .vmem, ⟨61, _⟩ => ⟨S2048x64, .f32⟩
  | .local _ .vmem, ⟨62, _⟩ => ⟨S6400x64, .f32⟩
  | .local _ .vmem, ⟨63, _⟩ => ⟨S6400x64, .f32⟩
  | .local _ .vmem, ⟨64, _⟩ => ⟨S6400x2, .f32⟩
  | .local _ .vmem, ⟨65, _⟩ => ⟨S6400x2, .f32⟩
  | .local _ .vmem, ⟨66, _⟩ => ⟨S2x64, .f32⟩
  | .local _ .vmem, ⟨67, _⟩ => ⟨S1x64, .f32⟩
  | .local _ .vmem, ⟨68, _⟩ => ⟨S6400x64, .f32⟩
  | .local _ .vmem, ⟨69, _⟩ => ⟨S6400x64, .f32⟩
  | .local _ .vmem, ⟨70, _⟩ => ⟨S2000x64, .f32⟩
  | .local _ .vmem, ⟨71, _⟩ => ⟨S2000x64, .f32⟩
  | .local _ .vmem, ⟨72, _⟩ => ⟨S2000x64, .f32⟩
  | .local _ .vmem, ⟨73, _⟩ => ⟨S2000x64, .f32⟩
  | .local _ .vmem, ⟨74, _⟩ => ⟨S64x64, .f32⟩
  | .local _ .vmem, ⟨75, _⟩ => ⟨S1x64, .f32⟩
  | .local _ .vmem, ⟨76, _⟩ => ⟨S64x64, .f32⟩
  | .local _ .vmem, ⟨77, _⟩ => ⟨S1x64, .f32⟩
  | .local _ .vmem, ⟨78, _⟩ => ⟨S1x64, .f32⟩
  | .local _ .vmem, ⟨79, _⟩ => ⟨S1x64, .f32⟩
  | .local _ .vmem, ⟨80, _⟩ => ⟨S1x64, .f32⟩
  | .local _ .vmem, ⟨81, _⟩ => ⟨S1x64, .f32⟩
  | .local _ .vmem, ⟨82, _⟩ => ⟨S2000x64, .f32⟩
  | .local _ .vmem, ⟨83, _⟩ => ⟨S2000x64, .f32⟩
  | .local _ .vmem, ⟨84, _⟩ => ⟨S2048x64, .f32⟩
  | .local _ .vmem, ⟨85, _⟩ => ⟨S2048x768, .f32⟩
  | .local _ .vmem, ⟨86, _⟩ => ⟨S768x64, .f32⟩
  | .local _ .vmem, ⟨87, _⟩ => ⟨S1x64, .f32⟩
  | .local _ .vmem, ⟨88, _⟩ => ⟨S64x64, .f32⟩
  | .local _ .vmem, ⟨89, _⟩ => ⟨S64x64, .f32⟩
  | .local _ .vmem, ⟨90, _⟩ => ⟨S1x64, .f32⟩
  | .local _ .vmem, ⟨91, _⟩ => ⟨S64x1, .f32⟩
  | .local _ .vmem, ⟨92, _⟩ => ⟨S1x1, .f32⟩
  | .local _ .vmem, ⟨93, _⟩ => ⟨S2048x1, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | _, _ => false

abbrev semScoped : Fin 0 → Bool
  | ⟨_, h⟩ => absurd h (Nat.not_lt_zero _)

abbrev dmaSemScoped : Fin 94 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | _ => false

abbrev sig : RefSig :=
  ofTc nBuf bufTy 0 94 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_cst : Ref sig .tc := ⟨.hbm, 33, rfl⟩
abbrev main_v6 : Ref sig .tc := ⟨.hbm, 34, rfl⟩
abbrev main_v7 : Ref sig .tc := ⟨.hbm, 35, rfl⟩
abbrev main_c : Ref sig .tc := ⟨.hbm, 36, rfl⟩
abbrev main_v8 : Ref sig .tc := ⟨.hbm, 37, rfl⟩
abbrev main_v9 : Ref sig .tc := ⟨.hbm, 38, rfl⟩
abbrev main_c_0 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_c_1 : Ref sig .tc := ⟨.hbm, 46, rfl⟩
abbrev main_v16 : Ref sig .tc := ⟨.hbm, 47, rfl⟩
abbrev main_v17 : Ref sig .tc := ⟨.hbm, 48, rfl⟩
abbrev main_c_2 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_cst_3 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_cst_4 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_c_5 : Ref sig .tc := ⟨.hbm, 91, rfl⟩
abbrev main_v57 : Ref sig .tc := ⟨.hbm, 92, rfl⟩
abbrev main_v58 : Ref sig .tc := ⟨.hbm, 93, rfl⟩
abbrev main_c_6 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_c_7 : Ref sig .tc := ⟨.hbm, 101, rfl⟩
abbrev main_v65 : Ref sig .tc := ⟨.hbm, 102, rfl⟩
abbrev main_v66 : Ref sig .tc := ⟨.hbm, 103, rfl⟩
abbrev main_c_8 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_cst_9 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_cst_10 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_c_11 : Ref sig .tc := ⟨.hbm, 146, rfl⟩
abbrev main_v106 : Ref sig .tc := ⟨.hbm, 147, rfl⟩
abbrev main_v107 : Ref sig .tc := ⟨.hbm, 148, rfl⟩
abbrev main_c_12 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_c_13 : Ref sig .tc := ⟨.hbm, 156, rfl⟩
abbrev main_v114 : Ref sig .tc := ⟨.hbm, 157, rfl⟩
abbrev main_v115 : Ref sig .tc := ⟨.hbm, 158, rfl⟩
abbrev main_c_14 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_cst_15 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_cst_16 : Ref sig .tc := ⟨.hbm, 193, rfl⟩
abbrev main_v148 : Ref sig .tc := ⟨.hbm, 194, rfl⟩
abbrev main_cst_17 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_cst_18 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_cst_19 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc2_stg8_0 : Ref sig .tc := ⟨.vmem, 24, rfl⟩
abbrev cc2_stg9_0 : Ref sig .tc := ⟨.vmem, 25, rfl⟩
abbrev cc2_stg10_0 : Ref sig .tc := ⟨.vmem, 26, rfl⟩
abbrev cc2_stg10_1 : Ref sig .tc := ⟨.vmem, 27, rfl⟩
abbrev cc3_stg0_0 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg4_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg1_1 : Ref sig .tc := ⟨.vmem, 45, rfl⟩
abbrev cc5_stg2_0 : Ref sig .tc := ⟨.vmem, 46, rfl⟩
abbrev cc5_stg3_0 : Ref sig .tc := ⟨.vmem, 47, rfl⟩
abbrev cc5_stg4_0 : Ref sig .tc := ⟨.vmem, 48, rfl⟩
abbrev cc5_stg5_0 : Ref sig .tc := ⟨.vmem, 49, rfl⟩
abbrev cc5_stg6_0 : Ref sig .tc := ⟨.vmem, 50, rfl⟩
abbrev cc5_stg7_0 : Ref sig .tc := ⟨.vmem, 51, rfl⟩
abbrev cc5_stg8_0 : Ref sig .tc := ⟨.vmem, 52, rfl⟩
abbrev cc5_stg9_0 : Ref sig .tc := ⟨.vmem, 53, rfl⟩
abbrev cc5_stg10_0 : Ref sig .tc := ⟨.vmem, 54, rfl⟩
abbrev cc5_stg10_1 : Ref sig .tc := ⟨.vmem, 55, rfl⟩
abbrev cc6_stg0_0 : Ref sig .tc := ⟨.vmem, 56, rfl⟩
abbrev cc6_stg1_0 : Ref sig .tc := ⟨.vmem, 57, rfl⟩
abbrev cc6_stg2_0 : Ref sig .tc := ⟨.vmem, 58, rfl⟩
abbrev cc6_stg3_0 : Ref sig .tc := ⟨.vmem, 59, rfl⟩
abbrev cc6_stg4_0 : Ref sig .tc := ⟨.vmem, 60, rfl⟩
abbrev cc6_stg5_0 : Ref sig .tc := ⟨.vmem, 61, rfl⟩
abbrev cc7_stg0_0 : Ref sig .tc := ⟨.vmem, 62, rfl⟩
abbrev cc7_stg0_1 : Ref sig .tc := ⟨.vmem, 63, rfl⟩
abbrev cc7_stg1_0 : Ref sig .tc := ⟨.vmem, 64, rfl⟩
abbrev cc7_stg1_1 : Ref sig .tc := ⟨.vmem, 65, rfl⟩
abbrev cc7_stg2_0 : Ref sig .tc := ⟨.vmem, 66, rfl⟩
abbrev cc7_stg3_0 : Ref sig .tc := ⟨.vmem, 67, rfl⟩
abbrev cc7_stg4_0 : Ref sig .tc := ⟨.vmem, 68, rfl⟩
abbrev cc7_stg4_1 : Ref sig .tc := ⟨.vmem, 69, rfl⟩
abbrev cc8_stg0_0 : Ref sig .tc := ⟨.vmem, 70, rfl⟩
abbrev cc8_stg0_1 : Ref sig .tc := ⟨.vmem, 71, rfl⟩
abbrev cc8_stg1_0 : Ref sig .tc := ⟨.vmem, 72, rfl⟩
abbrev cc8_stg1_1 : Ref sig .tc := ⟨.vmem, 73, rfl⟩
abbrev cc8_stg2_0 : Ref sig .tc := ⟨.vmem, 74, rfl⟩
abbrev cc8_stg3_0 : Ref sig .tc := ⟨.vmem, 75, rfl⟩
abbrev cc8_stg4_0 : Ref sig .tc := ⟨.vmem, 76, rfl⟩
abbrev cc8_stg5_0 : Ref sig .tc := ⟨.vmem, 77, rfl⟩
abbrev cc8_stg6_0 : Ref sig .tc := ⟨.vmem, 78, rfl⟩
abbrev cc8_stg7_0 : Ref sig .tc := ⟨.vmem, 79, rfl⟩
abbrev cc8_stg8_0 : Ref sig .tc := ⟨.vmem, 80, rfl⟩
abbrev cc8_stg9_0 : Ref sig .tc := ⟨.vmem, 81, rfl⟩
abbrev cc8_stg10_0 : Ref sig .tc := ⟨.vmem, 82, rfl⟩
abbrev cc8_stg10_1 : Ref sig .tc := ⟨.vmem, 83, rfl⟩
abbrev cc9_stg0_0 : Ref sig .tc := ⟨.vmem, 84, rfl⟩
abbrev cc9_stg1_0 : Ref sig .tc := ⟨.vmem, 85, rfl⟩
abbrev cc9_stg2_0 : Ref sig .tc := ⟨.vmem, 86, rfl⟩
abbrev cc9_stg3_0 : Ref sig .tc := ⟨.vmem, 87, rfl⟩
abbrev cc9_stg4_0 : Ref sig .tc := ⟨.vmem, 88, rfl⟩
abbrev cc9_stg5_0 : Ref sig .tc := ⟨.vmem, 89, rfl⟩
abbrev cc9_stg6_0 : Ref sig .tc := ⟨.vmem, 90, rfl⟩
abbrev cc9_stg7_0 : Ref sig .tc := ⟨.vmem, 91, rfl⟩
abbrev cc9_stg8_0 : Ref sig .tc := ⟨.vmem, 92, rfl⟩
abbrev cc9_stg9_0 : Ref sig .tc := ⟨.vmem, 93, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem8_0 : DmaSem sig := 24
abbrev cc2_sem9_0 : DmaSem sig := 25
abbrev cc2_sem10_0 : DmaSem sig := 26
abbrev cc2_sem10_1 : DmaSem sig := 27
abbrev cc3_sem0_0 : DmaSem sig := 28
abbrev cc3_sem1_0 : DmaSem sig := 29
abbrev cc3_sem2_0 : DmaSem sig := 30
abbrev cc3_sem3_0 : DmaSem sig := 31
abbrev cc3_sem4_0 : DmaSem sig := 32
abbrev cc3_sem5_0 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem3_0 : DmaSem sig := 39
abbrev cc4_sem4_0 : DmaSem sig := 40
abbrev cc4_sem4_1 : DmaSem sig := 41
abbrev cc5_sem0_0 : DmaSem sig := 42
abbrev cc5_sem0_1 : DmaSem sig := 43
abbrev cc5_sem1_0 : DmaSem sig := 44
abbrev cc5_sem1_1 : DmaSem sig := 45
abbrev cc5_sem2_0 : DmaSem sig := 46
abbrev cc5_sem3_0 : DmaSem sig := 47
abbrev cc5_sem4_0 : DmaSem sig := 48
abbrev cc5_sem5_0 : DmaSem sig := 49
abbrev cc5_sem6_0 : DmaSem sig := 50
abbrev cc5_sem7_0 : DmaSem sig := 51
abbrev cc5_sem8_0 : DmaSem sig := 52
abbrev cc5_sem9_0 : DmaSem sig := 53
abbrev cc5_sem10_0 : DmaSem sig := 54
abbrev cc5_sem10_1 : DmaSem sig := 55
abbrev cc6_sem0_0 : DmaSem sig := 56
abbrev cc6_sem1_0 : DmaSem sig := 57
abbrev cc6_sem2_0 : DmaSem sig := 58
abbrev cc6_sem3_0 : DmaSem sig := 59
abbrev cc6_sem4_0 : DmaSem sig := 60
abbrev cc6_sem5_0 : DmaSem sig := 61
abbrev cc7_sem0_0 : DmaSem sig := 62
abbrev cc7_sem0_1 : DmaSem sig := 63
abbrev cc7_sem1_0 : DmaSem sig := 64
abbrev cc7_sem1_1 : DmaSem sig := 65
abbrev cc7_sem2_0 : DmaSem sig := 66
abbrev cc7_sem3_0 : DmaSem sig := 67
abbrev cc7_sem4_0 : DmaSem sig := 68
abbrev cc7_sem4_1 : DmaSem sig := 69
abbrev cc8_sem0_0 : DmaSem sig := 70
abbrev cc8_sem0_1 : DmaSem sig := 71
abbrev cc8_sem1_0 : DmaSem sig := 72
abbrev cc8_sem1_1 : DmaSem sig := 73
abbrev cc8_sem2_0 : DmaSem sig := 74
abbrev cc8_sem3_0 : DmaSem sig := 75
abbrev cc8_sem4_0 : DmaSem sig := 76
abbrev cc8_sem5_0 : DmaSem sig := 77
abbrev cc8_sem6_0 : DmaSem sig := 78
abbrev cc8_sem7_0 : DmaSem sig := 79
abbrev cc8_sem8_0 : DmaSem sig := 80
abbrev cc8_sem9_0 : DmaSem sig := 81
abbrev cc8_sem10_0 : DmaSem sig := 82
abbrev cc8_sem10_1 : DmaSem sig := 83
abbrev cc9_sem0_0 : DmaSem sig := 84
abbrev cc9_sem1_0 : DmaSem sig := 85
abbrev cc9_sem2_0 : DmaSem sig := 86
abbrev cc9_sem3_0 : DmaSem sig := 87
abbrev cc9_sem4_0 : DmaSem sig := 88
abbrev cc9_sem5_0 : DmaSem sig := 89
abbrev cc9_sem6_0 : DmaSem sig := 90
abbrev cc9_sem7_0 : DmaSem sig := 91
abbrev cc9_sem8_0 : DmaSem sig := 92
abbrev cc9_sem9_0 : DmaSem sig := 93

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6400x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6400x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S6400x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S2000x64 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S2048x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S2048x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev grid4 : Pipeline.Grid := ⟨1, ![250], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S6400x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S6400x2 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S2x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S6400x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_10 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S64x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x64 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x64 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S1x64 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 2 → Memref sig .tc .vmem S2000x64 .f32 := fun | 0 => Memref.whole cc5_stg10_0 | 1 => Memref.whole cc5_stg10_1 | ⟨_ + 2, h⟩ => absurd h (Nat.not_lt.2 (Nat.le_add_left _ _))
abbrev sem5_10 : Fin 2 → DmaSem sig := fun | 0 => cc5_sem10_0 | 1 => cc5_sem10_1 | ⟨_ + 2, h⟩ => absurd h (Nat.not_lt.2 (Nat.le_add_left _ _))
abbrev reads5_10 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S2048x64 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S2048x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev grid7 : Pipeline.Grid := ⟨1, ![250], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S6400x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S6400x2 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S2x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S6400x64 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![50], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_8 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_9 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_10 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S2000x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S64x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S64x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x64 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x64 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S1x64 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev stage8_8 : Fin 1 → Memref sig .tc .vmem S1x64 .f32 := fun | 0 => Memref.whole cc8_stg8_0 | ⟨_ + 1, h⟩ => absurd h (Nat.not_lt.2 (Nat.le_add_left _ _))
abbrev sem8_8 : Fin 1 → DmaSem sig := fun | 0 => cc8_sem8_0 | ⟨_ + 1, h⟩ => absurd h (Nat.not_lt.2 (Nat.le_add_left _ _))
abbrev reads8_8 : Fin grid8.rank → Bool := ![false]

abbrev stage8_9 : Fin 1 → Memref sig .tc .vmem S1x64 .f32 := fun | 0 => Memref.whole cc8_stg9_0 | ⟨_ + 1, h⟩ => absurd h (Nat.not_lt.2 (Nat.le_add_left _ _))
abbrev sem8_9 : Fin 1 → DmaSem sig := fun | 0 => cc8_sem9_0 | ⟨_ + 1, h⟩ => absurd h (Nat.not_lt.2 (Nat.le_add_left _ _))
abbrev reads8_9 : Fin grid8.rank → Bool := ![false]

abbrev stage8_10 : Fin 2 → Memref sig .tc .vmem S2000x64 .f32 := fun | 0 => Memref.whole cc8_stg10_0 | 1 => Memref.whole cc8_stg10_1 | ⟨_ + 2, h⟩ => absurd h (Nat.not_lt.2 (Nat.le_add_left _ _))
abbrev sem8_10 : Fin 2 → DmaSem sig := fun | 0 => cc8_sem10_0 | 1 => cc8_sem10_1 | ⟨_ + 2, h⟩ => absurd h (Nat.not_lt.2 (Nat.le_add_left _ _))
abbrev reads8_10 : Fin grid8.rank → Bool := ![true]

abbrev grid9 : Pipeline.Grid := ⟨1, ![1], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_8 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_9 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 1 → Memref sig .tc .vmem S2048x64 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![false]

abbrev stage9_1 : Fin 1 → Memref sig .tc .vmem S2048x768 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S768x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S64x64 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S64x64 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S1x64 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 1 → Memref sig .tc .vmem S64x1 .f32 := fun | 0 => Memref.whole cc9_stg7_0 | ⟨_ + 1, h⟩ => absurd h (Nat.not_lt.2 (Nat.le_add_left _ _))
abbrev sem9_7 : Fin 1 → DmaSem sig := fun | 0 => cc9_sem7_0 | ⟨_ + 1, h⟩ => absurd h (Nat.not_lt.2 (Nat.le_add_left _ _))
abbrev reads9_7 : Fin grid9.rank → Bool := ![false]

abbrev stage9_8 : Fin 1 → Memref sig .tc .vmem S1x1 .f32 := fun | 0 => Memref.whole cc9_stg8_0 | ⟨_ + 1, h⟩ => absurd h (Nat.not_lt.2 (Nat.le_add_left _ _))
abbrev sem9_8 : Fin 1 → DmaSem sig := fun | 0 => cc9_sem8_0 | ⟨_ + 1, h⟩ => absurd h (Nat.not_lt.2 (Nat.le_add_left _ _))
abbrev reads9_8 : Fin grid9.rank → Bool := ![false]

abbrev stage9_9 : Fin 1 → Memref sig .tc .vmem S2048x1 .f32 := fun | 0 => Memref.whole cc9_stg9_0 | ⟨_ + 1, h⟩ => absurd h (Nat.not_lt.2 (Nat.le_add_left _ _))
abbrev sem9_9 : Fin 1 → DmaSem sig := fun | 0 => cc9_sem9_0 | ⟨_ + 1, h⟩ => absurd h (Nat.not_lt.2 (Nat.le_add_left _ _))
abbrev reads9_9 : Fin grid9.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S64_S1x64 : S64.ShapeCasts S1x64
  inb_S10000x32_S10000x32_0_0 : ∀ a, (![0, 0] : Fin 2 → Nat) a + S10000x32.size a ≤ S10000x32.size a
  h_S10000x32 : 0 < S10000x32.numel
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S_S2048x64 : S_.BroadcastsInDim S2048x64 (![] : Fin 0 → Fin S2048x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  inb_S6400x64_S6400x64_0_0 : ∀ a, (![0, 0] : Fin 2 → Nat) a + S6400x64.size a ≤ S6400x64.size a
  h_S6400x64 : 0 < S6400x64.numel
  shapeCasts_S6400x64_S6400x64 : S6400x64.ShapeCasts S6400x64
  inb_S6400x2_S6400x2_0_0 : ∀ a, (![0, 0] : Fin 2 → Nat) a + S6400x2.size a ≤ S6400x2.size a
  h_S6400x2 : 0 < S6400x2.numel
  inb_S2x64_S2x64_0_0 : ∀ a, (![0, 0] : Fin 2 → Nat) a + S2x64.size a ≤ S2x64.size a
  h_S2x64 : 0 < S2x64.numel
  broadcasts_S1x64_S6400x64 : S1x64.Broadcasts S6400x64
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  broadcasts_S1x64_S2000x64 : S1x64.Broadcasts S2000x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  broadcasts_S1x64_S2048x64 : S1x64.Broadcasts S2048x64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x64_0_1 : S2048x1.BroadcastsInDim S2048x64 (![0, 1] : Fin 2 → Fin S2048x64.rank)
  slices_S128x64_S64x64_0_0 : S128x64.Slices ![0, 0] S64x64
  slices_S128x64_S64x64_64_0 : S128x64.Slices ![64, 0] S64x64
  shapeCasts_S1_S1x1 : S1.ShapeCasts S1x1
  inb_S2048x768_S2048x768_0_0 : ∀ a, (![0, 0] : Fin 2 → Nat) a + S2048x768.size a ≤ S2048x768.size a
  h_S2048x768 : 0 < S2048x768.numel
  inb_S768x64_S768x64_0_0 : ∀ a, (![0, 0] : Fin 2 → Nat) a + S768x64.size a ≤ S768x64.size a
  h_S768x64 : 0 < S768x64.numel
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  shapeCasts_S2048x1_S2048 : S2048x1.ShapeCasts S2048
  dot_S10000x32_S32x64_S10000x64_1_0_0_1_n_n_wf : DotDims.WF S10000x32 S32x64 S10000x64 [1] [0] [0] [1] [] []
  gather_S2048x64_S100000x1_S100000x64_1_0_n_n_0_1_164_wf : GatherDims.WF S2048x64 S100000x1 S100000x64 [1] [0] [] [0] [] 1 ![1, 64]
  gather_S100000x64_S1600000x1_S1600000x64_1_0_n_n_0_1_164_wf : GatherDims.WF S100000x64 S1600000x1 S1600000x64 [1] [0] [] [0] [] 1 ![1, 64]
  dot_S6400x2_S2x64_S6400x64_1_0_0_1_n_n_wf : DotDims.WF S6400x2 S2x64 S6400x64 [1] [0] [0] [1] [] []
  scatter_S100000x64_S1600000x1_S1600000x64_1_0_0_1_wf : ScatterDims.WF S100000x64 S1600000x1 S1600000x64 [1] [0] [0] 1
  dot_S2000x64_S64x64_S2000x64_1_0_0_1_n_n_wf : DotDims.WF S2000x64 S64x64 S2000x64 [1] [0] [0] [1] [] []
  scatter_S2048x64_S100000x1_S100000x64_1_0_0_1_wf : ScatterDims.WF S2048x64 S100000x1 S100000x64 [1] [0] [0] 1
  dot_S2048x64_S64x64_S2048x64_1_0_0_1_n_n_wf : DotDims.WF S2048x64 S64x64 S2048x64 [1] [0] [0] [1] [] []
  scatter_S2048_S100000x1_S100000_n_0_0_1_wf : ScatterDims.WF S2048 S100000x1 S100000 [] [0] [0] 1
  dot_S2048x768_S768x64_S2048x64_1_0_0_1_n_n_wf : DotDims.WF S2048x768 S768x64 S2048x64 [1] [0] [0] [1] [] []
  dot_S2048x64_S64x1_S2048x1_1_0_0_1_n_n_wf : DotDims.WF S2048x64 S64x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S100000x32.size a
  hwx0_0 : ∀ i : grid0.Coords, EltTy.bits .f32 = 32 ∨ (Rect.block (s := S100000x32) S10000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6400x64.size a ≤ S1600000x64.size a
  hwx1_0 : ∀ i : grid1.Coords, EltTy.bits .f32 = 32 ∨ (Rect.block (s := S1600000x64) S6400x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6400x2.size a ≤ S1600000x2.size a
  hwx1_1 : ∀ i : grid1.Coords, EltTy.bits .f32 = 32 ∨ (Rect.block (s := S1600000x2) S6400x2.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2x64.size a ≤ S2x64.size a
  hwx1_2 : ∀ i : grid1.Coords, EltTy.bits .f32 = 32 ∨ (Rect.block (s := S2x64) S2x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S6400x64.size a ≤ S1600000x64.size a
  hwx1_4 : ∀ i : grid1.Coords, EltTy.bits .f32 = 32 ∨ (Rect.block (s := S1600000x64) S6400x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S100000x64.size a
  hwx2_1 : ∀ i : grid2.Coords, EltTy.bits .f32 = 32 ∨ (Rect.block (s := S100000x64) S2000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x64.size a ≤ S1x64.size a
  hwx2_8 : ∀ i : grid2.Coords, EltTy.bits .f32 = 32 ∨ (Rect.block (s := S1x64) S1x64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x64.size a ≤ S1x64.size a
  hwx2_9 : ∀ i : grid2.Coords, EltTy.bits .f32 = 32 ∨ (Rect.block (s := S1x64) S1x64.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S2000x64.size a ≤ S100000x64.size a
  hwx2_10 : ∀ i : grid2.Coords, EltTy.bits .f32 = 32 ∨ (Rect.block (s := S100000x64) S2000x64.size (cc2_transform_10 i) (hinb2_10 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S2048x64.size a ≤ S2048x64.size a
  hwx3_0 : ∀ i : grid3.Coords, EltTy.bits .f32 = 32 ∨ (Rect.block (s := S2048x64) S2048x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S2048x64.size a ≤ S2048x64.size a
  hwx3_5 : ∀ i : grid3.Coords, EltTy.bits .f32 = 32 ∨ (Rect.block (s := S2048x64) S2048x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S6400x64.size a ≤ S1600000x64.size a
  hwx4_0 : ∀ i : grid4.Coords, EltTy.bits .f32 = 32 ∨ (Rect.block (s := S1600000x64) S6400x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S6400x2.size a ≤ S1600000x2.size a
  hwx4_1 : ∀ i : grid4.Coords, EltTy.bits .f32 = 32 ∨ (Rect.block (s := S1600000x2) S6400x2.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S2x64.size a ≤ S2x64.size a
  hwx4_2 : ∀ i : grid4.Coords, EltTy.bits .f32 = 32 ∨ (Rect.block (s := S2x64) S2x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S6400x64.size a ≤ S1600000x64.size a
  hwx4_4 : ∀ i : grid4.Coords, EltTy.bits .f32 = 32 ∨ (Rect.block (s := S1600000x64) S6400x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S100000x64.size a
  hwx5_0 : ∀ i : grid5.Coords, EltTy.bits .f32 = 32 ∨ (Rect.block (s := S100000x64) S2000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x64.size a ≤ S100000x64.size a
  hwx5_1 : ∀ i : grid5.Coords, EltTy.bits .f32 = 32 ∨ (Rect.block (s := S100000x64) S2000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x64.size a ≤ S64x64.size a
  hwx5_2 : ∀ i : grid5.Coords, EltTy.bits .f32 = 32 ∨ (Rect.block (s := S64x64) S64x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S64x64.size a ≤ S64x64.size a
  hwx5_4 : ∀ i : grid5.Coords, EltTy.bits .f32 = 32 ∨ (Rect.block (s := S64x64) S64x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x64.size a ≤ S1x64.size a
  hwx5_5 : ∀ i : grid5.Coords, EltTy.bits .f32 = 32 ∨ (Rect.block (s := S1x64) S1x64.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x64.size a ≤ S1x64.size a
  hwx5_6 : ∀ i : grid5.Coords, EltTy.bits .f32 = 32 ∨ (Rect.block (s := S1x64) S1x64.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x64.size a ≤ S1x64.size a
  hwx5_7 : ∀ i : grid5.Coords, EltTy.bits .f32 = 32 ∨ (Rect.block (s := S1x64) S1x64.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x64.size a ≤ S1x64.size a
  hwx5_8 : ∀ i : grid5.Coords, EltTy.bits .f32 = 32 ∨ (Rect.block (s := S1x64) S1x64.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S1x64.size a ≤ S1x64.size a
  hwx5_9 : ∀ i : grid5.Coords, EltTy.bits .f32 = 32 ∨ (Rect.block (s := S1x64) S1x64.size (cc5_transform_9 i) (hinb5_9 i)).WholeWords (EltTy.packing .f32)
  hstage5_10 : ∀ j, (stage5_10 j).IsWhole
  nbuf5_10 : grid5.bufCount reads5_10 false = 2
  hreads5_10 : ∀ i i' : grid5.Coords, (∀ a, reads5_10 a = true → i a = i' a) → cc5_transform_10 i = cc5_transform_10 i'
  hinb5_10 : ∀ (i : grid5.Coords) a, (cc5_transform_10 i a + 1) * S2000x64.size a ≤ S100000x64.size a
  hwx5_10 : ∀ i : grid5.Coords, EltTy.bits .f32 = 32 ∨ (Rect.block (s := S100000x64) S2000x64.size (cc5_transform_10 i) (hinb5_10 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S2048x64.size a ≤ S2048x64.size a
  hwx6_0 : ∀ i : grid6.Coords, EltTy.bits .f32 = 32 ∨ (Rect.block (s := S2048x64) S2048x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x64.size a ≤ S64x64.size a
  hwx6_3 : ∀ i : grid6.Coords, EltTy.bits .f32 = 32 ∨ (Rect.block (s := S64x64) S64x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S2048x64.size a ≤ S2048x64.size a
  hwx6_5 : ∀ i : grid6.Coords, EltTy.bits .f32 = 32 ∨ (Rect.block (s := S2048x64) S2048x64.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S6400x64.size a ≤ S1600000x64.size a
  hwx7_0 : ∀ i : grid7.Coords, EltTy.bits .f32 = 32 ∨ (Rect.block (s := S1600000x64) S6400x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S6400x2.size a ≤ S1600000x2.size a
  hwx7_1 : ∀ i : grid7.Coords, EltTy.bits .f32 = 32 ∨ (Rect.block (s := S1600000x2) S6400x2.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S2x64.size a ≤ S2x64.size a
  hwx7_2 : ∀ i : grid7.Coords, EltTy.bits .f32 = 32 ∨ (Rect.block (s := S2x64) S2x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S6400x64.size a ≤ S1600000x64.size a
  hwx7_4 : ∀ i : grid7.Coords, EltTy.bits .f32 = 32 ∨ (Rect.block (s := S1600000x64) S6400x64.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x64.size a ≤ S100000x64.size a
  hwx8_0 : ∀ i : grid8.Coords, EltTy.bits .f32 = 32 ∨ (Rect.block (s := S100000x64) S2000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2000x64.size a ≤ S100000x64.size a
  hwx8_1 : ∀ i : grid8.Coords, EltTy.bits .f32 = 32 ∨ (Rect.block (s := S100000x64) S2000x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S64x64.size a ≤ S64x64.size a
  hwx8_2 : ∀ i : grid8.Coords, EltTy.bits .f32 = 32 ∨ (Rect.block (s := S64x64) S64x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x64.size a ≤ S1x64.size a
  hwx8_3 : ∀ i : grid8.Coords, EltTy.bits .f32 = 32 ∨ (Rect.block (s := S1x64) S1x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S64x64.size a ≤ S64x64.size a
  hwx8_4 : ∀ i : grid8.Coords, EltTy.bits .f32 = 32 ∨ (Rect.block (s := S64x64) S64x64.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x64.size a ≤ S1x64.size a
  hwx8_5 : ∀ i : grid8.Coords, EltTy.bits .f32 = 32 ∨ (Rect.block (s := S1x64) S1x64.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x64.size a ≤ S1x64.size a
  hwx8_6 : ∀ i : grid8.Coords, EltTy.bits .f32 = 32 ∨ (Rect.block (s := S1x64) S1x64.size (cc8_transform_6 i) (hinb8_6 i)).WholeWords (EltTy.packing .f32)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S1x64.size a ≤ S1x64.size a
  hwx8_7 : ∀ i : grid8.Coords, EltTy.bits .f32 = 32 ∨ (Rect.block (s := S1x64) S1x64.size (cc8_transform_7 i) (hinb8_7 i)).WholeWords (EltTy.packing .f32)
  hstage8_8 : ∀ j, (stage8_8 j).IsWhole
  nbuf8_8 : grid8.bufCount reads8_8 true = 1
  hreads8_8 : ∀ i i' : grid8.Coords, (∀ a, reads8_8 a = true → i a = i' a) → cc8_transform_8 i = cc8_transform_8 i'
  hinb8_8 : ∀ (i : grid8.Coords) a, (cc8_transform_8 i a + 1) * S1x64.size a ≤ S1x64.size a
  hwx8_8 : ∀ i : grid8.Coords, EltTy.bits .f32 = 32 ∨ (Rect.block (s := S1x64) S1x64.size (cc8_transform_8 i) (hinb8_8 i)).WholeWords (EltTy.packing .f32)
  hstage8_9 : ∀ j, (stage8_9 j).IsWhole
  nbuf8_9 : grid8.bufCount reads8_9 true = 1
  hreads8_9 : ∀ i i' : grid8.Coords, (∀ a, reads8_9 a = true → i a = i' a) → cc8_transform_9 i = cc8_transform_9 i'
  hinb8_9 : ∀ (i : grid8.Coords) a, (cc8_transform_9 i a + 1) * S1x64.size a ≤ S1x64.size a
  hwx8_9 : ∀ i : grid8.Coords, EltTy.bits .f32 = 32 ∨ (Rect.block (s := S1x64) S1x64.size (cc8_transform_9 i) (hinb8_9 i)).WholeWords (EltTy.packing .f32)
  hstage8_10 : ∀ j, (stage8_10 j).IsWhole
  nbuf8_10 : grid8.bufCount reads8_10 false = 2
  hreads8_10 : ∀ i i' : grid8.Coords, (∀ a, reads8_10 a = true → i a = i' a) → cc8_transform_10 i = cc8_transform_10 i'
  hinb8_10 : ∀ (i : grid8.Coords) a, (cc8_transform_10 i a + 1) * S2000x64.size a ≤ S100000x64.size a
  hwx8_10 : ∀ i : grid8.Coords, EltTy.bits .f32 = 32 ∨ (Rect.block (s := S100000x64) S2000x64.size (cc8_transform_10 i) (hinb8_10 i)).WholeWords (EltTy.packing .f32)
  hrank9 : 0 < grid9.rank
  hstage9_0 : ∀ j, (stage9_0 j).IsWhole
  nbuf9_0 : grid9.bufCount reads9_0 true = 1
  hreads9_0 : ∀ i i' : grid9.Coords, (∀ a, reads9_0 a = true → i a = i' a) → cc9_transform_0 i = cc9_transform_0 i'
  hinb9_0 : ∀ (i : grid9.Coords) a, (cc9_transform_0 i a + 1) * S2048x64.size a ≤ S2048x64.size a
  hwx9_0 : ∀ i : grid9.Coords, EltTy.bits .f32 = 32 ∨ (Rect.block (s := S2048x64) S2048x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S2048x768.size a ≤ S2048x768.size a
  hwx9_1 : ∀ i : grid9.Coords, EltTy.bits .f32 = 32 ∨ (Rect.block (s := S2048x768) S2048x768.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S768x64.size a ≤ S768x64.size a
  hwx9_2 : ∀ i : grid9.Coords, EltTy.bits .f32 = 32 ∨ (Rect.block (s := S768x64) S768x64.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x64.size a ≤ S1x64.size a
  hwx9_3 : ∀ i : grid9.Coords, EltTy.bits .f32 = 32 ∨ (Rect.block (s := S1x64) S1x64.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S64x64.size a ≤ S64x64.size a
  hwx9_4 : ∀ i : grid9.Coords, EltTy.bits .f32 = 32 ∨ (Rect.block (s := S64x64) S64x64.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S64x64.size a ≤ S64x64.size a
  hwx9_5 : ∀ i : grid9.Coords, EltTy.bits .f32 = 32 ∨ (Rect.block (s := S64x64) S64x64.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S1x64.size a ≤ S1x64.size a
  hwx9_6 : ∀ i : grid9.Coords, EltTy.bits .f32 = 32 ∨ (Rect.block (s := S1x64) S1x64.size (cc9_transform_6 i) (hinb9_6 i)).WholeWords (EltTy.packing .f32)
  hstage9_7 : ∀ j, (stage9_7 j).IsWhole
  nbuf9_7 : grid9.bufCount reads9_7 true = 1
  hreads9_7 : ∀ i i' : grid9.Coords, (∀ a, reads9_7 a = true → i a = i' a) → cc9_transform_7 i = cc9_transform_7 i'
  hinb9_7 : ∀ (i : grid9.Coords) a, (cc9_transform_7 i a + 1) * S64x1.size a ≤ S64x1.size a
  hwx9_7 : ∀ i : grid9.Coords, EltTy.bits .f32 = 32 ∨ (Rect.block (s := S64x1) S64x1.size (cc9_transform_7 i) (hinb9_7 i)).WholeWords (EltTy.packing .f32)
  hstage9_8 : ∀ j, (stage9_8 j).IsWhole
  nbuf9_8 : grid9.bufCount reads9_8 true = 1
  hreads9_8 : ∀ i i' : grid9.Coords, (∀ a, reads9_8 a = true → i a = i' a) → cc9_transform_8 i = cc9_transform_8 i'
  hinb9_8 : ∀ (i : grid9.Coords) a, (cc9_transform_8 i a + 1) * S1x1.size a ≤ S1x1.size a
  hwx9_8 : ∀ i : grid9.Coords, EltTy.bits .f32 = 32 ∨ (Rect.block (s := S1x1) S1x1.size (cc9_transform_8 i) (hinb9_8 i)).WholeWords (EltTy.packing .f32)
  hstage9_9 : ∀ j, (stage9_9 j).IsWhole
  nbuf9_9 : grid9.bufCount reads9_9 true = 1
  hreads9_9 : ∀ i i' : grid9.Coords, (∀ a, reads9_9 a = true → i a = i' a) → cc9_transform_9 i = cc9_transform_9 i'
  hinb9_9 : ∀ (i : grid9.Coords) a, (cc9_transform_9 i a + 1) * S2048x1.size a ≤ S2048x1.size a
  hwx9_9 : ∀ i : grid9.Coords, EltTy.bits .f32 = 32 ∨ (Rect.block (s := S2048x1) S2048x1.size (cc9_transform_9 i) (hinb9_9 i)).WholeWords (EltTy.packing .f32)

variable [Facts₀]

def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def gather_S2048x64_S100000x1_S100000x64_1_0_n_n_0_1_164 : GatherDims S2048x64 S100000x1 S100000x64 where
  offsetDims := [1]
  collapsedSliceDims := [0]
  operandBatchingDims := []
  startIndicesBatchingDims := []
  startIndexMap := [0]
  indexVectorDim := 1
  sliceSizes := ![1, 64]
  wf := gather_S2048x64_S100000x1_S100000x64_1_0_n_n_0_1_164_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S6400x2_S2x64_S6400x64_1_0_0_1_n_n : DotDims S6400x2 S2x64 S6400x64 where
  lhsContracting := [1]
  rhsContracting := [0]
  lhsNonContracting := [0]
  rhsNonContracting := [1]
  lhsBatch := []
  rhsBatch := []
  wf := dot_S6400x2_S2x64_S6400x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def scatter_S2048x64_S100000x1_S100000x64_1_0_0_1 : ScatterDims S2048x64 S100000x1 S100000x64 where
  updateWindowDims := [1]
  insertedWindowDims := [0]
  scatterDimsToOperandDims := [0]
  indexVectorDim := 1
  wf := scatter_S2048x64_S100000x1_S100000x64_1_0_0_1_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def scatter_S2048_S100000x1_S100000_n_0_0_1 : ScatterDims S2048 S100000x1 S100000 where
  updateWindowDims := []
  insertedWindowDims := [0]
  scatterDimsToOperandDims := [0]
  indexVectorDim := 1
  wf := scatter_S2048_S100000x1_S100000_n_0_0_1_wf
def dot_S2048x768_S768x64_S2048x64_1_0_0_1_n_n : DotDims S2048x768 S768x64 S2048x64 where
  lhsContracting := [1]
  rhsContracting := [0]
  lhsNonContracting := [0]
  rhsNonContracting := [1]
  lhsBatch := []
  rhsBatch := []
  wf := dot_S2048x768_S768x64_S2048x64_1_0_0_1_n_n_wf
def dot_S2048x64_S64x1_S2048x1_1_0_0_1_n_n : DotDims S2048x64 S64x1 S2048x1 where
  lhsContracting := [1]
  rhsContracting := [0]
  lhsNonContracting := [0]
  rhsNonContracting := [1]
  lhsBatch := []
  rhsBatch := []
  wf := dot_S2048x64_S64x1_S2048x1_1_0_0_1_n_n_wf

abbrev win0_0 : Pipeline.Window sig grid0 :=
  Pipeline.Window.ofSpec (Memref.whole main_arg0) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S6400x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S6400x2.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S2x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S6400x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v15) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v28) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v31) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v33) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v36) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v39) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v42) S1x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v45) S1x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v48) S1x64.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v49) S2000x64.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev win3_0 : Pipeline.Window sig grid3 :=
  Pipeline.Window.ofSpec (Memref.whole main_v52) S2048x64.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg17) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v53) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg19) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v54) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v55) S2048x64.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v71) S6400x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg3) S6400x2.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg7) S2x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v7) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v72) S6400x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v64) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v75) S2000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v77) S64x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v80) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v82) S64x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v85) S1x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v88) S1x64.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v91) S1x64.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v94) S1x64.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v97) S1x64.size cc5_transform_9 reads5_9 false true 1 stage5_9 sem5_9
    hrank5 hreads5_9 hinb5_9 nbuf5_9 (Memref.isWhole_whole _) hwx5_9 hstage5_9

abbrev win5_10 : Pipeline.Window sig grid5 :=
  Pipeline.Window.ofSpec (Memref.whole main_v98) S2000x64.size cc5_transform_10 reads5_10 true false 2 stage5_10 sem5_10
    hrank5 hreads5_10 hinb5_10 nbuf5_10 (Memref.isWhole_whole _) hwx5_10 hstage5_10

abbrev win5 : Fin 11 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | ⟨_ + 11, h⟩ => absurd h (Nat.not_lt.2 (Nat.le_add_left _ _))
abbrev spec5 : Fin 11 → Pipeline.WinSpec sig grid5.rank := fun w => (win5 w).toWinSpec

abbrev win6_0 : Pipeline.Window sig grid6 :=
  Pipeline.Window.ofSpec (Memref.whole main_v101) S2048x64.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg17) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v102) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg19) S64x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v103) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v104) S2048x64.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v120) S6400x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg3) S6400x2.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_arg7) S2x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v7) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v121) S6400x64.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v113) S2000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v124) S2000x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v126) S64x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v129) S1x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v131) S64x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v134) S1x64.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v137) S1x64.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v140) S1x64.size cc8_transform_7 reads8_7 false true 1 stage8_7 sem8_7
    hrank8 hreads8_7 hinb8_7 nbuf8_7 (Memref.isWhole_whole _) hwx8_7 hstage8_7

abbrev win8_8 : Pipeline.Window sig grid8 :=
  Pipeline.Window.ofSpec (Memref.whole main_v143) S1x64.size cc8_transform_8 reads8_8 false true 1 stage8_8 sem8_8
    hrank8 hreads8_8 hinb8_8 nbuf8_8 (Memref.isWhole_whole _) hwx8_8 hstage8_8

abbrev win8_9 : Pipeline.Window sig grid8 :=
  Pipeline.Window.ofSpec (Memref.whole main_v146) S1x64.size cc8_transform_9 reads8_9 false true 1 stage8_9 sem8_9
    hrank8 hreads8_9 hinb8_9 nbuf8_9 (Memref.isWhole_whole _) hwx8_9 hstage8_9

abbrev win8_10 : Pipeline.Window sig grid8 :=
  Pipeline.Window.ofSpec (Memref.whole main_v147) S2000x64.size cc8_transform_10 reads8_10 true false 2 stage8_10 sem8_10
    hrank8 hreads8_10 hinb8_10 nbuf8_10 (Memref.isWhole_whole _) hwx8_10 hstage8_10

abbrev win8 : Fin 11 → Pipeline.Window sig grid8 := fun | 0 => win8_0 | 1 => win8_1 | 2 => win8_2 | 3 => win8_3 | 4 => win8_4 | 5 => win8_5 | 6 => win8_6 | 7 => win8_7 | 8 => win8_8 | 9 => win8_9 | 10 => win8_10 | ⟨_ + 11, h⟩ => absurd h (Nat.not_lt.2 (Nat.le_add_left _ _))
abbrev spec8 : Fin 11 → Pipeline.WinSpec sig grid8.rank := fun w => (win8 w).toWinSpec

abbrev win9_0 : Pipeline.Window sig grid9 :=
  Pipeline.Window.ofSpec (Memref.whole main_v159) S2048x64.size cc9_transform_0 reads9_0 false true 1 stage9_0 sem9_0
    hrank9 hreads9_0 hinb9_0 nbuf9_0 (Memref.isWhole_whole _) hwx9_0 hstage9_0

abbrev win9_1 : Pipeline.Window sig grid9 :=
  Pipeline.Window.ofSpec (Memref.whole main_arg4) S2048x768.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_arg21) S768x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v162) S1x64.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v160) S64x64.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v161) S64x64.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v163) S1x64.size cc9_transform_6 reads9_6 false true 1 stage9_6 sem9_6
    hrank9 hreads9_6 hinb9_6 nbuf9_6 (Memref.isWhole_whole _) hwx9_6 hstage9_6

abbrev win9_7 : Pipeline.Window sig grid9 :=
  Pipeline.Window.ofSpec (Memref.whole main_arg25) S64x1.size cc9_transform_7 reads9_7 false true 1 stage9_7 sem9_7
    hrank9 hreads9_7 hinb9_7 nbuf9_7 (Memref.isWhole_whole _) hwx9_7 hstage9_7

abbrev win9_8 : Pipeline.Window sig grid9 :=
  Pipeline.Window.ofSpec (Memref.whole main_v164) S1x1.size cc9_transform_8 reads9_8 false true 1 stage9_8 sem9_8
    hrank9 hreads9_8 hinb9_8 nbuf9_8 (Memref.isWhole_whole _) hwx9_8 hstage9_8

abbrev win9_9 : Pipeline.Window sig grid9 :=
  Pipeline.Window.ofSpec (Memref.whole main_v165) S2048x1.size cc9_transform_9 reads9_9 true true 1 stage9_9 sem9_9
    hrank9 hreads9_9 hinb9_9 nbuf9_9 (Memref.isWhole_whole _) hwx9_9 hstage9_9

abbrev win9 : Fin 10 → Pipeline.Window sig grid9 := fun | 0 => win9_0 | 1 => win9_1 | 2 => win9_2 | 3 => win9_3 | 4 => win9_4 | 5 => win9_5 | 6 => win9_6 | 7 => win9_7 | 8 => win9_8 | 9 => win9_9 | ⟨_ + 10, h⟩ => absurd h (Nat.not_lt.2 (Nat.le_add_left _ _))
abbrev spec9 : Fin 10 → Pipeline.WinSpec sig grid9.rank := fun w => (win9 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S100000 : Shape := ⟨1, ![100000]⟩
abbrev S1600000x2 : Shape := ⟨2, ![1600000, 2]⟩
abbrev S2048x768 : Shape := ⟨2, ![2048, 768]⟩
abbrev S32x64 : Shape := ⟨2, ![32, 64]⟩
abbrev S64 : Shape := ⟨1, ![64]⟩
abbrev S2x64 : Shape := ⟨2, ![2, 64]⟩
abbrev S3x64x64 : Shape := ⟨3, ![3, 64, 64]⟩
abbrev S3x64 : Shape := ⟨2, ![3, 64]⟩
abbrev S64x64 : Shape := ⟨2, ![64, 64]⟩
abbrev S768x64 : Shape := ⟨2, ![768, 64]⟩
abbrev S128x64 : Shape := ⟨2, ![128, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S100000x64 : Shape := ⟨2, ![100000, 64]⟩
abbrev S1x64 : Shape := ⟨2, ![1, 64]⟩
abbrev S1600000x64 : Shape := ⟨2, ![1600000, 64]⟩
abbrev S_ : Shape := ⟨0, ![]⟩
abbrev S2048x64 : Shape := ⟨2, ![2048, 64]⟩
abbrev S100000x1 : Shape := ⟨2, ![100000, 1]⟩
abbrev S1600000x1 : Shape := ⟨2, ![1600000, 1]⟩
abbrev S1x64x64 : Shape := ⟨3, ![1, 64, 64]⟩
abbrev S2048 : Shape := ⟨1, ![2048]⟩
abbrev S2048x1 : Shape := ⟨2, ![2048, 1]⟩
abbrev S2048x128 : Shape := ⟨2, ![2048, 128]⟩
abbrev S1x1 : Shape := ⟨2, ![1, 1]⟩

abbrev nBuf : Space → Nat
  | .hbm => 331
  | .vmem => 0
  | .smem => 0
  | _ => 0

abbrev hbmTy0_0 (i : Nat) : BufTy := match i % 128 with
  | 0 => ⟨S100000x32, .f32⟩
  | 1 => ⟨S2x1600000, .i32⟩
  | 2 => ⟨S100000, .i32⟩
  | 3 => ⟨S1600000x2, .f32⟩
  | 4 => ⟨S2048x768, .f32⟩
  | 5 => ⟨S32x64, .f32⟩
  | 6 => ⟨S64, .f32⟩
  | 7 => ⟨S2x64, .f32⟩
  | 8 => ⟨S64, .f32⟩
  | 9 => ⟨S3x64x64, .f32⟩
  | 10 => ⟨S3x64, .f32⟩
  | 11 => ⟨S3x64x64, .f32⟩
  | 12 => ⟨S3x64, .f32⟩
  | 13 => ⟨S3x64, .f32⟩
  | 14 => ⟨S3x64, .f32⟩
  | 15 => ⟨S3x64, .f32⟩
  | 16 => ⟨S3x64, .f32⟩
  | 17 => ⟨S64x64, .f32⟩
  | 18 => ⟨S64, .f32⟩
  | 19 => ⟨S64x64, .f32⟩
  | 20 => ⟨S64, .f32⟩
  | 21 => ⟨S768x64, .f32⟩
  | 22 => ⟨S64, .f32⟩
  | 23 => ⟨S128x64, .f32⟩
  | 24 => ⟨S64, .f32⟩
  | 25 => ⟨S64x1, .f32⟩
  | 26 => ⟨S1, .f32⟩
  | 27 => ⟨S1x1600000, .i32⟩
  | 28 => ⟨S1600000, .i32⟩
  | 29 => ⟨S1x1600000, .i32⟩
  | 30 => ⟨S1600000, .i32⟩
  | 31 => ⟨S100000x64, .f32⟩
  | 32 => ⟨S1x64, .f32⟩
  | 33 => ⟨S100000x64, .f32⟩
  | 34 => ⟨S100000x64, .f32⟩
  | 35 => ⟨S1600000x64, .f32⟩
  | 36 => ⟨S1x64, .f32⟩
  | 37 => ⟨S1600000x64, .f32⟩
  | 38 => ⟨S1600000x64, .f32⟩
  | 39 => ⟨S_, .f32⟩
  | 40 => ⟨S2048x64, .f32⟩
  | 41 => ⟨S_, .i32⟩
  | 42 => ⟨S100000, .i32⟩
  | 43 => ⟨S100000, .i1⟩
  | 44 => ⟨S_, .i32⟩
  | 45 => ⟨S100000, .i32⟩
  | 46 => ⟨S100000, .i32⟩
  | 47 => ⟨S100000, .i32⟩
  | 48 => ⟨S100000x1, .i32⟩
  | 49 => ⟨S100000x64, .f32⟩
  | 50 => ⟨S100000x64, .f32⟩
  | 51 => ⟨S_, .i32⟩
  | 52 => ⟨S1600000, .i32⟩
  | 53 => ⟨S1600000, .i1⟩
  | 54 => ⟨S_, .i32⟩
  | 55 => ⟨S1600000, .i32⟩
  | 56 => ⟨S1600000, .i32⟩
  | 57 => ⟨S1600000, .i32⟩
  | 58 => ⟨S1600000x1, .i32⟩
  | 59 => ⟨S1600000x64, .f32⟩
  | 60 => ⟨S1600000x64, .f32⟩
  | 61 => ⟨S_, .f32⟩
  | 62 => ⟨S1600000x64, .f32⟩
  | 63 => ⟨S1600000x64, .f32⟩
  | 64 => ⟨S_, .f32⟩
  | 65 => ⟨S100000x64, .f32⟩
  | 66 => ⟨S1600000x1, .i32⟩
  | 67 => ⟨S100000x64, .f32⟩
  | 68 => ⟨S100000x64, .f32⟩
  | 69 => ⟨S1x64x64, .f32⟩
  | 70 => ⟨S64x64, .f32⟩
  | 71 => ⟨S100000x64, .f32⟩
  | 72 => ⟨S1x64, .f32⟩
  | 73 => ⟨S64, .f32⟩
  | 74 => ⟨S1x64, .f32⟩
  | 75 => ⟨S100000x64, .f32⟩
  | 76 => ⟨S100000x64, .f32⟩
  | 77 => ⟨S_, .f32⟩
  | 78 => ⟨S100000x64, .f32⟩
  | 79 => ⟨S100000x64, .f32⟩
  | 80 => ⟨S1x64x64, .f32⟩
  | 81 => ⟨S64x64, .f32⟩
  | 82 => ⟨S100000x64, .f32⟩
  | 83 => ⟨S1x64, .f32⟩
  | 84 => ⟨S64, .f32⟩
  | 85 => ⟨S1x64, .f32⟩
  | 86 => ⟨S100000x64, .f32⟩
  | 87 => ⟨S100000x64, .f32⟩
  | 88 => ⟨S1x64, .f32⟩
  | 89 => ⟨S64, .f32⟩
  | 90 => ⟨S1x64, .f32⟩
  | 91 => ⟨S100000x64, .f32⟩
  | 92 => ⟨S100000x64, .f32⟩
  | 93 => ⟨S1x64, .f32⟩
  | 94 => ⟨S64, .f32⟩
  | 95 => ⟨S_, .f32⟩
  | 96 => ⟨S64, .f32⟩
  | 97 => ⟨S64, .f32⟩
  | 98 => ⟨S64, .f32⟩
  | 99 => ⟨S1x64, .f32⟩
  | 100 => ⟨S100000x64, .f32⟩
  | 101 => ⟨S100000x64, .f32⟩
  | 102 => ⟨S1x64, .f32⟩
  | 103 => ⟨S64, .f32⟩
  | 104 => ⟨S1x64, .f32⟩
  | 105 => ⟨S100000x64, .f32⟩
  | 106 => ⟨S100000x64, .f32⟩
  | 107 => ⟨S1x64, .f32⟩
  | 108 => ⟨S64, .f32⟩
  | 109 => ⟨S1x64, .f32⟩
  | 110 => ⟨S100000x64, .f32⟩
  | 111 => ⟨S100000x64, .f32⟩
  | 112 => ⟨S_, .f32⟩
  | 113 => ⟨S100000x64, .f32⟩
  | 114 => ⟨S100000x64, .f32⟩
  | 115 => ⟨S_, .f32⟩
  | 116 => ⟨S2048x64, .f32⟩
  | 117 => ⟨S100000x1, .i32⟩
  | 118 => ⟨S2048x64, .f32⟩
  | 119 => ⟨S2048x64, .f32⟩
  | 120 => ⟨S1x64, .f32⟩
  | 121 => ⟨S2048x64, .f32⟩
  | 122 => ⟨S2048x64, .f32⟩
  | 123 => ⟨S_, .f32⟩
  | 124 => ⟨S2048x64, .f32⟩
  | 125 => ⟨S2048x64, .f32⟩
  | 126 => ⟨S2048x64, .f32⟩
  | 127 => ⟨S1x64, .f32⟩
  | _ => ⟨S100000x32, .f32⟩

abbrev hbmTy0_1 (i : Nat) : BufTy := match i % 128 with
  | 0 => ⟨S2048x64, .f32⟩
  | 1 => ⟨S2048x64, .f32⟩
  | 2 => ⟨S2048x64, .f32⟩
  | 3 => ⟨S_, .i32⟩
  | 4 => ⟨S100000, .i32⟩
  | 5 => ⟨S100000, .i1⟩
  | 6 => ⟨S_, .i32⟩
  | 7 => ⟨S100000, .i32⟩
  | 8 => ⟨S100000, .i32⟩
  | 9 => ⟨S100000, .i32⟩
  | 10 => ⟨S100000x1, .i32⟩
  | 11 => ⟨S100000x64, .f32⟩
  | 12 => ⟨S100000x64, .f32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S1600000x64, .f32⟩
  | 22 => ⟨S1600000x64, .f32⟩
  | 23 => ⟨S_, .f32⟩
  | 24 => ⟨S1600000x64, .f32⟩
  | 25 => ⟨S1600000x64, .f32⟩
  | 26 => ⟨S_, .f32⟩
  | 27 => ⟨S100000x64, .f32⟩
  | 28 => ⟨S1600000x1, .i32⟩
  | 29 => ⟨S100000x64, .f32⟩
  | 30 => ⟨S100000x64, .f32⟩
  | 31 => ⟨S1x64x64, .f32⟩
  | 32 => ⟨S64x64, .f32⟩
  | 33 => ⟨S100000x64, .f32⟩
  | 34 => ⟨S1x64, .f32⟩
  | 35 => ⟨S64, .f32⟩
  | 36 => ⟨S1x64, .f32⟩
  | 37 => ⟨S100000x64, .f32⟩
  | 38 => ⟨S100000x64, .f32⟩
  | 39 => ⟨S_, .f32⟩
  | 40 => ⟨S100000x64, .f32⟩
  | 41 => ⟨S100000x64, .f32⟩
  | 42 => ⟨S1x64x64, .f32⟩
  | 43 => ⟨S64x64, .f32⟩
  | 44 => ⟨S100000x64, .f32⟩
  | 45 => ⟨S1x64, .f32⟩
  | 46 => ⟨S64, .f32⟩
  | 47 => ⟨S1x64, .f32⟩
  | 48 => ⟨S100000x64, .f32⟩
  | 49 => ⟨S100000x64, .f32⟩
  | 50 => ⟨S1x64, .f32⟩
  | 51 => ⟨S64, .f32⟩
  | 52 => ⟨S1x64, .f32⟩
  | 53 => ⟨S100000x64, .f32⟩
  | 54 => ⟨S100000x64, .f32⟩
  | 55 => ⟨S1x64, .f32⟩
  | 56 => ⟨S64, .f32⟩
  | 57 => ⟨S_, .f32⟩
  | 58 => ⟨S64, .f32⟩
  | 59 => ⟨S64, .f32⟩
  | 60 => ⟨S64, .f32⟩
  | 61 => ⟨S1x64, .f32⟩
  | 62 => ⟨S100000x64, .f32⟩
  | 63 => ⟨S100000x64, .f32⟩
  | 64 => ⟨S1x64, .f32⟩
  | 65 => ⟨S64, .f32⟩
  | 66 => ⟨S1x64, .f32⟩
  | 67 => ⟨S100000x64, .f32⟩
  | 68 => ⟨S100000x64, .f32⟩
  | 69 => ⟨S1x64, .f32⟩
  | 70 => ⟨S64, .f32⟩
  | 71 => ⟨S1x64, .f32⟩
  | 72 => ⟨S100000x64, .f32⟩
  | 73 => ⟨S100000x64, .f32⟩
  | 74 => ⟨S_, .f32⟩
  | 75 => ⟨S100000x64, .f32⟩
  | 76 => ⟨S100000x64, .f32⟩
  | 77 => ⟨S_, .f32⟩
  | 78 => ⟨S2048x64, .f32⟩
  | 79 => ⟨S100000x1, .i32⟩
  | 80 => ⟨S2048x64, .f32⟩
  | 81 => ⟨S2048x64, .f32⟩
  | 82 => ⟨S1x64, .f32⟩
  | 83 => ⟨S2048x64, .f32⟩
  | 84 => ⟨S2048x64, .f32⟩
  | 85 => ⟨S_, .f32⟩
  | 86 => ⟨S2048x64, .f32⟩
  | 87 => ⟨S2048x64, .f32⟩
  | 88 => ⟨S2048x64, .f32⟩
  | 89 => ⟨S1x64, .f32⟩
  | 90 => ⟨S2048x64, .f32⟩
  | 91 => ⟨S2048x64, .f32⟩
  | 92 => ⟨S2048x64, .f32⟩
  | 93 => ⟨S_, .i32⟩
  | 94 => ⟨S100000, .i32⟩
  | 95 => ⟨S100000, .i1⟩
  | 96 => ⟨S_, .i32⟩
  | 97 => ⟨S100000, .i32⟩
  | 98 => ⟨S100000, .i32⟩
  | 99 => ⟨S100000, .i32⟩
  | 100 => ⟨S100000x1, .i32⟩
  | 101 => ⟨S100000x64, .f32⟩
  | 102 => ⟨S100000x64, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000x64, .f32⟩
  | 112 => ⟨S1600000x64, .f32⟩
  | 113 => ⟨S_, .f32⟩
  | 114 => ⟨S1600000x64, .f32⟩
  | 115 => ⟨S1600000x64, .f32⟩
  | 116 => ⟨S_, .f32⟩
  | 117 => ⟨S100000x64, .f32⟩
  | 118 => ⟨S1600000x1, .i32⟩
  | 119 => ⟨S100000x64, .f32⟩
  | 120 => ⟨S100000x64, .f32⟩
  | 121 => ⟨S1x64x64, .f32⟩
  | 122 => ⟨S64x64, .f32⟩
  | 123 => ⟨S100000x64, .f32⟩
  | 124 => ⟨S1x64, .f32⟩
  | 125 => ⟨S64, .f32⟩
  | 126 => ⟨S1x64, .f32⟩
  | 127 => ⟨S100000x64, .f32⟩
  | _ => ⟨S100000x32, .f32⟩

abbrev hbmTy0_2 (i : Nat) : BufTy := match i % 128 with
  | 0 => ⟨S100000x64, .f32⟩
  | 1 => ⟨S_, .f32⟩
  | 2 => ⟨S100000x64, .f32⟩
  | 3 => ⟨S100000x64, .f32⟩
  | 4 => ⟨S1x64x64, .f32⟩
  | 5 => ⟨S64x64, .f32⟩
  | 6 => ⟨S100000x64, .f32⟩
  | 7 => ⟨S1x64, .f32⟩
  | 8 => ⟨S64, .f32⟩
  | 9 => ⟨S1x64, .f32⟩
  | 10 => ⟨S100000x64, .f32⟩
  | 11 => ⟨S100000x64, .f32⟩
  | 12 => ⟨S1x64, .f32⟩
  | 13 => ⟨S64, .f32⟩
  | 14 => ⟨S1x64, .f32⟩
  | 15 => ⟨S100000x64, .f32⟩
  | 16 => ⟨S100000x64, .f32⟩
  | 17 => ⟨S1x64, .f32⟩
  | 18 => ⟨S64, .f32⟩
  | 19 => ⟨S_, .f32⟩
  | 20 => ⟨S64, .f32⟩
  | 21 => ⟨S64, .f32⟩
  | 22 => ⟨S64, .f32⟩
  | 23 => ⟨S1x64, .f32⟩
  | 24 => ⟨S100000x64, .f32⟩
  | 25 => ⟨S100000x64, .f32⟩
  | 26 => ⟨S1x64, .f32⟩
  | 27 => ⟨S64, .f32⟩
  | 28 => ⟨S1x64, .f32⟩
  | 29 => ⟨S100000x64, .f32⟩
  | 30 => ⟨S100000x64, .f32⟩
  | 31 => ⟨S1x64, .f32⟩
  | 32 => ⟨S64, .f32⟩
  | 33 => ⟨S1x64, .f32⟩
  | 34 => ⟨S100000x64, .f32⟩
  | 35 => ⟨S100000x64, .f32⟩
  | 36 => ⟨S_, .f32⟩
  | 37 => ⟨S100000x64, .f32⟩
  | 38 => ⟨S100000x64, .f32⟩
  | 39 => ⟨S_, .f32⟩
  | 40 => ⟨S100000, .f32⟩
  | 41 => ⟨S_, .f32⟩
  | 42 => ⟨S2048, .f32⟩
  | 43 => ⟨S100000x1, .i32⟩
  | 44 => ⟨S2048, .f32⟩
  | 45 => ⟨S_, .f32⟩
  | 46 => ⟨S2048x64, .f32⟩
  | 47 => ⟨S100000x1, .i32⟩
  | 48 => ⟨S2048x64, .f32⟩
  | 49 => ⟨S_, .f32⟩
  | 50 => ⟨S2048, .f32⟩
  | 51 => ⟨S2048, .f32⟩
  | 52 => ⟨S2048x1, .f32⟩
  | 53 => ⟨S2048x64, .f32⟩
  | 54 => ⟨S2048x64, .f32⟩
  | 55 => ⟨S2048x64, .f32⟩
  | 56 => ⟨S1x64, .f32⟩
  | 57 => ⟨S2048x64, .f32⟩
  | 58 => ⟨S2048x64, .f32⟩
  | 59 => ⟨S_, .f32⟩
  | 60 => ⟨S2048x64, .f32⟩
  | 61 => ⟨S2048x64, .f32⟩
  | 62 => ⟨S2048x128, .f32⟩
  | 63 => ⟨S2048x64, .f32⟩
  | 64 => ⟨S1x64, .f32⟩
  | 65 => ⟨S2048x64, .f32⟩
  | 66 => ⟨S2048x64, .f32⟩
  | 67 => ⟨S_, .f32⟩
  | 68 => ⟨S2048x64, .f32⟩
  | 69 => ⟨S2048x64, .f32⟩
  | 70 => ⟨S2048x1, .f32⟩
  | 71 => ⟨S1x1, .f32⟩
  | 72 => ⟨S2048x1, .f32⟩
  | 73 => ⟨S2048x1, .f32⟩
  | 74 => ⟨S2048, .f32⟩
  | _ => ⟨S100000x32, .f32⟩

abbrev hbmTy (i : Nat) : BufTy := match i / 128 with
  | 0 => hbmTy0_0 i
  | 1 => hbmTy0_1 i
  | 2 => hbmTy0_2 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_cst : Ref sig .tc := ⟨.hbm, 39, rfl⟩
abbrev main_v12 : Ref sig .tc := ⟨.hbm, 40, rfl⟩
abbrev main_c : Ref sig .tc := ⟨.hbm, 41, rfl⟩
abbrev main_v13 : Ref sig .tc := ⟨.hbm, 42, rfl⟩
abbrev main_v14 : Ref sig .tc := ⟨.hbm, 43, rfl⟩
abbrev main_c_0 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_c_1 : Ref sig .tc := ⟨.hbm, 51, rfl⟩
abbrev main_v21 : Ref sig .tc := ⟨.hbm, 52, rfl⟩
abbrev main_v22 : Ref sig .tc := ⟨.hbm, 53, rfl⟩
abbrev main_c_2 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_call0_cst : Ref sig .tc := ⟨.hbm, 61, rfl⟩
abbrev main_call0_v0 : Ref sig .tc := ⟨.hbm, 62, rfl⟩
abbrev main_v29 : Ref sig .tc := ⟨.hbm, 63, rfl⟩
abbrev main_cst_3 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_call1_cst : Ref sig .tc := ⟨.hbm, 77, rfl⟩
abbrev main_call1_v0 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_cst_4 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_call2_cst : Ref sig .tc := ⟨.hbm, 112, rfl⟩
abbrev main_call2_v0 : Ref sig .tc := ⟨.hbm, 113, rfl⟩
abbrev main_v74 : Ref sig .tc := ⟨.hbm, 114, rfl⟩
abbrev main_cst_5 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_call3_cst : Ref sig .tc := ⟨.hbm, 123, rfl⟩
abbrev main_call3_v0 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_c_6 : Ref sig .tc := ⟨.hbm, 131, rfl⟩
abbrev main_v88 : Ref sig .tc := ⟨.hbm, 132, rfl⟩
abbrev main_v89 : Ref sig .tc := ⟨.hbm, 133, rfl⟩
abbrev main_c_7 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_c_8 : Ref sig .tc := ⟨.hbm, 141, rfl⟩
abbrev main_v96 : Ref sig .tc := ⟨.hbm, 142, rfl⟩
abbrev main_v97 : Ref sig .tc := ⟨.hbm, 143, rfl⟩
abbrev main_c_9 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_call4_cst : Ref sig .tc := ⟨.hbm, 151, rfl⟩
abbrev main_call4_v0 : Ref sig .tc := ⟨.hbm, 152, rfl⟩
abbrev main_v104 : Ref sig .tc := ⟨.hbm, 153, rfl⟩
abbrev main_cst_10 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_call5_cst : Ref sig .tc := ⟨.hbm, 167, rfl⟩
abbrev main_call5_v0 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_cst_11 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_call6_cst : Ref sig .tc := ⟨.hbm, 202, rfl⟩
abbrev main_call6_v0 : Ref sig .tc := ⟨.hbm, 203, rfl⟩
abbrev main_v149 : Ref sig .tc := ⟨.hbm, 204, rfl⟩
abbrev main_cst_12 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_call7_cst : Ref sig .tc := ⟨.hbm, 213, rfl⟩
abbrev main_call7_v0 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_c_13 : Ref sig .tc := ⟨.hbm, 221, rfl⟩
abbrev main_v163 : Ref sig .tc := ⟨.hbm, 222, rfl⟩
abbrev main_v164 : Ref sig .tc := ⟨.hbm, 223, rfl⟩
abbrev main_c_14 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_c_15 : Ref sig .tc := ⟨.hbm, 231, rfl⟩
abbrev main_v171 : Ref sig .tc := ⟨.hbm, 232, rfl⟩
abbrev main_v172 : Ref sig .tc := ⟨.hbm, 233, rfl⟩
abbrev main_c_16 : Ref sig .tc := ⟨.hbm, 234, rfl⟩
abbrev main_v173 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩
abbrev main_v177 : Ref sig .tc := ⟨.hbm, 239, rfl⟩
abbrev main_v178 : Ref sig .tc := ⟨.hbm, 240, rfl⟩
abbrev main_call8_cst : Ref sig .tc := ⟨.hbm, 241, rfl⟩
abbrev main_call8_v0 : Ref sig .tc := ⟨.hbm, 242, rfl⟩
abbrev main_v179 : Ref sig .tc := ⟨.hbm, 243, rfl⟩
abbrev main_cst_17 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_v186 : Ref sig .tc := ⟨.hbm, 251, rfl⟩
abbrev main_v187 : Ref sig .tc := ⟨.hbm, 252, rfl⟩
abbrev main_v188 : Ref sig .tc := ⟨.hbm, 253, rfl⟩
abbrev main_v189 : Ref sig .tc := ⟨.hbm, 254, rfl⟩
abbrev main_v190 : Ref sig .tc := ⟨.hbm, 255, rfl⟩
abbrev main_v191 : Ref sig .tc := ⟨.hbm, 256, rfl⟩
abbrev main_call9_cst : Ref sig .tc := ⟨.hbm, 257, rfl⟩
abbrev main_call9_v0 : Ref sig .tc := ⟨.hbm, 258, rfl⟩
abbrev main_v192 : Ref sig .tc := ⟨.hbm, 259, rfl⟩
abbrev main_v193 : Ref sig .tc := ⟨.hbm, 260, rfl⟩
abbrev main_v194 : Ref sig .tc := ⟨.hbm, 261, rfl⟩
abbrev main_v195 : Ref sig .tc := ⟨.hbm, 262, rfl⟩
abbrev main_v196 : Ref sig .tc := ⟨.hbm, 263, rfl⟩
abbrev main_v197 : Ref sig .tc := ⟨.hbm, 264, rfl⟩
abbrev main_v198 : Ref sig .tc := ⟨.hbm, 265, rfl⟩
abbrev main_v199 : Ref sig .tc := ⟨.hbm, 266, rfl⟩
abbrev main_v200 : Ref sig .tc := ⟨.hbm, 267, rfl⟩
abbrev main_v201 : Ref sig .tc := ⟨.hbm, 268, rfl⟩
abbrev main_v202 : Ref sig .tc := ⟨.hbm, 269, rfl⟩
abbrev main_v203 : Ref sig .tc := ⟨.hbm, 270, rfl⟩
abbrev main_v204 : Ref sig .tc := ⟨.hbm, 271, rfl⟩
abbrev main_v205 : Ref sig .tc := ⟨.hbm, 272, rfl⟩
abbrev main_v206 : Ref sig .tc := ⟨.hbm, 273, rfl⟩
abbrev main_v207 : Ref sig .tc := ⟨.hbm, 274, rfl⟩
abbrev main_cst_18 : Ref sig .tc := ⟨.hbm, 275, rfl⟩
abbrev main_v208 : Ref sig .tc := ⟨.hbm, 276, rfl⟩
abbrev main_v209 : Ref sig .tc := ⟨.hbm, 277, rfl⟩
abbrev main_v210 : Ref sig .tc := ⟨.hbm, 278, rfl⟩
abbrev main_v211 : Ref sig .tc := ⟨.hbm, 279, rfl⟩
abbrev main_v212 : Ref sig .tc := ⟨.hbm, 280, rfl⟩
abbrev main_v213 : Ref sig .tc := ⟨.hbm, 281, rfl⟩
abbrev main_v214 : Ref sig .tc := ⟨.hbm, 282, rfl⟩
abbrev main_v215 : Ref sig .tc := ⟨.hbm, 283, rfl⟩
abbrev main_v216 : Ref sig .tc := ⟨.hbm, 284, rfl⟩
abbrev main_v217 : Ref sig .tc := ⟨.hbm, 285, rfl⟩
abbrev main_v218 : Ref sig .tc := ⟨.hbm, 286, rfl⟩
abbrev main_v219 : Ref sig .tc := ⟨.hbm, 287, rfl⟩
abbrev main_v220 : Ref sig .tc := ⟨.hbm, 288, rfl⟩
abbrev main_v221 : Ref sig .tc := ⟨.hbm, 289, rfl⟩
abbrev main_v222 : Ref sig .tc := ⟨.hbm, 290, rfl⟩
abbrev main_v223 : Ref sig .tc := ⟨.hbm, 291, rfl⟩
abbrev main_call10_cst : Ref sig .tc := ⟨.hbm, 292, rfl⟩
abbrev main_call10_v0 : Ref sig .tc := ⟨.hbm, 293, rfl⟩
abbrev main_v224 : Ref sig .tc := ⟨.hbm, 294, rfl⟩
abbrev main_cst_19 : Ref sig .tc := ⟨.hbm, 295, rfl⟩
abbrev main_v225 : Ref sig .tc := ⟨.hbm, 296, rfl⟩
abbrev main_cst_20 : Ref sig .tc := ⟨.hbm, 297, rfl⟩
abbrev main_v226 : Ref sig .tc := ⟨.hbm, 298, rfl⟩
abbrev main_v227 : Ref sig .tc := ⟨.hbm, 299, rfl⟩
abbrev main_v228 : Ref sig .tc := ⟨.hbm, 300, rfl⟩
abbrev main_cst_21 : Ref sig .tc := ⟨.hbm, 301, rfl⟩
abbrev main_v229 : Ref sig .tc := ⟨.hbm, 302, rfl⟩
abbrev main_v230 : Ref sig .tc := ⟨.hbm, 303, rfl⟩
abbrev main_v231 : Ref sig .tc := ⟨.hbm, 304, rfl⟩
abbrev main_cst_22 : Ref sig .tc := ⟨.hbm, 305, rfl⟩
abbrev main_v232 : Ref sig .tc := ⟨.hbm, 306, rfl⟩
abbrev main_v233 : Ref sig .tc := ⟨.hbm, 307, rfl⟩
abbrev main_v234 : Ref sig .tc := ⟨.hbm, 308, rfl⟩
abbrev main_v235 : Ref sig .tc := ⟨.hbm, 309, rfl⟩
abbrev main_v236 : Ref sig .tc := ⟨.hbm, 310, rfl⟩
abbrev main_v237 : Ref sig .tc := ⟨.hbm, 311, rfl⟩
abbrev main_v238 : Ref sig .tc := ⟨.hbm, 312, rfl⟩
abbrev main_v239 : Ref sig .tc := ⟨.hbm, 313, rfl⟩
abbrev main_v240 : Ref sig .tc := ⟨.hbm, 314, rfl⟩
abbrev main_call11_cst : Ref sig .tc := ⟨.hbm, 315, rfl⟩
abbrev main_call11_v0 : Ref sig .tc := ⟨.hbm, 316, rfl⟩
abbrev main_v241 : Ref sig .tc := ⟨.hbm, 317, rfl⟩
abbrev main_v242 : Ref sig .tc := ⟨.hbm, 318, rfl⟩
abbrev main_v243 : Ref sig .tc := ⟨.hbm, 319, rfl⟩
abbrev main_v244 : Ref sig .tc := ⟨.hbm, 320, rfl⟩
abbrev main_v245 : Ref sig .tc := ⟨.hbm, 321, rfl⟩
abbrev main_v246 : Ref sig .tc := ⟨.hbm, 322, rfl⟩
abbrev main_call12_cst : Ref sig .tc := ⟨.hbm, 323, rfl⟩
abbrev main_call12_v0 : Ref sig .tc := ⟨.hbm, 324, rfl⟩
abbrev main_v247 : Ref sig .tc := ⟨.hbm, 325, rfl⟩
abbrev main_v248 : Ref sig .tc := ⟨.hbm, 326, rfl⟩
abbrev main_v249 : Ref sig .tc := ⟨.hbm, 327, rfl⟩
abbrev main_v250 : Ref sig .tc := ⟨.hbm, 328, rfl⟩
abbrev main_v251 : Ref sig .tc := ⟨.hbm, 329, rfl⟩
abbrev main_v252 : Ref sig .tc := ⟨.hbm, 330, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1x64_S1600000x64_0_1 : S1x64.BroadcastsInDim S1600000x64 (![0, 1] : Fin 2 → Fin S1600000x64.rank)
  bcast_S_S2048x64 : S_.BroadcastsInDim S2048x64 (![] : Fin 0 → Fin S2048x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x64 : S_.BroadcastsInDim S1600000x64 (![] : Fin 0 → Fin S1600000x64.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S_S64 : S_.BroadcastsInDim S64 (![] : Fin 0 → Fin S64.rank)
  bcast_S1x64_S2048x64_0_1 : S1x64.BroadcastsInDim S2048x64 (![0, 1] : Fin 2 → Fin S2048x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x64_0_1 : S2048x1.BroadcastsInDim S2048x64 (![0, 1] : Fin 2 → Fin S2048x64.rank)
  concatenates_S2048x64_S2048x64_S2048x128_d1 : Shape.Concatenates [S2048x64, S2048x64] S2048x128 1
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  shapeCasts_S2048x1_S2048 : S2048x1.ShapeCasts S2048
  dot_S100000x32_S32x64_S100000x64_1_0_0_1_n_n_wf : DotDims.WF S100000x32 S32x64 S100000x64 [1] [0] [0] [1] [] []
  dot_S1600000x2_S2x64_S1600000x64_1_0_0_1_n_n_wf : DotDims.WF S1600000x2 S2x64 S1600000x64 [1] [0] [0] [1] [] []
  gather_S2048x64_S100000x1_S100000x64_1_0_n_n_0_1_164_wf : GatherDims.WF S2048x64 S100000x1 S100000x64 [1] [0] [] [0] [] 1 ![1, 64]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  scatter_S2048x64_S100000x1_S100000x64_1_0_0_1_wf : ScatterDims.WF S2048x64 S100000x1 S100000x64 [1] [0] [0] 1
  dot_S2048x64_S64x64_S2048x64_1_0_0_1_n_n_wf : DotDims.WF S2048x64 S64x64 S2048x64 [1] [0] [0] [1] [] []
  scatter_S2048_S100000x1_S100000_n_0_0_1_wf : ScatterDims.WF S2048 S100000x1 S100000 [] [0] [0] 1
  dot_S2048x768_S768x64_S2048x64_1_0_0_1_n_n_wf : DotDims.WF S2048x768 S768x64 S2048x64 [1] [0] [0] [1] [] []
  dot_S2048x128_S128x64_S2048x64_1_0_0_1_n_n_wf : DotDims.WF S2048x128 S128x64 S2048x64 [1] [0] [0] [1] [] []
  dot_S2048x64_S64x1_S2048x1_1_0_0_1_n_n_wf : DotDims.WF S2048x64 S64x1 S2048x1 [1] [0] [0] [1] [] []

variable [Facts₀]

def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def dot_S1600000x2_S2x64_S1600000x64_1_0_0_1_n_n : DotDims S1600000x2 S2x64 S1600000x64 where
  lhsContracting := [1]
  rhsContracting := [0]
  lhsNonContracting := [0]
  rhsNonContracting := [1]
  lhsBatch := []
  rhsBatch := []
  wf := dot_S1600000x2_S2x64_S1600000x64_1_0_0_1_n_n_wf
def gather_S2048x64_S100000x1_S100000x64_1_0_n_n_0_1_164 : GatherDims S2048x64 S100000x1 S100000x64 where
  offsetDims := [1]
  collapsedSliceDims := [0]
  operandBatchingDims := []
  startIndicesBatchingDims := []
  startIndexMap := [0]
  indexVectorDim := 1
  sliceSizes := ![1, 64]
  wf := gather_S2048x64_S100000x1_S100000x64_1_0_n_n_0_1_164_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S2048x64_S100000x1_S100000x64_1_0_0_1 : ScatterDims S2048x64 S100000x1 S100000x64 where
  updateWindowDims := [1]
  insertedWindowDims := [0]
  scatterDimsToOperandDims := [0]
  indexVectorDim := 1
  wf := scatter_S2048x64_S100000x1_S100000x64_1_0_0_1_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def scatter_S2048_S100000x1_S100000_n_0_0_1 : ScatterDims S2048 S100000x1 S100000 where
  updateWindowDims := []
  insertedWindowDims := [0]
  scatterDimsToOperandDims := [0]
  indexVectorDim := 1
  wf := scatter_S2048_S100000x1_S100000_n_0_0_1_wf
def dot_S2048x768_S768x64_S2048x64_1_0_0_1_n_n : DotDims S2048x768 S768x64 S2048x64 where
  lhsContracting := [1]
  rhsContracting := [0]
  lhsNonContracting := [0]
  rhsNonContracting := [1]
  lhsBatch := []
  rhsBatch := []
  wf := dot_S2048x768_S768x64_S2048x64_1_0_0_1_n_n_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S2048x64_S64x1_S2048x1_1_0_0_1_n_n : DotDims S2048x64 S64x1 S2048x1 where
  lhsContracting := [1]
  rhsContracting := [0]
  lhsNonContracting := [0]
  rhsNonContracting := [1]
  lhsBatch := []
  rhsBatch := []
  wf := dot_S2048x64_S64x1_S2048x1_1_0_0_1_n_n_wf

class Facts : Prop extends Facts₀ where

variable [Facts]
-- ==== Proof.KernelRun.lean ====
/-
  The idealized kernel's run with its last memory kept.

  The program is eleven stretches of host operations around ten kernel launches. Each stretch takes the buffers from one
  valuation to the next (the operations applied in order), each launch replaces its output array by what its grid
  points write back and leaves every other buffer alone; the last valuation of that chain is `Gen.W21`. Every weakly
  fair execution terminates without a fault, and in its final memory every buffer that is not scoped to a launch holds
  what `Gen.W21` says — in particular the result buffer and the twenty-seven argument arrays.
-/
import proofs.«125701_j46669114638593_1_alg».proof.Proof.Gen.KernelIdeal.Frame

set_option maxRecDepth 16384

noncomputable section

namespace Cert.KernelIdeal.Final

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, every unscoped buffer read at the end of the chain of valuations. -/
theorem run : θ_run defs (onTc (τ := τ) (main (F := F))) ⟨m, fun _ => 0, ρ⟩ (fun r => ∀ c : Dev nD,
      ∀ b ∈ Pipeline.ucRefs τ sig, r.2.mem (((c : Thread nD τ)).1, b) = W21 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h => h)

end Cert.KernelIdeal.Final

end
-- ==== Proof.KernelKeep.lean ====
/-
  What each segment of the program leaves alone.

  A stretch of host operations changes only the buffers its operations write: every other buffer holds after the stretch
  what it held before. A kernel launch changes only its output array: its input arrays are read, never written back,
  and a buffer that is none of its arrays is not touched. Below, for each of the eleven stretches the list of the
  buffers it writes, and for each of the ten launches its output buffer, with the fact that any other buffer is kept.
-/
import proofs.«125701_j46669114638593_1_alg».proof.Proof.Gen.KernelIdeal.Frame

set_option maxRecDepth 16384

noncomputable section

namespace Cert.KernelIdeal.Keep

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- Every operation of a stretch writes one buffer, and that buffer is in the stretch's list. -/
macro "writes_in_list" ops:ident lst:ident : tactic => `(tactic| (
  simp only [$ops:ident, $lst:ident, List.Forall, StableHlo.nullary_writes, StableHlo.unary_writes, StableHlo.binary_writes,
    StableHlo.ternary_writes, StableHlo.quaternary_writes, StableHlo.reshape_writes, StableHlo.binaryIndexed_writes,
    Finset.singleton_subset_iff]
  repeat' apply And.intro
  all_goals exact List.mem_toFinset.mpr (List.mem_map.mpr ⟨_, by decide, rfl⟩)))

/-- The buffers host stretch 0 writes. -/
def written0 : List (Ref sig .tc) := [main_v0, main_v1, main_v2, main_v3, main_v4]
theorem hostOps0_writes : (hostOps0 : List (HloOp τ sig (Elt F))).Forall fun op =>
    op.writes ⊆ ((written0).map (Proc.devRef (τ := τ) .tc)).toFinset := by
  writes_in_list hostOps0 written0
/-- Host stretch 0 keeps every buffer it does not write. -/
theorem keepH0 (c : Dev nD) (r : Ref sig .tc) (hr : r ∉ written0) :
    W1 m ρ c (Proc.devRef .tc r) = W0 m ρ c (Proc.devRef .tc r) :=
  StableHlo.after_of_writes_sub hostOps0 _ (hostOps0_writes (F := F)) hr

/-- Launch 0 keeps every buffer but its output: an input array is only read, any other buffer is not touched. -/
theorem keepR0 (c : Dev nD) (r : Ref sig .tc) (hr : r ≠ main_v5) :
    W2 m ρ c (Proc.devRef .tc r) = W1 m ρ c (Proc.devRef .tc r) := by
  by_cases h : ∀ w, Pipeline.arrRef spec0 w ≠ r
  · exact W2_of_ne m ρ c r h
  · simp only [ne_eq, not_forall, not_not] at h
    obtain ⟨w, rfl⟩ := h
    have hin : (cfg0.win w).isOut = false :=
      (by decide : ∀ w : Fin 4, Pipeline.arrRef spec0 w ≠ main_v5 → (cfg0.win w).isOut = false) w hr
    exact (W2_arr m ρ c w).trans (((dat0 (V1 m ρ) c).arrAt_in w hin _).trans (A_eq0 (V1 m ρ) c w))

/-- The buffers host stretch 1 writes. -/
def written1 : List (Ref sig .tc) := [main_cst, main_v6, main_v7, main_c, main_v8, main_v9, main_c_0, main_v10, main_v11, main_v12, main_v13, main_v14, main_v15, main_c_1, main_v16, main_v17, main_c_2, main_v18, main_v19, main_v20, main_v21, main_v22]
theorem hostOps1_writes : (hostOps1 : List (HloOp τ sig (Elt F))).Forall fun op =>
    op.writes ⊆ ((written1).map (Proc.devRef (τ := τ) .tc)).toFinset := by
  writes_in_list hostOps1 written1
/-- Host stretch 1 keeps every buffer it does not write. -/
theorem keepH1 (c : Dev nD) (r : Ref sig .tc) (hr : r ∉ written1) :
    W3 m ρ c (Proc.devRef .tc r) = W2 m ρ c (Proc.devRef .tc r) :=
  StableHlo.after_of_writes_sub hostOps1 _ (hostOps1_writes (F := F)) hr

/-- Launch 1 keeps every buffer but its output: an input array is only read, any other buffer is not touched. -/
theorem keepR1 (c : Dev nD) (r : Ref sig .tc) (hr : r ≠ main_v23) :
    W4 m ρ c (Proc.devRef .tc r) = W3 m ρ c (Proc.devRef .tc r) := by
  by_cases h : ∀ w, Pipeline.arrRef spec1 w ≠ r
  · exact W4_of_ne m ρ c r h
  · simp only [ne_eq, not_forall, not_not] at h
    obtain ⟨w, rfl⟩ := h
    have hin : (cfg1.win w).isOut = false :=
      (by decide : ∀ w : Fin 5, Pipeline.arrRef spec1 w ≠ main_v23 → (cfg1.win w).isOut = false) w hr
    exact (W4_arr m ρ c w).trans (((dat1 (V3 m ρ) c).arrAt_in w hin _).trans (A_eq1 (V3 m ρ) c w))

/-- The buffers host stretch 2 writes. -/
def written2 : List (Ref sig .tc) := [main_cst_3, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48]
theorem hostOps2_writes : (hostOps2 : List (HloOp τ sig (Elt F))).Forall fun op =>
    op.writes ⊆ ((written2).map (Proc.devRef (τ := τ) .tc)).toFinset := by
  writes_in_list hostOps2 written2
/-- Host stretch 2 keeps every buffer it does not write. -/
theorem keepH2 (c : Dev nD) (r : Ref sig .tc) (hr : r ∉ written2) :
    W5 m ρ c (Proc.devRef .tc r) = W4 m ρ c (Proc.devRef .tc r) :=
  StableHlo.after_of_writes_sub hostOps2 _ (hostOps2_writes (F := F)) hr

/-- Launch 2 keeps every buffer but its output: an input array is only read, any other buffer is not touched. -/
theorem keepR2 (c : Dev nD) (r : Ref sig .tc) (hr : r ≠ main_v49) :
    W6 m ρ c (Proc.devRef .tc r) = W5 m ρ c (Proc.devRef .tc r) := by
  by_cases h : ∀ w, Pipeline.arrRef spec2 w ≠ r
  · exact W6_of_ne m ρ c r h
  · simp only [ne_eq, not_forall, not_not] at h
    obtain ⟨w, rfl⟩ := h
    have hin : (cfg2.win w).isOut = false :=
      (by decide : ∀ w : Fin 11, Pipeline.arrRef spec2 w ≠ main_v49 → (cfg2.win w).isOut = false) w hr
    exact (W6_arr m ρ c w).trans (((dat2 (V5 m ρ) c).arrAt_in w hin _).trans (A_eq2 (V5 m ρ) c w))

/-- The buffers host stretch 3 writes. -/
def written3 : List (Ref sig .tc) := [main_cst_4, main_v50, main_v51, main_v52, main_v53, main_v54]
theorem hostOps3_writes : (hostOps3 : List (HloOp τ sig (Elt F))).Forall fun op =>
    op.writes ⊆ ((written3).map (Proc.devRef (τ := τ) .tc)).toFinset := by
  writes_in_list hostOps3 written3
/-- Host stretch 3 keeps every buffer it does not write. -/
theorem keepH3 (c : Dev nD) (r : Ref sig .tc) (hr : r ∉ written3) :
    W7 m ρ c (Proc.devRef .tc r) = W6 m ρ c (Proc.devRef .tc r) :=
  StableHlo.after_of_writes_sub hostOps3 _ (hostOps3_writes (F := F)) hr

/-- Launch 3 keeps every buffer but its output: an input array is only read, any other buffer is not touched. -/
theorem keepR3 (c : Dev nD) (r : Ref sig .tc) (hr : r ≠ main_v55) :
    W8 m ρ c (Proc.devRef .tc r) = W7 m ρ c (Proc.devRef .tc r) := by
  by_cases h : ∀ w, Pipeline.arrRef spec3 w ≠ r
  · exact W8_of_ne m ρ c r h
  · simp only [ne_eq, not_forall, not_not] at h
    obtain ⟨w, rfl⟩ := h
    have hin : (cfg3.win w).isOut = false :=
      (by decide : ∀ w : Fin 6, Pipeline.arrRef spec3 w ≠ main_v55 → (cfg3.win w).isOut = false) w hr
    exact (W8_arr m ρ c w).trans (((dat3 (V7 m ρ) c).arrAt_in w hin _).trans (A_eq3 (V7 m ρ) c w))

/-- The buffers host stretch 4 writes. -/
def written4 : List (Ref sig .tc) := [main_v56, main_c_5, main_v57, main_v58, main_c_6, main_v59, main_v60, main_v61, main_v62, main_v63, main_v64, main_c_7, main_v65, main_v66, main_c_8, main_v67, main_v68, main_v69, main_v70, main_v71]
theorem hostOps4_writes : (hostOps4 : List (HloOp τ sig (Elt F))).Forall fun op =>
    op.writes ⊆ ((written4).map (Proc.devRef (τ := τ) .tc)).toFinset := by
  writes_in_list hostOps4 written4
/-- Host stretch 4 keeps every buffer it does not write. -/
theorem keepH4 (c : Dev nD) (r : Ref sig .tc) (hr : r ∉ written4) :
    W9 m ρ c (Proc.devRef .tc r) = W8 m ρ c (Proc.devRef .tc r) :=
  StableHlo.after_of_writes_sub hostOps4 _ (hostOps4_writes (F := F)) hr

/-- Launch 4 keeps every buffer but its output: an input array is only read, any other buffer is not touched. -/
theorem keepR4 (c : Dev nD) (r : Ref sig .tc) (hr : r ≠ main_v72) :
    W10 m ρ c (Proc.devRef .tc r) = W9 m ρ c (Proc.devRef .tc r) := by
  by_cases h : ∀ w, Pipeline.arrRef spec4 w ≠ r
  · exact W10_of_ne m ρ c r h
  · simp only [ne_eq, not_forall, not_not] at h
    obtain ⟨w, rfl⟩ := h
    have hin : (cfg4.win w).isOut = false :=
      (by decide : ∀ w : Fin 5, Pipeline.arrRef spec4 w ≠ main_v72 → (cfg4.win w).isOut = false) w hr
    exact (W10_arr m ρ c w).trans (((dat4 (V9 m ρ) c).arrAt_in w hin _).trans (A_eq4 (V9 m ρ) c w))

/-- The buffers host stretch 5 writes. -/
def written5 : List (Ref sig .tc) := [main_cst_9, main_v73, main_v74, main_v75, main_v76, main_v77, main_v78, main_v79, main_v80, main_v81, main_v82, main_v83, main_v84, main_v85, main_v86, main_v87, main_v88, main_v89, main_v90, main_v91, main_v92, main_v93, main_v94, main_v95, main_v96, main_v97]
theorem hostOps5_writes : (hostOps5 : List (HloOp τ sig (Elt F))).Forall fun op =>
    op.writes ⊆ ((written5).map (Proc.devRef (τ := τ) .tc)).toFinset := by
  writes_in_list hostOps5 written5
/-- Host stretch 5 keeps every buffer it does not write. -/
theorem keepH5 (c : Dev nD) (r : Ref sig .tc) (hr : r ∉ written5) :
    W11 m ρ c (Proc.devRef .tc r) = W10 m ρ c (Proc.devRef .tc r) :=
  StableHlo.after_of_writes_sub hostOps5 _ (hostOps5_writes (F := F)) hr

/-- Launch 5 keeps every buffer but its output: an input array is only read, any other buffer is not touched. -/
theorem keepR5 (c : Dev nD) (r : Ref sig .tc) (hr : r ≠ main_v98) :
    W12 m ρ c (Proc.devRef .tc r) = W11 m ρ c (Proc.devRef .tc r) := by
  by_cases h : ∀ w, Pipeline.arrRef spec5 w ≠ r
  · exact W12_of_ne m ρ c r h
  · simp only [ne_eq, not_forall, not_not] at h
    obtain ⟨w, rfl⟩ := h
    have hin : (cfg5.win w).isOut = false :=
      (by decide : ∀ w : Fin 11, Pipeline.arrRef spec5 w ≠ main_v98 → (cfg5.win w).isOut = false) w hr
    exact (W12_arr m ρ c w).trans (((dat5 (V11 m ρ) c).arrAt_in w hin _).trans (A_eq5 (V11 m ρ) c w))

/-- The buffers host stretch 6 writes. -/
def written6 : List (Ref sig .tc) := [main_cst_10, main_v99, main_v100, main_v101, main_v102, main_v103]
theorem hostOps6_writes : (hostOps6 : List (HloOp τ sig (Elt F))).Forall fun op =>
    op.writes ⊆ ((written6).map (Proc.devRef (τ := τ) .tc)).toFinset := by
  writes_in_list hostOps6 written6
/-- Host stretch 6 keeps every buffer it does not write. -/
theorem keepH6 (c : Dev nD) (r : Ref sig .tc) (hr : r ∉ written6) :
    W13 m ρ c (Proc.devRef .tc r) = W12 m ρ c (Proc.devRef .tc r) :=
  StableHlo.after_of_writes_sub hostOps6 _ (hostOps6_writes (F := F)) hr

/-- Launch 6 keeps every buffer but its output: an input array is only read, any other buffer is not touched. -/
theorem keepR6 (c : Dev nD) (r : Ref sig .tc) (hr : r ≠ main_v104) :
    W14 m ρ c (Proc.devRef .tc r) = W13 m ρ c (Proc.devRef .tc r) := by
  by_cases h : ∀ w, Pipeline.arrRef spec6 w ≠ r
  · exact W14_of_ne m ρ c r h
  · simp only [ne_eq, not_forall, not_not] at h
    obtain ⟨w, rfl⟩ := h
    have hin : (cfg6.win w).isOut = false :=
      (by decide : ∀ w : Fin 6, Pipeline.arrRef spec6 w ≠ main_v104 → (cfg6.win w).isOut = false) w hr
    exact (W14_arr m ρ c w).trans (((dat6 (V13 m ρ) c).arrAt_in w hin _).trans (A_eq6 (V13 m ρ) c w))

/-- The buffers host stretch 7 writes. -/
def written7 : List (Ref sig .tc) := [main_v105, main_c_11, main_v106, main_v107, main_c_12, main_v108, main_v109, main_v110, main_v111, main_v112, main_v113, main_c_13, main_v114, main_v115, main_c_14, main_v116, main_v117, main_v118, main_v119, main_v120]
theorem hostOps7_writes : (hostOps7 : List (HloOp τ sig (Elt F))).Forall fun op =>
    op.writes ⊆ ((written7).map (Proc.devRef (τ := τ) .tc)).toFinset := by
  writes_in_list hostOps7 written7
/-- Host stretch 7 keeps every buffer it does not write. -/
theorem keepH7 (c : Dev nD) (r : Ref sig .tc) (hr : r ∉ written7) :
    W15 m ρ c (Proc.devRef .tc r) = W14 m ρ c (Proc.devRef .tc r) :=
  StableHlo.after_of_writes_sub hostOps7 _ (hostOps7_writes (F := F)) hr

/-- Launch 7 keeps every buffer but its output: an input array is only read, any other buffer is not touched. -/
theorem keepR7 (c : Dev nD) (r : Ref sig .tc) (hr : r ≠ main_v121) :
    W16 m ρ c (Proc.devRef .tc r) = W15 m ρ c (Proc.devRef .tc r) := by
  by_cases h : ∀ w, Pipeline.arrRef spec7 w ≠ r
  · exact W16_of_ne m ρ c r h
  · simp only [ne_eq, not_forall, not_not] at h
    obtain ⟨w, rfl⟩ := h
    have hin : (cfg7.win w).isOut = false :=
      (by decide : ∀ w : Fin 5, Pipeline.arrRef spec7 w ≠ main_v121 → (cfg7.win w).isOut = false) w hr
    exact (W16_arr m ρ c w).trans (((dat7 (V15 m ρ) c).arrAt_in w hin _).trans (A_eq7 (V15 m ρ) c w))

/-- The buffers host stretch 8 writes. -/
def written8 : List (Ref sig .tc) := [main_cst_15, main_v122, main_v123, main_v124, main_v125, main_v126, main_v127, main_v128, main_v129, main_v130, main_v131, main_v132, main_v133, main_v134, main_v135, main_v136, main_v137, main_v138, main_v139, main_v140, main_v141, main_v142, main_v143, main_v144, main_v145, main_v146]
theorem hostOps8_writes : (hostOps8 : List (HloOp τ sig (Elt F))).Forall fun op =>
    op.writes ⊆ ((written8).map (Proc.devRef (τ := τ) .tc)).toFinset := by
  writes_in_list hostOps8 written8
/-- Host stretch 8 keeps every buffer it does not write. -/
theorem keepH8 (c : Dev nD) (r : Ref sig .tc) (hr : r ∉ written8) :
    W17 m ρ c (Proc.devRef .tc r) = W16 m ρ c (Proc.devRef .tc r) :=
  StableHlo.after_of_writes_sub hostOps8 _ (hostOps8_writes (F := F)) hr

/-- Launch 8 keeps every buffer but its output: an input array is only read, any other buffer is not touched. -/
theorem keepR8 (c : Dev nD) (r : Ref sig .tc) (hr : r ≠ main_v147) :
    W18 m ρ c (Proc.devRef .tc r) = W17 m ρ c (Proc.devRef .tc r) := by
  by_cases h : ∀ w, Pipeline.arrRef spec8 w ≠ r
  · exact W18_of_ne m ρ c r h
  · simp only [ne_eq, not_forall, not_not] at h
    obtain ⟨w, rfl⟩ := h
    have hin : (cfg8.win w).isOut = false :=
      (by decide : ∀ w : Fin 11, Pipeline.arrRef spec8 w ≠ main_v147 → (cfg8.win w).isOut = false) w hr
    exact (W18_arr m ρ c w).trans (((dat8 (V17 m ρ) c).arrAt_in w hin _).trans (A_eq8 (V17 m ρ) c w))

/-- The buffers host stretch 9 writes. -/
def written9 : List (Ref sig .tc) := [main_cst_16, main_v148, main_cst_17, main_v149, main_v150, main_v151, main_cst_18, main_v152, main_v153, main_v154, main_cst_19, main_v155, main_v156, main_v157, main_v158, main_v159, main_v160, main_v161, main_v162, main_v163, main_v164]
theorem hostOps9_writes : (hostOps9 : List (HloOp τ sig (Elt F))).Forall fun op =>
    op.writes ⊆ ((written9).map (Proc.devRef (τ := τ) .tc)).toFinset := by
  writes_in_list hostOps9 written9
/-- Host stretch 9 keeps every buffer it does not write. -/
theorem keepH9 (c : Dev nD) (r : Ref sig .tc) (hr : r ∉ written9) :
    W19 m ρ c (Proc.devRef .tc r) = W18 m ρ c (Proc.devRef .tc r) :=
  StableHlo.after_of_writes_sub hostOps9 _ (hostOps9_writes (F := F)) hr

/-- Launch 9 keeps every buffer but its output: an input array is only read, any other buffer is not touched. -/
theorem keepR9 (c : Dev nD) (r : Ref sig .tc) (hr : r ≠ main_v165) :
    W20 m ρ c (Proc.devRef .tc r) = W19 m ρ c (Proc.devRef .tc r) := by
  by_cases h : ∀ w, Pipeline.arrRef spec9 w ≠ r
  · exact W20_of_ne m ρ c r h
  · simp only [ne_eq, not_forall, not_not] at h
    obtain ⟨w, rfl⟩ := h
    have hin : (cfg9.win w).isOut = false :=
      (by decide : ∀ w : Fin 10, Pipeline.arrRef spec9 w ≠ main_v165 → (cfg9.win w).isOut = false) w hr
    exact (W20_arr m ρ c w).trans (((dat9 (V19 m ρ) c).arrAt_in w hin _).trans (A_eq9 (V19 m ρ) c w))

/-- The buffers host stretch 10 writes. -/
def written10 : List (Ref sig .tc) := [main_v166]
theorem hostOps10_writes : (hostOps10 : List (HloOp τ sig (Elt F))).Forall fun op =>
    op.writes ⊆ ((written10).map (Proc.devRef (τ := τ) .tc)).toFinset := by
  writes_in_list hostOps10 written10
/-- Host stretch 10 keeps every buffer it does not write. -/
theorem keepH10 (c : Dev nD) (r : Ref sig .tc) (hr : r ∉ written10) :
    W21 m ρ c (Proc.devRef .tc r) = W20 m ρ c (Proc.devRef .tc r) :=
  StableHlo.after_of_writes_sub hostOps10 _ (hostOps10_writes (F := F)) hr

end Cert.KernelIdeal.Keep

end
-- ==== Proof.KernelHold.lean ====
/-
  Buffers that outlive the segment that made them. An argument array is never written, so at every boundary of the chain
  of valuations it holds its launch contents; an intermediate array that a later stretch or launch reads again holds, at
  every boundary up to that reader, what it held when it was made. Each line steps over one segment by that segment's
  kept-fact: the buffer is not among a stretch's written buffers, or is not a launch's output.
-/
import proofs.«125701_j46669114638593_1_alg».proof.Proof.KernelKeep

set_option maxRecDepth 16384

noncomputable section

namespace Cert.KernelIdeal.Hold

open Cert.KernelIdeal Cert.KernelIdeal.Gen Cert.KernelIdeal.Keep Idealize.ShloMosaic Idealize.ShloMosaic.TcCoe Idealize.SL.Sem

variable {F : FTy → Type} [FloatOps F]
variable (m : (ℓ : Loc nD τ sig) → Buf (Elt F) ℓ) (ρ : Dev nD → PrngReg)

theorem arg0_at1 (c : Dev nD) : W1 m ρ c (Proc.devRef .tc main_arg0) = m ((c : Thread nD τ).loc main_arg0) :=
  (keepH0 m ρ c main_arg0 (by decide)).trans rfl

theorem arg2_at1 (c : Dev nD) : W1 m ρ c (Proc.devRef .tc main_arg2) = m ((c : Thread nD τ).loc main_arg2) :=
  (keepH0 m ρ c main_arg2 (by decide)).trans rfl
theorem arg2_at2 (c : Dev nD) : W2 m ρ c (Proc.devRef .tc main_arg2) = m ((c : Thread nD τ).loc main_arg2) :=
  (keepR0 m ρ c main_arg2 (by decide)).trans (arg2_at1 m ρ c)
theorem arg2_at3 (c : Dev nD) : W3 m ρ c (Proc.devRef .tc main_arg2) = m ((c : Thread nD τ).loc main_arg2) :=
  (keepH1 m ρ c main_arg2 (by decide)).trans (arg2_at2 m ρ c)
theorem arg2_at4 (c : Dev nD) : W4 m ρ c (Proc.devRef .tc main_arg2) = m ((c : Thread nD τ).loc main_arg2) :=
  (keepR1 m ρ c main_arg2 (by decide)).trans (arg2_at3 m ρ c)
theorem arg2_at5 (c : Dev nD) : W5 m ρ c (Proc.devRef .tc main_arg2) = m ((c : Thread nD τ).loc main_arg2) :=
  (keepH2 m ρ c main_arg2 (by decide)).trans (arg2_at4 m ρ c)
theorem arg2_at6 (c : Dev nD) : W6 m ρ c (Proc.devRef .tc main_arg2) = m ((c : Thread nD τ).loc main_arg2) :=
  (keepR2 m ρ c main_arg2 (by decide)).trans (arg2_at5 m ρ c)
theorem arg2_at7 (c : Dev nD) : W7 m ρ c (Proc.devRef .tc main_arg2) = m ((c : Thread nD τ).loc main_arg2) :=
  (keepH3 m ρ c main_arg2 (by decide)).trans (arg2_at6 m ρ c)
theorem arg2_at8 (c : Dev nD) : W8 m ρ c (Proc.devRef .tc main_arg2) = m ((c : Thread nD τ).loc main_arg2) :=
  (keepR3 m ρ c main_arg2 (by decide)).trans (arg2_at7 m ρ c)
theorem arg2_at9 (c : Dev nD) : W9 m ρ c (Proc.devRef .tc main_arg2) = m ((c : Thread nD τ).loc main_arg2) :=
  (keepH4 m ρ c main_arg2 (by decide)).trans (arg2_at8 m ρ c)
theorem arg2_at10 (c : Dev nD) : W10 m ρ c (Proc.devRef .tc main_arg2) = m ((c : Thread nD τ).loc main_arg2) :=
  (keepR4 m ρ c main_arg2 (by decide)).trans (arg2_at9 m ρ c)
theorem arg2_at11 (c : Dev nD) : W11 m ρ c (Proc.devRef .tc main_arg2) = m ((c : Thread nD τ).loc main_arg2) :=
  (keepH5 m ρ c main_arg2 (by decide)).trans (arg2_at10 m ρ c)
theorem arg2_at12 (c : Dev nD) : W12 m ρ c (Proc.devRef .tc main_arg2) = m ((c : Thread nD τ).loc main_arg2) :=
  (keepR5 m ρ c main_arg2 (by decide)).trans (arg2_at11 m ρ c)
theorem arg2_at13 (c : Dev nD) : W13 m ρ c (Proc.devRef .tc main_arg2) = m ((c : Thread nD τ).loc main_arg2) :=
  (keepH6 m ρ c main_arg2 (by decide)).trans (arg2_at12 m ρ c)
theorem arg2_at14 (c : Dev nD) : W14 m ρ c (Proc.devRef .tc main_arg2) = m ((c : Thread nD τ).loc main_arg2) :=
  (keepR6 m ρ c main_arg2 (by decide)).trans (arg2_at13 m ρ c)
theorem arg2_at15 (c : Dev nD) : W15 m ρ c (Proc.devRef .tc main_arg2) = m ((c : Thread nD τ).loc main_arg2) :=
  (keepH7 m ρ c main_arg2 (by decide)).trans (arg2_at14 m ρ c)
theorem arg2_at16 (c : Dev nD) : W16 m ρ c (Proc.devRef .tc main_arg2) = m ((c : Thread nD τ).loc main_arg2) :=
  (keepR7 m ρ c main_arg2 (by decide)).trans (arg2_at15 m ρ c)
theorem arg2_at17 (c : Dev nD) : W17 m ρ c (Proc.devRef .tc main_arg2) = m ((c : Thread nD τ).loc main_arg2) :=
  (keepH8 m ρ c main_arg2 (by decide)).trans (arg2_at16 m ρ c)
theorem arg2_at18 (c : Dev nD) : W18 m ρ c (Proc.devRef .tc main_arg2) = m ((c : Thread nD τ).loc main_arg2) :=
  (keepR8 m ρ c main_arg2 (by decide)).trans (arg2_at17 m ρ c)

theorem arg3_at1 (c : Dev nD) : W1 m ρ c (Proc.devRef .tc main_arg3) = m ((c : Thread nD τ).loc main_arg3) :=
  (keepH0 m ρ c main_arg3 (by decide)).trans rfl
theorem arg3_at2 (c : Dev nD) : W2 m ρ c (Proc.devRef .tc main_arg3) = m ((c : Thread nD τ).loc main_arg3) :=
  (keepR0 m ρ c main_arg3 (by decide)).trans (arg3_at1 m ρ c)
theorem arg3_at3 (c : Dev nD) : W3 m ρ c (Proc.devRef .tc main_arg3) = m ((c : Thread nD τ).loc main_arg3) :=
  (keepH1 m ρ c main_arg3 (by decide)).trans (arg3_at2 m ρ c)
theorem arg3_at4 (c : Dev nD) : W4 m ρ c (Proc.devRef .tc main_arg3) = m ((c : Thread nD τ).loc main_arg3) :=
  (keepR1 m ρ c main_arg3 (by decide)).trans (arg3_at3 m ρ c)
theorem arg3_at5 (c : Dev nD) : W5 m ρ c (Proc.devRef .tc main_arg3) = m ((c : Thread nD τ).loc main_arg3) :=
  (keepH2 m ρ c main_arg3 (by decide)).trans (arg3_at4 m ρ c)
theorem arg3_at6 (c : Dev nD) : W6 m ρ c (Proc.devRef .tc main_arg3) = m ((c : Thread nD τ).loc main_arg3) :=
  (keepR2 m ρ c main_arg3 (by decide)).trans (arg3_at5 m ρ c)
theorem arg3_at7 (c : Dev nD) : W7 m ρ c (Proc.devRef .tc main_arg3) = m ((c : Thread nD τ).loc main_arg3) :=
  (keepH3 m ρ c main_arg3 (by decide)).trans (arg3_at6 m ρ c)
theorem arg3_at8 (c : Dev nD) : W8 m ρ c (Proc.devRef .tc main_arg3) = m ((c : Thread nD τ).loc main_arg3) :=
  (keepR3 m ρ c main_arg3 (by decide)).trans (arg3_at7 m ρ c)
theorem arg3_at9 (c : Dev nD) : W9 m ρ c (Proc.devRef .tc main_arg3) = m ((c : Thread nD τ).loc main_arg3) :=
  (keepH4 m ρ c main_arg3 (by decide)).trans (arg3_at8 m ρ c)
theorem arg3_at10 (c : Dev nD) : W10 m ρ c (Proc.devRef .tc main_arg3) = m ((c : Thread nD τ).loc main_arg3) :=
  (keepR4 m ρ c main_arg3 (by decide)).trans (arg3_at9 m ρ c)
theorem arg3_at11 (c : Dev nD) : W11 m ρ c (Proc.devRef .tc main_arg3) = m ((c : Thread nD τ).loc main_arg3) :=
  (keepH5 m ρ c main_arg3 (by decide)).trans (arg3_at10 m ρ c)
theorem arg3_at12 (c : Dev nD) : W12 m ρ c (Proc.devRef .tc main_arg3) = m ((c : Thread nD τ).loc main_arg3) :=
  (keepR5 m ρ c main_arg3 (by decide)).trans (arg3_at11 m ρ c)
theorem arg3_at13 (c : Dev nD) : W13 m ρ c (Proc.devRef .tc main_arg3) = m ((c : Thread nD τ).loc main_arg3) :=
  (keepH6 m ρ c main_arg3 (by decide)).trans (arg3_at12 m ρ c)
theorem arg3_at14 (c : Dev nD) : W14 m ρ c (Proc.devRef .tc main_arg3) = m ((c : Thread nD τ).loc main_arg3) :=
  (keepR6 m ρ c main_arg3 (by decide)).trans (arg3_at13 m ρ c)
theorem arg3_at15 (c : Dev nD) : W15 m ρ c (Proc.devRef .tc main_arg3) = m ((c : Thread nD τ).loc main_arg3) :=
  (keepH7 m ρ c main_arg3 (by decide)).trans (arg3_at14 m ρ c)

theorem arg4_at1 (c : Dev nD) : W1 m ρ c (Proc.devRef .tc main_arg4) = m ((c : Thread nD τ).loc main_arg4) :=
  (keepH0 m ρ c main_arg4 (by decide)).trans rfl
theorem arg4_at2 (c : Dev nD) : W2 m ρ c (Proc.devRef .tc main_arg4) = m ((c : Thread nD τ).loc main_arg4) :=
  (keepR0 m ρ c main_arg4 (by decide)).trans (arg4_at1 m ρ c)
theorem arg4_at3 (c : Dev nD) : W3 m ρ c (Proc.devRef .tc main_arg4) = m ((c : Thread nD τ).loc main_arg4) :=
  (keepH1 m ρ c main_arg4 (by decide)).trans (arg4_at2 m ρ c)
theorem arg4_at4 (c : Dev nD) : W4 m ρ c (Proc.devRef .tc main_arg4) = m ((c : Thread nD τ).loc main_arg4) :=
  (keepR1 m ρ c main_arg4 (by decide)).trans (arg4_at3 m ρ c)
theorem arg4_at5 (c : Dev nD) : W5 m ρ c (Proc.devRef .tc main_arg4) = m ((c : Thread nD τ).loc main_arg4) :=
  (keepH2 m ρ c main_arg4 (by decide)).trans (arg4_at4 m ρ c)
theorem arg4_at6 (c : Dev nD) : W6 m ρ c (Proc.devRef .tc main_arg4) = m ((c : Thread nD τ).loc main_arg4) :=
  (keepR2 m ρ c main_arg4 (by decide)).trans (arg4_at5 m ρ c)
theorem arg4_at7 (c : Dev nD) : W7 m ρ c (Proc.devRef .tc main_arg4) = m ((c : Thread nD τ).loc main_arg4) :=
  (keepH3 m ρ c main_arg4 (by decide)).trans (arg4_at6 m ρ c)
theorem arg4_at8 (c : Dev nD) : W8 m ρ c (Proc.devRef .tc main_arg4) = m ((c : Thread nD τ).loc main_arg4) :=
  (keepR3 m ρ c main_arg4 (by decide)).trans (arg4_at7 m ρ c)
theorem arg4_at9 (c : Dev nD) : W9 m ρ c (Proc.devRef .tc main_arg4) = m ((c : Thread nD τ).loc main_arg4) :=
  (keepH4 m ρ c main_arg4 (by decide)).trans (arg4_at8 m ρ c)
theorem arg4_at10 (c : Dev nD) : W10 m ρ c (Proc.devRef .tc main_arg4) = m ((c : Thread nD τ).loc main_arg4) :=
  (keepR4 m ρ c main_arg4 (by decide)).trans (arg4_at9 m ρ c)
theorem arg4_at11 (c : Dev nD) : W11 m ρ c (Proc.devRef .tc main_arg4) = m ((c : Thread nD τ).loc main_arg4) :=
  (keepH5 m ρ c main_arg4 (by decide)).trans (arg4_at10 m ρ c)
theorem arg4_at12 (c : Dev nD) : W12 m ρ c (Proc.devRef .tc main_arg4) = m ((c : Thread nD τ).loc main_arg4) :=
  (keepR5 m ρ c main_arg4 (by decide)).trans (arg4_at11 m ρ c)
theorem arg4_at13 (c : Dev nD) : W13 m ρ c (Proc.devRef .tc main_arg4) = m ((c : Thread nD τ).loc main_arg4) :=
  (keepH6 m ρ c main_arg4 (by decide)).trans (arg4_at12 m ρ c)
theorem arg4_at14 (c : Dev nD) : W14 m ρ c (Proc.devRef .tc main_arg4) = m ((c : Thread nD τ).loc main_arg4) :=
  (keepR6 m ρ c main_arg4 (by decide)).trans (arg4_at13 m ρ c)
theorem arg4_at15 (c : Dev nD) : W15 m ρ c (Proc.devRef .tc main_arg4) = m ((c : Thread nD τ).loc main_arg4) :=
  (keepH7 m ρ c main_arg4 (by decide)).trans (arg4_at14 m ρ c)
theorem arg4_at16 (c : Dev nD) : W16 m ρ c (Proc.devRef .tc main_arg4) = m ((c : Thread nD τ).loc main_arg4) :=
  (keepR7 m ρ c main_arg4 (by decide)).trans (arg4_at15 m ρ c)
theorem arg4_at17 (c : Dev nD) : W17 m ρ c (Proc.devRef .tc main_arg4) = m ((c : Thread nD τ).loc main_arg4) :=
  (keepH8 m ρ c main_arg4 (by decide)).trans (arg4_at16 m ρ c)
theorem arg4_at18 (c : Dev nD) : W18 m ρ c (Proc.devRef .tc main_arg4) = m ((c : Thread nD τ).loc main_arg4) :=
  (keepR8 m ρ c main_arg4 (by decide)).trans (arg4_at17 m ρ c)
theorem arg4_at19 (c : Dev nD) : W19 m ρ c (Proc.devRef .tc main_arg4) = m ((c : Thread nD τ).loc main_arg4) :=
  (keepH9 m ρ c main_arg4 (by decide)).trans (arg4_at18 m ρ c)

theorem arg5_at1 (c : Dev nD) : W1 m ρ c (Proc.devRef .tc main_arg5) = m ((c : Thread nD τ).loc main_arg5) :=
  (keepH0 m ρ c main_arg5 (by decide)).trans rfl

theorem arg7_at1 (c : Dev nD) : W1 m ρ c (Proc.devRef .tc main_arg7) = m ((c : Thread nD τ).loc main_arg7) :=
  (keepH0 m ρ c main_arg7 (by decide)).trans rfl
theorem arg7_at2 (c : Dev nD) : W2 m ρ c (Proc.devRef .tc main_arg7) = m ((c : Thread nD τ).loc main_arg7) :=
  (keepR0 m ρ c main_arg7 (by decide)).trans (arg7_at1 m ρ c)
theorem arg7_at3 (c : Dev nD) : W3 m ρ c (Proc.devRef .tc main_arg7) = m ((c : Thread nD τ).loc main_arg7) :=
  (keepH1 m ρ c main_arg7 (by decide)).trans (arg7_at2 m ρ c)
theorem arg7_at4 (c : Dev nD) : W4 m ρ c (Proc.devRef .tc main_arg7) = m ((c : Thread nD τ).loc main_arg7) :=
  (keepR1 m ρ c main_arg7 (by decide)).trans (arg7_at3 m ρ c)
theorem arg7_at5 (c : Dev nD) : W5 m ρ c (Proc.devRef .tc main_arg7) = m ((c : Thread nD τ).loc main_arg7) :=
  (keepH2 m ρ c main_arg7 (by decide)).trans (arg7_at4 m ρ c)
theorem arg7_at6 (c : Dev nD) : W6 m ρ c (Proc.devRef .tc main_arg7) = m ((c : Thread nD τ).loc main_arg7) :=
  (keepR2 m ρ c main_arg7 (by decide)).trans (arg7_at5 m ρ c)
theorem arg7_at7 (c : Dev nD) : W7 m ρ c (Proc.devRef .tc main_arg7) = m ((c : Thread nD τ).loc main_arg7) :=
  (keepH3 m ρ c main_arg7 (by decide)).trans (arg7_at6 m ρ c)
theorem arg7_at8 (c : Dev nD) : W8 m ρ c (Proc.devRef .tc main_arg7) = m ((c : Thread nD τ).loc main_arg7) :=
  (keepR3 m ρ c main_arg7 (by decide)).trans (arg7_at7 m ρ c)
theorem arg7_at9 (c : Dev nD) : W9 m ρ c (Proc.devRef .tc main_arg7) = m ((c : Thread nD τ).loc main_arg7) :=
  (keepH4 m ρ c main_arg7 (by decide)).trans (arg7_at8 m ρ c)
theorem arg7_at10 (c : Dev nD) : W10 m ρ c (Proc.devRef .tc main_arg7) = m ((c : Thread nD τ).loc main_arg7) :=
  (keepR4 m ρ c main_arg7 (by decide)).trans (arg7_at9 m ρ c)
theorem arg7_at11 (c : Dev nD) : W11 m ρ c (Proc.devRef .tc main_arg7) = m ((c : Thread nD τ).loc main_arg7) :=
  (keepH5 m ρ c main_arg7 (by decide)).trans (arg7_at10 m ρ c)
theorem arg7_at12 (c : Dev nD) : W12 m ρ c (Proc.devRef .tc main_arg7) = m ((c : Thread nD τ).loc main_arg7) :=
  (keepR5 m ρ c main_arg7 (by decide)).trans (arg7_at11 m ρ c)
theorem arg7_at13 (c : Dev nD) : W13 m ρ c (Proc.devRef .tc main_arg7) = m ((c : Thread nD τ).loc main_arg7) :=
  (keepH6 m ρ c main_arg7 (by decide)).trans (arg7_at12 m ρ c)
theorem arg7_at14 (c : Dev nD) : W14 m ρ c (Proc.devRef .tc main_arg7) = m ((c : Thread nD τ).loc main_arg7) :=
  (keepR6 m ρ c main_arg7 (by decide)).trans (arg7_at13 m ρ c)
theorem arg7_at15 (c : Dev nD) : W15 m ρ c (Proc.devRef .tc main_arg7) = m ((c : Thread nD τ).loc main_arg7) :=
  (keepH7 m ρ c main_arg7 (by decide)).trans (arg7_at14 m ρ c)

theorem arg8_at1 (c : Dev nD) : W1 m ρ c (Proc.devRef .tc main_arg8) = m ((c : Thread nD τ).loc main_arg8) :=
  (keepH0 m ρ c main_arg8 (by decide)).trans rfl
theorem arg8_at2 (c : Dev nD) : W2 m ρ c (Proc.devRef .tc main_arg8) = m ((c : Thread nD τ).loc main_arg8) :=
  (keepR0 m ρ c main_arg8 (by decide)).trans (arg8_at1 m ρ c)

theorem arg9_at1 (c : Dev nD) : W1 m ρ c (Proc.devRef .tc main_arg9) = m ((c : Thread nD τ).loc main_arg9) :=
  (keepH0 m ρ c main_arg9 (by decide)).trans rfl
theorem arg9_at2 (c : Dev nD) : W2 m ρ c (Proc.devRef .tc main_arg9) = m ((c : Thread nD τ).loc main_arg9) :=
  (keepR0 m ρ c main_arg9 (by decide)).trans (arg9_at1 m ρ c)
theorem arg9_at3 (c : Dev nD) : W3 m ρ c (Proc.devRef .tc main_arg9) = m ((c : Thread nD τ).loc main_arg9) :=
  (keepH1 m ρ c main_arg9 (by decide)).trans (arg9_at2 m ρ c)
theorem arg9_at4 (c : Dev nD) : W4 m ρ c (Proc.devRef .tc main_arg9) = m ((c : Thread nD τ).loc main_arg9) :=
  (keepR1 m ρ c main_arg9 (by decide)).trans (arg9_at3 m ρ c)
theorem arg9_at5 (c : Dev nD) : W5 m ρ c (Proc.devRef .tc main_arg9) = m ((c : Thread nD τ).loc main_arg9) :=
  (keepH2 m ρ c main_arg9 (by decide)).trans (arg9_at4 m ρ c)
theorem arg9_at6 (c : Dev nD) : W6 m ρ c (Proc.devRef .tc main_arg9) = m ((c : Thread nD τ).loc main_arg9) :=
  (keepR2 m ρ c main_arg9 (by decide)).trans (arg9_at5 m ρ c)
theorem arg9_at7 (c : Dev nD) : W7 m ρ c (Proc.devRef .tc main_arg9) = m ((c : Thread nD τ).loc main_arg9) :=
  (keepH3 m ρ c main_arg9 (by decide)).trans (arg9_at6 m ρ c)
theorem arg9_at8 (c : Dev nD) : W8 m ρ c (Proc.devRef .tc main_arg9) = m ((c : Thread nD τ).loc main_arg9) :=
  (keepR3 m ρ c main_arg9 (by decide)).trans (arg9_at7 m ρ c)
theorem arg9_at9 (c : Dev nD) : W9 m ρ c (Proc.devRef .tc main_arg9) = m ((c : Thread nD τ).loc main_arg9) :=
  (keepH4 m ρ c main_arg9 (by decide)).trans (arg9_at8 m ρ c)
theorem arg9_at10 (c : Dev nD) : W10 m ρ c (Proc.devRef .tc main_arg9) = m ((c : Thread nD τ).loc main_arg9) :=
  (keepR4 m ρ c main_arg9 (by decide)).trans (arg9_at9 m ρ c)
theorem arg9_at11 (c : Dev nD) : W11 m ρ c (Proc.devRef .tc main_arg9) = m ((c : Thread nD τ).loc main_arg9) :=
  (keepH5 m ρ c main_arg9 (by decide)).trans (arg9_at10 m ρ c)
theorem arg9_at12 (c : Dev nD) : W12 m ρ c (Proc.devRef .tc main_arg9) = m ((c : Thread nD τ).loc main_arg9) :=
  (keepR5 m ρ c main_arg9 (by decide)).trans (arg9_at11 m ρ c)
theorem arg9_at13 (c : Dev nD) : W13 m ρ c (Proc.devRef .tc main_arg9) = m ((c : Thread nD τ).loc main_arg9) :=
  (keepH6 m ρ c main_arg9 (by decide)).trans (arg9_at12 m ρ c)
theorem arg9_at14 (c : Dev nD) : W14 m ρ c (Proc.devRef .tc main_arg9) = m ((c : Thread nD τ).loc main_arg9) :=
  (keepR6 m ρ c main_arg9 (by decide)).trans (arg9_at13 m ρ c)
theorem arg9_at15 (c : Dev nD) : W15 m ρ c (Proc.devRef .tc main_arg9) = m ((c : Thread nD τ).loc main_arg9) :=
  (keepH7 m ρ c main_arg9 (by decide)).trans (arg9_at14 m ρ c)
theorem arg9_at16 (c : Dev nD) : W16 m ρ c (Proc.devRef .tc main_arg9) = m ((c : Thread nD τ).loc main_arg9) :=
  (keepR7 m ρ c main_arg9 (by decide)).trans (arg9_at15 m ρ c)

theorem arg10_at1 (c : Dev nD) : W1 m ρ c (Proc.devRef .tc main_arg10) = m ((c : Thread nD τ).loc main_arg10) :=
  (keepH0 m ρ c main_arg10 (by decide)).trans rfl
theorem arg10_at2 (c : Dev nD) : W2 m ρ c (Proc.devRef .tc main_arg10) = m ((c : Thread nD τ).loc main_arg10) :=
  (keepR0 m ρ c main_arg10 (by decide)).trans (arg10_at1 m ρ c)
theorem arg10_at3 (c : Dev nD) : W3 m ρ c (Proc.devRef .tc main_arg10) = m ((c : Thread nD τ).loc main_arg10) :=
  (keepH1 m ρ c main_arg10 (by decide)).trans (arg10_at2 m ρ c)
theorem arg10_at4 (c : Dev nD) : W4 m ρ c (Proc.devRef .tc main_arg10) = m ((c : Thread nD τ).loc main_arg10) :=
  (keepR1 m ρ c main_arg10 (by decide)).trans (arg10_at3 m ρ c)
theorem arg10_at5 (c : Dev nD) : W5 m ρ c (Proc.devRef .tc main_arg10) = m ((c : Thread nD τ).loc main_arg10) :=
  (keepH2 m ρ c main_arg10 (by decide)).trans (arg10_at4 m ρ c)
theorem arg10_at6 (c : Dev nD) : W6 m ρ c (Proc.devRef .tc main_arg10) = m ((c : Thread nD τ).loc main_arg10) :=
  (keepR2 m ρ c main_arg10 (by decide)).trans (arg10_at5 m ρ c)
theorem arg10_at7 (c : Dev nD) : W7 m ρ c (Proc.devRef .tc main_arg10) = m ((c : Thread nD τ).loc main_arg10) :=
  (keepH3 m ρ c main_arg10 (by decide)).trans (arg10_at6 m ρ c)
theorem arg10_at8 (c : Dev nD) : W8 m ρ c (Proc.devRef .tc main_arg10) = m ((c : Thread nD τ).loc main_arg10) :=
  (keepR3 m ρ c main_arg10 (by decide)).trans (arg10_at7 m ρ c)
theorem arg10_at9 (c : Dev nD) : W9 m ρ c (Proc.devRef .tc main_arg10) = m ((c : Thread nD τ).loc main_arg10) :=
  (keepH4 m ρ c main_arg10 (by decide)).trans (arg10_at8 m ρ c)
theorem arg10_at10 (c : Dev nD) : W10 m ρ c (Proc.devRef .tc main_arg10) = m ((c : Thread nD τ).loc main_arg10) :=
  (keepR4 m ρ c main_arg10 (by decide)).trans (arg10_at9 m ρ c)
theorem arg10_at11 (c : Dev nD) : W11 m ρ c (Proc.devRef .tc main_arg10) = m ((c : Thread nD τ).loc main_arg10) :=
  (keepH5 m ρ c main_arg10 (by decide)).trans (arg10_at10 m ρ c)
theorem arg10_at12 (c : Dev nD) : W12 m ρ c (Proc.devRef .tc main_arg10) = m ((c : Thread nD τ).loc main_arg10) :=
  (keepR5 m ρ c main_arg10 (by decide)).trans (arg10_at11 m ρ c)
theorem arg10_at13 (c : Dev nD) : W13 m ρ c (Proc.devRef .tc main_arg10) = m ((c : Thread nD τ).loc main_arg10) :=
  (keepH6 m ρ c main_arg10 (by decide)).trans (arg10_at12 m ρ c)
theorem arg10_at14 (c : Dev nD) : W14 m ρ c (Proc.devRef .tc main_arg10) = m ((c : Thread nD τ).loc main_arg10) :=
  (keepR6 m ρ c main_arg10 (by decide)).trans (arg10_at13 m ρ c)
theorem arg10_at15 (c : Dev nD) : W15 m ρ c (Proc.devRef .tc main_arg10) = m ((c : Thread nD τ).loc main_arg10) :=
  (keepH7 m ρ c main_arg10 (by decide)).trans (arg10_at14 m ρ c)
theorem arg10_at16 (c : Dev nD) : W16 m ρ c (Proc.devRef .tc main_arg10) = m ((c : Thread nD τ).loc main_arg10) :=
  (keepR7 m ρ c main_arg10 (by decide)).trans (arg10_at15 m ρ c)

theorem arg11_at1 (c : Dev nD) : W1 m ρ c (Proc.devRef .tc main_arg11) = m ((c : Thread nD τ).loc main_arg11) :=
  (keepH0 m ρ c main_arg11 (by decide)).trans rfl
theorem arg11_at2 (c : Dev nD) : W2 m ρ c (Proc.devRef .tc main_arg11) = m ((c : Thread nD τ).loc main_arg11) :=
  (keepR0 m ρ c main_arg11 (by decide)).trans (arg11_at1 m ρ c)
theorem arg11_at3 (c : Dev nD) : W3 m ρ c (Proc.devRef .tc main_arg11) = m ((c : Thread nD τ).loc main_arg11) :=
  (keepH1 m ρ c main_arg11 (by decide)).trans (arg11_at2 m ρ c)
theorem arg11_at4 (c : Dev nD) : W4 m ρ c (Proc.devRef .tc main_arg11) = m ((c : Thread nD τ).loc main_arg11) :=
  (keepR1 m ρ c main_arg11 (by decide)).trans (arg11_at3 m ρ c)
theorem arg11_at5 (c : Dev nD) : W5 m ρ c (Proc.devRef .tc main_arg11) = m ((c : Thread nD τ).loc main_arg11) :=
  (keepH2 m ρ c main_arg11 (by decide)).trans (arg11_at4 m ρ c)
theorem arg11_at6 (c : Dev nD) : W6 m ρ c (Proc.devRef .tc main_arg11) = m ((c : Thread nD τ).loc main_arg11) :=
  (keepR2 m ρ c main_arg11 (by decide)).trans (arg11_at5 m ρ c)
theorem arg11_at7 (c : Dev nD) : W7 m ρ c (Proc.devRef .tc main_arg11) = m ((c : Thread nD τ).loc main_arg11) :=
  (keepH3 m ρ c main_arg11 (by decide)).trans (arg11_at6 m ρ c)
theorem arg11_at8 (c : Dev nD) : W8 m ρ c (Proc.devRef .tc main_arg11) = m ((c : Thread nD τ).loc main_arg11) :=
  (keepR3 m ρ c main_arg11 (by decide)).trans (arg11_at7 m ρ c)
theorem arg11_at9 (c : Dev nD) : W9 m ρ c (Proc.devRef .tc main_arg11) = m ((c : Thread nD τ).loc main_arg11) :=
  (keepH4 m ρ c main_arg11 (by decide)).trans (arg11_at8 m ρ c)
theorem arg11_at10 (c : Dev nD) : W10 m ρ c (Proc.devRef .tc main_arg11) = m ((c : Thread nD τ).loc main_arg11) :=
  (keepR4 m ρ c main_arg11 (by decide)).trans (arg11_at9 m ρ c)
theorem arg11_at11 (c : Dev nD) : W11 m ρ c (Proc.devRef .tc main_arg11) = m ((c : Thread nD τ).loc main_arg11) :=
  (keepH5 m ρ c main_arg11 (by decide)).trans (arg11_at10 m ρ c)
theorem arg11_at12 (c : Dev nD) : W12 m ρ c (Proc.devRef .tc main_arg11) = m ((c : Thread nD τ).loc main_arg11) :=
  (keepR5 m ρ c main_arg11 (by decide)).trans (arg11_at11 m ρ c)
theorem arg11_at13 (c : Dev nD) : W13 m ρ c (Proc.devRef .tc main_arg11) = m ((c : Thread nD τ).loc main_arg11) :=
  (keepH6 m ρ c main_arg11 (by decide)).trans (arg11_at12 m ρ c)
theorem arg11_at14 (c : Dev nD) : W14 m ρ c (Proc.devRef .tc main_arg11) = m ((c : Thread nD τ).loc main_arg11) :=
  (keepR6 m ρ c main_arg11 (by decide)).trans (arg11_at13 m ρ c)
theorem arg11_at15 (c : Dev nD) : W15 m ρ c (Proc.devRef .tc main_arg11) = m ((c : Thread nD τ).loc main_arg11) :=
  (keepH7 m ρ c main_arg11 (by decide)).trans (arg11_at14 m ρ c)
theorem arg11_at16 (c : Dev nD) : W16 m ρ c (Proc.devRef .tc main_arg11) = m ((c : Thread nD τ).loc main_arg11) :=
  (keepR7 m ρ c main_arg11 (by decide)).trans (arg11_at15 m ρ c)

theorem arg12_at1 (c : Dev nD) : W1 m ρ c (Proc.devRef .tc main_arg12) = m ((c : Thread nD τ).loc main_arg12) :=
  (keepH0 m ρ c main_arg12 (by decide)).trans rfl
theorem arg12_at2 (c : Dev nD) : W2 m ρ c (Proc.devRef .tc main_arg12) = m ((c : Thread nD τ).loc main_arg12) :=
  (keepR0 m ρ c main_arg12 (by decide)).trans (arg12_at1 m ρ c)
theorem arg12_at3 (c : Dev nD) : W3 m ρ c (Proc.devRef .tc main_arg12) = m ((c : Thread nD τ).loc main_arg12) :=
  (keepH1 m ρ c main_arg12 (by decide)).trans (arg12_at2 m ρ c)
theorem arg12_at4 (c : Dev nD) : W4 m ρ c (Proc.devRef .tc main_arg12) = m ((c : Thread nD τ).loc main_arg12) :=
  (keepR1 m ρ c main_arg12 (by decide)).trans (arg12_at3 m ρ c)
theorem arg12_at5 (c : Dev nD) : W5 m ρ c (Proc.devRef .tc main_arg12) = m ((c : Thread nD τ).loc main_arg12) :=
  (keepH2 m ρ c main_arg12 (by decide)).trans (arg12_at4 m ρ c)
theorem arg12_at6 (c : Dev nD) : W6 m ρ c (Proc.devRef .tc main_arg12) = m ((c : Thread nD τ).loc main_arg12) :=
  (keepR2 m ρ c main_arg12 (by decide)).trans (arg12_at5 m ρ c)
theorem arg12_at7 (c : Dev nD) : W7 m ρ c (Proc.devRef .tc main_arg12) = m ((c : Thread nD τ).loc main_arg12) :=
  (keepH3 m ρ c main_arg12 (by decide)).trans (arg12_at6 m ρ c)
theorem arg12_at8 (c : Dev nD) : W8 m ρ c (Proc.devRef .tc main_arg12) = m ((c : Thread nD τ).loc main_arg12) :=
  (keepR3 m ρ c main_arg12 (by decide)).trans (arg12_at7 m ρ c)
theorem arg12_at9 (c : Dev nD) : W9 m ρ c (Proc.devRef .tc main_arg12) = m ((c : Thread nD τ).loc main_arg12) :=
  (keepH4 m ρ c main_arg12 (by decide)).trans (arg12_at8 m ρ c)
theorem arg12_at10 (c : Dev nD) : W10 m ρ c (Proc.devRef .tc main_arg12) = m ((c : Thread nD τ).loc main_arg12) :=
  (keepR4 m ρ c main_arg12 (by decide)).trans (arg12_at9 m ρ c)
theorem arg12_at11 (c : Dev nD) : W11 m ρ c (Proc.devRef .tc main_arg12) = m ((c : Thread nD τ).loc main_arg12) :=
  (keepH5 m ρ c main_arg12 (by decide)).trans (arg12_at10 m ρ c)
theorem arg12_at12 (c : Dev nD) : W12 m ρ c (Proc.devRef .tc main_arg12) = m ((c : Thread nD τ).loc main_arg12) :=
  (keepR5 m ρ c main_arg12 (by decide)).trans (arg12_at11 m ρ c)
theorem arg12_at13 (c : Dev nD) : W13 m ρ c (Proc.devRef .tc main_arg12) = m ((c : Thread nD τ).loc main_arg12) :=
  (keepH6 m ρ c main_arg12 (by decide)).trans (arg12_at12 m ρ c)
theorem arg12_at14 (c : Dev nD) : W14 m ρ c (Proc.devRef .tc main_arg12) = m ((c : Thread nD τ).loc main_arg12) :=
  (keepR6 m ρ c main_arg12 (by decide)).trans (arg12_at13 m ρ c)
theorem arg12_at15 (c : Dev nD) : W15 m ρ c (Proc.devRef .tc main_arg12) = m ((c : Thread nD τ).loc main_arg12) :=
  (keepH7 m ρ c main_arg12 (by decide)).trans (arg12_at14 m ρ c)
theorem arg12_at16 (c : Dev nD) : W16 m ρ c (Proc.devRef .tc main_arg12) = m ((c : Thread nD τ).loc main_arg12) :=
  (keepR7 m ρ c main_arg12 (by decide)).trans (arg12_at15 m ρ c)

theorem arg13_at1 (c : Dev nD) : W1 m ρ c (Proc.devRef .tc main_arg13) = m ((c : Thread nD τ).loc main_arg13) :=
  (keepH0 m ρ c main_arg13 (by decide)).trans rfl
theorem arg13_at2 (c : Dev nD) : W2 m ρ c (Proc.devRef .tc main_arg13) = m ((c : Thread nD τ).loc main_arg13) :=
  (keepR0 m ρ c main_arg13 (by decide)).trans (arg13_at1 m ρ c)
theorem arg13_at3 (c : Dev nD) : W3 m ρ c (Proc.devRef .tc main_arg13) = m ((c : Thread nD τ).loc main_arg13) :=
  (keepH1 m ρ c main_arg13 (by decide)).trans (arg13_at2 m ρ c)
theorem arg13_at4 (c : Dev nD) : W4 m ρ c (Proc.devRef .tc main_arg13) = m ((c : Thread nD τ).loc main_arg13) :=
  (keepR1 m ρ c main_arg13 (by decide)).trans (arg13_at3 m ρ c)
theorem arg13_at5 (c : Dev nD) : W5 m ρ c (Proc.devRef .tc main_arg13) = m ((c : Thread nD τ).loc main_arg13) :=
  (keepH2 m ρ c main_arg13 (by decide)).trans (arg13_at4 m ρ c)
theorem arg13_at6 (c : Dev nD) : W6 m ρ c (Proc.devRef .tc main_arg13) = m ((c : Thread nD τ).loc main_arg13) :=
  (keepR2 m ρ c main_arg13 (by decide)).trans (arg13_at5 m ρ c)
theorem arg13_at7 (c : Dev nD) : W7 m ρ c (Proc.devRef .tc main_arg13) = m ((c : Thread nD τ).loc main_arg13) :=
  (keepH3 m ρ c main_arg13 (by decide)).trans (arg13_at6 m ρ c)
theorem arg13_at8 (c : Dev nD) : W8 m ρ c (Proc.devRef .tc main_arg13) = m ((c : Thread nD τ).loc main_arg13) :=
  (keepR3 m ρ c main_arg13 (by decide)).trans (arg13_at7 m ρ c)
theorem arg13_at9 (c : Dev nD) : W9 m ρ c (Proc.devRef .tc main_arg13) = m ((c : Thread nD τ).loc main_arg13) :=
  (keepH4 m ρ c main_arg13 (by decide)).trans (arg13_at8 m ρ c)
theorem arg13_at10 (c : Dev nD) : W10 m ρ c (Proc.devRef .tc main_arg13) = m ((c : Thread nD τ).loc main_arg13) :=
  (keepR4 m ρ c main_arg13 (by decide)).trans (arg13_at9 m ρ c)
theorem arg13_at11 (c : Dev nD) : W11 m ρ c (Proc.devRef .tc main_arg13) = m ((c : Thread nD τ).loc main_arg13) :=
  (keepH5 m ρ c main_arg13 (by decide)).trans (arg13_at10 m ρ c)
theorem arg13_at12 (c : Dev nD) : W12 m ρ c (Proc.devRef .tc main_arg13) = m ((c : Thread nD τ).loc main_arg13) :=
  (keepR5 m ρ c main_arg13 (by decide)).trans (arg13_at11 m ρ c)
theorem arg13_at13 (c : Dev nD) : W13 m ρ c (Proc.devRef .tc main_arg13) = m ((c : Thread nD τ).loc main_arg13) :=
  (keepH6 m ρ c main_arg13 (by decide)).trans (arg13_at12 m ρ c)
theorem arg13_at14 (c : Dev nD) : W14 m ρ c (Proc.devRef .tc main_arg13) = m ((c : Thread nD τ).loc main_arg13) :=
  (keepR6 m ρ c main_arg13 (by decide)).trans (arg13_at13 m ρ c)
theorem arg13_at15 (c : Dev nD) : W15 m ρ c (Proc.devRef .tc main_arg13) = m ((c : Thread nD τ).loc main_arg13) :=
  (keepH7 m ρ c main_arg13 (by decide)).trans (arg13_at14 m ρ c)
theorem arg13_at16 (c : Dev nD) : W16 m ρ c (Proc.devRef .tc main_arg13) = m ((c : Thread nD τ).loc main_arg13) :=
  (keepR7 m ρ c main_arg13 (by decide)).trans (arg13_at15 m ρ c)

theorem arg14_at1 (c : Dev nD) : W1 m ρ c (Proc.devRef .tc main_arg14) = m ((c : Thread nD τ).loc main_arg14) :=
  (keepH0 m ρ c main_arg14 (by decide)).trans rfl
theorem arg14_at2 (c : Dev nD) : W2 m ρ c (Proc.devRef .tc main_arg14) = m ((c : Thread nD τ).loc main_arg14) :=
  (keepR0 m ρ c main_arg14 (by decide)).trans (arg14_at1 m ρ c)
theorem arg14_at3 (c : Dev nD) : W3 m ρ c (Proc.devRef .tc main_arg14) = m ((c : Thread nD τ).loc main_arg14) :=
  (keepH1 m ρ c main_arg14 (by decide)).trans (arg14_at2 m ρ c)
theorem arg14_at4 (c : Dev nD) : W4 m ρ c (Proc.devRef .tc main_arg14) = m ((c : Thread nD τ).loc main_arg14) :=
  (keepR1 m ρ c main_arg14 (by decide)).trans (arg14_at3 m ρ c)
theorem arg14_at5 (c : Dev nD) : W5 m ρ c (Proc.devRef .tc main_arg14) = m ((c : Thread nD τ).loc main_arg14) :=
  (keepH2 m ρ c main_arg14 (by decide)).trans (arg14_at4 m ρ c)
theorem arg14_at6 (c : Dev nD) : W6 m ρ c (Proc.devRef .tc main_arg14) = m ((c : Thread nD τ).loc main_arg14) :=
  (keepR2 m ρ c main_arg14 (by decide)).trans (arg14_at5 m ρ c)
theorem arg14_at7 (c : Dev nD) : W7 m ρ c (Proc.devRef .tc main_arg14) = m ((c : Thread nD τ).loc main_arg14) :=
  (keepH3 m ρ c main_arg14 (by decide)).trans (arg14_at6 m ρ c)
theorem arg14_at8 (c : Dev nD) : W8 m ρ c (Proc.devRef .tc main_arg14) = m ((c : Thread nD τ).loc main_arg14) :=
  (keepR3 m ρ c main_arg14 (by decide)).trans (arg14_at7 m ρ c)
theorem arg14_at9 (c : Dev nD) : W9 m ρ c (Proc.devRef .tc main_arg14) = m ((c : Thread nD τ).loc main_arg14) :=
  (keepH4 m ρ c main_arg14 (by decide)).trans (arg14_at8 m ρ c)
theorem arg14_at10 (c : Dev nD) : W10 m ρ c (Proc.devRef .tc main_arg14) = m ((c : Thread nD τ).loc main_arg14) :=
  (keepR4 m ρ c main_arg14 (by decide)).trans (arg14_at9 m ρ c)
theorem arg14_at11 (c : Dev nD) : W11 m ρ c (Proc.devRef .tc main_arg14) = m ((c : Thread nD τ).loc main_arg14) :=
  (keepH5 m ρ c main_arg14 (by decide)).trans (arg14_at10 m ρ c)
theorem arg14_at12 (c : Dev nD) : W12 m ρ c (Proc.devRef .tc main_arg14) = m ((c : Thread nD τ).loc main_arg14) :=
  (keepR5 m ρ c main_arg14 (by decide)).trans (arg14_at11 m ρ c)
theorem arg14_at13 (c : Dev nD) : W13 m ρ c (Proc.devRef .tc main_arg14) = m ((c : Thread nD τ).loc main_arg14) :=
  (keepH6 m ρ c main_arg14 (by decide)).trans (arg14_at12 m ρ c)
theorem arg14_at14 (c : Dev nD) : W14 m ρ c (Proc.devRef .tc main_arg14) = m ((c : Thread nD τ).loc main_arg14) :=
  (keepR6 m ρ c main_arg14 (by decide)).trans (arg14_at13 m ρ c)
theorem arg14_at15 (c : Dev nD) : W15 m ρ c (Proc.devRef .tc main_arg14) = m ((c : Thread nD τ).loc main_arg14) :=
  (keepH7 m ρ c main_arg14 (by decide)).trans (arg14_at14 m ρ c)
theorem arg14_at16 (c : Dev nD) : W16 m ρ c (Proc.devRef .tc main_arg14) = m ((c : Thread nD τ).loc main_arg14) :=
  (keepR7 m ρ c main_arg14 (by decide)).trans (arg14_at15 m ρ c)

theorem arg15_at1 (c : Dev nD) : W1 m ρ c (Proc.devRef .tc main_arg15) = m ((c : Thread nD τ).loc main_arg15) :=
  (keepH0 m ρ c main_arg15 (by decide)).trans rfl
theorem arg15_at2 (c : Dev nD) : W2 m ρ c (Proc.devRef .tc main_arg15) = m ((c : Thread nD τ).loc main_arg15) :=
  (keepR0 m ρ c main_arg15 (by decide)).trans (arg15_at1 m ρ c)
theorem arg15_at3 (c : Dev nD) : W3 m ρ c (Proc.devRef .tc main_arg15) = m ((c : Thread nD τ).loc main_arg15) :=
  (keepH1 m ρ c main_arg15 (by decide)).trans (arg15_at2 m ρ c)
theorem arg15_at4 (c : Dev nD) : W4 m ρ c (Proc.devRef .tc main_arg15) = m ((c : Thread nD τ).loc main_arg15) :=
  (keepR1 m ρ c main_arg15 (by decide)).trans (arg15_at3 m ρ c)
theorem arg15_at5 (c : Dev nD) : W5 m ρ c (Proc.devRef .tc main_arg15) = m ((c : Thread nD τ).loc main_arg15) :=
  (keepH2 m ρ c main_arg15 (by decide)).trans (arg15_at4 m ρ c)
theorem arg15_at6 (c : Dev nD) : W6 m ρ c (Proc.devRef .tc main_arg15) = m ((c : Thread nD τ).loc main_arg15) :=
  (keepR2 m ρ c main_arg15 (by decide)).trans (arg15_at5 m ρ c)
theorem arg15_at7 (c : Dev nD) : W7 m ρ c (Proc.devRef .tc main_arg15) = m ((c : Thread nD τ).loc main_arg15) :=
  (keepH3 m ρ c main_arg15 (by decide)).trans (arg15_at6 m ρ c)
theorem arg15_at8 (c : Dev nD) : W8 m ρ c (Proc.devRef .tc main_arg15) = m ((c : Thread nD τ).loc main_arg15) :=
  (keepR3 m ρ c main_arg15 (by decide)).trans (arg15_at7 m ρ c)
theorem arg15_at9 (c : Dev nD) : W9 m ρ c (Proc.devRef .tc main_arg15) = m ((c : Thread nD τ).loc main_arg15) :=
  (keepH4 m ρ c main_arg15 (by decide)).trans (arg15_at8 m ρ c)
theorem arg15_at10 (c : Dev nD) : W10 m ρ c (Proc.devRef .tc main_arg15) = m ((c : Thread nD τ).loc main_arg15) :=
  (keepR4 m ρ c main_arg15 (by decide)).trans (arg15_at9 m ρ c)
theorem arg15_at11 (c : Dev nD) : W11 m ρ c (Proc.devRef .tc main_arg15) = m ((c : Thread nD τ).loc main_arg15) :=
  (keepH5 m ρ c main_arg15 (by decide)).trans (arg15_at10 m ρ c)
theorem arg15_at12 (c : Dev nD) : W12 m ρ c (Proc.devRef .tc main_arg15) = m ((c : Thread nD τ).loc main_arg15) :=
  (keepR5 m ρ c main_arg15 (by decide)).trans (arg15_at11 m ρ c)
theorem arg15_at13 (c : Dev nD) : W13 m ρ c (Proc.devRef .tc main_arg15) = m ((c : Thread nD τ).loc main_arg15) :=
  (keepH6 m ρ c main_arg15 (by decide)).trans (arg15_at12 m ρ c)
theorem arg15_at14 (c : Dev nD) : W14 m ρ c (Proc.devRef .tc main_arg15) = m ((c : Thread nD τ).loc main_arg15) :=
  (keepR6 m ρ c main_arg15 (by decide)).trans (arg15_at13 m ρ c)
theorem arg15_at15 (c : Dev nD) : W15 m ρ c (Proc.devRef .tc main_arg15) = m ((c : Thread nD τ).loc main_arg15) :=
  (keepH7 m ρ c main_arg15 (by decide)).trans (arg15_at14 m ρ c)
theorem arg15_at16 (c : Dev nD) : W16 m ρ c (Proc.devRef .tc main_arg15) = m ((c : Thread nD τ).loc main_arg15) :=
  (keepR7 m ρ c main_arg15 (by decide)).trans (arg15_at15 m ρ c)

theorem arg16_at1 (c : Dev nD) : W1 m ρ c (Proc.devRef .tc main_arg16) = m ((c : Thread nD τ).loc main_arg16) :=
  (keepH0 m ρ c main_arg16 (by decide)).trans rfl
theorem arg16_at2 (c : Dev nD) : W2 m ρ c (Proc.devRef .tc main_arg16) = m ((c : Thread nD τ).loc main_arg16) :=
  (keepR0 m ρ c main_arg16 (by decide)).trans (arg16_at1 m ρ c)
theorem arg16_at3 (c : Dev nD) : W3 m ρ c (Proc.devRef .tc main_arg16) = m ((c : Thread nD τ).loc main_arg16) :=
  (keepH1 m ρ c main_arg16 (by decide)).trans (arg16_at2 m ρ c)
theorem arg16_at4 (c : Dev nD) : W4 m ρ c (Proc.devRef .tc main_arg16) = m ((c : Thread nD τ).loc main_arg16) :=
  (keepR1 m ρ c main_arg16 (by decide)).trans (arg16_at3 m ρ c)
theorem arg16_at5 (c : Dev nD) : W5 m ρ c (Proc.devRef .tc main_arg16) = m ((c : Thread nD τ).loc main_arg16) :=
  (keepH2 m ρ c main_arg16 (by decide)).trans (arg16_at4 m ρ c)
theorem arg16_at6 (c : Dev nD) : W6 m ρ c (Proc.devRef .tc main_arg16) = m ((c : Thread nD τ).loc main_arg16) :=
  (keepR2 m ρ c main_arg16 (by decide)).trans (arg16_at5 m ρ c)
theorem arg16_at7 (c : Dev nD) : W7 m ρ c (Proc.devRef .tc main_arg16) = m ((c : Thread nD τ).loc main_arg16) :=
  (keepH3 m ρ c main_arg16 (by decide)).trans (arg16_at6 m ρ c)
theorem arg16_at8 (c : Dev nD) : W8 m ρ c (Proc.devRef .tc main_arg16) = m ((c : Thread nD τ).loc main_arg16) :=
  (keepR3 m ρ c main_arg16 (by decide)).trans (arg16_at7 m ρ c)
theorem arg16_at9 (c : Dev nD) : W9 m ρ c (Proc.devRef .tc main_arg16) = m ((c : Thread nD τ).loc main_arg16) :=
  (keepH4 m ρ c main_arg16 (by decide)).trans (arg16_at8 m ρ c)
theorem arg16_at10 (c : Dev nD) : W10 m ρ c (Proc.devRef .tc main_arg16) = m ((c : Thread nD τ).loc main_arg16) :=
  (keepR4 m ρ c main_arg16 (by decide)).trans (arg16_at9 m ρ c)
theorem arg16_at11 (c : Dev nD) : W11 m ρ c (Proc.devRef .tc main_arg16) = m ((c : Thread nD τ).loc main_arg16) :=
  (keepH5 m ρ c main_arg16 (by decide)).trans (arg16_at10 m ρ c)
theorem arg16_at12 (c : Dev nD) : W12 m ρ c (Proc.devRef .tc main_arg16) = m ((c : Thread nD τ).loc main_arg16) :=
  (keepR5 m ρ c main_arg16 (by decide)).trans (arg16_at11 m ρ c)
theorem arg16_at13 (c : Dev nD) : W13 m ρ c (Proc.devRef .tc main_arg16) = m ((c : Thread nD τ).loc main_arg16) :=
  (keepH6 m ρ c main_arg16 (by decide)).trans (arg16_at12 m ρ c)
theorem arg16_at14 (c : Dev nD) : W14 m ρ c (Proc.devRef .tc main_arg16) = m ((c : Thread nD τ).loc main_arg16) :=
  (keepR6 m ρ c main_arg16 (by decide)).trans (arg16_at13 m ρ c)
theorem arg16_at15 (c : Dev nD) : W15 m ρ c (Proc.devRef .tc main_arg16) = m ((c : Thread nD τ).loc main_arg16) :=
  (keepH7 m ρ c main_arg16 (by decide)).trans (arg16_at14 m ρ c)
theorem arg16_at16 (c : Dev nD) : W16 m ρ c (Proc.devRef .tc main_arg16) = m ((c : Thread nD τ).loc main_arg16) :=
  (keepR7 m ρ c main_arg16 (by decide)).trans (arg16_at15 m ρ c)

theorem arg17_at1 (c : Dev nD) : W1 m ρ c (Proc.devRef .tc main_arg17) = m ((c : Thread nD τ).loc main_arg17) :=
  (keepH0 m ρ c main_arg17 (by decide)).trans rfl
theorem arg17_at2 (c : Dev nD) : W2 m ρ c (Proc.devRef .tc main_arg17) = m ((c : Thread nD τ).loc main_arg17) :=
  (keepR0 m ρ c main_arg17 (by decide)).trans (arg17_at1 m ρ c)
theorem arg17_at3 (c : Dev nD) : W3 m ρ c (Proc.devRef .tc main_arg17) = m ((c : Thread nD τ).loc main_arg17) :=
  (keepH1 m ρ c main_arg17 (by decide)).trans (arg17_at2 m ρ c)
theorem arg17_at4 (c : Dev nD) : W4 m ρ c (Proc.devRef .tc main_arg17) = m ((c : Thread nD τ).loc main_arg17) :=
  (keepR1 m ρ c main_arg17 (by decide)).trans (arg17_at3 m ρ c)
theorem arg17_at5 (c : Dev nD) : W5 m ρ c (Proc.devRef .tc main_arg17) = m ((c : Thread nD τ).loc main_arg17) :=
  (keepH2 m ρ c main_arg17 (by decide)).trans (arg17_at4 m ρ c)
theorem arg17_at6 (c : Dev nD) : W6 m ρ c (Proc.devRef .tc main_arg17) = m ((c : Thread nD τ).loc main_arg17) :=
  (keepR2 m ρ c main_arg17 (by decide)).trans (arg17_at5 m ρ c)
theorem arg17_at7 (c : Dev nD) : W7 m ρ c (Proc.devRef .tc main_arg17) = m ((c : Thread nD τ).loc main_arg17) :=
  (keepH3 m ρ c main_arg17 (by decide)).trans (arg17_at6 m ρ c)
theorem arg17_at8 (c : Dev nD) : W8 m ρ c (Proc.devRef .tc main_arg17) = m ((c : Thread nD τ).loc main_arg17) :=
  (keepR3 m ρ c main_arg17 (by decide)).trans (arg17_at7 m ρ c)
theorem arg17_at9 (c : Dev nD) : W9 m ρ c (Proc.devRef .tc main_arg17) = m ((c : Thread nD τ).loc main_arg17) :=
  (keepH4 m ρ c main_arg17 (by decide)).trans (arg17_at8 m ρ c)
theorem arg17_at10 (c : Dev nD) : W10 m ρ c (Proc.devRef .tc main_arg17) = m ((c : Thread nD τ).loc main_arg17) :=
  (keepR4 m ρ c main_arg17 (by decide)).trans (arg17_at9 m ρ c)
theorem arg17_at11 (c : Dev nD) : W11 m ρ c (Proc.devRef .tc main_arg17) = m ((c : Thread nD τ).loc main_arg17) :=
  (keepH5 m ρ c main_arg17 (by decide)).trans (arg17_at10 m ρ c)
theorem arg17_at12 (c : Dev nD) : W12 m ρ c (Proc.devRef .tc main_arg17) = m ((c : Thread nD τ).loc main_arg17) :=
  (keepR5 m ρ c main_arg17 (by decide)).trans (arg17_at11 m ρ c)
theorem arg17_at13 (c : Dev nD) : W13 m ρ c (Proc.devRef .tc main_arg17) = m ((c : Thread nD τ).loc main_arg17) :=
  (keepH6 m ρ c main_arg17 (by decide)).trans (arg17_at12 m ρ c)

theorem arg18_at1 (c : Dev nD) : W1 m ρ c (Proc.devRef .tc main_arg18) = m ((c : Thread nD τ).loc main_arg18) :=
  (keepH0 m ρ c main_arg18 (by decide)).trans rfl
theorem arg18_at2 (c : Dev nD) : W2 m ρ c (Proc.devRef .tc main_arg18) = m ((c : Thread nD τ).loc main_arg18) :=
  (keepR0 m ρ c main_arg18 (by decide)).trans (arg18_at1 m ρ c)
theorem arg18_at3 (c : Dev nD) : W3 m ρ c (Proc.devRef .tc main_arg18) = m ((c : Thread nD τ).loc main_arg18) :=
  (keepH1 m ρ c main_arg18 (by decide)).trans (arg18_at2 m ρ c)
theorem arg18_at4 (c : Dev nD) : W4 m ρ c (Proc.devRef .tc main_arg18) = m ((c : Thread nD τ).loc main_arg18) :=
  (keepR1 m ρ c main_arg18 (by decide)).trans (arg18_at3 m ρ c)
theorem arg18_at5 (c : Dev nD) : W5 m ρ c (Proc.devRef .tc main_arg18) = m ((c : Thread nD τ).loc main_arg18) :=
  (keepH2 m ρ c main_arg18 (by decide)).trans (arg18_at4 m ρ c)
theorem arg18_at6 (c : Dev nD) : W6 m ρ c (Proc.devRef .tc main_arg18) = m ((c : Thread nD τ).loc main_arg18) :=
  (keepR2 m ρ c main_arg18 (by decide)).trans (arg18_at5 m ρ c)
theorem arg18_at7 (c : Dev nD) : W7 m ρ c (Proc.devRef .tc main_arg18) = m ((c : Thread nD τ).loc main_arg18) :=
  (keepH3 m ρ c main_arg18 (by decide)).trans (arg18_at6 m ρ c)
theorem arg18_at8 (c : Dev nD) : W8 m ρ c (Proc.devRef .tc main_arg18) = m ((c : Thread nD τ).loc main_arg18) :=
  (keepR3 m ρ c main_arg18 (by decide)).trans (arg18_at7 m ρ c)
theorem arg18_at9 (c : Dev nD) : W9 m ρ c (Proc.devRef .tc main_arg18) = m ((c : Thread nD τ).loc main_arg18) :=
  (keepH4 m ρ c main_arg18 (by decide)).trans (arg18_at8 m ρ c)
theorem arg18_at10 (c : Dev nD) : W10 m ρ c (Proc.devRef .tc main_arg18) = m ((c : Thread nD τ).loc main_arg18) :=
  (keepR4 m ρ c main_arg18 (by decide)).trans (arg18_at9 m ρ c)
theorem arg18_at11 (c : Dev nD) : W11 m ρ c (Proc.devRef .tc main_arg18) = m ((c : Thread nD τ).loc main_arg18) :=
  (keepH5 m ρ c main_arg18 (by decide)).trans (arg18_at10 m ρ c)
theorem arg18_at12 (c : Dev nD) : W12 m ρ c (Proc.devRef .tc main_arg18) = m ((c : Thread nD τ).loc main_arg18) :=
  (keepR5 m ρ c main_arg18 (by decide)).trans (arg18_at11 m ρ c)

theorem arg19_at1 (c : Dev nD) : W1 m ρ c (Proc.devRef .tc main_arg19) = m ((c : Thread nD τ).loc main_arg19) :=
  (keepH0 m ρ c main_arg19 (by decide)).trans rfl
theorem arg19_at2 (c : Dev nD) : W2 m ρ c (Proc.devRef .tc main_arg19) = m ((c : Thread nD τ).loc main_arg19) :=
  (keepR0 m ρ c main_arg19 (by decide)).trans (arg19_at1 m ρ c)
theorem arg19_at3 (c : Dev nD) : W3 m ρ c (Proc.devRef .tc main_arg19) = m ((c : Thread nD τ).loc main_arg19) :=
  (keepH1 m ρ c main_arg19 (by decide)).trans (arg19_at2 m ρ c)
theorem arg19_at4 (c : Dev nD) : W4 m ρ c (Proc.devRef .tc main_arg19) = m ((c : Thread nD τ).loc main_arg19) :=
  (keepR1 m ρ c main_arg19 (by decide)).trans (arg19_at3 m ρ c)
theorem arg19_at5 (c : Dev nD) : W5 m ρ c (Proc.devRef .tc main_arg19) = m ((c : Thread nD τ).loc main_arg19) :=
  (keepH2 m ρ c main_arg19 (by decide)).trans (arg19_at4 m ρ c)
theorem arg19_at6 (c : Dev nD) : W6 m ρ c (Proc.devRef .tc main_arg19) = m ((c : Thread nD τ).loc main_arg19) :=
  (keepR2 m ρ c main_arg19 (by decide)).trans (arg19_at5 m ρ c)
theorem arg19_at7 (c : Dev nD) : W7 m ρ c (Proc.devRef .tc main_arg19) = m ((c : Thread nD τ).loc main_arg19) :=
  (keepH3 m ρ c main_arg19 (by decide)).trans (arg19_at6 m ρ c)
theorem arg19_at8 (c : Dev nD) : W8 m ρ c (Proc.devRef .tc main_arg19) = m ((c : Thread nD τ).loc main_arg19) :=
  (keepR3 m ρ c main_arg19 (by decide)).trans (arg19_at7 m ρ c)
theorem arg19_at9 (c : Dev nD) : W9 m ρ c (Proc.devRef .tc main_arg19) = m ((c : Thread nD τ).loc main_arg19) :=
  (keepH4 m ρ c main_arg19 (by decide)).trans (arg19_at8 m ρ c)
theorem arg19_at10 (c : Dev nD) : W10 m ρ c (Proc.devRef .tc main_arg19) = m ((c : Thread nD τ).loc main_arg19) :=
  (keepR4 m ρ c main_arg19 (by decide)).trans (arg19_at9 m ρ c)
theorem arg19_at11 (c : Dev nD) : W11 m ρ c (Proc.devRef .tc main_arg19) = m ((c : Thread nD τ).loc main_arg19) :=
  (keepH5 m ρ c main_arg19 (by decide)).trans (arg19_at10 m ρ c)
theorem arg19_at12 (c : Dev nD) : W12 m ρ c (Proc.devRef .tc main_arg19) = m ((c : Thread nD τ).loc main_arg19) :=
  (keepR5 m ρ c main_arg19 (by decide)).trans (arg19_at11 m ρ c)
theorem arg19_at13 (c : Dev nD) : W13 m ρ c (Proc.devRef .tc main_arg19) = m ((c : Thread nD τ).loc main_arg19) :=
  (keepH6 m ρ c main_arg19 (by decide)).trans (arg19_at12 m ρ c)

theorem arg20_at1 (c : Dev nD) : W1 m ρ c (Proc.devRef .tc main_arg20) = m ((c : Thread nD τ).loc main_arg20) :=
  (keepH0 m ρ c main_arg20 (by decide)).trans rfl
theorem arg20_at2 (c : Dev nD) : W2 m ρ c (Proc.devRef .tc main_arg20) = m ((c : Thread nD τ).loc main_arg20) :=
  (keepR0 m ρ c main_arg20 (by decide)).trans (arg20_at1 m ρ c)
theorem arg20_at3 (c : Dev nD) : W3 m ρ c (Proc.devRef .tc main_arg20) = m ((c : Thread nD τ).loc main_arg20) :=
  (keepH1 m ρ c main_arg20 (by decide)).trans (arg20_at2 m ρ c)
theorem arg20_at4 (c : Dev nD) : W4 m ρ c (Proc.devRef .tc main_arg20) = m ((c : Thread nD τ).loc main_arg20) :=
  (keepR1 m ρ c main_arg20 (by decide)).trans (arg20_at3 m ρ c)
theorem arg20_at5 (c : Dev nD) : W5 m ρ c (Proc.devRef .tc main_arg20) = m ((c : Thread nD τ).loc main_arg20) :=
  (keepH2 m ρ c main_arg20 (by decide)).trans (arg20_at4 m ρ c)
theorem arg20_at6 (c : Dev nD) : W6 m ρ c (Proc.devRef .tc main_arg20) = m ((c : Thread nD τ).loc main_arg20) :=
  (keepR2 m ρ c main_arg20 (by decide)).trans (arg20_at5 m ρ c)
theorem arg20_at7 (c : Dev nD) : W7 m ρ c (Proc.devRef .tc main_arg20) = m ((c : Thread nD τ).loc main_arg20) :=
  (keepH3 m ρ c main_arg20 (by decide)).trans (arg20_at6 m ρ c)
theorem arg20_at8 (c : Dev nD) : W8 m ρ c (Proc.devRef .tc main_arg20) = m ((c : Thread nD τ).loc main_arg20) :=
  (keepR3 m ρ c main_arg20 (by decide)).trans (arg20_at7 m ρ c)
theorem arg20_at9 (c : Dev nD) : W9 m ρ c (Proc.devRef .tc main_arg20) = m ((c : Thread nD τ).loc main_arg20) :=
  (keepH4 m ρ c main_arg20 (by decide)).trans (arg20_at8 m ρ c)
theorem arg20_at10 (c : Dev nD) : W10 m ρ c (Proc.devRef .tc main_arg20) = m ((c : Thread nD τ).loc main_arg20) :=
  (keepR4 m ρ c main_arg20 (by decide)).trans (arg20_at9 m ρ c)
theorem arg20_at11 (c : Dev nD) : W11 m ρ c (Proc.devRef .tc main_arg20) = m ((c : Thread nD τ).loc main_arg20) :=
  (keepH5 m ρ c main_arg20 (by decide)).trans (arg20_at10 m ρ c)
theorem arg20_at12 (c : Dev nD) : W12 m ρ c (Proc.devRef .tc main_arg20) = m ((c : Thread nD τ).loc main_arg20) :=
  (keepR5 m ρ c main_arg20 (by decide)).trans (arg20_at11 m ρ c)

theorem arg21_at1 (c : Dev nD) : W1 m ρ c (Proc.devRef .tc main_arg21) = m ((c : Thread nD τ).loc main_arg21) :=
  (keepH0 m ρ c main_arg21 (by decide)).trans rfl
theorem arg21_at2 (c : Dev nD) : W2 m ρ c (Proc.devRef .tc main_arg21) = m ((c : Thread nD τ).loc main_arg21) :=
  (keepR0 m ρ c main_arg21 (by decide)).trans (arg21_at1 m ρ c)
theorem arg21_at3 (c : Dev nD) : W3 m ρ c (Proc.devRef .tc main_arg21) = m ((c : Thread nD τ).loc main_arg21) :=
  (keepH1 m ρ c main_arg21 (by decide)).trans (arg21_at2 m ρ c)
theorem arg21_at4 (c : Dev nD) : W4 m ρ c (Proc.devRef .tc main_arg21) = m ((c : Thread nD τ).loc main_arg21) :=
  (keepR1 m ρ c main_arg21 (by decide)).trans (arg21_at3 m ρ c)
theorem arg21_at5 (c : Dev nD) : W5 m ρ c (Proc.devRef .tc main_arg21) = m ((c : Thread nD τ).loc main_arg21) :=
  (keepH2 m ρ c main_arg21 (by decide)).trans (arg21_at4 m ρ c)
theorem arg21_at6 (c : Dev nD) : W6 m ρ c (Proc.devRef .tc main_arg21) = m ((c : Thread nD τ).loc main_arg21) :=
  (keepR2 m ρ c main_arg21 (by decide)).trans (arg21_at5 m ρ c)
theorem arg21_at7 (c : Dev nD) : W7 m ρ c (Proc.devRef .tc main_arg21) = m ((c : Thread nD τ).loc main_arg21) :=
  (keepH3 m ρ c main_arg21 (by decide)).trans (arg21_at6 m ρ c)
theorem arg21_at8 (c : Dev nD) : W8 m ρ c (Proc.devRef .tc main_arg21) = m ((c : Thread nD τ).loc main_arg21) :=
  (keepR3 m ρ c main_arg21 (by decide)).trans (arg21_at7 m ρ c)
theorem arg21_at9 (c : Dev nD) : W9 m ρ c (Proc.devRef .tc main_arg21) = m ((c : Thread nD τ).loc main_arg21) :=
  (keepH4 m ρ c main_arg21 (by decide)).trans (arg21_at8 m ρ c)
theorem arg21_at10 (c : Dev nD) : W10 m ρ c (Proc.devRef .tc main_arg21) = m ((c : Thread nD τ).loc main_arg21) :=
  (keepR4 m ρ c main_arg21 (by decide)).trans (arg21_at9 m ρ c)
theorem arg21_at11 (c : Dev nD) : W11 m ρ c (Proc.devRef .tc main_arg21) = m ((c : Thread nD τ).loc main_arg21) :=
  (keepH5 m ρ c main_arg21 (by decide)).trans (arg21_at10 m ρ c)
theorem arg21_at12 (c : Dev nD) : W12 m ρ c (Proc.devRef .tc main_arg21) = m ((c : Thread nD τ).loc main_arg21) :=
  (keepR5 m ρ c main_arg21 (by decide)).trans (arg21_at11 m ρ c)
theorem arg21_at13 (c : Dev nD) : W13 m ρ c (Proc.devRef .tc main_arg21) = m ((c : Thread nD τ).loc main_arg21) :=
  (keepH6 m ρ c main_arg21 (by decide)).trans (arg21_at12 m ρ c)
theorem arg21_at14 (c : Dev nD) : W14 m ρ c (Proc.devRef .tc main_arg21) = m ((c : Thread nD τ).loc main_arg21) :=
  (keepR6 m ρ c main_arg21 (by decide)).trans (arg21_at13 m ρ c)
theorem arg21_at15 (c : Dev nD) : W15 m ρ c (Proc.devRef .tc main_arg21) = m ((c : Thread nD τ).loc main_arg21) :=
  (keepH7 m ρ c main_arg21 (by decide)).trans (arg21_at14 m ρ c)
theorem arg21_at16 (c : Dev nD) : W16 m ρ c (Proc.devRef .tc main_arg21) = m ((c : Thread nD τ).loc main_arg21) :=
  (keepR7 m ρ c main_arg21 (by decide)).trans (arg21_at15 m ρ c)
theorem arg21_at17 (c : Dev nD) : W17 m ρ c (Proc.devRef .tc main_arg21) = m ((c : Thread nD τ).loc main_arg21) :=
  (keepH8 m ρ c main_arg21 (by decide)).trans (arg21_at16 m ρ c)
theorem arg21_at18 (c : Dev nD) : W18 m ρ c (Proc.devRef .tc main_arg21) = m ((c : Thread nD τ).loc main_arg21) :=
  (keepR8 m ρ c main_arg21 (by decide)).trans (arg21_at17 m ρ c)
theorem arg21_at19 (c : Dev nD) : W19 m ρ c (Proc.devRef .tc main_arg21) = m ((c : Thread nD τ).loc main_arg21) :=
  (keepH9 m ρ c main_arg21 (by decide)).trans (arg21_at18 m ρ c)

theorem arg22_at1 (c : Dev nD) : W1 m ρ c (Proc.devRef .tc main_arg22) = m ((c : Thread nD τ).loc main_arg22) :=
  (keepH0 m ρ c main_arg22 (by decide)).trans rfl
theorem arg22_at2 (c : Dev nD) : W2 m ρ c (Proc.devRef .tc main_arg22) = m ((c : Thread nD τ).loc main_arg22) :=
  (keepR0 m ρ c main_arg22 (by decide)).trans (arg22_at1 m ρ c)
theorem arg22_at3 (c : Dev nD) : W3 m ρ c (Proc.devRef .tc main_arg22) = m ((c : Thread nD τ).loc main_arg22) :=
  (keepH1 m ρ c main_arg22 (by decide)).trans (arg22_at2 m ρ c)
theorem arg22_at4 (c : Dev nD) : W4 m ρ c (Proc.devRef .tc main_arg22) = m ((c : Thread nD τ).loc main_arg22) :=
  (keepR1 m ρ c main_arg22 (by decide)).trans (arg22_at3 m ρ c)
theorem arg22_at5 (c : Dev nD) : W5 m ρ c (Proc.devRef .tc main_arg22) = m ((c : Thread nD τ).loc main_arg22) :=
  (keepH2 m ρ c main_arg22 (by decide)).trans (arg22_at4 m ρ c)
theorem arg22_at6 (c : Dev nD) : W6 m ρ c (Proc.devRef .tc main_arg22) = m ((c : Thread nD τ).loc main_arg22) :=
  (keepR2 m ρ c main_arg22 (by decide)).trans (arg22_at5 m ρ c)
theorem arg22_at7 (c : Dev nD) : W7 m ρ c (Proc.devRef .tc main_arg22) = m ((c : Thread nD τ).loc main_arg22) :=
  (keepH3 m ρ c main_arg22 (by decide)).trans (arg22_at6 m ρ c)
theorem arg22_at8 (c : Dev nD) : W8 m ρ c (Proc.devRef .tc main_arg22) = m ((c : Thread nD τ).loc main_arg22) :=
  (keepR3 m ρ c main_arg22 (by decide)).trans (arg22_at7 m ρ c)
theorem arg22_at9 (c : Dev nD) : W9 m ρ c (Proc.devRef .tc main_arg22) = m ((c : Thread nD τ).loc main_arg22) :=
  (keepH4 m ρ c main_arg22 (by decide)).trans (arg22_at8 m ρ c)
theorem arg22_at10 (c : Dev nD) : W10 m ρ c (Proc.devRef .tc main_arg22) = m ((c : Thread nD τ).loc main_arg22) :=
  (keepR4 m ρ c main_arg22 (by decide)).trans (arg22_at9 m ρ c)
theorem arg22_at11 (c : Dev nD) : W11 m ρ c (Proc.devRef .tc main_arg22) = m ((c : Thread nD τ).loc main_arg22) :=
  (keepH5 m ρ c main_arg22 (by decide)).trans (arg22_at10 m ρ c)
theorem arg22_at12 (c : Dev nD) : W12 m ρ c (Proc.devRef .tc main_arg22) = m ((c : Thread nD τ).loc main_arg22) :=
  (keepR5 m ρ c main_arg22 (by decide)).trans (arg22_at11 m ρ c)
theorem arg22_at13 (c : Dev nD) : W13 m ρ c (Proc.devRef .tc main_arg22) = m ((c : Thread nD τ).loc main_arg22) :=
  (keepH6 m ρ c main_arg22 (by decide)).trans (arg22_at12 m ρ c)
theorem arg22_at14 (c : Dev nD) : W14 m ρ c (Proc.devRef .tc main_arg22) = m ((c : Thread nD τ).loc main_arg22) :=
  (keepR6 m ρ c main_arg22 (by decide)).trans (arg22_at13 m ρ c)
theorem arg22_at15 (c : Dev nD) : W15 m ρ c (Proc.devRef .tc main_arg22) = m ((c : Thread nD τ).loc main_arg22) :=
  (keepH7 m ρ c main_arg22 (by decide)).trans (arg22_at14 m ρ c)
theorem arg22_at16 (c : Dev nD) : W16 m ρ c (Proc.devRef .tc main_arg22) = m ((c : Thread nD τ).loc main_arg22) :=
  (keepR7 m ρ c main_arg22 (by decide)).trans (arg22_at15 m ρ c)
theorem arg22_at17 (c : Dev nD) : W17 m ρ c (Proc.devRef .tc main_arg22) = m ((c : Thread nD τ).loc main_arg22) :=
  (keepH8 m ρ c main_arg22 (by decide)).trans (arg22_at16 m ρ c)
theorem arg22_at18 (c : Dev nD) : W18 m ρ c (Proc.devRef .tc main_arg22) = m ((c : Thread nD τ).loc main_arg22) :=
  (keepR8 m ρ c main_arg22 (by decide)).trans (arg22_at17 m ρ c)

theorem arg23_at1 (c : Dev nD) : W1 m ρ c (Proc.devRef .tc main_arg23) = m ((c : Thread nD τ).loc main_arg23) :=
  (keepH0 m ρ c main_arg23 (by decide)).trans rfl
theorem arg23_at2 (c : Dev nD) : W2 m ρ c (Proc.devRef .tc main_arg23) = m ((c : Thread nD τ).loc main_arg23) :=
  (keepR0 m ρ c main_arg23 (by decide)).trans (arg23_at1 m ρ c)
theorem arg23_at3 (c : Dev nD) : W3 m ρ c (Proc.devRef .tc main_arg23) = m ((c : Thread nD τ).loc main_arg23) :=
  (keepH1 m ρ c main_arg23 (by decide)).trans (arg23_at2 m ρ c)
theorem arg23_at4 (c : Dev nD) : W4 m ρ c (Proc.devRef .tc main_arg23) = m ((c : Thread nD τ).loc main_arg23) :=
  (keepR1 m ρ c main_arg23 (by decide)).trans (arg23_at3 m ρ c)
theorem arg23_at5 (c : Dev nD) : W5 m ρ c (Proc.devRef .tc main_arg23) = m ((c : Thread nD τ).loc main_arg23) :=
  (keepH2 m ρ c main_arg23 (by decide)).trans (arg23_at4 m ρ c)
theorem arg23_at6 (c : Dev nD) : W6 m ρ c (Proc.devRef .tc main_arg23) = m ((c : Thread nD τ).loc main_arg23) :=
  (keepR2 m ρ c main_arg23 (by decide)).trans (arg23_at5 m ρ c)
theorem arg23_at7 (c : Dev nD) : W7 m ρ c (Proc.devRef .tc main_arg23) = m ((c : Thread nD τ).loc main_arg23) :=
  (keepH3 m ρ c main_arg23 (by decide)).trans (arg23_at6 m ρ c)
theorem arg23_at8 (c : Dev nD) : W8 m ρ c (Proc.devRef .tc main_arg23) = m ((c : Thread nD τ).loc main_arg23) :=
  (keepR3 m ρ c main_arg23 (by decide)).trans (arg23_at7 m ρ c)
theorem arg23_at9 (c : Dev nD) : W9 m ρ c (Proc.devRef .tc main_arg23) = m ((c : Thread nD τ).loc main_arg23) :=
  (keepH4 m ρ c main_arg23 (by decide)).trans (arg23_at8 m ρ c)
theorem arg23_at10 (c : Dev nD) : W10 m ρ c (Proc.devRef .tc main_arg23) = m ((c : Thread nD τ).loc main_arg23) :=
  (keepR4 m ρ c main_arg23 (by decide)).trans (arg23_at9 m ρ c)
theorem arg23_at11 (c : Dev nD) : W11 m ρ c (Proc.devRef .tc main_arg23) = m ((c : Thread nD τ).loc main_arg23) :=
  (keepH5 m ρ c main_arg23 (by decide)).trans (arg23_at10 m ρ c)
theorem arg23_at12 (c : Dev nD) : W12 m ρ c (Proc.devRef .tc main_arg23) = m ((c : Thread nD τ).loc main_arg23) :=
  (keepR5 m ρ c main_arg23 (by decide)).trans (arg23_at11 m ρ c)
theorem arg23_at13 (c : Dev nD) : W13 m ρ c (Proc.devRef .tc main_arg23) = m ((c : Thread nD τ).loc main_arg23) :=
  (keepH6 m ρ c main_arg23 (by decide)).trans (arg23_at12 m ρ c)
theorem arg23_at14 (c : Dev nD) : W14 m ρ c (Proc.devRef .tc main_arg23) = m ((c : Thread nD τ).loc main_arg23) :=
  (keepR6 m ρ c main_arg23 (by decide)).trans (arg23_at13 m ρ c)
theorem arg23_at15 (c : Dev nD) : W15 m ρ c (Proc.devRef .tc main_arg23) = m ((c : Thread nD τ).loc main_arg23) :=
  (keepH7 m ρ c main_arg23 (by decide)).trans (arg23_at14 m ρ c)
theorem arg23_at16 (c : Dev nD) : W16 m ρ c (Proc.devRef .tc main_arg23) = m ((c : Thread nD τ).loc main_arg23) :=
  (keepR7 m ρ c main_arg23 (by decide)).trans (arg23_at15 m ρ c)
theorem arg23_at17 (c : Dev nD) : W17 m ρ c (Proc.devRef .tc main_arg23) = m ((c : Thread nD τ).loc main_arg23) :=
  (keepH8 m ρ c main_arg23 (by decide)).trans (arg23_at16 m ρ c)
theorem arg23_at18 (c : Dev nD) : W18 m ρ c (Proc.devRef .tc main_arg23) = m ((c : Thread nD τ).loc main_arg23) :=
  (keepR8 m ρ c main_arg23 (by decide)).trans (arg23_at17 m ρ c)

theorem arg24_at1 (c : Dev nD) : W1 m ρ c (Proc.devRef .tc main_arg24) = m ((c : Thread nD τ).loc main_arg24) :=
  (keepH0 m ρ c main_arg24 (by decide)).trans rfl
theorem arg24_at2 (c : Dev nD) : W2 m ρ c (Proc.devRef .tc main_arg24) = m ((c : Thread nD τ).loc main_arg24) :=
  (keepR0 m ρ c main_arg24 (by decide)).trans (arg24_at1 m ρ c)
theorem arg24_at3 (c : Dev nD) : W3 m ρ c (Proc.devRef .tc main_arg24) = m ((c : Thread nD τ).loc main_arg24) :=
  (keepH1 m ρ c main_arg24 (by decide)).trans (arg24_at2 m ρ c)
theorem arg24_at4 (c : Dev nD) : W4 m ρ c (Proc.devRef .tc main_arg24) = m ((c : Thread nD τ).loc main_arg24) :=
  (keepR1 m ρ c main_arg24 (by decide)).trans (arg24_at3 m ρ c)
theorem arg24_at5 (c : Dev nD) : W5 m ρ c (Proc.devRef .tc main_arg24) = m ((c : Thread nD τ).loc main_arg24) :=
  (keepH2 m ρ c main_arg24 (by decide)).trans (arg24_at4 m ρ c)
theorem arg24_at6 (c : Dev nD) : W6 m ρ c (Proc.devRef .tc main_arg24) = m ((c : Thread nD τ).loc main_arg24) :=
  (keepR2 m ρ c main_arg24 (by decide)).trans (arg24_at5 m ρ c)
theorem arg24_at7 (c : Dev nD) : W7 m ρ c (Proc.devRef .tc main_arg24) = m ((c : Thread nD τ).loc main_arg24) :=
  (keepH3 m ρ c main_arg24 (by decide)).trans (arg24_at6 m ρ c)
theorem arg24_at8 (c : Dev nD) : W8 m ρ c (Proc.devRef .tc main_arg24) = m ((c : Thread nD τ).loc main_arg24) :=
  (keepR3 m ρ c main_arg24 (by decide)).trans (arg24_at7 m ρ c)
theorem arg24_at9 (c : Dev nD) : W9 m ρ c (Proc.devRef .tc main_arg24) = m ((c : Thread nD τ).loc main_arg24) :=
  (keepH4 m ρ c main_arg24 (by decide)).trans (arg24_at8 m ρ c)
theorem arg24_at10 (c : Dev nD) : W10 m ρ c (Proc.devRef .tc main_arg24) = m ((c : Thread nD τ).loc main_arg24) :=
  (keepR4 m ρ c main_arg24 (by decide)).trans (arg24_at9 m ρ c)
theorem arg24_at11 (c : Dev nD) : W11 m ρ c (Proc.devRef .tc main_arg24) = m ((c : Thread nD τ).loc main_arg24) :=
  (keepH5 m ρ c main_arg24 (by decide)).trans (arg24_at10 m ρ c)
theorem arg24_at12 (c : Dev nD) : W12 m ρ c (Proc.devRef .tc main_arg24) = m ((c : Thread nD τ).loc main_arg24) :=
  (keepR5 m ρ c main_arg24 (by decide)).trans (arg24_at11 m ρ c)
theorem arg24_at13 (c : Dev nD) : W13 m ρ c (Proc.devRef .tc main_arg24) = m ((c : Thread nD τ).loc main_arg24) :=
  (keepH6 m ρ c main_arg24 (by decide)).trans (arg24_at12 m ρ c)
theorem arg24_at14 (c : Dev nD) : W14 m ρ c (Proc.devRef .tc main_arg24) = m ((c : Thread nD τ).loc main_arg24) :=
  (keepR6 m ρ c main_arg24 (by decide)).trans (arg24_at13 m ρ c)
theorem arg24_at15 (c : Dev nD) : W15 m ρ c (Proc.devRef .tc main_arg24) = m ((c : Thread nD τ).loc main_arg24) :=
  (keepH7 m ρ c main_arg24 (by decide)).trans (arg24_at14 m ρ c)
theorem arg24_at16 (c : Dev nD) : W16 m ρ c (Proc.devRef .tc main_arg24) = m ((c : Thread nD τ).loc main_arg24) :=
  (keepR7 m ρ c main_arg24 (by decide)).trans (arg24_at15 m ρ c)
theorem arg24_at17 (c : Dev nD) : W17 m ρ c (Proc.devRef .tc main_arg24) = m ((c : Thread nD τ).loc main_arg24) :=
  (keepH8 m ρ c main_arg24 (by decide)).trans (arg24_at16 m ρ c)
theorem arg24_at18 (c : Dev nD) : W18 m ρ c (Proc.devRef .tc main_arg24) = m ((c : Thread nD τ).loc main_arg24) :=
  (keepR8 m ρ c main_arg24 (by decide)).trans (arg24_at17 m ρ c)

theorem arg25_at1 (c : Dev nD) : W1 m ρ c (Proc.devRef .tc main_arg25) = m ((c : Thread nD τ).loc main_arg25) :=
  (keepH0 m ρ c main_arg25 (by decide)).trans rfl
theorem arg25_at2 (c : Dev nD) : W2 m ρ c (Proc.devRef .tc main_arg25) = m ((c : Thread nD τ).loc main_arg25) :=
  (keepR0 m ρ c main_arg25 (by decide)).trans (arg25_at1 m ρ c)
theorem arg25_at3 (c : Dev nD) : W3 m ρ c (Proc.devRef .tc main_arg25) = m ((c : Thread nD τ).loc main_arg25) :=
  (keepH1 m ρ c main_arg25 (by decide)).trans (arg25_at2 m ρ c)
theorem arg25_at4 (c : Dev nD) : W4 m ρ c (Proc.devRef .tc main_arg25) = m ((c : Thread nD τ).loc main_arg25) :=
  (keepR1 m ρ c main_arg25 (by decide)).trans (arg25_at3 m ρ c)
theorem arg25_at5 (c : Dev nD) : W5 m ρ c (Proc.devRef .tc main_arg25) = m ((c : Thread nD τ).loc main_arg25) :=
  (keepH2 m ρ c main_arg25 (by decide)).trans (arg25_at4 m ρ c)
theorem arg25_at6 (c : Dev nD) : W6 m ρ c (Proc.devRef .tc main_arg25) = m ((c : Thread nD τ).loc main_arg25) :=
  (keepR2 m ρ c main_arg25 (by decide)).trans (arg25_at5 m ρ c)
theorem arg25_at7 (c : Dev nD) : W7 m ρ c (Proc.devRef .tc main_arg25) = m ((c : Thread nD τ).loc main_arg25) :=
  (keepH3 m ρ c main_arg25 (by decide)).trans (arg25_at6 m ρ c)
theorem arg25_at8 (c : Dev nD) : W8 m ρ c (Proc.devRef .tc main_arg25) = m ((c : Thread nD τ).loc main_arg25) :=
  (keepR3 m ρ c main_arg25 (by decide)).trans (arg25_at7 m ρ c)
theorem arg25_at9 (c : Dev nD) : W9 m ρ c (Proc.devRef .tc main_arg25) = m ((c : Thread nD τ).loc main_arg25) :=
  (keepH4 m ρ c main_arg25 (by decide)).trans (arg25_at8 m ρ c)
theorem arg25_at10 (c : Dev nD) : W10 m ρ c (Proc.devRef .tc main_arg25) = m ((c : Thread nD τ).loc main_arg25) :=
  (keepR4 m ρ c main_arg25 (by decide)).trans (arg25_at9 m ρ c)
theorem arg25_at11 (c : Dev nD) : W11 m ρ c (Proc.devRef .tc main_arg25) = m ((c : Thread nD τ).loc main_arg25) :=
  (keepH5 m ρ c main_arg25 (by decide)).trans (arg25_at10 m ρ c)
theorem arg25_at12 (c : Dev nD) : W12 m ρ c (Proc.devRef .tc main_arg25) = m ((c : Thread nD τ).loc main_arg25) :=
  (keepR5 m ρ c main_arg25 (by decide)).trans (arg25_at11 m ρ c)
theorem arg25_at13 (c : Dev nD) : W13 m ρ c (Proc.devRef .tc main_arg25) = m ((c : Thread nD τ).loc main_arg25) :=
  (keepH6 m ρ c main_arg25 (by decide)).trans (arg25_at12 m ρ c)
theorem arg25_at14 (c : Dev nD) : W14 m ρ c (Proc.devRef .tc main_arg25) = m ((c : Thread nD τ).loc main_arg25) :=
  (keepR6 m ρ c main_arg25 (by decide)).trans (arg25_at13 m ρ c)
theorem arg25_at15 (c : Dev nD) : W15 m ρ c (Proc.devRef .tc main_arg25) = m ((c : Thread nD τ).loc main_arg25) :=
  (keepH7 m ρ c main_arg25 (by decide)).trans (arg25_at14 m ρ c)
theorem arg25_at16 (c : Dev nD) : W16 m ρ c (Proc.devRef .tc main_arg25) = m ((c : Thread nD τ).loc main_arg25) :=
  (keepR7 m ρ c main_arg25 (by decide)).trans (arg25_at15 m ρ c)
theorem arg25_at17 (c : Dev nD) : W17 m ρ c (Proc.devRef .tc main_arg25) = m ((c : Thread nD τ).loc main_arg25) :=
  (keepH8 m ρ c main_arg25 (by decide)).trans (arg25_at16 m ρ c)
theorem arg25_at18 (c : Dev nD) : W18 m ρ c (Proc.devRef .tc main_arg25) = m ((c : Thread nD τ).loc main_arg25) :=
  (keepR8 m ρ c main_arg25 (by decide)).trans (arg25_at17 m ρ c)
theorem arg25_at19 (c : Dev nD) : W19 m ρ c (Proc.devRef .tc main_arg25) = m ((c : Thread nD τ).loc main_arg25) :=
  (keepH9 m ρ c main_arg25 (by decide)).trans (arg25_at18 m ρ c)

theorem arg26_at1 (c : Dev nD) : W1 m ρ c (Proc.devRef .tc main_arg26) = m ((c : Thread nD τ).loc main_arg26) :=
  (keepH0 m ρ c main_arg26 (by decide)).trans rfl
theorem arg26_at2 (c : Dev nD) : W2 m ρ c (Proc.devRef .tc main_arg26) = m ((c : Thread nD τ).loc main_arg26) :=
  (keepR0 m ρ c main_arg26 (by decide)).trans (arg26_at1 m ρ c)
theorem arg26_at3 (c : Dev nD) : W3 m ρ c (Proc.devRef .tc main_arg26) = m ((c : Thread nD τ).loc main_arg26) :=
  (keepH1 m ρ c main_arg26 (by decide)).trans (arg26_at2 m ρ c)
theorem arg26_at4 (c : Dev nD) : W4 m ρ c (Proc.devRef .tc main_arg26) = m ((c : Thread nD τ).loc main_arg26) :=
  (keepR1 m ρ c main_arg26 (by decide)).trans (arg26_at3 m ρ c)
theorem arg26_at5 (c : Dev nD) : W5 m ρ c (Proc.devRef .tc main_arg26) = m ((c : Thread nD τ).loc main_arg26) :=
  (keepH2 m ρ c main_arg26 (by decide)).trans (arg26_at4 m ρ c)
theorem arg26_at6 (c : Dev nD) : W6 m ρ c (Proc.devRef .tc main_arg26) = m ((c : Thread nD τ).loc main_arg26) :=
  (keepR2 m ρ c main_arg26 (by decide)).trans (arg26_at5 m ρ c)
theorem arg26_at7 (c : Dev nD) : W7 m ρ c (Proc.devRef .tc main_arg26) = m ((c : Thread nD τ).loc main_arg26) :=
  (keepH3 m ρ c main_arg26 (by decide)).trans (arg26_at6 m ρ c)
theorem arg26_at8 (c : Dev nD) : W8 m ρ c (Proc.devRef .tc main_arg26) = m ((c : Thread nD τ).loc main_arg26) :=
  (keepR3 m ρ c main_arg26 (by decide)).trans (arg26_at7 m ρ c)
theorem arg26_at9 (c : Dev nD) : W9 m ρ c (Proc.devRef .tc main_arg26) = m ((c : Thread nD τ).loc main_arg26) :=
  (keepH4 m ρ c main_arg26 (by decide)).trans (arg26_at8 m ρ c)
theorem arg26_at10 (c : Dev nD) : W10 m ρ c (Proc.devRef .tc main_arg26) = m ((c : Thread nD τ).loc main_arg26) :=
  (keepR4 m ρ c main_arg26 (by decide)).trans (arg26_at9 m ρ c)
theorem arg26_at11 (c : Dev nD) : W11 m ρ c (Proc.devRef .tc main_arg26) = m ((c : Thread nD τ).loc main_arg26) :=
  (keepH5 m ρ c main_arg26 (by decide)).trans (arg26_at10 m ρ c)
theorem arg26_at12 (c : Dev nD) : W12 m ρ c (Proc.devRef .tc main_arg26) = m ((c : Thread nD τ).loc main_arg26) :=
  (keepR5 m ρ c main_arg26 (by decide)).trans (arg26_at11 m ρ c)
theorem arg26_at13 (c : Dev nD) : W13 m ρ c (Proc.devRef .tc main_arg26) = m ((c : Thread nD τ).loc main_arg26) :=
  (keepH6 m ρ c main_arg26 (by decide)).trans (arg26_at12 m ρ c)
theorem arg26_at14 (c : Dev nD) : W14 m ρ c (Proc.devRef .tc main_arg26) = m ((c : Thread nD τ).loc main_arg26) :=
  (keepR6 m ρ c main_arg26 (by decide)).trans (arg26_at13 m ρ c)
theorem arg26_at15 (c : Dev nD) : W15 m ρ c (Proc.devRef .tc main_arg26) = m ((c : Thread nD τ).loc main_arg26) :=
  (keepH7 m ρ c main_arg26 (by decide)).trans (arg26_at14 m ρ c)
theorem arg26_at16 (c : Dev nD) : W16 m ρ c (Proc.devRef .tc main_arg26) = m ((c : Thread nD τ).loc main_arg26) :=
  (keepR7 m ρ c main_arg26 (by decide)).trans (arg26_at15 m ρ c)
theorem arg26_at17 (c : Dev nD) : W17 m ρ c (Proc.devRef .tc main_arg26) = m ((c : Thread nD τ).loc main_arg26) :=
  (keepH8 m ρ c main_arg26 (by decide)).trans (arg26_at16 m ρ c)
theorem arg26_at18 (c : Dev nD) : W18 m ρ c (Proc.devRef .tc main_arg26) = m ((c : Thread nD τ).loc main_arg26) :=
  (keepR8 m ρ c main_arg26 (by decide)).trans (arg26_at17 m ρ c)

theorem v1_at2 (c : Dev nD) : W2 m ρ c (Proc.devRef .tc main_v1) = W1 m ρ c (Proc.devRef .tc main_v1) :=
  (keepR0 m ρ c main_v1 (by decide))
theorem v1_at3 (c : Dev nD) : W3 m ρ c (Proc.devRef .tc main_v1) = W1 m ρ c (Proc.devRef .tc main_v1) :=
  (keepH1 m ρ c main_v1 (by decide)).trans (v1_at2 m ρ c)
theorem v1_at4 (c : Dev nD) : W4 m ρ c (Proc.devRef .tc main_v1) = W1 m ρ c (Proc.devRef .tc main_v1) :=
  (keepR1 m ρ c main_v1 (by decide)).trans (v1_at3 m ρ c)
theorem v1_at5 (c : Dev nD) : W5 m ρ c (Proc.devRef .tc main_v1) = W1 m ρ c (Proc.devRef .tc main_v1) :=
  (keepH2 m ρ c main_v1 (by decide)).trans (v1_at4 m ρ c)
theorem v1_at6 (c : Dev nD) : W6 m ρ c (Proc.devRef .tc main_v1) = W1 m ρ c (Proc.devRef .tc main_v1) :=
  (keepR2 m ρ c main_v1 (by decide)).trans (v1_at5 m ρ c)
theorem v1_at7 (c : Dev nD) : W7 m ρ c (Proc.devRef .tc main_v1) = W1 m ρ c (Proc.devRef .tc main_v1) :=
  (keepH3 m ρ c main_v1 (by decide)).trans (v1_at6 m ρ c)
theorem v1_at8 (c : Dev nD) : W8 m ρ c (Proc.devRef .tc main_v1) = W1 m ρ c (Proc.devRef .tc main_v1) :=
  (keepR3 m ρ c main_v1 (by decide)).trans (v1_at7 m ρ c)
theorem v1_at9 (c : Dev nD) : W9 m ρ c (Proc.devRef .tc main_v1) = W1 m ρ c (Proc.devRef .tc main_v1) :=
  (keepH4 m ρ c main_v1 (by decide)).trans (v1_at8 m ρ c)
theorem v1_at10 (c : Dev nD) : W10 m ρ c (Proc.devRef .tc main_v1) = W1 m ρ c (Proc.devRef .tc main_v1) :=
  (keepR4 m ρ c main_v1 (by decide)).trans (v1_at9 m ρ c)
theorem v1_at11 (c : Dev nD) : W11 m ρ c (Proc.devRef .tc main_v1) = W1 m ρ c (Proc.devRef .tc main_v1) :=
  (keepH5 m ρ c main_v1 (by decide)).trans (v1_at10 m ρ c)
theorem v1_at12 (c : Dev nD) : W12 m ρ c (Proc.devRef .tc main_v1) = W1 m ρ c (Proc.devRef .tc main_v1) :=
  (keepR5 m ρ c main_v1 (by decide)).trans (v1_at11 m ρ c)
theorem v1_at13 (c : Dev nD) : W13 m ρ c (Proc.devRef .tc main_v1) = W1 m ρ c (Proc.devRef .tc main_v1) :=
  (keepH6 m ρ c main_v1 (by decide)).trans (v1_at12 m ρ c)
theorem v1_at14 (c : Dev nD) : W14 m ρ c (Proc.devRef .tc main_v1) = W1 m ρ c (Proc.devRef .tc main_v1) :=
  (keepR6 m ρ c main_v1 (by decide)).trans (v1_at13 m ρ c)

theorem v3_at2 (c : Dev nD) : W2 m ρ c (Proc.devRef .tc main_v3) = W1 m ρ c (Proc.devRef .tc main_v3) :=
  (keepR0 m ρ c main_v3 (by decide))
theorem v3_at3 (c : Dev nD) : W3 m ρ c (Proc.devRef .tc main_v3) = W1 m ρ c (Proc.devRef .tc main_v3) :=
  (keepH1 m ρ c main_v3 (by decide)).trans (v3_at2 m ρ c)
theorem v3_at4 (c : Dev nD) : W4 m ρ c (Proc.devRef .tc main_v3) = W1 m ρ c (Proc.devRef .tc main_v3) :=
  (keepR1 m ρ c main_v3 (by decide)).trans (v3_at3 m ρ c)
theorem v3_at5 (c : Dev nD) : W5 m ρ c (Proc.devRef .tc main_v3) = W1 m ρ c (Proc.devRef .tc main_v3) :=
  (keepH2 m ρ c main_v3 (by decide)).trans (v3_at4 m ρ c)
theorem v3_at6 (c : Dev nD) : W6 m ρ c (Proc.devRef .tc main_v3) = W1 m ρ c (Proc.devRef .tc main_v3) :=
  (keepR2 m ρ c main_v3 (by decide)).trans (v3_at5 m ρ c)
theorem v3_at7 (c : Dev nD) : W7 m ρ c (Proc.devRef .tc main_v3) = W1 m ρ c (Proc.devRef .tc main_v3) :=
  (keepH3 m ρ c main_v3 (by decide)).trans (v3_at6 m ρ c)
theorem v3_at8 (c : Dev nD) : W8 m ρ c (Proc.devRef .tc main_v3) = W1 m ρ c (Proc.devRef .tc main_v3) :=
  (keepR3 m ρ c main_v3 (by decide)).trans (v3_at7 m ρ c)
theorem v3_at9 (c : Dev nD) : W9 m ρ c (Proc.devRef .tc main_v3) = W1 m ρ c (Proc.devRef .tc main_v3) :=
  (keepH4 m ρ c main_v3 (by decide)).trans (v3_at8 m ρ c)
theorem v3_at10 (c : Dev nD) : W10 m ρ c (Proc.devRef .tc main_v3) = W1 m ρ c (Proc.devRef .tc main_v3) :=
  (keepR4 m ρ c main_v3 (by decide)).trans (v3_at9 m ρ c)
theorem v3_at11 (c : Dev nD) : W11 m ρ c (Proc.devRef .tc main_v3) = W1 m ρ c (Proc.devRef .tc main_v3) :=
  (keepH5 m ρ c main_v3 (by decide)).trans (v3_at10 m ρ c)
theorem v3_at12 (c : Dev nD) : W12 m ρ c (Proc.devRef .tc main_v3) = W1 m ρ c (Proc.devRef .tc main_v3) :=
  (keepR5 m ρ c main_v3 (by decide)).trans (v3_at11 m ρ c)
theorem v3_at13 (c : Dev nD) : W13 m ρ c (Proc.devRef .tc main_v3) = W1 m ρ c (Proc.devRef .tc main_v3) :=
  (keepH6 m ρ c main_v3 (by decide)).trans (v3_at12 m ρ c)
theorem v3_at14 (c : Dev nD) : W14 m ρ c (Proc.devRef .tc main_v3) = W1 m ρ c (Proc.devRef .tc main_v3) :=
  (keepR6 m ρ c main_v3 (by decide)).trans (v3_at13 m ρ c)
theorem v3_at15 (c : Dev nD) : W15 m ρ c (Proc.devRef .tc main_v3) = W1 m ρ c (Proc.devRef .tc main_v3) :=
  (keepH7 m ρ c main_v3 (by decide)).trans (v3_at14 m ρ c)
theorem v3_at16 (c : Dev nD) : W16 m ρ c (Proc.devRef .tc main_v3) = W1 m ρ c (Proc.devRef .tc main_v3) :=
  (keepR7 m ρ c main_v3 (by decide)).trans (v3_at15 m ρ c)

theorem v6_at4 (c : Dev nD) : W4 m ρ c (Proc.devRef .tc main_v6) = W3 m ρ c (Proc.devRef .tc main_v6) :=
  (keepR1 m ρ c main_v6 (by decide))
theorem v6_at5 (c : Dev nD) : W5 m ρ c (Proc.devRef .tc main_v6) = W3 m ρ c (Proc.devRef .tc main_v6) :=
  (keepH2 m ρ c main_v6 (by decide)).trans (v6_at4 m ρ c)
theorem v6_at6 (c : Dev nD) : W6 m ρ c (Proc.devRef .tc main_v6) = W3 m ρ c (Proc.devRef .tc main_v6) :=
  (keepR2 m ρ c main_v6 (by decide)).trans (v6_at5 m ρ c)
theorem v6_at7 (c : Dev nD) : W7 m ρ c (Proc.devRef .tc main_v6) = W3 m ρ c (Proc.devRef .tc main_v6) :=
  (keepH3 m ρ c main_v6 (by decide)).trans (v6_at6 m ρ c)
theorem v6_at8 (c : Dev nD) : W8 m ρ c (Proc.devRef .tc main_v6) = W3 m ρ c (Proc.devRef .tc main_v6) :=
  (keepR3 m ρ c main_v6 (by decide)).trans (v6_at7 m ρ c)

theorem v7_at4 (c : Dev nD) : W4 m ρ c (Proc.devRef .tc main_v7) = W3 m ρ c (Proc.devRef .tc main_v7) :=
  (keepR1 m ρ c main_v7 (by decide))
theorem v7_at5 (c : Dev nD) : W5 m ρ c (Proc.devRef .tc main_v7) = W3 m ρ c (Proc.devRef .tc main_v7) :=
  (keepH2 m ρ c main_v7 (by decide)).trans (v7_at4 m ρ c)
theorem v7_at6 (c : Dev nD) : W6 m ρ c (Proc.devRef .tc main_v7) = W3 m ρ c (Proc.devRef .tc main_v7) :=
  (keepR2 m ρ c main_v7 (by decide)).trans (v7_at5 m ρ c)
theorem v7_at7 (c : Dev nD) : W7 m ρ c (Proc.devRef .tc main_v7) = W3 m ρ c (Proc.devRef .tc main_v7) :=
  (keepH3 m ρ c main_v7 (by decide)).trans (v7_at6 m ρ c)
theorem v7_at8 (c : Dev nD) : W8 m ρ c (Proc.devRef .tc main_v7) = W3 m ρ c (Proc.devRef .tc main_v7) :=
  (keepR3 m ρ c main_v7 (by decide)).trans (v7_at7 m ρ c)
theorem v7_at9 (c : Dev nD) : W9 m ρ c (Proc.devRef .tc main_v7) = W3 m ρ c (Proc.devRef .tc main_v7) :=
  (keepH4 m ρ c main_v7 (by decide)).trans (v7_at8 m ρ c)
theorem v7_at10 (c : Dev nD) : W10 m ρ c (Proc.devRef .tc main_v7) = W3 m ρ c (Proc.devRef .tc main_v7) :=
  (keepR4 m ρ c main_v7 (by decide)).trans (v7_at9 m ρ c)
theorem v7_at11 (c : Dev nD) : W11 m ρ c (Proc.devRef .tc main_v7) = W3 m ρ c (Proc.devRef .tc main_v7) :=
  (keepH5 m ρ c main_v7 (by decide)).trans (v7_at10 m ρ c)
theorem v7_at12 (c : Dev nD) : W12 m ρ c (Proc.devRef .tc main_v7) = W3 m ρ c (Proc.devRef .tc main_v7) :=
  (keepR5 m ρ c main_v7 (by decide)).trans (v7_at11 m ρ c)
theorem v7_at13 (c : Dev nD) : W13 m ρ c (Proc.devRef .tc main_v7) = W3 m ρ c (Proc.devRef .tc main_v7) :=
  (keepH6 m ρ c main_v7 (by decide)).trans (v7_at12 m ρ c)
theorem v7_at14 (c : Dev nD) : W14 m ρ c (Proc.devRef .tc main_v7) = W3 m ρ c (Proc.devRef .tc main_v7) :=
  (keepR6 m ρ c main_v7 (by decide)).trans (v7_at13 m ρ c)
theorem v7_at15 (c : Dev nD) : W15 m ρ c (Proc.devRef .tc main_v7) = W3 m ρ c (Proc.devRef .tc main_v7) :=
  (keepH7 m ρ c main_v7 (by decide)).trans (v7_at14 m ρ c)

theorem v15_at4 (c : Dev nD) : W4 m ρ c (Proc.devRef .tc main_v15) = W3 m ρ c (Proc.devRef .tc main_v15) :=
  (keepR1 m ρ c main_v15 (by decide))
theorem v15_at5 (c : Dev nD) : W5 m ρ c (Proc.devRef .tc main_v15) = W3 m ρ c (Proc.devRef .tc main_v15) :=
  (keepH2 m ρ c main_v15 (by decide)).trans (v15_at4 m ρ c)

theorem v49_at7 (c : Dev nD) : W7 m ρ c (Proc.devRef .tc main_v49) = W6 m ρ c (Proc.devRef .tc main_v49) :=
  (keepH3 m ρ c main_v49 (by decide))
theorem v49_at8 (c : Dev nD) : W8 m ρ c (Proc.devRef .tc main_v49) = W6 m ρ c (Proc.devRef .tc main_v49) :=
  (keepR3 m ρ c main_v49 (by decide)).trans (v49_at7 m ρ c)

theorem v56_at10 (c : Dev nD) : W10 m ρ c (Proc.devRef .tc main_v56) = W9 m ρ c (Proc.devRef .tc main_v56) :=
  (keepR4 m ρ c main_v56 (by decide))
theorem v56_at11 (c : Dev nD) : W11 m ρ c (Proc.devRef .tc main_v56) = W9 m ρ c (Proc.devRef .tc main_v56) :=
  (keepH5 m ρ c main_v56 (by decide)).trans (v56_at10 m ρ c)
theorem v56_at12 (c : Dev nD) : W12 m ρ c (Proc.devRef .tc main_v56) = W9 m ρ c (Proc.devRef .tc main_v56) :=
  (keepR5 m ρ c main_v56 (by decide)).trans (v56_at11 m ρ c)
theorem v56_at13 (c : Dev nD) : W13 m ρ c (Proc.devRef .tc main_v56) = W9 m ρ c (Proc.devRef .tc main_v56) :=
  (keepH6 m ρ c main_v56 (by decide)).trans (v56_at12 m ρ c)
theorem v56_at14 (c : Dev nD) : W14 m ρ c (Proc.devRef .tc main_v56) = W9 m ρ c (Proc.devRef .tc main_v56) :=
  (keepR6 m ρ c main_v56 (by decide)).trans (v56_at13 m ρ c)

theorem v64_at10 (c : Dev nD) : W10 m ρ c (Proc.devRef .tc main_v64) = W9 m ρ c (Proc.devRef .tc main_v64) :=
  (keepR4 m ρ c main_v64 (by decide))
theorem v64_at11 (c : Dev nD) : W11 m ρ c (Proc.devRef .tc main_v64) = W9 m ρ c (Proc.devRef .tc main_v64) :=
  (keepH5 m ρ c main_v64 (by decide)).trans (v64_at10 m ρ c)

theorem v98_at13 (c : Dev nD) : W13 m ρ c (Proc.devRef .tc main_v98) = W12 m ρ c (Proc.devRef .tc main_v98) :=
  (keepH6 m ρ c main_v98 (by decide))
theorem v98_at14 (c : Dev nD) : W14 m ρ c (Proc.devRef .tc main_v98) = W12 m ρ c (Proc.devRef .tc main_v98) :=
  (keepR6 m ρ c main_v98 (by decide)).trans (v98_at13 m ρ c)

theorem v113_at16 (c : Dev nD) : W16 m ρ c (Proc.devRef .tc main_v113) = W15 m ρ c (Proc.devRef .tc main_v113) :=
  (keepR7 m ρ c main_v113 (by decide))
theorem v113_at17 (c : Dev nD) : W17 m ρ c (Proc.devRef .tc main_v113) = W15 m ρ c (Proc.devRef .tc main_v113) :=
  (keepH8 m ρ c main_v113 (by decide)).trans (v113_at16 m ρ c)

end Cert.KernelIdeal.Hold

end
-- ==== Proof.Spec.lean ====
/-
  The network both programs compute, written once over the extended reals.

  A node table h : [N, 64] is first a linear map of the node features. Three times over: every node adds its graph's
  virtual-node row (a gather by graph number), every edge forms relu (h[src] + (edge features · W + b)), the edge
  messages are summed into their target nodes (a scatter-add), and each node's row passes through a two-layer
  perceptron and an affine normalisation with a learned scale, followed by relu; after the first two rounds the
  rows of each graph are summed (a scatter-add by graph number) and a two-layer perceptron of that sum is added to
  the graph's virtual-node row. At the end the rows of each graph are averaged and, together with a hidden layer
  of the peptide embedding, feed a two-layer classifier.

  The four irregular maps (two gathers, two scatter-adds) are PARAMETERS of the model: both programs apply the same
  ones, and nothing below looks inside them. Everything else is given entry by entry: a row of a result depends on
  the same row of the row-shaped operands and on the whole weight matrices.
-/
import Idealize.ShloMosaic.PureOps.Ideal.Laws
import Idealize.ShloMosaic.Lib.ValueIdx

noncomputable section

namespace Gnn

open Idealize.ShloMosaic Idealize.ShloMosaic.ValueIdx

/-- A matrix of extended reals. -/
abbrev Mat (r c : ℕ) : Type := FVec Ideal ⟨2, ![r, c]⟩ .f32
/-- A vector of extended reals. -/
abbrev Vct (n : ℕ) : Type := FVec Ideal ⟨1, ![n]⟩ .f32

/-- The positive part, against the zero word both programs use. -/
def relu (x : EReal) : EReal := max x (Ideal.ofBits .f32 0x00000000#32)

/-- The variance offset of the normalisation: the word both programs print for 1e-5. -/
def eps : EReal := Ideal.ofBits .f32 0x3727C5AC#32

/-- Entry (r, j) of X · W + b. -/
def linAt {R K N : ℕ} (X : Mat R K) (W : Mat K N) (b : Vct N) (r : Fin R) (j : Fin N) : EReal :=
  (∑ k : Fin K, X (ix2 r k) * W (ix2 k j)) + b (ix1 j)

/-- X · W + b. -/
def lin {R K N : ℕ} (X : Mat R K) (W : Mat K N) (b : Vct N) : Mat R N := fun i => linAt X W b (i 0) (i 1)

/-- Entry (e, j) of an edge message: relu (h[src] + (edge features · W + b)). -/
def msgAt {E : ℕ} (Hs : Mat E 64) (EA : Mat E 2) (W : Mat 2 64) (b : Vct 64) (e : Fin E) (j : Fin 64) : EReal :=
  relu (Hs (ix2 e j) + linAt EA W b e j)

def msg {E : ℕ} (Hs : Mat E 64) (EA : Mat E 2) (W : Mat 2 64) (b : Vct 64) : Mat E 64 :=
  fun i => msgAt Hs EA W b (i 0) (i 1)

/-- Entry (r, j) of relu (P · W₁ + b₁) · W₂ + b₂. -/
def mlpAt {R : ℕ} (P : Mat R 64) (W1 : Mat 64 64) (b1 : Vct 64) (W2 : Mat 64 64) (b2 : Vct 64) (r : Fin R) (j : Fin 64) : EReal :=
  (∑ k : Fin 64, relu (linAt P W1 b1 r k) * W2 (ix2 k j)) + b2 (ix1 j)

def mlp {R : ℕ} (P : Mat R 64) (W1 : Mat 64 64) (b1 : Vct 64) (W2 : Mat 64 64) (b2 : Vct 64) : Mat R 64 :=
  fun i => mlpAt P W1 b1 W2 b2 (i 0) (i 1)

/-- One round's weights. -/
structure Layer where
  w1 : Mat 64 64
  b1 : Vct 64
  w2 : Mat 64 64
  b2 : Vct 64
  scale : Vct 64
  shift : Vct 64
  mean : Vct 64
  var : Vct 64

/-- Entry (r, j) of a node update: the perceptron of h + agg, normalised, scaled, shifted, then relu. -/
def nodeAt {R : ℕ} (H A : Mat R 64) (L : Layer) (r : Fin R) (j : Fin 64) : EReal :=
  relu (((mlpAt (addf H A) L.w1 L.b1 L.w2 L.b2 r j - L.mean (ix1 j)) * Ideal.rsqrt (L.var (ix1 j) + eps)) * L.scale (ix1 j)
    + L.shift (ix1 j))

def node {R : ℕ} (H A : Mat R 64) (L : Layer) : Mat R 64 := fun i => nodeAt H A L (i 0) (i 1)

/-- The classifier at graph g: the first layer's 128 inputs are the graph's mean row (rows 0–63 of its weight matrix)
    and the peptide's hidden row (rows 64–127). -/
def clsAt {G : ℕ} (GE : Mat G 64) (Pep : Mat G 768) (Wp : Mat 768 64) (bp : Vct 64) (W1 : Mat 128 64) (b1 : Vct 64)
    (W2 : Mat 64 1) (b2 : Vct 1) (g : Fin G) : EReal :=
  (∑ k : Fin 64,
      relu (((∑ l : Fin 64, GE (ix2 g l) * W1 (ix2 (⟨l.val, by omega⟩ : Fin 128) k))
            + (∑ l : Fin 64, relu (linAt Pep Wp bp g l) * W1 (ix2 (⟨64 + l.val, by omega⟩ : Fin 128) k)))
          + b1 (ix1 k))
        * W2 (ix2 k (0 : Fin 1)))
    + b2 (ix1 (0 : Fin 1))

def cls {G : ℕ} (GE : Mat G 64) (Pep : Mat G 768) (Wp : Mat 768 64) (bp : Vct 64) (W1 : Mat 128 64) (b1 : Vct 64)
    (W2 : Mat 64 1) (b2 : Vct 1) : Mat G 1 := fun i => clsAt GE Pep Wp bp W1 b1 W2 b2 (i 0)

/-- The irregular maps, shared by the two programs. -/
structure Irreg where
  /-- each node's graph row of a per-graph table -/
  byGraph : Mat 2048 64 → Mat 100000 64
  /-- each edge's source row of the node table -/
  bySource : Mat 100000 64 → Mat 1600000 64
  /-- edge rows summed into their target nodes -/
  toTarget : Mat 1600000 64 → Mat 100000 64
  /-- node rows summed into their graphs -/
  toGraph : Mat 100000 64 → Mat 2048 64

/-- The regular inputs: features, weights, the virtual node's start and the pooling divisor. -/
structure Params where
  x : Mat 100000 32
  ea : Mat 1600000 2
  pep : Mat 2048 768
  inW : Mat 32 64
  inB : Vct 64
  eW : Mat 2 64
  eB : Vct 64
  l1 : Layer
  l2 : Layer
  l3 : Layer
  vW1 : Mat 64 64
  vB1 : Vct 64
  vW2 : Mat 64 64
  vB2 : Vct 64
  pW : Mat 768 64
  pB : Vct 64
  cW1 : Mat 128 64
  cB1 : Vct 64
  cW2 : Mat 64 1
  cB2 : Vct 1
  vn0 : Mat 2048 64
  den : Mat 2048 64

variable (I : Irreg) (P : Params)

/-- One round on a node table that already holds the virtual node's rows. -/
def round (L : Layer) (hin : Mat 100000 64) : Mat 100000 64 :=
  node hin (I.toTarget (msg (I.bySource hin) P.ea P.eW P.eB)) L

/-- The virtual node after a round. -/
def vnNext (vn : Mat 2048 64) (h : Mat 100000 64) : Mat 2048 64 :=
  addf vn (mlp (I.toGraph h) P.vW1 P.vB1 P.vW2 P.vB2)

def h0 : Mat 100000 64 := lin P.x P.inW P.inB
def hin1 : Mat 100000 64 := addf (h0 P) (I.byGraph P.vn0)
def h1 : Mat 100000 64 := round I P P.l1 (hin1 I P)
def vn1 : Mat 2048 64 := vnNext I P P.vn0 (h1 I P)
def hin2 : Mat 100000 64 := addf (h1 I P) (I.byGraph (vn1 I P))
def h2 : Mat 100000 64 := round I P P.l2 (hin2 I P)
def vn2 : Mat 2048 64 := vnNext I P (vn1 I P) (h2 I P)
def hin3 : Mat 100000 64 := addf (h2 I P) (I.byGraph (vn2 I P))
def h3 : Mat 100000 64 := round I P P.l3 (hin3 I P)
/-- Each graph's mean row. -/
def graphMean : Mat 2048 64 := Host.divf (I.toGraph (h3 I P)) P.den
/-- The logits, one per graph, as a column. -/
def logits : Mat 2048 1 := cls (graphMean I P) P.pep P.pW P.pB P.cW1 P.cB1 P.cW2 P.cB2

end Gnn

end
-- ==== Proof.KernelModelDefs.lean ====
/-
  The idealized kernel program's irregular maps and regular inputs, in the program's own terms.

  The four irregular maps are the program's two gathers and two scatter-adds with their index operands as the program
  computes them from the edge index array and the graph numbers (a negative index is moved up by the table's length,
  then laid out as a one-column array). A per-round weight is the program's slice of the stacked weight array, reshaped;
  the virtual node starts at the zero array; the pooling divisor is the per-graph node count, at least one, repeated
  across the 64 columns.
-/
import proofs.«125701_j46669114638593_1_alg».proof.Proof.Gen.KernelIdeal
import Idealize.ShloMosaic.PureOps.Ideal
import proofs.«125701_j46669114638593_1_alg».proof.Proof.Spec

noncomputable section

namespace Cert.KernelIdeal.KerValue

open Cert.KernelIdeal Cert.KernelIdeal.Gen Idealize.ShloMosaic

/-- The program's gathers and scatter-adds, each with the index operand the program builds. -/
def irreg (x1 : (⟨S2x1600000, .i32⟩ : BufTy).Contents (Elt Ideal)) (x2 : (⟨S100000, .i32⟩ : BufTy).Contents (Elt Ideal)) : Gnn.Irreg where
  byGraph t := Host.gather gather_S2048x64_S100000x1_S100000x64_1_0_n_n_0_1_164 t
    (broadcastInDim S100000x1 ![0] bcast_S100000_S100000x1_0 (select (cmpi .slt x2 (broadcastInDim S100000 ![] bcast_S_S100000 (constantI S_ 32 0#32))) (addi x2 (broadcastInDim S100000 ![] bcast_S_S100000 (constantI S_ 32 2048#32))) x2))
  bySource t := Host.gather gather_S100000x64_S1600000x1_S1600000x64_1_0_n_n_0_1_164 t
    (broadcastInDim S1600000x1 ![0] bcast_S1600000_S1600000x1_0 (select (cmpi .slt (shapeCast _ (extractStridedSlice S1x1600000 ![0, 0] x1 slices_S2x1600000_S1x1600000_0_0) shapeCasts_S1x1600000_S1600000) (broadcastInDim S1600000 ![] bcast_S_S1600000 (constantI S_ 32 0#32))) (addi (shapeCast _ (extractStridedSlice S1x1600000 ![0, 0] x1 slices_S2x1600000_S1x1600000_0_0) shapeCasts_S1x1600000_S1600000) (broadcastInDim S1600000 ![] bcast_S_S1600000 (constantI S_ 32 100000#32))) (shapeCast _ (extractStridedSlice S1x1600000 ![0, 0] x1 slices_S2x1600000_S1x1600000_0_0) shapeCasts_S1x1600000_S1600000)))
  toTarget u := Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 (shapeCast _ (extractStridedSlice S1x1600000 ![1, 0] x1 slices_S2x1600000_S1x1600000_1_0) shapeCasts_S1x1600000_S1600000)) u
  toGraph u := Host.scatterAdd scatter_S2048x64_S100000x1_S100000x64_1_0_0_1
    (broadcastInDim S2048x64 ![] bcast_S_S2048x64 (constant (F := Ideal) S_ .f32 0x00000000#32))
    (broadcastInDim S100000x1 ![0] bcast_S100000_S100000x1_0 x2) u

/-- Round 1's weights: slice 0 of each stacked weight array, as the program slices and reshapes it. -/
def layer1 (x9 : (⟨S3x64x64, .f32⟩ : BufTy).Contents (Elt Ideal)) (x10 : (⟨S3x64, .f32⟩ : BufTy).Contents (Elt Ideal)) (x11 : (⟨S3x64x64, .f32⟩ : BufTy).Contents (Elt Ideal))
    (x12 x13 x14 x15 x16 : (⟨S3x64, .f32⟩ : BufTy).Contents (Elt Ideal)) : Gnn.Layer where
  w1 := shapeCast _ (extractStridedSlice S1x64x64 ![0, 0, 0] x9 slices_S3x64x64_S1x64x64_0_0_0) shapeCasts_S1x64x64_S64x64
  b1 := shapeCast _ (extractStridedSlice S1x64 ![0, 0] x10 slices_S3x64_S1x64_0_0) shapeCasts_S1x64_S64
  w2 := shapeCast _ (extractStridedSlice S1x64x64 ![0, 0, 0] x11 slices_S3x64x64_S1x64x64_0_0_0) shapeCasts_S1x64x64_S64x64
  b2 := shapeCast _ (extractStridedSlice S1x64 ![0, 0] x12 slices_S3x64_S1x64_0_0) shapeCasts_S1x64_S64
  scale := shapeCast _ (extractStridedSlice S1x64 ![0, 0] x13 slices_S3x64_S1x64_0_0) shapeCasts_S1x64_S64
  shift := shapeCast _ (extractStridedSlice S1x64 ![0, 0] x14 slices_S3x64_S1x64_0_0) shapeCasts_S1x64_S64
  mean := shapeCast _ (extractStridedSlice S1x64 ![0, 0] x15 slices_S3x64_S1x64_0_0) shapeCasts_S1x64_S64
  var := shapeCast _ (extractStridedSlice S1x64 ![0, 0] x16 slices_S3x64_S1x64_0_0) shapeCasts_S1x64_S64

/-- Round 2's weights: slice 1 of each stacked weight array, as the program slices and reshapes it. -/
def layer2 (x9 : (⟨S3x64x64, .f32⟩ : BufTy).Contents (Elt Ideal)) (x10 : (⟨S3x64, .f32⟩ : BufTy).Contents (Elt Ideal)) (x11 : (⟨S3x64x64, .f32⟩ : BufTy).Contents (Elt Ideal))
    (x12 x13 x14 x15 x16 : (⟨S3x64, .f32⟩ : BufTy).Contents (Elt Ideal)) : Gnn.Layer where
  w1 := shapeCast _ (extractStridedSlice S1x64x64 ![1, 0, 0] x9 slices_S3x64x64_S1x64x64_1_0_0) shapeCasts_S1x64x64_S64x64
  b1 := shapeCast _ (extractStridedSlice S1x64 ![1, 0] x10 slices_S3x64_S1x64_1_0) shapeCasts_S1x64_S64
  w2 := shapeCast _ (extractStridedSlice S1x64x64 ![1, 0, 0] x11 slices_S3x64x64_S1x64x64_1_0_0) shapeCasts_S1x64x64_S64x64
  b2 := shapeCast _ (extractStridedSlice S1x64 ![1, 0] x12 slices_S3x64_S1x64_1_0) shapeCasts_S1x64_S64
  scale := shapeCast _ (extractStridedSlice S1x64 ![1, 0] x13 slices_S3x64_S1x64_1_0) shapeCasts_S1x64_S64
  shift := shapeCast _ (extractStridedSlice S1x64 ![1, 0] x14 slices_S3x64_S1x64_1_0) shapeCasts_S1x64_S64
  mean := shapeCast _ (extractStridedSlice S1x64 ![1, 0] x15 slices_S3x64_S1x64_1_0) shapeCasts_S1x64_S64
  var := shapeCast _ (extractStridedSlice S1x64 ![1, 0] x16 slices_S3x64_S1x64_1_0) shapeCasts_S1x64_S64

/-- Round 3's weights: slice 2 of each stacked weight array, as the program slices and reshapes it. -/
def layer3 (x9 : (⟨S3x64x64, .f32⟩ : BufTy).Contents (Elt Ideal)) (x10 : (⟨S3x64, .f32⟩ : BufTy).Contents (Elt Ideal)) (x11 : (⟨S3x64x64, .f32⟩ : BufTy).Contents (Elt Ideal))
    (x12 x13 x14 x15 x16 : (⟨S3x64, .f32⟩ : BufTy).Contents (Elt Ideal)) : Gnn.Layer where
  w1 := shapeCast _ (extractStridedSlice S1x64x64 ![2, 0, 0] x9 slices_S3x64x64_S1x64x64_2_0_0) shapeCasts_S1x64x64_S64x64
  b1 := shapeCast _ (extractStridedSlice S1x64 ![2, 0] x10 slices_S3x64_S1x64_2_0) shapeCasts_S1x64_S64
  w2 := shapeCast _ (extractStridedSlice S1x64x64 ![2, 0, 0] x11 slices_S3x64x64_S1x64x64_2_0_0) shapeCasts_S1x64x64_S64x64
  b2 := shapeCast _ (extractStridedSlice S1x64 ![2, 0] x12 slices_S3x64_S1x64_2_0) shapeCasts_S1x64_S64
  scale := shapeCast _ (extractStridedSlice S1x64 ![2, 0] x13 slices_S3x64_S1x64_2_0) shapeCasts_S1x64_S64
  shift := shapeCast _ (extractStridedSlice S1x64 ![2, 0] x14 slices_S3x64_S1x64_2_0) shapeCasts_S1x64_S64
  mean := shapeCast _ (extractStridedSlice S1x64 ![2, 0] x15 slices_S3x64_S1x64_2_0) shapeCasts_S1x64_S64
  var := shapeCast _ (extractStridedSlice S1x64 ![2, 0] x16 slices_S3x64_S1x64_2_0) shapeCasts_S1x64_S64

/-- The program's regular inputs: its float arguments, the sliced per-round weights, the zero start of the virtual node
    and the mean pooling's divisor. -/
def params (x0 : (⟨S100000x32, .f32⟩ : BufTy).Contents (Elt Ideal)) (x2 : (⟨S100000, .i32⟩ : BufTy).Contents (Elt Ideal)) (x3 : (⟨S1600000x2, .f32⟩ : BufTy).Contents (Elt Ideal)) (x4 : (⟨S2048x768, .f32⟩ : BufTy).Contents (Elt Ideal)) (x5 : (⟨S32x64, .f32⟩ : BufTy).Contents (Elt Ideal)) (x6 : (⟨S64, .f32⟩ : BufTy).Contents (Elt Ideal)) (x7 : (⟨S2x64, .f32⟩ : BufTy).Contents (Elt Ideal)) (x8 : (⟨S64, .f32⟩ : BufTy).Contents (Elt Ideal)) (x9 : (⟨S3x64x64, .f32⟩ : BufTy).Contents (Elt Ideal)) (x10 : (⟨S3x64, .f32⟩ : BufTy).Contents (Elt Ideal)) (x11 : (⟨S3x64x64, .f32⟩ : BufTy).Contents (Elt Ideal))
    (x12 x13 x14 x15 x16 : (⟨S3x64, .f32⟩ : BufTy).Contents (Elt Ideal)) (x17 : (⟨S64x64, .f32⟩ : BufTy).Contents (Elt Ideal)) (x18 : (⟨S64, .f32⟩ : BufTy).Contents (Elt Ideal)) (x19 : (⟨S64x64, .f32⟩ : BufTy).Contents (Elt Ideal)) (x20 : (⟨S64, .f32⟩ : BufTy).Contents (Elt Ideal)) (x21 : (⟨S768x64, .f32⟩ : BufTy).Contents (Elt Ideal)) (x22 : (⟨S64, .f32⟩ : BufTy).Contents (Elt Ideal)) (x23 : (⟨S128x64, .f32⟩ : BufTy).Contents (Elt Ideal)) (x24 : (⟨S64, .f32⟩ : BufTy).Contents (Elt Ideal)) (x25 : (⟨S64x1, .f32⟩ : BufTy).Contents (Elt Ideal)) (x26 : (⟨S1, .f32⟩ : BufTy).Contents (Elt Ideal)) : Gnn.Params where
  x := x0
  ea := x3
  pep := x4
  inW := x5
  inB := x6
  eW := x7
  eB := x8
  l1 := layer1 x9 x10 x11 x12 x13 x14 x15 x16
  l2 := layer2 x9 x10 x11 x12 x13 x14 x15 x16
  l3 := layer3 x9 x10 x11 x12 x13 x14 x15 x16
  vW1 := x17
  vB1 := x18
  vW2 := x19
  vB2 := x20
  pW := x21
  pB := x22
  cW1 := x23
  cB1 := x24
  cW2 := x25
  cB2 := x26
  vn0 := broadcastInDim S2048x64 ![] bcast_S_S2048x64 (constant (F := Ideal) S_ .f32 0x00000000#32)
  den := broadcastInDim S2048x64 ![0, 1] bcast_S2048x1_S2048x64_0_1 (broadcastInDim S2048x1 ![0] bcast_S2048_S2048x1_0 (maximumf (Host.scatterAdd scatter_S2048_S100000x1_S100000_n_0_0_1 (broadcastInDim S2048 ![] bcast_S_S2048 (constant (F := Ideal) S_ .f32 0x00000000#32)) (broadcastInDim S100000x1 ![0] bcast_S100000_S100000x1_0 x2) (broadcastInDim S100000 ![] bcast_S_S100000 (constant (F := Ideal) S_ .f32 0x3F800000#32))) (broadcastInDim S2048 ![] bcast_S_S2048 (constant (F := Ideal) S_ .f32 0x3F800000#32))))

end Cert.KernelIdeal.KerValue

end
-- ==== Proof.LibPlainDot.lean ====
/-
  A plain matrix product read at an index, at the ideal instance.

  The dimension numbers `DotDims.plain M K N` contract the left operand's second axis with the right
  operand's first: an `M × K` matrix by a `K × N` matrix. Over the extended reals both the kernel's
  matrix product into a zero accumulator and the host's `dot_general` are, at the entry `(i, j)`, the sum
  over `k : Fin K` of `lhs (i, k) * rhs (k, j)`. The library states this sum over the contracted SHAPE's
  index type; here it is re-indexed once, for every `M K N`, over `Fin K`, with both operand indices
  written from coordinates. A printed record whose six lists are those of `DotDims.plain` is that record
  (its well-formedness field is a proposition), so the lemmas apply to it after `rw [show d = .plain _ _ _ from rfl]`.
-/
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat)

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- The contraction of a plain product, re-indexed over `Fin K`. -/
theorem sum_eq (lhs : (⟨2, ![M, K]⟩ : Shape).Idx → EReal) (rhs : (⟨2, ![K, N]⟩ : Shape).Idx → EReal)
    (j : (⟨2, ![M, N]⟩ : Shape).Idx) :
    ∑ q : (DotDims.plain M K N).contr.Idx, lhs ((DotDims.plain M K N).lhsIdx j q) * rhs ((DotDims.plain M K N).rhsIdx j q)
      = ∑ k : Fin K, lhs (ix2 (j 0) k) * rhs (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row M K N _ _
      | ⟨1, _⟩ => exact ((DotDims.plain M K N).lhsIdx_val_of_single rfl j _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl j _).trans hk
      | ⟨1, _⟩ => exact rhs_col M K N _ _)
  exact congrArg₂ (· * ·) (congrArg lhs el) (congrArg rhs er)

variable {M K N}

/-- The kernel's matrix product into a zero accumulator, at `(i, j)`: the sum over `k` of `lhs (i, k) * rhs (k, j)`. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    matmul (DotDims.plain M K N) prec lhs rhs (constant (F := Ideal) ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_eq M K N lhs rhs (ix2 i j))

/-- The host's `dot_general` of the same operands, at `(i, j)`: the same sum. -/
theorem dotGeneral_apply {φ₁ φ₂ : FTy} (prec : Option ContractPrecision)
    (lhs : FVec Ideal ⟨2, ![M, K]⟩ φ₁) (rhs : FVec Ideal ⟨2, ![K, N]⟩ φ₂) (i : Fin M) (j : Fin N) :
    Host.dotGeneral (DotDims.plain M K N) prec lhs rhs (ix2 i j)
      = ∑ k : Fin K, lhs (ix2 i k) * rhs (ix2 k j) := by
  simp only [Host.dotGeneral]
  exact (Ideal.dotGeneral_apply (DotDims.plain M K N) prec _ lhs rhs (ix2 i j)).trans (sum_eq M K N lhs rhs (ix2 i j))

end Idealize.ShloMosaic.PlainDot

end
-- ==== Proof.KernelBodies.lean ====
/-
  The five kernel bodies, read at an entry.

  Each body loads its operands' blocks whole, computes, and stores one block. Over the extended reals a change of
  float format is the identity and a matrix product into a zero accumulator is the plain sum of products, so the stored
  block's entry (p, q) is the model's entry function of the loaded blocks: row p of the row-shaped operands, the whole
  weight blocks, and the [1, n] parameter rows read as vectors.
-/
import proofs.«125701_j46669114638593_1_alg».proof.Proof.Gen.KernelIdeal.Skeleton
import proofs.«125701_j46669114638593_1_alg».proof.Proof.Spec
import proofs.«125701_j46669114638593_1_alg».proof.Proof.LibPlainDot
import Idealize.ShloMosaic.Lib.ValueLayout
import Idealize.ShloMosaic.Lib.Pipeline.Value

noncomputable section

namespace Gnn

open Idealize.ShloMosaic Idealize.ShloMosaic.ValueIdx

/-- A one-row matrix read as a vector. -/
def unrow {n : ℕ} (r : Mat 1 n) : Vct n := fun i => r (ix2 (0 : Fin 1) (i 0))

theorem unrow_apply {n : ℕ} (r : Mat 1 n) (j : Fin n) : unrow r (ix1 j) = r (ix2 (0 : Fin 1) j) := rfl

/-- A vector laid as one row and read back is the vector. -/
theorem unrow_shapeCast {n : ℕ} (v : Vct n) (h : (⟨1, ![n]⟩ : Shape).ShapeCasts ⟨2, ![1, n]⟩) :
    unrow (shapeCast ⟨2, ![1, n]⟩ v h) = v := by
  funext i
  rw [eq_ix1 i]
  exact shapeCast_a_1a_apply v h 0 (i 0)

/-- A parameter row, re-cast to its own shape and repeated down R rows, at (p, q). -/
theorem rowDown {R n : ℕ} (x : Mat 1 n) (h1 : (⟨2, ![1, n]⟩ : Shape).ShapeCasts ⟨2, ![1, n]⟩)
    (h2 : (⟨2, ![1, n]⟩ : Shape).Broadcasts ⟨2, ![R, n]⟩) (p : Fin R) (q : Fin n) :
    broadcastTo ⟨2, ![R, n]⟩ (shapeCast ⟨2, ![1, n]⟩ x h1) h2 (ix2 p q) = unrow x (ix1 q) := by
  rw [broadcastTo_1b_ab_apply, shapeCast_self]
  rfl

/-- A product into a zero accumulator, at (p, q). -/
theorem mmAt {R K N : ℕ} {φ₁ φ₂ : FTy} (X : FVec Ideal ⟨2, ![R, K]⟩ φ₁) (W : FVec Ideal ⟨2, ![K, N]⟩ φ₂) (p : Fin R) (q : Fin N) :
    matmul (DotDims.plain R K N) none X W (constant (F := Ideal) ⟨2, ![R, N]⟩ .f32 0x00000000#32) (ix2 p q)
      = ∑ k : Fin K, X (ix2 p k) * W (ix2 k q) :=
  PlainDot.matmul_zero_apply none X W p q

/-- The classifier at graph g with the first layer's weight matrix given as its two halves. -/
def clsSplitAt {G : ℕ} (GE : Mat G 64) (Pep : Mat G 768) (Wp : Mat 768 64) (bp : Vct 64) (Wa Wb : Mat 64 64) (b1 : Vct 64)
    (W2 : Mat 64 1) (b2 : Vct 1) (g : Fin G) : EReal :=
  (∑ k : Fin 64,
      relu (((∑ l : Fin 64, GE (ix2 g l) * Wa (ix2 l k)) + (∑ l : Fin 64, relu (linAt Pep Wp bp g l) * Wb (ix2 l k)))
          + b1 (ix1 k))
        * W2 (ix2 k (0 : Fin 1)))
    + b2 (ix1 (0 : Fin 1))

def clsSplit {G : ℕ} (GE : Mat G 64) (Pep : Mat G 768) (Wp : Mat 768 64) (bp : Vct 64) (Wa Wb : Mat 64 64) (b1 : Vct 64)
    (W2 : Mat 64 1) (b2 : Vct 1) : Mat G 1 := fun i => clsSplitAt GE Pep Wp bp Wa Wb b1 W2 b2 (i 0)

/-- With the halves cut from one [128, 64] matrix it is the classifier of the model. -/
theorem clsSplit_eq {G : ℕ} (GE : Mat G 64) (Pep : Mat G 768) (Wp : Mat 768 64) (bp : Vct 64) (W1 : Mat 128 64) (Wa Wb : Mat 64 64)
    (b1 : Vct 64) (W2 : Mat 64 1) (b2 : Vct 1)
    (ha : ∀ (l : Fin 64) (k : Fin 64), Wa (ix2 l k) = W1 (ix2 (⟨l.val, by omega⟩ : Fin 128) k))
    (hb : ∀ (l : Fin 64) (k : Fin 64), Wb (ix2 l k) = W1 (ix2 (⟨64 + l.val, by omega⟩ : Fin 128) k)) :
    clsSplit GE Pep Wp bp Wa Wb b1 W2 b2 = cls GE Pep Wp bp W1 b1 W2 b2 := by
  funext i
  unfold clsSplit cls clsSplitAt clsAt
  simp only [ha, hb]

end Gnn

namespace Cert.KernelIdeal.Bodies

open Cert.KernelIdeal Cert.KernelIdeal.Gen Idealize.ShloMosaic Idealize.ShloMosaic.ValueIdx Gnn

/-- A vector's reciprocal square root, at an entry. -/
theorem rsqrt_at {s : Shape} (a : FVec Ideal s .f32) (i : s.Idx) : rsqrt a i = Ideal.rsqrt (a i) := rfl

/-- The input projection's block: x · W + b. -/
theorem proj_at (x0 : Vec Ideal S10000x32 .f32) (x1 : Vec Ideal S32x64 .f32) (x2 : Vec Ideal S1x64 .f32)
    (p : Fin 10000) (q : Fin 64) :
    k0_pay1 (F := Ideal) x0 x1 x2 (ix2 p q) = linAt x0 x1 (unrow x2) p q := by
  unfold k0_pay1 linAt
  rw [show dot_S10000x32_S32x64_S10000x64_1_0_0_1_n_n = DotDims.plain 10000 32 64 from rfl]
  simp only [addf_apply, subf_apply, mulf_apply, maximumf_apply, truncf_apply, broadcast_apply, rsqrt_at, mmAt, shapeCast_self,
    broadcastTo_1b_ab_apply]
  rfl

/-- The edge message's block: relu (h[src] + (edge features · W + b)). -/
theorem msg_at1 (x0 : Vec Ideal S6400x64 .f32) (x1 : Vec Ideal S6400x2 .f32) (x2 : Vec Ideal S2x64 .f32) (x3 : Vec Ideal S1x64 .f32)
    (p : Fin 6400) (q : Fin 64) :
    k1_pay1 (F := Ideal) x0 x1 x2 x3 (ix2 p q) = msgAt x0 x1 x2 (unrow x3) p q := by
  unfold k1_pay1 msgAt linAt relu
  rw [show dot_S6400x2_S2x64_S6400x64_1_0_0_1_n_n = DotDims.plain 6400 2 64 from rfl]
  simp only [addf_apply, subf_apply, mulf_apply, maximumf_apply, truncf_apply, broadcast_apply, rsqrt_at, mmAt, shapeCast_self,
    broadcastTo_1b_ab_apply]
  rfl

/-- The virtual node's perceptron block: relu (P · W₁ + b₁) · W₂ + b₂. -/
theorem mlp_at3 (x0 : Vec Ideal S2048x64 .f32) (x1 : Vec Ideal S64x64 .f32) (x2 : Vec Ideal S1x64 .f32)
    (x3 : Vec Ideal S64x64 .f32) (x4 : Vec Ideal S1x64 .f32) (p : Fin 2048) (q : Fin 64) :
    k3_pay1 (F := Ideal) x0 x1 x2 x3 x4 (ix2 p q) = mlpAt x0 x1 (unrow x2) x3 (unrow x4) p q := by
  unfold k3_pay1 mlpAt linAt relu
  rw [show dot_S2048x64_S64x64_S2048x64_1_0_0_1_n_n = DotDims.plain 2048 64 64 from rfl]
  simp only [addf_apply, subf_apply, mulf_apply, maximumf_apply, truncf_apply, broadcast_apply, rsqrt_at, mmAt, shapeCast_self,
    broadcastTo_1b_ab_apply]
  rfl

/-- The node update's block: the perceptron of h + agg, normalised by the stored mean and variance, scaled, shifted, relu. -/
theorem node_at2 (x0 x1 : Vec Ideal S2000x64 .f32) (x2 : Vec Ideal S64x64 .f32) (x3 : Vec Ideal S1x64 .f32)
    (x4 : Vec Ideal S64x64 .f32) (x5 x6 x7 x8 x9 : Vec Ideal S1x64 .f32) (p : Fin 2000) (q : Fin 64) :
    k2_pay1 (F := Ideal) (k2_pay2 x0 x1 x2 x3 x4 x5 x8 x9) x6 x7 (ix2 p q)
      = nodeAt x0 x1 ⟨x2, unrow x3, x4, unrow x5, unrow x6, unrow x7, unrow x8, unrow x9⟩ p q := by
  unfold k2_pay1 k2_pay2 nodeAt mlpAt linAt relu eps
  rw [show dot_S2000x64_S64x64_S2000x64_1_0_0_1_n_n = DotDims.plain 2000 64 64 from rfl]
  simp only [addf_apply, subf_apply, mulf_apply, maximumf_apply, truncf_apply, broadcast_apply, rsqrt_at, mmAt, shapeCast_self,
    broadcastTo_1b_ab_apply]
  rfl

/-- The classifier's block: the graph's mean row against the upper half of the first weight matrix, the peptide's hidden
    row against the lower half, then the output layer. -/
theorem cls_at9 (x0 : Vec Ideal S2048x64 .f32) (x1 : Vec Ideal S2048x768 .f32) (x2 : Vec Ideal S768x64 .f32)
    (x3 : Vec Ideal S1x64 .f32) (x4 x5 : Vec Ideal S64x64 .f32) (x6 : Vec Ideal S1x64 .f32) (x7 : Vec Ideal S64x1 .f32)
    (x8 : Vec Ideal S1x1 .f32) (p : Fin 2048) (q : Fin 1) :
    k9_pay1 (F := Ideal) (k9_pay2 x1 x2 x3 x0 x4 x5 x6 x7) x8 (ix2 p q)
      = clsSplitAt x0 x1 x2 (unrow x3) x4 x5 (unrow x6) x7 (unrow x8) p := by
  obtain rfl : q = (0 : Fin 1) := Subsingleton.elim _ _
  unfold k9_pay1 k9_pay2 clsSplitAt linAt relu
  rw [show dot_S2048x768_S768x64_S2048x64_1_0_0_1_n_n = DotDims.plain 2048 768 64 from rfl,
    show dot_S2048x64_S64x64_S2048x64_1_0_0_1_n_n = DotDims.plain 2048 64 64 from rfl,
    show dot_S2048x64_S64x1_S2048x1_1_0_0_1_n_n = DotDims.plain 2048 64 1 from rfl]
  simp only [addf_apply, subf_apply, mulf_apply, maximumf_apply, truncf_apply, broadcast_apply, rsqrt_at, mmAt, shapeCast_self,
    broadcastTo_1b_ab_apply]
  rfl

/-! The repeated launches run the same bodies under other names. -/

theorem msg_at4 (x0 : Vec Ideal S6400x64 .f32) (x1 : Vec Ideal S6400x2 .f32) (x2 : Vec Ideal S2x64 .f32) (x3 : Vec Ideal S1x64 .f32)
    (p : Fin 6400) (q : Fin 64) : k4_pay1 (F := Ideal) x0 x1 x2 x3 (ix2 p q) = msgAt x0 x1 x2 (unrow x3) p q :=
  (show k4_pay1 (F := Ideal) x0 x1 x2 x3 (ix2 p q) = k1_pay1 (F := Ideal) x0 x1 x2 x3 (ix2 p q) from rfl).trans (msg_at1 x0 x1 x2 x3 p q)

theorem msg_at7 (x0 : Vec Ideal S6400x64 .f32) (x1 : Vec Ideal S6400x2 .f32) (x2 : Vec Ideal S2x64 .f32) (x3 : Vec Ideal S1x64 .f32)
    (p : Fin 6400) (q : Fin 64) : k7_pay1 (F := Ideal) x0 x1 x2 x3 (ix2 p q) = msgAt x0 x1 x2 (unrow x3) p q :=
  (show k7_pay1 (F := Ideal) x0 x1 x2 x3 (ix2 p q) = k1_pay1 (F := Ideal) x0 x1 x2 x3 (ix2 p q) from rfl).trans (msg_at1 x0 x1 x2 x3 p q)

theorem mlp_at6 (x0 : Vec Ideal S2048x64 .f32) (x1 : Vec Ideal S64x64 .f32) (x2 : Vec Ideal S1x64 .f32)
    (x3 : Vec Ideal S64x64 .f32) (x4 : Vec Ideal S1x64 .f32) (p : Fin 2048) (q : Fin 64) :
    k6_pay1 (F := Ideal) x0 x1 x2 x3 x4 (ix2 p q) = mlpAt x0 x1 (unrow x2) x3 (unrow x4) p q :=
  (show k6_pay1 (F := Ideal) x0 x1 x2 x3 x4 (ix2 p q) = k3_pay1 (F := Ideal) x0 x1 x2 x3 x4 (ix2 p q) from rfl).trans (mlp_at3 x0 x1 x2 x3 x4 p q)

theorem node_at5 (x0 x1 : Vec Ideal S2000x64 .f32) (x2 : Vec Ideal S64x64 .f32) (x3 : Vec Ideal S1x64 .f32)
    (x4 : Vec Ideal S64x64 .f32) (x5 x6 x7 x8 x9 : Vec Ideal S1x64 .f32) (p : Fin 2000) (q : Fin 64) :
    k5_pay1 (F := Ideal) (k5_pay2 x0 x1 x2 x3 x4 x5 x8 x9) x6 x7 (ix2 p q)
      = nodeAt x0 x1 ⟨x2, unrow x3, x4, unrow x5, unrow x6, unrow x7, unrow x8, unrow x9⟩ p q :=
  (show k5_pay1 (F := Ideal) (k5_pay2 x0 x1 x2 x3 x4 x5 x8 x9) x6 x7 (ix2 p q)
      = k2_pay1 (F := Ideal) (k2_pay2 x0 x1 x2 x3 x4 x5 x8 x9) x6 x7 (ix2 p q) from rfl).trans (node_at2 x0 x1 x2 x3 x4 x5 x6 x7 x8 x9 p q)

theorem node_at8 (x0 x1 : Vec Ideal S2000x64 .f32) (x2 : Vec Ideal S64x64 .f32) (x3 : Vec Ideal S1x64 .f32)
    (x4 : Vec Ideal S64x64 .f32) (x5 x6 x7 x8 x9 : Vec Ideal S1x64 .f32) (p : Fin 2000) (q : Fin 64) :
    k8_pay1 (F := Ideal) (k8_pay2 x0 x1 x2 x3 x4 x5 x8 x9) x6 x7 (ix2 p q)
      = nodeAt x0 x1 ⟨x2, unrow x3, x4, unrow x5, unrow x6, unrow x7, unrow x8, unrow x9⟩ p q :=
  (show k8_pay1 (F := Ideal) (k8_pay2 x0 x1 x2 x3 x4 x5 x8 x9) x6 x7 (ix2 p q)
      = k2_pay1 (F := Ideal) (k2_pay2 x0 x1 x2 x3 x4 x5 x8 x9) x6 x7 (ix2 p q) from rfl).trans (node_at2 x0 x1 x2 x3 x4 x5 x6 x7 x8 x9 p q)

end Cert.KernelIdeal.Bodies

end
-- ==== Proof.SpecRows.lean ====
/-
  Row locality of the model's entry functions: entry (r, j) of a stage reads the row-shaped operands only in row r.
  Two operands with different numbers of rows — a block and the array it was cut from — therefore give the same entry
  when row r of the one is row r' of the other.
-/
import proofs.«125701_j46669114638593_1_alg».proof.Proof.Spec

noncomputable section

namespace Gnn

open Idealize.ShloMosaic Idealize.ShloMosaic.ValueIdx

theorem linAt_rows {R R' K N : ℕ} {X : Mat R K} {X' : Mat R' K} (W : Mat K N) (b : Vct N) {p : Fin R} {p' : Fin R'} (q : Fin N)
    (hX : ∀ k, X (ix2 p k) = X' (ix2 p' k)) : linAt X W b p q = linAt X' W b p' q := by
  unfold linAt
  exact congrArg (· + _) (Finset.sum_congr rfl fun k _ => by rw [hX])

theorem msgAt_rows {E E' : ℕ} {Hs : Mat E 64} {Hs' : Mat E' 64} {EA : Mat E 2} {EA' : Mat E' 2} (W : Mat 2 64) (b : Vct 64)
    {e : Fin E} {e' : Fin E'} (j : Fin 64) (hH : Hs (ix2 e j) = Hs' (ix2 e' j)) (hE : ∀ k, EA (ix2 e k) = EA' (ix2 e' k)) :
    msgAt Hs EA W b e j = msgAt Hs' EA' W b e' j := by
  unfold msgAt
  rw [hH, linAt_rows W b j hE]

theorem mlpAt_rows {R R' : ℕ} {P : Mat R 64} {P' : Mat R' 64} (W1 : Mat 64 64) (b1 : Vct 64) (W2 : Mat 64 64) (b2 : Vct 64)
    {r : Fin R} {r' : Fin R'} (j : Fin 64) (hP : ∀ k, P (ix2 r k) = P' (ix2 r' k)) :
    mlpAt P W1 b1 W2 b2 r j = mlpAt P' W1 b1 W2 b2 r' j := by
  unfold mlpAt
  exact congrArg (· + _) (Finset.sum_congr rfl fun k _ => by rw [linAt_rows W1 b1 k hP])

theorem nodeAt_rows {R R' : ℕ} {H A : Mat R 64} {H' A' : Mat R' 64} (L : Layer) {r : Fin R} {r' : Fin R'} (j : Fin 64)
    (hH : ∀ k, H (ix2 r k) = H' (ix2 r' k)) (hA : ∀ k, A (ix2 r k) = A' (ix2 r' k)) :
    nodeAt H A L r j = nodeAt H' A' L r' j := by
  unfold nodeAt
  rw [mlpAt_rows L.w1 L.b1 L.w2 L.b2 j (P := addf H A) (P' := addf H' A') fun k => by
    show H (ix2 r k) + A (ix2 r k) = H' (ix2 r' k) + A' (ix2 r' k)
    rw [hH, hA]]

end Gnn

end
-- ==== Proof.StageProj.lean ====
/-
  The input projection's launch: ten grid points, point t writing rows 10000 t … 10000 t + 9999 of the output. Each
  point's block is x · W + b of the same rows of x (the weight and the bias row are fetched whole at every point), and the
  ten row blocks fill the array: after the launch the output array is x · W + b of the arrays the launch was entered with.
-/
import proofs.«125701_j46669114638593_1_alg».proof.Proof.Gen.KernelIdeal.Frame
import proofs.«125701_j46669114638593_1_alg».proof.Proof.KernelBodies
import proofs.«125701_j46669114638593_1_alg».proof.Proof.SpecRows

set_option maxRecDepth 16384

noncomputable section

namespace Cert.KernelIdeal.Stages

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- Where each window's block sits at grid point t: the rows of x and of the output move with t, the rest stay. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of point t's block of x is row 10000 t + p of x. -/
theorem rows0_0 (c : Dev nD) (t : Fin cfg0.N) (p : Fin 10000) (k : Fin 32) (h : t.val * 10000 + p.val < 100000) :
    iblk0 V c 0 t (ix2 p k) = V c main_arg0 (ix2 (⟨t.val * 10000 + p.val, h⟩ : Fin 100000) k) := by
  obtain ⟨e0, e1, -⟩ := idx0 t
  show V c main_arg0 (((cfg0.win 0).blk t).view.emb (ix2 p k)) = _
  refine congrArg (V c main_arg0) (funext fun a => Fin.ext ?_)
  match a with
  | ⟨0, _⟩ => show win0_0.index t (0 : Fin 2) * 10000 + 1 * p.val = t.val * 10000 + p.val; omega
  | ⟨1, _⟩ => show win0_0.index t (1 : Fin 2) * 32 + 1 * k.val = k.val; omega

/-- The weight block is the weight array. -/
theorem whole0_1 (c : Dev nD) (t : Fin cfg0.N) : (iblk0 V c 1 t : Vec Ideal S32x64 .f32) = V c main_arg5 := by
  obtain ⟨-, -, e2, e3, -⟩ := idx0 t
  funext y
  show V c main_arg5 (((cfg0.win 1).blk t).view.emb y) = V c main_arg5 y
  refine congrArg (V c main_arg5) (funext fun a => Fin.ext ?_)
  match a with
  | ⟨0, _⟩ => show win0_1.index t (0 : Fin 2) * 32 + 1 * (y 0).val = (y 0).val; omega
  | ⟨1, _⟩ => show win0_1.index t (1 : Fin 2) * 64 + 1 * (y 1).val = (y 1).val; omega

/-- The bias block is the bias row. -/
theorem whole0_2 (c : Dev nD) (t : Fin cfg0.N) : (iblk0 V c 2 t : Vec Ideal S1x64 .f32) = V c main_v4 := by
  obtain ⟨-, -, -, -, e4, e5, -⟩ := idx0 t
  funext y
  show V c main_v4 (((cfg0.win 2).blk t).view.emb y) = V c main_v4 y
  refine congrArg (V c main_v4) (funext fun a => Fin.ext ?_)
  match a with
  | ⟨0, _⟩ => show win0_2.index t (0 : Fin 2) * 1 + 1 * (y 0).val = (y 0).val; omega
  | ⟨1, _⟩ => show win0_2.index t (1 : Fin 2) * 64 + 1 * (y 1).val = (y 1).val; omega

/-- What point t writes back is block t of x · W + b. -/
theorem flushed0 (c : Dev nD) (t : Fin cfg0.N) :
    (dat0 V c).flushed 3 t = ((cfg0.win 3).blk t).view.read (Elt Ideal)
      (Gnn.lin (V c main_arg0) (V c main_arg5) (Gnn.unrow (V c main_v4))) := by
  show (cfg0.win 3).cut (grid0.coords t) ((dat0 V c).after 3 t) = _
  rw [after0_3]
  unfold out0_3
  rw [View.canon_unit_zero hz2]
  simp only [View.ld_unit_zero (S := S10000x32) hz2, View.ld_unit_zero (S := S32x64) hz2, View.ld_unit_zero (S := S1x64) hz2]
  obtain ⟨-, -, -, -, -, -, e6, e7⟩ := idx0 t
  have ht : t.val < 10 := t.isLt
  funext j
  obtain ⟨p, q, rfl⟩ : ∃ (p : Fin 10000) (q : Fin 64), j = ix2 p q := ⟨j 0, j 1, eq_ix2 j⟩
  have hp : t.val * 10000 + p.val < 100000 := by have := p.isLt; omega
  have hemb : ((cfg0.win 3).blk t).view.emb (ix2 p q) = ix2 (⟨t.val * 10000 + p.val, hp⟩ : Fin 100000) q := by
    funext a; apply Fin.ext
    match a with
    | ⟨0, _⟩ => show win0_3.index t (0 : Fin 2) * 10000 + 1 * p.val = t.val * 10000 + p.val; omega
    | ⟨1, _⟩ => show win0_3.index t (1 : Fin 2) * 64 + 1 * q.val = q.val; omega
  show k0_pay1 (iblk0 V c 0 t) (iblk0 V c 1 t) (iblk0 V c 2 t) (ix2 p q)
    = Gnn.lin (V c main_arg0) (V c main_arg5) (Gnn.unrow (V c main_v4)) (((cfg0.win 3).blk t).view.emb (ix2 p q))
  rw [hemb, Bodies.proj_at, whole0_1, whole0_2]
  exact Gnn.linAt_rows _ _ q fun k => rows0_0 V c t p k hp

/-- An index of the output array is in point t's block iff each coordinate is in the block's range. -/
theorem mem_blk0 (t : Fin cfg0.N) (i : S100000x64.Idx) :
    i ∈ ((cfg0.win 3).blk t).view.set ↔ ∀ a : Fin 2, win0_3.index t a * S10000x64.size a ≤ (i a).val
      ∧ (i a).val < win0_3.index t a * S10000x64.size a + S10000x64.size a := by
  show i ∈ ((View.whole main_v5).slice (win0_3.rect t)).set ↔ _
  rw [View.set_slice_whole, Rect.mem_set_unit]
  exact Iff.rfl

/-- Row r of the output lies in the block of point r / 10000. -/
theorem cover0 (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have ht : (i 0).val / 10000 < 10 := by omega
  refine ⟨⟨(i 0).val / 10000, ht⟩, flush0_3 _, ?_⟩
  rw [mem_blk0]
  obtain ⟨-, -, -, -, -, -, e6, e7⟩ := idx0 ⟨(i 0).val / 10000, ht⟩
  have e6' : win0_3.index ⟨(i 0).val / 10000, ht⟩ (0 : Fin 2) = (i 0).val / 10000 := e6
  intro a
  match a with
  | ⟨0, _⟩ =>
    show win0_3.index ⟨(i 0).val / 10000, ht⟩ (0 : Fin 2) * 10000 ≤ (i 0).val
      ∧ (i 0).val < win0_3.index ⟨(i 0).val / 10000, ht⟩ (0 : Fin 2) * 10000 + 10000
    omega
  | ⟨1, _⟩ =>
    show win0_3.index ⟨(i 0).val / 10000, ht⟩ (1 : Fin 2) * 64 ≤ (i 1).val
      ∧ (i 1).val < win0_3.index ⟨(i 0).val / 10000, ht⟩ (1 : Fin 2) * 64 + 64
    omega

/-- After the launch the output array is x · W + b of the arrays the launch found. -/
theorem stage0 (c : Dev nD) :
    (dat0 V c).arrAt 3 cfg0.N = Gnn.lin (V c main_arg0) (V c main_arg5) (Gnn.unrow (V c main_v4)) :=
  (dat0 V c).arrAt_eq_of_cover 3 _ (fun t _ => flushed0 V c t) cover0

end Cert.KernelIdeal.Stages

end
-- ==== Proof.StageMsg.lean ====
/-
  The three message launches: 250 grid points each, point t writing rows 6400 t … 6400 t + 6399. A point's block is
  relu (h[src] + (edge features · W + b)) of the same rows of its two row-shaped operands, and the 250 row blocks fill the array.
-/
import proofs.«125701_j46669114638593_1_alg».proof.Proof.Gen.KernelIdeal.Frame
import proofs.«125701_j46669114638593_1_alg».proof.Proof.KernelBodies
import proofs.«125701_j46669114638593_1_alg».proof.Proof.SpecRows

set_option maxRecDepth 16384

noncomputable section

namespace Cert.KernelIdeal.Stages

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2m : (![0, 0] : Fin 2 → Nat) = fun _ => 0 := funext fun a => by fin_cases a <;> rfl

/-- Launch 1: where each window's block sits at grid point t. -/
theorem idx1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = t.val
    ∧ win1_4.index t (1 : Fin 2) = 0 :=
  (by decide +kernel : ∀ t : Fin grid1.N, _)

/-- Launch 1, window 0: row p of point t's block is row 6400 t + p of the array. -/
theorem rows1_0 (c : Dev nD) (t : Fin cfg1.N) (p : Fin 6400) (q : Fin 64) (h : t.val * 6400 + p.val < 1600000) :
    iblk1 V c 0 t (ix2 p q) = V c main_v22 (ix2 (⟨t.val * 6400 + p.val, h⟩ : Fin 1600000) q) := by
  obtain ⟨e0a, e0b, e1a, e1b, e2a, e2b, e3a, e3b, e4a, e4b⟩ := idx1 t
  show V c main_v22 (((cfg1.win 0).blk t).view.emb (ix2 p q)) = _
  refine congrArg (V c main_v22) (funext fun a => Fin.ext ?_)
  match a with
  | ⟨0, _⟩ => show win1_0.index t (0 : Fin 2) * 6400 + 1 * p.val = t.val * 6400 + p.val; omega
  | ⟨1, _⟩ => show win1_0.index t (1 : Fin 2) * 64 + 1 * q.val = q.val; omega

/-- Launch 1, window 1: row p of point t's block is row 6400 t + p of the array. -/
theorem rows1_1 (c : Dev nD) (t : Fin cfg1.N) (p : Fin 6400) (q : Fin 2) (h : t.val * 6400 + p.val < 1600000) :
    iblk1 V c 1 t (ix2 p q) = V c main_arg3 (ix2 (⟨t.val * 6400 + p.val, h⟩ : Fin 1600000) q) := by
  obtain ⟨e0a, e0b, e1a, e1b, e2a, e2b, e3a, e3b, e4a, e4b⟩ := idx1 t
  show V c main_arg3 (((cfg1.win 1).blk t).view.emb (ix2 p q)) = _
  refine congrArg (V c main_arg3) (funext fun a => Fin.ext ?_)
  match a with
  | ⟨0, _⟩ => show win1_1.index t (0 : Fin 2) * 6400 + 1 * p.val = t.val * 6400 + p.val; omega
  | ⟨1, _⟩ => show win1_1.index t (1 : Fin 2) * 2 + 1 * q.val = q.val; omega

/-- Launch 1, window 2: the block is the whole array. -/
theorem whole1_2 (c : Dev nD) (t : Fin cfg1.N) : (iblk1 V c 2 t : Vec Ideal S2x64 .f32) = V c main_arg7 := by
  obtain ⟨e0a, e0b, e1a, e1b, e2a, e2b, e3a, e3b, e4a, e4b⟩ := idx1 t
  funext y
  show V c main_arg7 (((cfg1.win 2).blk t).view.emb y) = V c main_arg7 y
  refine congrArg (V c main_arg7) (funext fun a => Fin.ext ?_)
  match a with
  | ⟨0, _⟩ => show win1_2.index t (0 : Fin 2) * 2 + 1 * (y 0).val = (y 0).val; omega
  | ⟨1, _⟩ => show win1_2.index t (1 : Fin 2) * 64 + 1 * (y 1).val = (y 1).val; omega

/-- Launch 1, window 3: the block is the whole array. -/
theorem whole1_3 (c : Dev nD) (t : Fin cfg1.N) : (iblk1 V c 3 t : Vec Ideal S1x64 .f32) = V c main_v7 := by
  obtain ⟨e0a, e0b, e1a, e1b, e2a, e2b, e3a, e3b, e4a, e4b⟩ := idx1 t
  funext y
  show V c main_v7 (((cfg1.win 3).blk t).view.emb y) = V c main_v7 y
  refine congrArg (V c main_v7) (funext fun a => Fin.ext ?_)
  match a with
  | ⟨0, _⟩ => show win1_3.index t (0 : Fin 2) * 1 + 1 * (y 0).val = (y 0).val; omega
  | ⟨1, _⟩ => show win1_3.index t (1 : Fin 2) * 64 + 1 * (y 1).val = (y 1).val; omega

/-- Launch 1: what point t writes back is block t of the stage of the arrays the launch found. -/
theorem flushed1 (c : Dev nD) (t : Fin cfg1.N) :
    (dat1 V c).flushed 4 t = ((cfg1.win 4).blk t).view.read (Elt Ideal) (Gnn.msg (V c main_v22) (V c main_arg3) (V c main_arg7) (Gnn.unrow (V c main_v7))) := by
  show (cfg1.win 4).cut (grid1.coords t) ((dat1 V c).after 4 t) = _
  rw [after1_4]
  unfold out1_4
  rw [View.canon_unit_zero hz2m]
  simp only [View.ld_unit_zero (S := S6400x64) hz2m, View.ld_unit_zero (S := S6400x2) hz2m, View.ld_unit_zero (S := S2x64) hz2m, View.ld_unit_zero (S := S1x64) hz2m]
  obtain ⟨e0a, e0b, e1a, e1b, e2a, e2b, e3a, e3b, e4a, e4b⟩ := idx1 t
  have ht : t.val < 250 := t.isLt
  funext j
  obtain ⟨p, q, rfl⟩ : ∃ (p : Fin 6400) (q : Fin 64), j = ix2 p q := ⟨j 0, j 1, eq_ix2 j⟩
  have hp : t.val * 6400 + p.val < 1600000 := by have := p.isLt; omega
  have hemb : ((cfg1.win 4).blk t).view.emb (ix2 p q) = ix2 (⟨t.val * 6400 + p.val, hp⟩ : Fin 1600000) q := by
    funext a; apply Fin.ext
    match a with
    | ⟨0, _⟩ => show win1_4.index t (0 : Fin 2) * 6400 + 1 * p.val = t.val * 6400 + p.val; omega
    | ⟨1, _⟩ => show win1_4.index t (1 : Fin 2) * 64 + 1 * q.val = q.val; omega
  show k1_pay1 (iblk1 V c 0 t) (iblk1 V c 1 t) (iblk1 V c 2 t) (iblk1 V c 3 t) (ix2 p q) = (Gnn.msg (V c main_v22) (V c main_arg3) (V c main_arg7) (Gnn.unrow (V c main_v7))) (((cfg1.win 4).blk t).view.emb (ix2 p q))
  rw [hemb, Bodies.msg_at1, whole1_2, whole1_3]
  exact Gnn.msgAt_rows _ _ q (rows1_0 V c t p q hp) fun kk => rows1_1 V c t p kk hp

theorem mem_blk1 (t : Fin cfg1.N) (i : S1600000x64.Idx) :
    i ∈ ((cfg1.win 4).blk t).view.set ↔ ∀ a : Fin 2, win1_4.index t a * S6400x64.size a ≤ (i a).val
      ∧ (i a).val < win1_4.index t a * S6400x64.size a + S6400x64.size a := by
  show i ∈ ((View.whole main_v23).slice (win1_4.rect t)).set ↔ _
  rw [View.set_slice_whole, Rect.mem_set_unit]
  exact Iff.rfl

/-- Launch 1: row r of the output lies in the block of point r / 6400. -/
theorem cover1 (i : S1600000x64.Idx) : ∃ t : Fin cfg1.N, (cfg1.win 4).flush t = true ∧ i ∈ ((cfg1.win 4).blk t).view.set := by
  have hi0 : (i 0).val < 1600000 := (i 0).isLt
  have hi1 : (i 1).val < 64 := (i 1).isLt
  have ht : (i 0).val / 6400 < 250 := by omega
  refine ⟨⟨(i 0).val / 6400, ht⟩, flush1_4 _, ?_⟩
  rw [mem_blk1]
  obtain ⟨e0a, e0b, e1a, e1b, e2a, e2b, e3a, e3b, e4a, e4b⟩ := idx1 ⟨(i 0).val / 6400, ht⟩
  have e' : win1_4.index ⟨(i 0).val / 6400, ht⟩ (0 : Fin 2) = (i 0).val / 6400 := e4a
  intro a
  match a with
  | ⟨0, _⟩ =>
    show win1_4.index ⟨(i 0).val / 6400, ht⟩ (0 : Fin 2) * 6400 ≤ (i 0).val
      ∧ (i 0).val < win1_4.index ⟨(i 0).val / 6400, ht⟩ (0 : Fin 2) * 6400 + 6400
    omega
  | ⟨1, _⟩ =>
    show win1_4.index ⟨(i 0).val / 6400, ht⟩ (1 : Fin 2) * 64 ≤ (i 1).val
      ∧ (i 1).val < win1_4.index ⟨(i 0).val / 6400, ht⟩ (1 : Fin 2) * 64 + 64
    omega

/-- Launch 1: after it the output array is the stage of the arrays it found. -/
theorem stage1 (c : Dev nD) : (dat1 V c).arrAt 4 cfg1.N = Gnn.msg (V c main_v22) (V c main_arg3) (V c main_arg7) (Gnn.unrow (V c main_v7)) :=
  (dat1 V c).arrAt_eq_of_cover 4 _ (fun t _ => flushed1 V c t) cover1
/-- Launch 4: where each window's block sits at grid point t. -/
theorem idx4 : ∀ t : Fin cfg4.N, win4_0.index t (0 : Fin 2) = t.val
    ∧ win4_0.index t (1 : Fin 2) = 0
    ∧ win4_1.index t (0 : Fin 2) = t.val
    ∧ win4_1.index t (1 : Fin 2) = 0
    ∧ win4_2.index t (0 : Fin 2) = 0
    ∧ win4_2.index t (1 : Fin 2) = 0
    ∧ win4_3.index t (0 : Fin 2) = 0
    ∧ win4_3.index t (1 : Fin 2) = 0
    ∧ win4_4.index t (0 : Fin 2) = t.val
    ∧ win4_4.index t (1 : Fin 2) = 0 :=
  (by decide +kernel : ∀ t : Fin grid4.N, _)

/-- Launch 4, window 0: row p of point t's block is row 6400 t + p of the array. -/
theorem rows4_0 (c : Dev nD) (t : Fin cfg4.N) (p : Fin 6400) (q : Fin 64) (h : t.val * 6400 + p.val < 1600000) :
    iblk4 V c 0 t (ix2 p q) = V c main_v71 (ix2 (⟨t.val * 6400 + p.val, h⟩ : Fin 1600000) q) := by
  obtain ⟨e0a, e0b, e1a, e1b, e2a, e2b, e3a, e3b, e4a, e4b⟩ := idx4 t
  show V c main_v71 (((cfg4.win 0).blk t).view.emb (ix2 p q)) = _
  refine congrArg (V c main_v71) (funext fun a => Fin.ext ?_)
  match a with
  | ⟨0, _⟩ => show win4_0.index t (0 : Fin 2) * 6400 + 1 * p.val = t.val * 6400 + p.val; omega
  | ⟨1, _⟩ => show win4_0.index t (1 : Fin 2) * 64 + 1 * q.val = q.val; omega

/-- Launch 4, window 1: row p of point t's block is row 6400 t + p of the array. -/
theorem rows4_1 (c : Dev nD) (t : Fin cfg4.N) (p : Fin 6400) (q : Fin 2) (h : t.val * 6400 + p.val < 1600000) :
    iblk4 V c 1 t (ix2 p q) = V c main_arg3 (ix2 (⟨t.val * 6400 + p.val, h⟩ : Fin 1600000) q) := by
  obtain ⟨e0a, e0b, e1a, e1b, e2a, e2b, e3a, e3b, e4a, e4b⟩ := idx4 t
  show V c main_arg3 (((cfg4.win 1).blk t).view.emb (ix2 p q)) = _
  refine congrArg (V c main_arg3) (funext fun a => Fin.ext ?_)
  match a with
  | ⟨0, _⟩ => show win4_1.index t (0 : Fin 2) * 6400 + 1 * p.val = t.val * 6400 + p.val; omega
  | ⟨1, _⟩ => show win4_1.index t (1 : Fin 2) * 2 + 1 * q.val = q.val; omega

/-- Launch 4, window 2: the block is the whole array. -/
theorem whole4_2 (c : Dev nD) (t : Fin cfg4.N) : (iblk4 V c 2 t : Vec Ideal S2x64 .f32) = V c main_arg7 := by
  obtain ⟨e0a, e0b, e1a, e1b, e2a, e2b, e3a, e3b, e4a, e4b⟩ := idx4 t
  funext y
  show V c main_arg7 (((cfg4.win 2).blk t).view.emb y) = V c main_arg7 y
  refine congrArg (V c main_arg7) (funext fun a => Fin.ext ?_)
  match a with
  | ⟨0, _⟩ => show win4_2.index t (0 : Fin 2) * 2 + 1 * (y 0).val = (y 0).val; omega
  | ⟨1, _⟩ => show win4_2.index t (1 : Fin 2) * 64 + 1 * (y 1).val = (y 1).val; omega

/-- Launch 4, window 3: the block is the whole array. -/
theorem whole4_3 (c : Dev nD) (t : Fin cfg4.N) : (iblk4 V c 3 t : Vec Ideal S1x64 .f32) = V c main_v7 := by
  obtain ⟨e0a, e0b, e1a, e1b, e2a, e2b, e3a, e3b, e4a, e4b⟩ := idx4 t
  funext y
  show V c main_v7 (((cfg4.win 3).blk t).view.emb y) = V c main_v7 y
  refine congrArg (V c main_v7) (funext fun a => Fin.ext ?_)
  match a with
  | ⟨0, _⟩ => show win4_3.index t (0 : Fin 2) * 1 + 1 * (y 0).val = (y 0).val; omega
  | ⟨1, _⟩ => show win4_3.index t (1 : Fin 2) * 64 + 1 * (y 1).val = (y 1).val; omega

/-- Launch 4: what point t writes back is block t of the stage of the arrays the launch found. -/
theorem flushed4 (c : Dev nD) (t : Fin cfg4.N) :
    (dat4 V c).flushed 4 t = ((cfg4.win 4).blk t).view.read (Elt Ideal) (Gnn.msg (V c main_v71) (V c main_arg3) (V c main_arg7) (Gnn.unrow (V c main_v7))) := by
  show (cfg4.win 4).cut (grid4.coords t) ((dat4 V c).after 4 t) = _
  rw [after4_4]
  unfold out4_4
  rw [View.canon_unit_zero hz2m]
  simp only [View.ld_unit_zero (S := S6400x64) hz2m, View.ld_unit_zero (S := S6400x2) hz2m, View.ld_unit_zero (S := S2x64) hz2m, View.ld_unit_zero (S := S1x64) hz2m]
  obtain ⟨e0a, e0b, e1a, e1b, e2a, e2b, e3a, e3b, e4a, e4b⟩ := idx4 t
  have ht : t.val < 250 := t.isLt
  funext j
  obtain ⟨p, q, rfl⟩ : ∃ (p : Fin 6400) (q : Fin 64), j = ix2 p q := ⟨j 0, j 1, eq_ix2 j⟩
  have hp : t.val * 6400 + p.val < 1600000 := by have := p.isLt; omega
  have hemb : ((cfg4.win 4).blk t).view.emb (ix2 p q) = ix2 (⟨t.val * 6400 + p.val, hp⟩ : Fin 1600000) q := by
    funext a; apply Fin.ext
    match a with
    | ⟨0, _⟩ => show win4_4.index t (0 : Fin 2) * 6400 + 1 * p.val = t.val * 6400 + p.val; omega
    | ⟨1, _⟩ => show win4_4.index t (1 : Fin 2) * 64 + 1 * q.val = q.val; omega
  show k4_pay1 (iblk4 V c 0 t) (iblk4 V c 1 t) (iblk4 V c 2 t) (iblk4 V c 3 t) (ix2 p q) = (Gnn.msg (V c main_v71) (V c main_arg3) (V c main_arg7) (Gnn.unrow (V c main_v7))) (((cfg4.win 4).blk t).view.emb (ix2 p q))
  rw [hemb, Bodies.msg_at4, whole4_2, whole4_3]
  exact Gnn.msgAt_rows _ _ q (rows4_0 V c t p q hp) fun kk => rows4_1 V c t p kk hp

theorem mem_blk4 (t : Fin cfg4.N) (i : S1600000x64.Idx) :
    i ∈ ((cfg4.win 4).blk t).view.set ↔ ∀ a : Fin 2, win4_4.index t a * S6400x64.size a ≤ (i a).val
      ∧ (i a).val < win4_4.index t a * S6400x64.size a + S6400x64.size a := by
  show i ∈ ((View.whole main_v72).slice (win4_4.rect t)).set ↔ _
  rw [View.set_slice_whole, Rect.mem_set_unit]
  exact Iff.rfl

/-- Launch 4: row r of the output lies in the block of point r / 6400. -/
theorem cover4 (i : S1600000x64.Idx) : ∃ t : Fin cfg4.N, (cfg4.win 4).flush t = true ∧ i ∈ ((cfg4.win 4).blk t).view.set := by
  have hi0 : (i 0).val < 1600000 := (i 0).isLt
  have hi1 : (i 1).val < 64 := (i 1).isLt
  have ht : (i 0).val / 6400 < 250 := by omega
  refine ⟨⟨(i 0).val / 6400, ht⟩, flush4_4 _, ?_⟩
  rw [mem_blk4]
  obtain ⟨e0a, e0b, e1a, e1b, e2a, e2b, e3a, e3b, e4a, e4b⟩ := idx4 ⟨(i 0).val / 6400, ht⟩
  have e' : win4_4.index ⟨(i 0).val / 6400, ht⟩ (0 : Fin 2) = (i 0).val / 6400 := e4a
  intro a
  match a with
  | ⟨0, _⟩ =>
    show win4_4.index ⟨(i 0).val / 6400, ht⟩ (0 : Fin 2) * 6400 ≤ (i 0).val
      ∧ (i 0).val < win4_4.index ⟨(i 0).val / 6400, ht⟩ (0 : Fin 2) * 6400 + 6400
    omega
  | ⟨1, _⟩ =>
    show win4_4.index ⟨(i 0).val / 6400, ht⟩ (1 : Fin 2) * 64 ≤ (i 1).val
      ∧ (i 1).val < win4_4.index ⟨(i 0).val / 6400, ht⟩ (1 : Fin 2) * 64 + 64
    omega

/-- Launch 4: after it the output array is the stage of the arrays it found. -/
theorem stage4 (c : Dev nD) : (dat4 V c).arrAt 4 cfg4.N = Gnn.msg (V c main_v71) (V c main_arg3) (V c main_arg7) (Gnn.unrow (V c main_v7)) :=
  (dat4 V c).arrAt_eq_of_cover 4 _ (fun t _ => flushed4 V c t) cover4
/-- Launch 7: where each window's block sits at grid point t. -/
theorem idx7 : ∀ t : Fin cfg7.N, win7_0.index t (0 : Fin 2) = t.val
    ∧ win7_0.index t (1 : Fin 2) = 0
    ∧ win7_1.index t (0 : Fin 2) = t.val
    ∧ win7_1.index t (1 : Fin 2) = 0
    ∧ win7_2.index t (0 : Fin 2) = 0
    ∧ win7_2.index t (1 : Fin 2) = 0
    ∧ win7_3.index t (0 : Fin 2) = 0
    ∧ win7_3.index t (1 : Fin 2) = 0
    ∧ win7_4.index t (0 : Fin 2) = t.val
    ∧ win7_4.index t (1 : Fin 2) = 0 :=
  (by decide +kernel : ∀ t : Fin grid7.N, _)

/-- Launch 7, window 0: row p of point t's block is row 6400 t + p of the array. -/
theorem rows7_0 (c : Dev nD) (t : Fin cfg7.N) (p : Fin 6400) (q : Fin 64) (h : t.val * 6400 + p.val < 1600000) :
    iblk7 V c 0 t (ix2 p q) = V c main_v120 (ix2 (⟨t.val * 6400 + p.val, h⟩ : Fin 1600000) q) := by
  obtain ⟨e0a, e0b, e1a, e1b, e2a, e2b, e3a, e3b, e4a, e4b⟩ := idx7 t
  show V c main_v120 (((cfg7.win 0).blk t).view.emb (ix2 p q)) = _
  refine congrArg (V c main_v120) (funext fun a => Fin.ext ?_)
  match a with
  | ⟨0, _⟩ => show win7_0.index t (0 : Fin 2) * 6400 + 1 * p.val = t.val * 6400 + p.val; omega
  | ⟨1, _⟩ => show win7_0.index t (1 : Fin 2) * 64 + 1 * q.val = q.val; omega

/-- Launch 7, window 1: row p of point t's block is row 6400 t + p of the array. -/
theorem rows7_1 (c : Dev nD) (t : Fin cfg7.N) (p : Fin 6400) (q : Fin 2) (h : t.val * 6400 + p.val < 1600000) :
    iblk7 V c 1 t (ix2 p q) = V c main_arg3 (ix2 (⟨t.val * 6400 + p.val, h⟩ : Fin 1600000) q) := by
  obtain ⟨e0a, e0b, e1a, e1b, e2a, e2b, e3a, e3b, e4a, e4b⟩ := idx7 t
  show V c main_arg3 (((cfg7.win 1).blk t).view.emb (ix2 p q)) = _
  refine congrArg (V c main_arg3) (funext fun a => Fin.ext ?_)
  match a with
  | ⟨0, _⟩ => show win7_1.index t (0 : Fin 2) * 6400 + 1 * p.val = t.val * 6400 + p.val; omega
  | ⟨1, _⟩ => show win7_1.index t (1 : Fin 2) * 2 + 1 * q.val = q.val; omega

/-- Launch 7, window 2: the block is the whole array. -/
theorem whole7_2 (c : Dev nD) (t : Fin cfg7.N) : (iblk7 V c 2 t : Vec Ideal S2x64 .f32) = V c main_arg7 := by
  obtain ⟨e0a, e0b, e1a, e1b, e2a, e2b, e3a, e3b, e4a, e4b⟩ := idx7 t
  funext y
  show V c main_arg7 (((cfg7.win 2).blk t).view.emb y) = V c main_arg7 y
  refine congrArg (V c main_arg7) (funext fun a => Fin.ext ?_)
  match a with
  | ⟨0, _⟩ => show win7_2.index t (0 : Fin 2) * 2 + 1 * (y 0).val = (y 0).val; omega
  | ⟨1, _⟩ => show win7_2.index t (1 : Fin 2) * 64 + 1 * (y 1).val = (y 1).val; omega

/-- Launch 7, window 3: the block is the whole array. -/
theorem whole7_3 (c : Dev nD) (t : Fin cfg7.N) : (iblk7 V c 3 t : Vec Ideal S1x64 .f32) = V c main_v7 := by
  obtain ⟨e0a, e0b, e1a, e1b, e2a, e2b, e3a, e3b, e4a, e4b⟩ := idx7 t
  funext y
  show V c main_v7 (((cfg7.win 3).blk t).view.emb y) = V c main_v7 y
  refine congrArg (V c main_v7) (funext fun a => Fin.ext ?_)
  match a with
  | ⟨0, _⟩ => show win7_3.index t (0 : Fin 2) * 1 + 1 * (y 0).val = (y 0).val; omega
  | ⟨1, _⟩ => show win7_3.index t (1 : Fin 2) * 64 + 1 * (y 1).val = (y 1).val; omega

/-- Launch 7: what point t writes back is block t of the stage of the arrays the launch found. -/
theorem flushed7 (c : Dev nD) (t : Fin cfg7.N) :
    (dat7 V c).flushed 4 t = ((cfg7.win 4).blk t).view.read (Elt Ideal) (Gnn.msg (V c main_v120) (V c main_arg3) (V c main_arg7) (Gnn.unrow (V c main_v7))) := by
  show (cfg7.win 4).cut (grid7.coords t) ((dat7 V c).after 4 t) = _
  rw [after7_4]
  unfold out7_4
  rw [View.canon_unit_zero hz2m]
  simp only [View.ld_unit_zero (S := S6400x64) hz2m, View.ld_unit_zero (S := S6400x2) hz2m, View.ld_unit_zero (S := S2x64) hz2m, View.ld_unit_zero (S := S1x64) hz2m]
  obtain ⟨e0a, e0b, e1a, e1b, e2a, e2b, e3a, e3b, e4a, e4b⟩ := idx7 t
  have ht : t.val < 250 := t.isLt
  funext j
  obtain ⟨p, q, rfl⟩ : ∃ (p : Fin 6400) (q : Fin 64), j = ix2 p q := ⟨j 0, j 1, eq_ix2 j⟩
  have hp : t.val * 6400 + p.val < 1600000 := by have := p.isLt; omega
  have hemb : ((cfg7.win 4).blk t).view.emb (ix2 p q) = ix2 (⟨t.val * 6400 + p.val, hp⟩ : Fin 1600000) q := by
    funext a; apply Fin.ext
    match a with
    | ⟨0, _⟩ => show win7_4.index t (0 : Fin 2) * 6400 + 1 * p.val = t.val * 6400 + p.val; omega
    | ⟨1, _⟩ => show win7_4.index t (1 : Fin 2) * 64 + 1 * q.val = q.val; omega
  show k7_pay1 (iblk7 V c 0 t) (iblk7 V c 1 t) (iblk7 V c 2 t) (iblk7 V c 3 t) (ix2 p q) = (Gnn.msg (V c main_v120) (V c main_arg3) (V c main_arg7) (Gnn.unrow (V c main_v7))) (((cfg7.win 4).blk t).view.emb (ix2 p q))
  rw [hemb, Bodies.msg_at7, whole7_2, whole7_3]
  exact Gnn.msgAt_rows _ _ q (rows7_0 V c t p q hp) fun kk => rows7_1 V c t p kk hp

theorem mem_blk7 (t : Fin cfg7.N) (i : S1600000x64.Idx) :
    i ∈ ((cfg7.win 4).blk t).view.set ↔ ∀ a : Fin 2, win7_4.index t a * S6400x64.size a ≤ (i a).val
      ∧ (i a).val < win7_4.index t a * S6400x64.size a + S6400x64.size a := by
  show i ∈ ((View.whole main_v121).slice (win7_4.rect t)).set ↔ _
  rw [View.set_slice_whole, Rect.mem_set_unit]
  exact Iff.rfl

/-- Launch 7: row r of the output lies in the block of point r / 6400. -/
theorem cover7 (i : S1600000x64.Idx) : ∃ t : Fin cfg7.N, (cfg7.win 4).flush t = true ∧ i ∈ ((cfg7.win 4).blk t).view.set := by
  have hi0 : (i 0).val < 1600000 := (i 0).isLt
  have hi1 : (i 1).val < 64 := (i 1).isLt
  have ht : (i 0).val / 6400 < 250 := by omega
  refine ⟨⟨(i 0).val / 6400, ht⟩, flush7_4 _, ?_⟩
  rw [mem_blk7]
  obtain ⟨e0a, e0b, e1a, e1b, e2a, e2b, e3a, e3b, e4a, e4b⟩ := idx7 ⟨(i 0).val / 6400, ht⟩
  have e' : win7_4.index ⟨(i 0).val / 6400, ht⟩ (0 : Fin 2) = (i 0).val / 6400 := e4a
  intro a
  match a with
  | ⟨0, _⟩ =>
    show win7_4.index ⟨(i 0).val / 6400, ht⟩ (0 : Fin 2) * 6400 ≤ (i 0).val
      ∧ (i 0).val < win7_4.index ⟨(i 0).val / 6400, ht⟩ (0 : Fin 2) * 6400 + 6400
    omega
  | ⟨1, _⟩ =>
    show win7_4.index ⟨(i 0).val / 6400, ht⟩ (1 : Fin 2) * 64 ≤ (i 1).val
      ∧ (i 1).val < win7_4.index ⟨(i 0).val / 6400, ht⟩ (1 : Fin 2) * 64 + 64
    omega

/-- Launch 7: after it the output array is the stage of the arrays it found. -/
theorem stage7 (c : Dev nD) : (dat7 V c).arrAt 4 cfg7.N = Gnn.msg (V c main_v120) (V c main_arg3) (V c main_arg7) (Gnn.unrow (V c main_v7)) :=
  (dat7 V c).arrAt_eq_of_cover 4 _ (fun t _ => flushed7 V c t) cover7

end Cert.KernelIdeal.Stages

end
-- ==== Proof.StageNode.lean ====
/-
  The three node-update launches: 50 grid points each, point t writing rows 2000 t … 2000 t + 1999. A point's block is the
  node update of the same rows of h and of the aggregated messages, with the round's weights fetched whole, and the 50 row
  blocks fill the array.
-/
import proofs.«125701_j46669114638593_1_alg».proof.Proof.Gen.KernelIdeal.Frame
import proofs.«125701_j46669114638593_1_alg».proof.Proof.KernelBodies
import proofs.«125701_j46669114638593_1_alg».proof.Proof.SpecRows

set_option maxRecDepth 16384

noncomputable section

namespace Cert.KernelIdeal.Stages

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2n : (![0, 0] : Fin 2 → Nat) = fun _ => 0 := funext fun a => by fin_cases a <;> rfl

/-- Launch 2: where each window's block sits at grid point t. -/
theorem idx2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0
    ∧ win2_8.index t (0 : Fin 2) = 0
    ∧ win2_8.index t (1 : Fin 2) = 0
    ∧ win2_9.index t (0 : Fin 2) = 0
    ∧ win2_9.index t (1 : Fin 2) = 0
    ∧ win2_10.index t (0 : Fin 2) = t.val
    ∧ win2_10.index t (1 : Fin 2) = 0 :=
  (by decide +kernel : ∀ t : Fin grid2.N, _)

/-- Launch 2, window 0: row p of point t's block is row 2000 t + p of the array. -/
theorem rows2_0 (c : Dev nD) (t : Fin cfg2.N) (p : Fin 2000) (q : Fin 64) (h : t.val * 2000 + p.val < 100000) :
    iblk2 V c 0 t (ix2 p q) = V c main_v15 (ix2 (⟨t.val * 2000 + p.val, h⟩ : Fin 100000) q) := by
  obtain ⟨e0a, e0b, e1a, e1b, e2a, e2b, e3a, e3b, e4a, e4b, e5a, e5b, e6a, e6b, e7a, e7b, e8a, e8b, e9a, e9b, e10a, e10b⟩ := idx2 t
  show V c main_v15 (((cfg2.win 0).blk t).view.emb (ix2 p q)) = _
  refine congrArg (V c main_v15) (funext fun a => Fin.ext ?_)
  match a with
  | ⟨0, _⟩ => show win2_0.index t (0 : Fin 2) * 2000 + 1 * p.val = t.val * 2000 + p.val; omega
  | ⟨1, _⟩ => show win2_0.index t (1 : Fin 2) * 64 + 1 * q.val = q.val; omega

/-- Launch 2, window 1: row p of point t's block is row 2000 t + p of the array. -/
theorem rows2_1 (c : Dev nD) (t : Fin cfg2.N) (p : Fin 2000) (q : Fin 64) (h : t.val * 2000 + p.val < 100000) :
    iblk2 V c 1 t (ix2 p q) = V c main_v26 (ix2 (⟨t.val * 2000 + p.val, h⟩ : Fin 100000) q) := by
  obtain ⟨e0a, e0b, e1a, e1b, e2a, e2b, e3a, e3b, e4a, e4b, e5a, e5b, e6a, e6b, e7a, e7b, e8a, e8b, e9a, e9b, e10a, e10b⟩ := idx2 t
  show V c main_v26 (((cfg2.win 1).blk t).view.emb (ix2 p q)) = _
  refine congrArg (V c main_v26) (funext fun a => Fin.ext ?_)
  match a with
  | ⟨0, _⟩ => show win2_1.index t (0 : Fin 2) * 2000 + 1 * p.val = t.val * 2000 + p.val; omega
  | ⟨1, _⟩ => show win2_1.index t (1 : Fin 2) * 64 + 1 * q.val = q.val; omega

/-- Launch 2, window 2: the block is the whole array. -/
theorem whole2_2 (c : Dev nD) (t : Fin cfg2.N) : (iblk2 V c 2 t : Vec Ideal S64x64 .f32) = V c main_v28 := by
  obtain ⟨e0a, e0b, e1a, e1b, e2a, e2b, e3a, e3b, e4a, e4b, e5a, e5b, e6a, e6b, e7a, e7b, e8a, e8b, e9a, e9b, e10a, e10b⟩ := idx2 t
  funext y
  show V c main_v28 (((cfg2.win 2).blk t).view.emb y) = V c main_v28 y
  refine congrArg (V c main_v28) (funext fun a => Fin.ext ?_)
  match a with
  | ⟨0, _⟩ => show win2_2.index t (0 : Fin 2) * 64 + 1 * (y 0).val = (y 0).val; omega
  | ⟨1, _⟩ => show win2_2.index t (1 : Fin 2) * 64 + 1 * (y 1).val = (y 1).val; omega

/-- Launch 2, window 3: the block is the whole array. -/
theorem whole2_3 (c : Dev nD) (t : Fin cfg2.N) : (iblk2 V c 3 t : Vec Ideal S1x64 .f32) = V c main_v31 := by
  obtain ⟨e0a, e0b, e1a, e1b, e2a, e2b, e3a, e3b, e4a, e4b, e5a, e5b, e6a, e6b, e7a, e7b, e8a, e8b, e9a, e9b, e10a, e10b⟩ := idx2 t
  funext y
  show V c main_v31 (((cfg2.win 3).blk t).view.emb y) = V c main_v31 y
  refine congrArg (V c main_v31) (funext fun a => Fin.ext ?_)
  match a with
  | ⟨0, _⟩ => show win2_3.index t (0 : Fin 2) * 1 + 1 * (y 0).val = (y 0).val; omega
  | ⟨1, _⟩ => show win2_3.index t (1 : Fin 2) * 64 + 1 * (y 1).val = (y 1).val; omega

/-- Launch 2, window 4: the block is the whole array. -/
theorem whole2_4 (c : Dev nD) (t : Fin cfg2.N) : (iblk2 V c 4 t : Vec Ideal S64x64 .f32) = V c main_v33 := by
  obtain ⟨e0a, e0b, e1a, e1b, e2a, e2b, e3a, e3b, e4a, e4b, e5a, e5b, e6a, e6b, e7a, e7b, e8a, e8b, e9a, e9b, e10a, e10b⟩ := idx2 t
  funext y
  show V c main_v33 (((cfg2.win 4).blk t).view.emb y) = V c main_v33 y
  refine congrArg (V c main_v33) (funext fun a => Fin.ext ?_)
  match a with
  | ⟨0, _⟩ => show win2_4.index t (0 : Fin 2) * 64 + 1 * (y 0).val = (y 0).val; omega
  | ⟨1, _⟩ => show win2_4.index t (1 : Fin 2) * 64 + 1 * (y 1).val = (y 1).val; omega

/-- Launch 2, window 5: the block is the whole array. -/
theorem whole2_5 (c : Dev nD) (t : Fin cfg2.N) : (iblk2 V c 5 t : Vec Ideal S1x64 .f32) = V c main_v36 := by
  obtain ⟨e0a, e0b, e1a, e1b, e2a, e2b, e3a, e3b, e4a, e4b, e5a, e5b, e6a, e6b, e7a, e7b, e8a, e8b, e9a, e9b, e10a, e10b⟩ := idx2 t
  funext y
  show V c main_v36 (((cfg2.win 5).blk t).view.emb y) = V c main_v36 y
  refine congrArg (V c main_v36) (funext fun a => Fin.ext ?_)
  match a with
  | ⟨0, _⟩ => show win2_5.index t (0 : Fin 2) * 1 + 1 * (y 0).val = (y 0).val; omega
  | ⟨1, _⟩ => show win2_5.index t (1 : Fin 2) * 64 + 1 * (y 1).val = (y 1).val; omega

/-- Launch 2, window 6: the block is the whole array. -/
theorem whole2_6 (c : Dev nD) (t : Fin cfg2.N) : (iblk2 V c 6 t : Vec Ideal S1x64 .f32) = V c main_v39 := by
  obtain ⟨e0a, e0b, e1a, e1b, e2a, e2b, e3a, e3b, e4a, e4b, e5a, e5b, e6a, e6b, e7a, e7b, e8a, e8b, e9a, e9b, e10a, e10b⟩ := idx2 t
  funext y
  show V c main_v39 (((cfg2.win 6).blk t).view.emb y) = V c main_v39 y
  refine congrArg (V c main_v39) (funext fun a => Fin.ext ?_)
  match a with
  | ⟨0, _⟩ => show win2_6.index t (0 : Fin 2) * 1 + 1 * (y 0).val = (y 0).val; omega
  | ⟨1, _⟩ => show win2_6.index t (1 : Fin 2) * 64 + 1 * (y 1).val = (y 1).val; omega

/-- Launch 2, window 7: the block is the whole array. -/
theorem whole2_7 (c : Dev nD) (t : Fin cfg2.N) : (iblk2 V c 7 t : Vec Ideal S1x64 .f32) = V c main_v42 := by
  obtain ⟨e0a, e0b, e1a, e1b, e2a, e2b, e3a, e3b, e4a, e4b, e5a, e5b, e6a, e6b, e7a, e7b, e8a, e8b, e9a, e9b, e10a, e10b⟩ := idx2 t
  funext y
  show V c main_v42 (((cfg2.win 7).blk t).view.emb y) = V c main_v42 y
  refine congrArg (V c main_v42) (funext fun a => Fin.ext ?_)
  match a with
  | ⟨0, _⟩ => show win2_7.index t (0 : Fin 2) * 1 + 1 * (y 0).val = (y 0).val; omega
  | ⟨1, _⟩ => show win2_7.index t (1 : Fin 2) * 64 + 1 * (y 1).val = (y 1).val; omega

/-- Launch 2, window 8: the block is the whole array. -/
theorem whole2_8 (c : Dev nD) (t : Fin cfg2.N) : (iblk2 V c 8 t : Vec Ideal S1x64 .f32) = V c main_v45 := by
  obtain ⟨e0a, e0b, e1a, e1b, e2a, e2b, e3a, e3b, e4a, e4b, e5a, e5b, e6a, e6b, e7a, e7b, e8a, e8b, e9a, e9b, e10a, e10b⟩ := idx2 t
  funext y
  show V c main_v45 (((cfg2.win 8).blk t).view.emb y) = V c main_v45 y
  refine congrArg (V c main_v45) (funext fun a => Fin.ext ?_)
  match a with
  | ⟨0, _⟩ => show win2_8.index t (0 : Fin 2) * 1 + 1 * (y 0).val = (y 0).val; omega
  | ⟨1, _⟩ => show win2_8.index t (1 : Fin 2) * 64 + 1 * (y 1).val = (y 1).val; omega

/-- Launch 2, window 9: the block is the whole array. -/
theorem whole2_9 (c : Dev nD) (t : Fin cfg2.N) : (iblk2 V c 9 t : Vec Ideal S1x64 .f32) = V c main_v48 := by
  obtain ⟨e0a, e0b, e1a, e1b, e2a, e2b, e3a, e3b, e4a, e4b, e5a, e5b, e6a, e6b, e7a, e7b, e8a, e8b, e9a, e9b, e10a, e10b⟩ := idx2 t
  funext y
  show V c main_v48 (((cfg2.win 9).blk t).view.emb y) = V c main_v48 y
  refine congrArg (V c main_v48) (funext fun a => Fin.ext ?_)
  match a with
  | ⟨0, _⟩ => show win2_9.index t (0 : Fin 2) * 1 + 1 * (y 0).val = (y 0).val; omega
  | ⟨1, _⟩ => show win2_9.index t (1 : Fin 2) * 64 + 1 * (y 1).val = (y 1).val; omega

/-- Launch 2: what point t writes back is block t of the stage of the arrays the launch found. -/
theorem flushed2 (c : Dev nD) (t : Fin cfg2.N) :
    (dat2 V c).flushed 10 t = ((cfg2.win 10).blk t).view.read (Elt Ideal) (Gnn.node (V c main_v15) (V c main_v26) ⟨(V c main_v28), Gnn.unrow (V c main_v31), (V c main_v33), Gnn.unrow (V c main_v36), Gnn.unrow (V c main_v39), Gnn.unrow (V c main_v42), Gnn.unrow (V c main_v45), Gnn.unrow (V c main_v48)⟩) := by
  show (cfg2.win 10).cut (grid2.coords t) ((dat2 V c).after 10 t) = _
  rw [after2_10]
  unfold out2_10
  rw [View.canon_unit_zero hz2n]
  simp only [View.ld_unit_zero (S := S2000x64) hz2n, View.ld_unit_zero (S := S64x64) hz2n, View.ld_unit_zero (S := S1x64) hz2n]
  obtain ⟨e0a, e0b, e1a, e1b, e2a, e2b, e3a, e3b, e4a, e4b, e5a, e5b, e6a, e6b, e7a, e7b, e8a, e8b, e9a, e9b, e10a, e10b⟩ := idx2 t
  have ht : t.val < 50 := t.isLt
  funext j
  obtain ⟨p, q, rfl⟩ : ∃ (p : Fin 2000) (q : Fin 64), j = ix2 p q := ⟨j 0, j 1, eq_ix2 j⟩
  have hp : t.val * 2000 + p.val < 100000 := by have := p.isLt; omega
  have hemb : ((cfg2.win 10).blk t).view.emb (ix2 p q) = ix2 (⟨t.val * 2000 + p.val, hp⟩ : Fin 100000) q := by
    funext a; apply Fin.ext
    match a with
    | ⟨0, _⟩ => show win2_10.index t (0 : Fin 2) * 2000 + 1 * p.val = t.val * 2000 + p.val; omega
    | ⟨1, _⟩ => show win2_10.index t (1 : Fin 2) * 64 + 1 * q.val = q.val; omega
  show k2_pay1 (k2_pay2 (iblk2 V c 0 t) (iblk2 V c 1 t) (iblk2 V c 2 t) (iblk2 V c 3 t) (iblk2 V c 4 t) (iblk2 V c 5 t) (iblk2 V c 8 t) (iblk2 V c 9 t)) (iblk2 V c 6 t) (iblk2 V c 7 t) (ix2 p q) = (Gnn.node (V c main_v15) (V c main_v26) ⟨(V c main_v28), Gnn.unrow (V c main_v31), (V c main_v33), Gnn.unrow (V c main_v36), Gnn.unrow (V c main_v39), Gnn.unrow (V c main_v42), Gnn.unrow (V c main_v45), Gnn.unrow (V c main_v48)⟩) (((cfg2.win 10).blk t).view.emb (ix2 p q))
  rw [hemb, Bodies.node_at2, whole2_2, whole2_3, whole2_4, whole2_5, whole2_6, whole2_7, whole2_8, whole2_9]
  exact Gnn.nodeAt_rows _ q (fun kk => rows2_0 V c t p kk hp) fun kk => rows2_1 V c t p kk hp

theorem mem_blk2 (t : Fin cfg2.N) (i : S100000x64.Idx) :
    i ∈ ((cfg2.win 10).blk t).view.set ↔ ∀ a : Fin 2, win2_10.index t a * S2000x64.size a ≤ (i a).val
      ∧ (i a).val < win2_10.index t a * S2000x64.size a + S2000x64.size a := by
  show i ∈ ((View.whole main_v49).slice (win2_10.rect t)).set ↔ _
  rw [View.set_slice_whole, Rect.mem_set_unit]
  exact Iff.rfl

/-- Launch 2: row r of the output lies in the block of point r / 2000. -/
theorem cover2 (i : S100000x64.Idx) : ∃ t : Fin cfg2.N, (cfg2.win 10).flush t = true ∧ i ∈ ((cfg2.win 10).blk t).view.set := by
  have hi0 : (i 0).val < 100000 := (i 0).isLt
  have hi1 : (i 1).val < 64 := (i 1).isLt
  have ht : (i 0).val / 2000 < 50 := by omega
  refine ⟨⟨(i 0).val / 2000, ht⟩, flush2_10 _, ?_⟩
  rw [mem_blk2]
  obtain ⟨e0a, e0b, e1a, e1b, e2a, e2b, e3a, e3b, e4a, e4b, e5a, e5b, e6a, e6b, e7a, e7b, e8a, e8b, e9a, e9b, e10a, e10b⟩ := idx2 ⟨(i 0).val / 2000, ht⟩
  have e' : win2_10.index ⟨(i 0).val / 2000, ht⟩ (0 : Fin 2) = (i 0).val / 2000 := e10a
  intro a
  match a with
  | ⟨0, _⟩ =>
    show win2_10.index ⟨(i 0).val / 2000, ht⟩ (0 : Fin 2) * 2000 ≤ (i 0).val
      ∧ (i 0).val < win2_10.index ⟨(i 0).val / 2000, ht⟩ (0 : Fin 2) * 2000 + 2000
    omega
  | ⟨1, _⟩ =>
    show win2_10.index ⟨(i 0).val / 2000, ht⟩ (1 : Fin 2) * 64 ≤ (i 1).val
      ∧ (i 1).val < win2_10.index ⟨(i 0).val / 2000, ht⟩ (1 : Fin 2) * 64 + 64
    omega

/-- Launch 2: after it the output array is the stage of the arrays it found. -/
theorem stage2 (c : Dev nD) : (dat2 V c).arrAt 10 cfg2.N = Gnn.node (V c main_v15) (V c main_v26) ⟨(V c main_v28), Gnn.unrow (V c main_v31), (V c main_v33), Gnn.unrow (V c main_v36), Gnn.unrow (V c main_v39), Gnn.unrow (V c main_v42), Gnn.unrow (V c main_v45), Gnn.unrow (V c main_v48)⟩ :=
  (dat2 V c).arrAt_eq_of_cover 10 _ (fun t _ => flushed2 V c t) cover2
/-- Launch 5: where each window's block sits at grid point t. -/
theorem idx5 : ∀ t : Fin cfg5.N, win5_0.index t (0 : Fin 2) = t.val
    ∧ win5_0.index t (1 : Fin 2) = 0
    ∧ win5_1.index t (0 : Fin 2) = t.val
    ∧ win5_1.index t (1 : Fin 2) = 0
    ∧ win5_2.index t (0 : Fin 2) = 0
    ∧ win5_2.index t (1 : Fin 2) = 0
    ∧ win5_3.index t (0 : Fin 2) = 0
    ∧ win5_3.index t (1 : Fin 2) = 0
    ∧ win5_4.index t (0 : Fin 2) = 0
    ∧ win5_4.index t (1 : Fin 2) = 0
    ∧ win5_5.index t (0 : Fin 2) = 0
    ∧ win5_5.index t (1 : Fin 2) = 0
    ∧ win5_6.index t (0 : Fin 2) = 0
    ∧ win5_6.index t (1 : Fin 2) = 0
    ∧ win5_7.index t (0 : Fin 2) = 0
    ∧ win5_7.index t (1 : Fin 2) = 0
    ∧ win5_8.index t (0 : Fin 2) = 0
    ∧ win5_8.index t (1 : Fin 2) = 0
    ∧ win5_9.index t (0 : Fin 2) = 0
    ∧ win5_9.index t (1 : Fin 2) = 0
    ∧ win5_10.index t (0 : Fin 2) = t.val
    ∧ win5_10.index t (1 : Fin 2) = 0 :=
  (by decide +kernel : ∀ t : Fin grid5.N, _)

/-- Launch 5, window 0: row p of point t's block is row 2000 t + p of the array. -/
theorem rows5_0 (c : Dev nD) (t : Fin cfg5.N) (p : Fin 2000) (q : Fin 64) (h : t.val * 2000 + p.val < 100000) :
    iblk5 V c 0 t (ix2 p q) = V c main_v64 (ix2 (⟨t.val * 2000 + p.val, h⟩ : Fin 100000) q) := by
  obtain ⟨e0a, e0b, e1a, e1b, e2a, e2b, e3a, e3b, e4a, e4b, e5a, e5b, e6a, e6b, e7a, e7b, e8a, e8b, e9a, e9b, e10a, e10b⟩ := idx5 t
  show V c main_v64 (((cfg5.win 0).blk t).view.emb (ix2 p q)) = _
  refine congrArg (V c main_v64) (funext fun a => Fin.ext ?_)
  match a with
  | ⟨0, _⟩ => show win5_0.index t (0 : Fin 2) * 2000 + 1 * p.val = t.val * 2000 + p.val; omega
  | ⟨1, _⟩ => show win5_0.index t (1 : Fin 2) * 64 + 1 * q.val = q.val; omega

/-- Launch 5, window 1: row p of point t's block is row 2000 t + p of the array. -/
theorem rows5_1 (c : Dev nD) (t : Fin cfg5.N) (p : Fin 2000) (q : Fin 64) (h : t.val * 2000 + p.val < 100000) :
    iblk5 V c 1 t (ix2 p q) = V c main_v75 (ix2 (⟨t.val * 2000 + p.val, h⟩ : Fin 100000) q) := by
  obtain ⟨e0a, e0b, e1a, e1b, e2a, e2b, e3a, e3b, e4a, e4b, e5a, e5b, e6a, e6b, e7a, e7b, e8a, e8b, e9a, e9b, e10a, e10b⟩ := idx5 t
  show V c main_v75 (((cfg5.win 1).blk t).view.emb (ix2 p q)) = _
  refine congrArg (V c main_v75) (funext fun a => Fin.ext ?_)
  match a with
  | ⟨0, _⟩ => show win5_1.index t (0 : Fin 2) * 2000 + 1 * p.val = t.val * 2000 + p.val; omega
  | ⟨1, _⟩ => show win5_1.index t (1 : Fin 2) * 64 + 1 * q.val = q.val; omega

/-- Launch 5, window 2: the block is the whole array. -/
theorem whole5_2 (c : Dev nD) (t : Fin cfg5.N) : (iblk5 V c 2 t : Vec Ideal S64x64 .f32) = V c main_v77 := by
  obtain ⟨e0a, e0b, e1a, e1b, e2a, e2b, e3a, e3b, e4a, e4b, e5a, e5b, e6a, e6b, e7a, e7b, e8a, e8b, e9a, e9b, e10a, e10b⟩ := idx5 t
  funext y
  show V c main_v77 (((cfg5.win 2).blk t).view.emb y) = V c main_v77 y
  refine congrArg (V c main_v77) (funext fun a => Fin.ext ?_)
  match a with
  | ⟨0, _⟩ => show win5_2.index t (0 : Fin 2) * 64 + 1 * (y 0).val = (y 0).val; omega
  | ⟨1, _⟩ => show win5_2.index t (1 : Fin 2) * 64 + 1 * (y 1).val = (y 1).val; omega

/-- Launch 5, window 3: the block is the whole array. -/
theorem whole5_3 (c : Dev nD) (t : Fin cfg5.N) : (iblk5 V c 3 t : Vec Ideal S1x64 .f32) = V c main_v80 := by
  obtain ⟨e0a, e0b, e1a, e1b, e2a, e2b, e3a, e3b, e4a, e4b, e5a, e5b, e6a, e6b, e7a, e7b, e8a, e8b, e9a, e9b, e10a, e10b⟩ := idx5 t
  funext y
  show V c main_v80 (((cfg5.win 3).blk t).view.emb y) = V c main_v80 y
  refine congrArg (V c main_v80) (funext fun a => Fin.ext ?_)
  match a with
  | ⟨0, _⟩ => show win5_3.index t (0 : Fin 2) * 1 + 1 * (y 0).val = (y 0).val; omega
  | ⟨1, _⟩ => show win5_3.index t (1 : Fin 2) * 64 + 1 * (y 1).val = (y 1).val; omega

/-- Launch 5, window 4: the block is the whole array. -/
theorem whole5_4 (c : Dev nD) (t : Fin cfg5.N) : (iblk5 V c 4 t : Vec Ideal S64x64 .f32) = V c main_v82 := by
  obtain ⟨e0a, e0b, e1a, e1b, e2a, e2b, e3a, e3b, e4a, e4b, e5a, e5b, e6a, e6b, e7a, e7b, e8a, e8b, e9a, e9b, e10a, e10b⟩ := idx5 t
  funext y
  show V c main_v82 (((cfg5.win 4).blk t).view.emb y) = V c main_v82 y
  refine congrArg (V c main_v82) (funext fun a => Fin.ext ?_)
  match a with
  | ⟨0, _⟩ => show win5_4.index t (0 : Fin 2) * 64 + 1 * (y 0).val = (y 0).val; omega
  | ⟨1, _⟩ => show win5_4.index t (1 : Fin 2) * 64 + 1 * (y 1).val = (y 1).val; omega

/-- Launch 5, window 5: the block is the whole array. -/
theorem whole5_5 (c : Dev nD) (t : Fin cfg5.N) : (iblk5 V c 5 t : Vec Ideal S1x64 .f32) = V c main_v85 := by
  obtain ⟨e0a, e0b, e1a, e1b, e2a, e2b, e3a, e3b, e4a, e4b, e5a, e5b, e6a, e6b, e7a, e7b, e8a, e8b, e9a, e9b, e10a, e10b⟩ := idx5 t
  funext y
  show V c main_v85 (((cfg5.win 5).blk t).view.emb y) = V c main_v85 y
  refine congrArg (V c main_v85) (funext fun a => Fin.ext ?_)
  match a with
  | ⟨0, _⟩ => show win5_5.index t (0 : Fin 2) * 1 + 1 * (y 0).val = (y 0).val; omega
  | ⟨1, _⟩ => show win5_5.index t (1 : Fin 2) * 64 + 1 * (y 1).val = (y 1).val; omega

/-- Launch 5, window 6: the block is the whole array. -/
theorem whole5_6 (c : Dev nD) (t : Fin cfg5.N) : (iblk5 V c 6 t : Vec Ideal S1x64 .f32) = V c main_v88 := by
  obtain ⟨e0a, e0b, e1a, e1b, e2a, e2b, e3a, e3b, e4a, e4b, e5a, e5b, e6a, e6b, e7a, e7b, e8a, e8b, e9a, e9b, e10a, e10b⟩ := idx5 t
  funext y
  show V c main_v88 (((cfg5.win 6).blk t).view.emb y) = V c main_v88 y
  refine congrArg (V c main_v88) (funext fun a => Fin.ext ?_)
  match a with
  | ⟨0, _⟩ => show win5_6.index t (0 : Fin 2) * 1 + 1 * (y 0).val = (y 0).val; omega
  | ⟨1, _⟩ => show win5_6.index t (1 : Fin 2) * 64 + 1 * (y 1).val = (y 1).val; omega

/-- Launch 5, window 7: the block is the whole array. -/
theorem whole5_7 (c : Dev nD) (t : Fin cfg5.N) : (iblk5 V c 7 t : Vec Ideal S1x64 .f32) = V c main_v91 := by
  obtain ⟨e0a, e0b, e1a, e1b, e2a, e2b, e3a, e3b, e4a, e4b, e5a, e5b, e6a, e6b, e7a, e7b, e8a, e8b, e9a, e9b, e10a, e10b⟩ := idx5 t
  funext y
  show V c main_v91 (((cfg5.win 7).blk t).view.emb y) = V c main_v91 y
  refine congrArg (V c main_v91) (funext fun a => Fin.ext ?_)
  match a with
  | ⟨0, _⟩ => show win5_7.index t (0 : Fin 2) * 1 + 1 * (y 0).val = (y 0).val; omega
  | ⟨1, _⟩ => show win5_7.index t (1 : Fin 2) * 64 + 1 * (y 1).val = (y 1).val; omega

/-- Launch 5, window 8: the block is the whole array. -/
theorem whole5_8 (c : Dev nD) (t : Fin cfg5.N) : (iblk5 V c 8 t : Vec Ideal S1x64 .f32) = V c main_v94 := by
  obtain ⟨e0a, e0b, e1a, e1b, e2a, e2b, e3a, e3b, e4a, e4b, e5a, e5b, e6a, e6b, e7a, e7b, e8a, e8b, e9a, e9b, e10a, e10b⟩ := idx5 t
  funext y
  show V c main_v94 (((cfg5.win 8).blk t).view.emb y) = V c main_v94 y
  refine congrArg (V c main_v94) (funext fun a => Fin.ext ?_)
  match a with
  | ⟨0, _⟩ => show win5_8.index t (0 : Fin 2) * 1 + 1 * (y 0).val = (y 0).val; omega
  | ⟨1, _⟩ => show win5_8.index t (1 : Fin 2) * 64 + 1 * (y 1).val = (y 1).val; omega

/-- Launch 5, window 9: the block is the whole array. -/
theorem whole5_9 (c : Dev nD) (t : Fin cfg5.N) : (iblk5 V c 9 t : Vec Ideal S1x64 .f32) = V c main_v97 := by
  obtain ⟨e0a, e0b, e1a, e1b, e2a, e2b, e3a, e3b, e4a, e4b, e5a, e5b, e6a, e6b, e7a, e7b, e8a, e8b, e9a, e9b, e10a, e10b⟩ := idx5 t
  funext y
  show V c main_v97 (((cfg5.win 9).blk t).view.emb y) = V c main_v97 y
  refine congrArg (V c main_v97) (funext fun a => Fin.ext ?_)
  match a with
  | ⟨0, _⟩ => show win5_9.index t (0 : Fin 2) * 1 + 1 * (y 0).val = (y 0).val; omega
  | ⟨1, _⟩ => show win5_9.index t (1 : Fin 2) * 64 + 1 * (y 1).val = (y 1).val; omega

/-- Launch 5: what point t writes back is block t of the stage of the arrays the launch found. -/
theorem flushed5 (c : Dev nD) (t : Fin cfg5.N) :
    (dat5 V c).flushed 10 t = ((cfg5.win 10).blk t).view.read (Elt Ideal) (Gnn.node (V c main_v64) (V c main_v75) ⟨(V c main_v77), Gnn.unrow (V c main_v80), (V c main_v82), Gnn.unrow (V c main_v85), Gnn.unrow (V c main_v88), Gnn.unrow (V c main_v91), Gnn.unrow (V c main_v94), Gnn.unrow (V c main_v97)⟩) := by
  show (cfg5.win 10).cut (grid5.coords t) ((dat5 V c).after 10 t) = _
  rw [after5_10]
  unfold out5_10
  rw [View.canon_unit_zero hz2n]
  simp only [View.ld_unit_zero (S := S2000x64) hz2n, View.ld_unit_zero (S := S64x64) hz2n, View.ld_unit_zero (S := S1x64) hz2n]
  obtain ⟨e0a, e0b, e1a, e1b, e2a, e2b, e3a, e3b, e4a, e4b, e5a, e5b, e6a, e6b, e7a, e7b, e8a, e8b, e9a, e9b, e10a, e10b⟩ := idx5 t
  have ht : t.val < 50 := t.isLt
  funext j
  obtain ⟨p, q, rfl⟩ : ∃ (p : Fin 2000) (q : Fin 64), j = ix2 p q := ⟨j 0, j 1, eq_ix2 j⟩
  have hp : t.val * 2000 + p.val < 100000 := by have := p.isLt; omega
  have hemb : ((cfg5.win 10).blk t).view.emb (ix2 p q) = ix2 (⟨t.val * 2000 + p.val, hp⟩ : Fin 100000) q := by
    funext a; apply Fin.ext
    match a with
    | ⟨0, _⟩ => show win5_10.index t (0 : Fin 2) * 2000 + 1 * p.val = t.val * 2000 + p.val; omega
    | ⟨1, _⟩ => show win5_10.index t (1 : Fin 2) * 64 + 1 * q.val = q.val; omega
  show k5_pay1 (k5_pay2 (iblk5 V c 0 t) (iblk5 V c 1 t) (iblk5 V c 2 t) (iblk5 V c 3 t) (iblk5 V c 4 t) (iblk5 V c 5 t) (iblk5 V c 8 t) (iblk5 V c 9 t)) (iblk5 V c 6 t) (iblk5 V c 7 t) (ix2 p q) = (Gnn.node (V c main_v64) (V c main_v75) ⟨(V c main_v77), Gnn.unrow (V c main_v80), (V c main_v82), Gnn.unrow (V c main_v85), Gnn.unrow (V c main_v88), Gnn.unrow (V c main_v91), Gnn.unrow (V c main_v94), Gnn.unrow (V c main_v97)⟩) (((cfg5.win 10).blk t).view.emb (ix2 p q))
  rw [hemb, Bodies.node_at5, whole5_2, whole5_3, whole5_4, whole5_5, whole5_6, whole5_7, whole5_8, whole5_9]
  exact Gnn.nodeAt_rows _ q (fun kk => rows5_0 V c t p kk hp) fun kk => rows5_1 V c t p kk hp

theorem mem_blk5 (t : Fin cfg5.N) (i : S100000x64.Idx) :
    i ∈ ((cfg5.win 10).blk t).view.set ↔ ∀ a : Fin 2, win5_10.index t a * S2000x64.size a ≤ (i a).val
      ∧ (i a).val < win5_10.index t a * S2000x64.size a + S2000x64.size a := by
  show i ∈ ((View.whole main_v98).slice (win5_10.rect t)).set ↔ _
  rw [View.set_slice_whole, Rect.mem_set_unit]
  exact Iff.rfl

/-- Launch 5: row r of the output lies in the block of point r / 2000. -/
theorem cover5 (i : S100000x64.Idx) : ∃ t : Fin cfg5.N, (cfg5.win 10).flush t = true ∧ i ∈ ((cfg5.win 10).blk t).view.set := by
  have hi0 : (i 0).val < 100000 := (i 0).isLt
  have hi1 : (i 1).val < 64 := (i 1).isLt
  have ht : (i 0).val / 2000 < 50 := by omega
  refine ⟨⟨(i 0).val / 2000, ht⟩, flush5_10 _, ?_⟩
  rw [mem_blk5]
  obtain ⟨e0a, e0b, e1a, e1b, e2a, e2b, e3a, e3b, e4a, e4b, e5a, e5b, e6a, e6b, e7a, e7b, e8a, e8b, e9a, e9b, e10a, e10b⟩ := idx5 ⟨(i 0).val / 2000, ht⟩
  have e' : win5_10.index ⟨(i 0).val / 2000, ht⟩ (0 : Fin 2) = (i 0).val / 2000 := e10a
  intro a
  match a with
  | ⟨0, _⟩ =>
    show win5_10.index ⟨(i 0).val / 2000, ht⟩ (0 : Fin 2) * 2000 ≤ (i 0).val
      ∧ (i 0).val < win5_10.index ⟨(i 0).val / 2000, ht⟩ (0 : Fin 2) * 2000 + 2000
    omega
  | ⟨1, _⟩ =>
    show win5_10.index ⟨(i 0).val / 2000, ht⟩ (1 : Fin 2) * 64 ≤ (i 1).val
      ∧ (i 1).val < win5_10.index ⟨(i 0).val / 2000, ht⟩ (1 : Fin 2) * 64 + 64
    omega

/-- Launch 5: after it the output array is the stage of the arrays it found. -/
theorem stage5 (c : Dev nD) : (dat5 V c).arrAt 10 cfg5.N = Gnn.node (V c main_v64) (V c main_v75) ⟨(V c main_v77), Gnn.unrow (V c main_v80), (V c main_v82), Gnn.unrow (V c main_v85), Gnn.unrow (V c main_v88), Gnn.unrow (V c main_v91), Gnn.unrow (V c main_v94), Gnn.unrow (V c main_v97)⟩ :=
  (dat5 V c).arrAt_eq_of_cover 10 _ (fun t _ => flushed5 V c t) cover5
/-- Launch 8: where each window's block sits at grid point t. -/
theorem idx8 : ∀ t : Fin cfg8.N, win8_0.index t (0 : Fin 2) = t.val
    ∧ win8_0.index t (1 : Fin 2) = 0
    ∧ win8_1.index t (0 : Fin 2) = t.val
    ∧ win8_1.index t (1 : Fin 2) = 0
    ∧ win8_2.index t (0 : Fin 2) = 0
    ∧ win8_2.index t (1 : Fin 2) = 0
    ∧ win8_3.index t (0 : Fin 2) = 0
    ∧ win8_3.index t (1 : Fin 2) = 0
    ∧ win8_4.index t (0 : Fin 2) = 0
    ∧ win8_4.index t (1 : Fin 2) = 0
    ∧ win8_5.index t (0 : Fin 2) = 0
    ∧ win8_5.index t (1 : Fin 2) = 0
    ∧ win8_6.index t (0 : Fin 2) = 0
    ∧ win8_6.index t (1 : Fin 2) = 0
    ∧ win8_7.index t (0 : Fin 2) = 0
    ∧ win8_7.index t (1 : Fin 2) = 0
    ∧ win8_8.index t (0 : Fin 2) = 0
    ∧ win8_8.index t (1 : Fin 2) = 0
    ∧ win8_9.index t (0 : Fin 2) = 0
    ∧ win8_9.index t (1 : Fin 2) = 0
    ∧ win8_10.index t (0 : Fin 2) = t.val
    ∧ win8_10.index t (1 : Fin 2) = 0 :=
  (by decide +kernel : ∀ t : Fin grid8.N, _)

/-- Launch 8, window 0: row p of point t's block is row 2000 t + p of the array. -/
theorem rows8_0 (c : Dev nD) (t : Fin cfg8.N) (p : Fin 2000) (q : Fin 64) (h : t.val * 2000 + p.val < 100000) :
    iblk8 V c 0 t (ix2 p q) = V c main_v113 (ix2 (⟨t.val * 2000 + p.val, h⟩ : Fin 100000) q) := by
  obtain ⟨e0a, e0b, e1a, e1b, e2a, e2b, e3a, e3b, e4a, e4b, e5a, e5b, e6a, e6b, e7a, e7b, e8a, e8b, e9a, e9b, e10a, e10b⟩ := idx8 t
  show V c main_v113 (((cfg8.win 0).blk t).view.emb (ix2 p q)) = _
  refine congrArg (V c main_v113) (funext fun a => Fin.ext ?_)
  match a with
  | ⟨0, _⟩ => show win8_0.index t (0 : Fin 2) * 2000 + 1 * p.val = t.val * 2000 + p.val; omega
  | ⟨1, _⟩ => show win8_0.index t (1 : Fin 2) * 64 + 1 * q.val = q.val; omega

/-- Launch 8, window 1: row p of point t's block is row 2000 t + p of the array. -/
theorem rows8_1 (c : Dev nD) (t : Fin cfg8.N) (p : Fin 2000) (q : Fin 64) (h : t.val * 2000 + p.val < 100000) :
    iblk8 V c 1 t (ix2 p q) = V c main_v124 (ix2 (⟨t.val * 2000 + p.val, h⟩ : Fin 100000) q) := by
  obtain ⟨e0a, e0b, e1a, e1b, e2a, e2b, e3a, e3b, e4a, e4b, e5a, e5b, e6a, e6b, e7a, e7b, e8a, e8b, e9a, e9b, e10a, e10b⟩ := idx8 t
  show V c main_v124 (((cfg8.win 1).blk t).view.emb (ix2 p q)) = _
  refine congrArg (V c main_v124) (funext fun a => Fin.ext ?_)
  match a with
  | ⟨0, _⟩ => show win8_1.index t (0 : Fin 2) * 2000 + 1 * p.val = t.val * 2000 + p.val; omega
  | ⟨1, _⟩ => show win8_1.index t (1 : Fin 2) * 64 + 1 * q.val = q.val; omega

/-- Launch 8, window 2: the block is the whole array. -/
theorem whole8_2 (c : Dev nD) (t : Fin cfg8.N) : (iblk8 V c 2 t : Vec Ideal S64x64 .f32) = V c main_v126 := by
  obtain ⟨e0a, e0b, e1a, e1b, e2a, e2b, e3a, e3b, e4a, e4b, e5a, e5b, e6a, e6b, e7a, e7b, e8a, e8b, e9a, e9b, e10a, e10b⟩ := idx8 t
  funext y
  show V c main_v126 (((cfg8.win 2).blk t).view.emb y) = V c main_v126 y
  refine congrArg (V c main_v126) (funext fun a => Fin.ext ?_)
  match a with
  | ⟨0, _⟩ => show win8_2.index t (0 : Fin 2) * 64 + 1 * (y 0).val = (y 0).val; omega
  | ⟨1, _⟩ => show win8_2.index t (1 : Fin 2) * 64 + 1 * (y 1).val = (y 1).val; omega

/-- Launch 8, window 3: the block is the whole array. -/
theorem whole8_3 (c : Dev nD) (t : Fin cfg8.N) : (iblk8 V c 3 t : Vec Ideal S1x64 .f32) = V c main_v129 := by
  obtain ⟨e0a, e0b, e1a, e1b, e2a, e2b, e3a, e3b, e4a, e4b, e5a, e5b, e6a, e6b, e7a, e7b, e8a, e8b, e9a, e9b, e10a, e10b⟩ := idx8 t
  funext y
  show V c main_v129 (((cfg8.win 3).blk t).view.emb y) = V c main_v129 y
  refine congrArg (V c main_v129) (funext fun a => Fin.ext ?_)
  match a with
  | ⟨0, _⟩ => show win8_3.index t (0 : Fin 2) * 1 + 1 * (y 0).val = (y 0).val; omega
  | ⟨1, _⟩ => show win8_3.index t (1 : Fin 2) * 64 + 1 * (y 1).val = (y 1).val; omega

/-- Launch 8, window 4: the block is the whole array. -/
theorem whole8_4 (c : Dev nD) (t : Fin cfg8.N) : (iblk8 V c 4 t : Vec Ideal S64x64 .f32) = V c main_v131 := by
  obtain ⟨e0a, e0b, e1a, e1b, e2a, e2b, e3a, e3b, e4a, e4b, e5a, e5b, e6a, e6b, e7a, e7b, e8a, e8b, e9a, e9b, e10a, e10b⟩ := idx8 t
  funext y
  show V c main_v131 (((cfg8.win 4).blk t).view.emb y) = V c main_v131 y
  refine congrArg (V c main_v131) (funext fun a => Fin.ext ?_)
  match a with
  | ⟨0, _⟩ => show win8_4.index t (0 : Fin 2) * 64 + 1 * (y 0).val = (y 0).val; omega
  | ⟨1, _⟩ => show win8_4.index t (1 : Fin 2) * 64 + 1 * (y 1).val = (y 1).val; omega

/-- Launch 8, window 5: the block is the whole array. -/
theorem whole8_5 (c : Dev nD) (t : Fin cfg8.N) : (iblk8 V c 5 t : Vec Ideal S1x64 .f32) = V c main_v134 := by
  obtain ⟨e0a, e0b, e1a, e1b, e2a, e2b, e3a, e3b, e4a, e4b, e5a, e5b, e6a, e6b, e7a, e7b, e8a, e8b, e9a, e9b, e10a, e10b⟩ := idx8 t
  funext y
  show V c main_v134 (((cfg8.win 5).blk t).view.emb y) = V c main_v134 y
  refine congrArg (V c main_v134) (funext fun a => Fin.ext ?_)
  match a with
  | ⟨0, _⟩ => show win8_5.index t (0 : Fin 2) * 1 + 1 * (y 0).val = (y 0).val; omega
  | ⟨1, _⟩ => show win8_5.index t (1 : Fin 2) * 64 + 1 * (y 1).val = (y 1).val; omega

/-- Launch 8, window 6: the block is the whole array. -/
theorem whole8_6 (c : Dev nD) (t : Fin cfg8.N) : (iblk8 V c 6 t : Vec Ideal S1x64 .f32) = V c main_v137 := by
  obtain ⟨e0a, e0b, e1a, e1b, e2a, e2b, e3a, e3b, e4a, e4b, e5a, e5b, e6a, e6b, e7a, e7b, e8a, e8b, e9a, e9b, e10a, e10b⟩ := idx8 t
  funext y
  show V c main_v137 (((cfg8.win 6).blk t).view.emb y) = V c main_v137 y
  refine congrArg (V c main_v137) (funext fun a => Fin.ext ?_)
  match a with
  | ⟨0, _⟩ => show win8_6.index t (0 : Fin 2) * 1 + 1 * (y 0).val = (y 0).val; omega
  | ⟨1, _⟩ => show win8_6.index t (1 : Fin 2) * 64 + 1 * (y 1).val = (y 1).val; omega

/-- Launch 8, window 7: the block is the whole array. -/
theorem whole8_7 (c : Dev nD) (t : Fin cfg8.N) : (iblk8 V c 7 t : Vec Ideal S1x64 .f32) = V c main_v140 := by
  obtain ⟨e0a, e0b, e1a, e1b, e2a, e2b, e3a, e3b, e4a, e4b, e5a, e5b, e6a, e6b, e7a, e7b, e8a, e8b, e9a, e9b, e10a, e10b⟩ := idx8 t
  funext y
  show V c main_v140 (((cfg8.win 7).blk t).view.emb y) = V c main_v140 y
  refine congrArg (V c main_v140) (funext fun a => Fin.ext ?_)
  match a with
  | ⟨0, _⟩ => show win8_7.index t (0 : Fin 2) * 1 + 1 * (y 0).val = (y 0).val; omega
  | ⟨1, _⟩ => show win8_7.index t (1 : Fin 2) * 64 + 1 * (y 1).val = (y 1).val; omega

/-- Launch 8, window 8: the block is the whole array. -/
theorem whole8_8 (c : Dev nD) (t : Fin cfg8.N) : (iblk8 V c 8 t : Vec Ideal S1x64 .f32) = V c main_v143 := by
  obtain ⟨e0a, e0b, e1a, e1b, e2a, e2b, e3a, e3b, e4a, e4b, e5a, e5b, e6a, e6b, e7a, e7b, e8a, e8b, e9a, e9b, e10a, e10b⟩ := idx8 t
  funext y
  show V c main_v143 (((cfg8.win 8).blk t).view.emb y) = V c main_v143 y
  refine congrArg (V c main_v143) (funext fun a => Fin.ext ?_)
  match a with
  | ⟨0, _⟩ => show win8_8.index t (0 : Fin 2) * 1 + 1 * (y 0).val = (y 0).val; omega
  | ⟨1, _⟩ => show win8_8.index t (1 : Fin 2) * 64 + 1 * (y 1).val = (y 1).val; omega

/-- Launch 8, window 9: the block is the whole array. -/
theorem whole8_9 (c : Dev nD) (t : Fin cfg8.N) : (iblk8 V c 9 t : Vec Ideal S1x64 .f32) = V c main_v146 := by
  obtain ⟨e0a, e0b, e1a, e1b, e2a, e2b, e3a, e3b, e4a, e4b, e5a, e5b, e6a, e6b, e7a, e7b, e8a, e8b, e9a, e9b, e10a, e10b⟩ := idx8 t
  funext y
  show V c main_v146 (((cfg8.win 9).blk t).view.emb y) = V c main_v146 y
  refine congrArg (V c main_v146) (funext fun a => Fin.ext ?_)
  match a with
  | ⟨0, _⟩ => show win8_9.index t (0 : Fin 2) * 1 + 1 * (y 0).val = (y 0).val; omega
  | ⟨1, _⟩ => show win8_9.index t (1 : Fin 2) * 64 + 1 * (y 1).val = (y 1).val; omega

/-- Launch 8: what point t writes back is block t of the stage of the arrays the launch found. -/
theorem flushed8 (c : Dev nD) (t : Fin cfg8.N) :
    (dat8 V c).flushed 10 t = ((cfg8.win 10).blk t).view.read (Elt Ideal) (Gnn.node (V c main_v113) (V c main_v124) ⟨(V c main_v126), Gnn.unrow (V c main_v129), (V c main_v131), Gnn.unrow (V c main_v134), Gnn.unrow (V c main_v137), Gnn.unrow (V c main_v140), Gnn.unrow (V c main_v143), Gnn.unrow (V c main_v146)⟩) := by
  show (cfg8.win 10).cut (grid8.coords t) ((dat8 V c).after 10 t) = _
  rw [after8_10]
  unfold out8_10
  rw [View.canon_unit_zero hz2n]
  simp only [View.ld_unit_zero (S := S2000x64) hz2n, View.ld_unit_zero (S := S64x64) hz2n, View.ld_unit_zero (S := S1x64) hz2n]
  obtain ⟨e0a, e0b, e1a, e1b, e2a, e2b, e3a, e3b, e4a, e4b, e5a, e5b, e6a, e6b, e7a, e7b, e8a, e8b, e9a, e9b, e10a, e10b⟩ := idx8 t
  have ht : t.val < 50 := t.isLt
  funext j
  obtain ⟨p, q, rfl⟩ : ∃ (p : Fin 2000) (q : Fin 64), j = ix2 p q := ⟨j 0, j 1, eq_ix2 j⟩
  have hp : t.val * 2000 + p.val < 100000 := by have := p.isLt; omega
  have hemb : ((cfg8.win 10).blk t).view.emb (ix2 p q) = ix2 (⟨t.val * 2000 + p.val, hp⟩ : Fin 100000) q := by
    funext a; apply Fin.ext
    match a with
    | ⟨0, _⟩ => show win8_10.index t (0 : Fin 2) * 2000 + 1 * p.val = t.val * 2000 + p.val; omega
    | ⟨1, _⟩ => show win8_10.index t (1 : Fin 2) * 64 + 1 * q.val = q.val; omega
  show k8_pay1 (k8_pay2 (iblk8 V c 0 t) (iblk8 V c 1 t) (iblk8 V c 2 t) (iblk8 V c 3 t) (iblk8 V c 4 t) (iblk8 V c 5 t) (iblk8 V c 8 t) (iblk8 V c 9 t)) (iblk8 V c 6 t) (iblk8 V c 7 t) (ix2 p q) = (Gnn.node (V c main_v113) (V c main_v124) ⟨(V c main_v126), Gnn.unrow (V c main_v129), (V c main_v131), Gnn.unrow (V c main_v134), Gnn.unrow (V c main_v137), Gnn.unrow (V c main_v140), Gnn.unrow (V c main_v143), Gnn.unrow (V c main_v146)⟩) (((cfg8.win 10).blk t).view.emb (ix2 p q))
  rw [hemb, Bodies.node_at8, whole8_2, whole8_3, whole8_4, whole8_5, whole8_6, whole8_7, whole8_8, whole8_9]
  exact Gnn.nodeAt_rows _ q (fun kk => rows8_0 V c t p kk hp) fun kk => rows8_1 V c t p kk hp

theorem mem_blk8 (t : Fin cfg8.N) (i : S100000x64.Idx) :
    i ∈ ((cfg8.win 10).blk t).view.set ↔ ∀ a : Fin 2, win8_10.index t a * S2000x64.size a ≤ (i a).val
      ∧ (i a).val < win8_10.index t a * S2000x64.size a + S2000x64.size a := by
  show i ∈ ((View.whole main_v147).slice (win8_10.rect t)).set ↔ _
  rw [View.set_slice_whole, Rect.mem_set_unit]
  exact Iff.rfl

/-- Launch 8: row r of the output lies in the block of point r / 2000. -/
theorem cover8 (i : S100000x64.Idx) : ∃ t : Fin cfg8.N, (cfg8.win 10).flush t = true ∧ i ∈ ((cfg8.win 10).blk t).view.set := by
  have hi0 : (i 0).val < 100000 := (i 0).isLt
  have hi1 : (i 1).val < 64 := (i 1).isLt
  have ht : (i 0).val / 2000 < 50 := by omega
  refine ⟨⟨(i 0).val / 2000, ht⟩, flush8_10 _, ?_⟩
  rw [mem_blk8]
  obtain ⟨e0a, e0b, e1a, e1b, e2a, e2b, e3a, e3b, e4a, e4b, e5a, e5b, e6a, e6b, e7a, e7b, e8a, e8b, e9a, e9b, e10a, e10b⟩ := idx8 ⟨(i 0).val / 2000, ht⟩
  have e' : win8_10.index ⟨(i 0).val / 2000, ht⟩ (0 : Fin 2) = (i 0).val / 2000 := e10a
  intro a
  match a with
  | ⟨0, _⟩ =>
    show win8_10.index ⟨(i 0).val / 2000, ht⟩ (0 : Fin 2) * 2000 ≤ (i 0).val
      ∧ (i 0).val < win8_10.index ⟨(i 0).val / 2000, ht⟩ (0 : Fin 2) * 2000 + 2000
    omega
  | ⟨1, _⟩ =>
    show win8_10.index ⟨(i 0).val / 2000, ht⟩ (1 : Fin 2) * 64 ≤ (i 1).val
      ∧ (i 1).val < win8_10.index ⟨(i 0).val / 2000, ht⟩ (1 : Fin 2) * 64 + 64
    omega

/-- Launch 8: after it the output array is the stage of the arrays it found. -/
theorem stage8 (c : Dev nD) : (dat8 V c).arrAt 10 cfg8.N = Gnn.node (V c main_v113) (V c main_v124) ⟨(V c main_v126), Gnn.unrow (V c main_v129), (V c main_v131), Gnn.unrow (V c main_v134), Gnn.unrow (V c main_v137), Gnn.unrow (V c main_v140), Gnn.unrow (V c main_v143), Gnn.unrow (V c main_v146)⟩ :=
  (dat8 V c).arrAt_eq_of_cover 10 _ (fun t _ => flushed8 V c t) cover8

end Cert.KernelIdeal.Stages

end
-- ==== Proof.StageMlp.lean ====
/-
  The two virtual-node launches: one grid point, every window whole. The output array is the two-layer perceptron of the
  pooled rows.
-/
import proofs.«125701_j46669114638593_1_alg».proof.Proof.Gen.KernelIdeal.Frame
import proofs.«125701_j46669114638593_1_alg».proof.Proof.KernelBodies
import proofs.«125701_j46669114638593_1_alg».proof.Proof.SpecRows

set_option maxRecDepth 16384

noncomputable section

namespace Cert.KernelIdeal.Stages

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2v : (![0, 0] : Fin 2 → Nat) = fun _ => 0 := funext fun a => by fin_cases a <;> rfl

/-- Launch 3: where each window's block sits at grid point t. -/
theorem idx3 : ∀ t : Fin cfg3.N, win3_0.index t (0 : Fin 2) = 0
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0 :=
  (by decide +kernel : ∀ t : Fin grid3.N, _)

/-- Launch 3, window 0: the block is the whole array. -/
theorem whole3_0 (c : Dev nD) (t : Fin cfg3.N) : (iblk3 V c 0 t : Vec Ideal S2048x64 .f32) = V c main_v52 := by
  obtain ⟨e0a, e0b, e1a, e1b, e2a, e2b, e3a, e3b, e4a, e4b, e5a, e5b⟩ := idx3 t
  funext y
  show V c main_v52 (((cfg3.win 0).blk t).view.emb y) = V c main_v52 y
  refine congrArg (V c main_v52) (funext fun a => Fin.ext ?_)
  match a with
  | ⟨0, _⟩ => show win3_0.index t (0 : Fin 2) * 2048 + 1 * (y 0).val = (y 0).val; omega
  | ⟨1, _⟩ => show win3_0.index t (1 : Fin 2) * 64 + 1 * (y 1).val = (y 1).val; omega

/-- Launch 3, window 1: the block is the whole array. -/
theorem whole3_1 (c : Dev nD) (t : Fin cfg3.N) : (iblk3 V c 1 t : Vec Ideal S64x64 .f32) = V c main_arg17 := by
  obtain ⟨e0a, e0b, e1a, e1b, e2a, e2b, e3a, e3b, e4a, e4b, e5a, e5b⟩ := idx3 t
  funext y
  show V c main_arg17 (((cfg3.win 1).blk t).view.emb y) = V c main_arg17 y
  refine congrArg (V c main_arg17) (funext fun a => Fin.ext ?_)
  match a with
  | ⟨0, _⟩ => show win3_1.index t (0 : Fin 2) * 64 + 1 * (y 0).val = (y 0).val; omega
  | ⟨1, _⟩ => show win3_1.index t (1 : Fin 2) * 64 + 1 * (y 1).val = (y 1).val; omega

/-- Launch 3, window 2: the block is the whole array. -/
theorem whole3_2 (c : Dev nD) (t : Fin cfg3.N) : (iblk3 V c 2 t : Vec Ideal S1x64 .f32) = V c main_v53 := by
  obtain ⟨e0a, e0b, e1a, e1b, e2a, e2b, e3a, e3b, e4a, e4b, e5a, e5b⟩ := idx3 t
  funext y
  show V c main_v53 (((cfg3.win 2).blk t).view.emb y) = V c main_v53 y
  refine congrArg (V c main_v53) (funext fun a => Fin.ext ?_)
  match a with
  | ⟨0, _⟩ => show win3_2.index t (0 : Fin 2) * 1 + 1 * (y 0).val = (y 0).val; omega
  | ⟨1, _⟩ => show win3_2.index t (1 : Fin 2) * 64 + 1 * (y 1).val = (y 1).val; omega

/-- Launch 3, window 3: the block is the whole array. -/
theorem whole3_3 (c : Dev nD) (t : Fin cfg3.N) : (iblk3 V c 3 t : Vec Ideal S64x64 .f32) = V c main_arg19 := by
  obtain ⟨e0a, e0b, e1a, e1b, e2a, e2b, e3a, e3b, e4a, e4b, e5a, e5b⟩ := idx3 t
  funext y
  show V c main_arg19 (((cfg3.win 3).blk t).view.emb y) = V c main_arg19 y
  refine congrArg (V c main_arg19) (funext fun a => Fin.ext ?_)
  match a with
  | ⟨0, _⟩ => show win3_3.index t (0 : Fin 2) * 64 + 1 * (y 0).val = (y 0).val; omega
  | ⟨1, _⟩ => show win3_3.index t (1 : Fin 2) * 64 + 1 * (y 1).val = (y 1).val; omega

/-- Launch 3, window 4: the block is the whole array. -/
theorem whole3_4 (c : Dev nD) (t : Fin cfg3.N) : (iblk3 V c 4 t : Vec Ideal S1x64 .f32) = V c main_v54 := by
  obtain ⟨e0a, e0b, e1a, e1b, e2a, e2b, e3a, e3b, e4a, e4b, e5a, e5b⟩ := idx3 t
  funext y
  show V c main_v54 (((cfg3.win 4).blk t).view.emb y) = V c main_v54 y
  refine congrArg (V c main_v54) (funext fun a => Fin.ext ?_)
  match a with
  | ⟨0, _⟩ => show win3_4.index t (0 : Fin 2) * 1 + 1 * (y 0).val = (y 0).val; omega
  | ⟨1, _⟩ => show win3_4.index t (1 : Fin 2) * 64 + 1 * (y 1).val = (y 1).val; omega

/-- Launch 3: what point t writes back is block t of the stage of the arrays the launch found. -/
theorem flushed3 (c : Dev nD) (t : Fin cfg3.N) :
    (dat3 V c).flushed 5 t = ((cfg3.win 5).blk t).view.read (Elt Ideal) (Gnn.mlp (V c main_v52) (V c main_arg17) (Gnn.unrow (V c main_v53)) (V c main_arg19) (Gnn.unrow (V c main_v54))) := by
  show (cfg3.win 5).cut (grid3.coords t) ((dat3 V c).after 5 t) = _
  rw [after3_5]
  unfold out3_5
  rw [View.canon_unit_zero hz2v]
  simp only [View.ld_unit_zero (S := S2048x64) hz2v, View.ld_unit_zero (S := S64x64) hz2v, View.ld_unit_zero (S := S1x64) hz2v]
  obtain ⟨e0a, e0b, e1a, e1b, e2a, e2b, e3a, e3b, e4a, e4b, e5a, e5b⟩ := idx3 t
  have ht : t.val < 1 := t.isLt
  funext j
  obtain ⟨p, q, rfl⟩ : ∃ (p : Fin 2048) (q : Fin 64), j = ix2 p q := ⟨j 0, j 1, eq_ix2 j⟩
  have hp : t.val * 2048 + p.val < 2048 := by have := p.isLt; omega
  have hemb : ((cfg3.win 5).blk t).view.emb (ix2 p q) = ix2 (⟨t.val * 2048 + p.val, hp⟩ : Fin 2048) q := by
    funext a; apply Fin.ext
    match a with
    | ⟨0, _⟩ => show win3_5.index t (0 : Fin 2) * 2048 + 1 * p.val = t.val * 2048 + p.val; omega
    | ⟨1, _⟩ => show win3_5.index t (1 : Fin 2) * 64 + 1 * q.val = q.val; omega
  show k3_pay1 (iblk3 V c 0 t) (iblk3 V c 1 t) (iblk3 V c 2 t) (iblk3 V c 3 t) (iblk3 V c 4 t) (ix2 p q) = (Gnn.mlp (V c main_v52) (V c main_arg17) (Gnn.unrow (V c main_v53)) (V c main_arg19) (Gnn.unrow (V c main_v54))) (((cfg3.win 5).blk t).view.emb (ix2 p q))
  rw [hemb, Bodies.mlp_at3, whole3_0, whole3_1, whole3_2, whole3_3, whole3_4]
  have hpp : (⟨t.val * 2048 + p.val, hp⟩ : Fin 2048) = p := Fin.ext (by show t.val * 2048 + p.val = p.val; omega)
  rw [hpp]
  rfl

theorem mem_blk3 (t : Fin cfg3.N) (i : S2048x64.Idx) :
    i ∈ ((cfg3.win 5).blk t).view.set ↔ ∀ a : Fin 2, win3_5.index t a * S2048x64.size a ≤ (i a).val
      ∧ (i a).val < win3_5.index t a * S2048x64.size a + S2048x64.size a := by
  show i ∈ ((View.whole main_v55).slice (win3_5.rect t)).set ↔ _
  rw [View.set_slice_whole, Rect.mem_set_unit]
  exact Iff.rfl

/-- Launch 3: row r of the output lies in the block of point r / 2048. -/
theorem cover3 (i : S2048x64.Idx) : ∃ t : Fin cfg3.N, (cfg3.win 5).flush t = true ∧ i ∈ ((cfg3.win 5).blk t).view.set := by
  have hi0 : (i 0).val < 2048 := (i 0).isLt
  have hi1 : (i 1).val < 64 := (i 1).isLt
  have ht : (i 0).val / 2048 < 1 := by omega
  refine ⟨⟨(i 0).val / 2048, ht⟩, flush3_5 _, ?_⟩
  rw [mem_blk3]
  obtain ⟨e0a, e0b, e1a, e1b, e2a, e2b, e3a, e3b, e4a, e4b, e5a, e5b⟩ := idx3 ⟨(i 0).val / 2048, ht⟩
  have e' : win3_5.index ⟨(i 0).val / 2048, ht⟩ (0 : Fin 2) = 0 := e5a
  intro a
  match a with
  | ⟨0, _⟩ =>
    show win3_5.index ⟨(i 0).val / 2048, ht⟩ (0 : Fin 2) * 2048 ≤ (i 0).val
      ∧ (i 0).val < win3_5.index ⟨(i 0).val / 2048, ht⟩ (0 : Fin 2) * 2048 + 2048
    omega
  | ⟨1, _⟩ =>
    show win3_5.index ⟨(i 0).val / 2048, ht⟩ (1 : Fin 2) * 64 ≤ (i 1).val
      ∧ (i 1).val < win3_5.index ⟨(i 0).val / 2048, ht⟩ (1 : Fin 2) * 64 + 64
    omega

/-- Launch 3: after it the output array is the stage of the arrays it found. -/
theorem stage3 (c : Dev nD) : (dat3 V c).arrAt 5 cfg3.N = Gnn.mlp (V c main_v52) (V c main_arg17) (Gnn.unrow (V c main_v53)) (V c main_arg19) (Gnn.unrow (V c main_v54)) :=
  (dat3 V c).arrAt_eq_of_cover 5 _ (fun t _ => flushed3 V c t) cover3
/-- Launch 6: where each window's block sits at grid point t. -/
theorem idx6 : ∀ t : Fin cfg6.N, win6_0.index t (0 : Fin 2) = 0
    ∧ win6_0.index t (1 : Fin 2) = 0
    ∧ win6_1.index t (0 : Fin 2) = 0
    ∧ win6_1.index t (1 : Fin 2) = 0
    ∧ win6_2.index t (0 : Fin 2) = 0
    ∧ win6_2.index t (1 : Fin 2) = 0
    ∧ win6_3.index t (0 : Fin 2) = 0
    ∧ win6_3.index t (1 : Fin 2) = 0
    ∧ win6_4.index t (0 : Fin 2) = 0
    ∧ win6_4.index t (1 : Fin 2) = 0
    ∧ win6_5.index t (0 : Fin 2) = 0
    ∧ win6_5.index t (1 : Fin 2) = 0 :=
  (by decide +kernel : ∀ t : Fin grid6.N, _)

/-- Launch 6, window 0: the block is the whole array. -/
theorem whole6_0 (c : Dev nD) (t : Fin cfg6.N) : (iblk6 V c 0 t : Vec Ideal S2048x64 .f32) = V c main_v101 := by
  obtain ⟨e0a, e0b, e1a, e1b, e2a, e2b, e3a, e3b, e4a, e4b, e5a, e5b⟩ := idx6 t
  funext y
  show V c main_v101 (((cfg6.win 0).blk t).view.emb y) = V c main_v101 y
  refine congrArg (V c main_v101) (funext fun a => Fin.ext ?_)
  match a with
  | ⟨0, _⟩ => show win6_0.index t (0 : Fin 2) * 2048 + 1 * (y 0).val = (y 0).val; omega
  | ⟨1, _⟩ => show win6_0.index t (1 : Fin 2) * 64 + 1 * (y 1).val = (y 1).val; omega

/-- Launch 6, window 1: the block is the whole array. -/
theorem whole6_1 (c : Dev nD) (t : Fin cfg6.N) : (iblk6 V c 1 t : Vec Ideal S64x64 .f32) = V c main_arg17 := by
  obtain ⟨e0a, e0b, e1a, e1b, e2a, e2b, e3a, e3b, e4a, e4b, e5a, e5b⟩ := idx6 t
  funext y
  show V c main_arg17 (((cfg6.win 1).blk t).view.emb y) = V c main_arg17 y
  refine congrArg (V c main_arg17) (funext fun a => Fin.ext ?_)
  match a with
  | ⟨0, _⟩ => show win6_1.index t (0 : Fin 2) * 64 + 1 * (y 0).val = (y 0).val; omega
  | ⟨1, _⟩ => show win6_1.index t (1 : Fin 2) * 64 + 1 * (y 1).val = (y 1).val; omega

/-- Launch 6, window 2: the block is the whole array. -/
theorem whole6_2 (c : Dev nD) (t : Fin cfg6.N) : (iblk6 V c 2 t : Vec Ideal S1x64 .f32) = V c main_v102 := by
  obtain ⟨e0a, e0b, e1a, e1b, e2a, e2b, e3a, e3b, e4a, e4b, e5a, e5b⟩ := idx6 t
  funext y
  show V c main_v102 (((cfg6.win 2).blk t).view.emb y) = V c main_v102 y
  refine congrArg (V c main_v102) (funext fun a => Fin.ext ?_)
  match a with
  | ⟨0, _⟩ => show win6_2.index t (0 : Fin 2) * 1 + 1 * (y 0).val = (y 0).val; omega
  | ⟨1, _⟩ => show win6_2.index t (1 : Fin 2) * 64 + 1 * (y 1).val = (y 1).val; omega

/-- Launch 6, window 3: the block is the whole array. -/
theorem whole6_3 (c : Dev nD) (t : Fin cfg6.N) : (iblk6 V c 3 t : Vec Ideal S64x64 .f32) = V c main_arg19 := by
  obtain ⟨e0a, e0b, e1a, e1b, e2a, e2b, e3a, e3b, e4a, e4b, e5a, e5b⟩ := idx6 t
  funext y
  show V c main_arg19 (((cfg6.win 3).blk t).view.emb y) = V c main_arg19 y
  refine congrArg (V c main_arg19) (funext fun a => Fin.ext ?_)
  match a with
  | ⟨0, _⟩ => show win6_3.index t (0 : Fin 2) * 64 + 1 * (y 0).val = (y 0).val; omega
  | ⟨1, _⟩ => show win6_3.index t (1 : Fin 2) * 64 + 1 * (y 1).val = (y 1).val; omega

/-- Launch 6, window 4: the block is the whole array. -/
theorem whole6_4 (c : Dev nD) (t : Fin cfg6.N) : (iblk6 V c 4 t : Vec Ideal S1x64 .f32) = V c main_v103 := by
  obtain ⟨e0a, e0b, e1a, e1b, e2a, e2b, e3a, e3b, e4a, e4b, e5a, e5b⟩ := idx6 t
  funext y
  show V c main_v103 (((cfg6.win 4).blk t).view.emb y) = V c main_v103 y
  refine congrArg (V c main_v103) (funext fun a => Fin.ext ?_)
  match a with
  | ⟨0, _⟩ => show win6_4.index t (0 : Fin 2) * 1 + 1 * (y 0).val = (y 0).val; omega
  | ⟨1, _⟩ => show win6_4.index t (1 : Fin 2) * 64 + 1 * (y 1).val = (y 1).val; omega

/-- Launch 6: what point t writes back is block t of the stage of the arrays the launch found. -/
theorem flushed6 (c : Dev nD) (t : Fin cfg6.N) :
    (dat6 V c).flushed 5 t = ((cfg6.win 5).blk t).view.read (Elt Ideal) (Gnn.mlp (V c main_v101) (V c main_arg17) (Gnn.unrow (V c main_v102)) (V c main_arg19) (Gnn.unrow (V c main_v103))) := by
  show (cfg6.win 5).cut (grid6.coords t) ((dat6 V c).after 5 t) = _
  rw [after6_5]
  unfold out6_5
  rw [View.canon_unit_zero hz2v]
  simp only [View.ld_unit_zero (S := S2048x64) hz2v, View.ld_unit_zero (S := S64x64) hz2v, View.ld_unit_zero (S := S1x64) hz2v]
  obtain ⟨e0a, e0b, e1a, e1b, e2a, e2b, e3a, e3b, e4a, e4b, e5a, e5b⟩ := idx6 t
  have ht : t.val < 1 := t.isLt
  funext j
  obtain ⟨p, q, rfl⟩ : ∃ (p : Fin 2048) (q : Fin 64), j = ix2 p q := ⟨j 0, j 1, eq_ix2 j⟩
  have hp : t.val * 2048 + p.val < 2048 := by have := p.isLt; omega
  have hemb : ((cfg6.win 5).blk t).view.emb (ix2 p q) = ix2 (⟨t.val * 2048 + p.val, hp⟩ : Fin 2048) q := by
    funext a; apply Fin.ext
    match a with
    | ⟨0, _⟩ => show win6_5.index t (0 : Fin 2) * 2048 + 1 * p.val = t.val * 2048 + p.val; omega
    | ⟨1, _⟩ => show win6_5.index t (1 : Fin 2) * 64 + 1 * q.val = q.val; omega
  show k6_pay1 (iblk6 V c 0 t) (iblk6 V c 1 t) (iblk6 V c 2 t) (iblk6 V c 3 t) (iblk6 V c 4 t) (ix2 p q) = (Gnn.mlp (V c main_v101) (V c main_arg17) (Gnn.unrow (V c main_v102)) (V c main_arg19) (Gnn.unrow (V c main_v103))) (((cfg6.win 5).blk t).view.emb (ix2 p q))
  rw [hemb, Bodies.mlp_at6, whole6_0, whole6_1, whole6_2, whole6_3, whole6_4]
  have hpp : (⟨t.val * 2048 + p.val, hp⟩ : Fin 2048) = p := Fin.ext (by show t.val * 2048 + p.val = p.val; omega)
  rw [hpp]
  rfl

theorem mem_blk6 (t : Fin cfg6.N) (i : S2048x64.Idx) :
    i ∈ ((cfg6.win 5).blk t).view.set ↔ ∀ a : Fin 2, win6_5.index t a * S2048x64.size a ≤ (i a).val
      ∧ (i a).val < win6_5.index t a * S2048x64.size a + S2048x64.size a := by
  show i ∈ ((View.whole main_v104).slice (win6_5.rect t)).set ↔ _
  rw [View.set_slice_whole, Rect.mem_set_unit]
  exact Iff.rfl

/-- Launch 6: row r of the output lies in the block of point r / 2048. -/
theorem cover6 (i : S2048x64.Idx) : ∃ t : Fin cfg6.N, (cfg6.win 5).flush t = true ∧ i ∈ ((cfg6.win 5).blk t).view.set := by
  have hi0 : (i 0).val < 2048 := (i 0).isLt
  have hi1 : (i 1).val < 64 := (i 1).isLt
  have ht : (i 0).val / 2048 < 1 := by omega
  refine ⟨⟨(i 0).val / 2048, ht⟩, flush6_5 _, ?_⟩
  rw [mem_blk6]
  obtain ⟨e0a, e0b, e1a, e1b, e2a, e2b, e3a, e3b, e4a, e4b, e5a, e5b⟩ := idx6 ⟨(i 0).val / 2048, ht⟩
  have e' : win6_5.index ⟨(i 0).val / 2048, ht⟩ (0 : Fin 2) = 0 := e5a
  intro a
  match a with
  | ⟨0, _⟩ =>
    show win6_5.index ⟨(i 0).val / 2048, ht⟩ (0 : Fin 2) * 2048 ≤ (i 0).val
      ∧ (i 0).val < win6_5.index ⟨(i 0).val / 2048, ht⟩ (0 : Fin 2) * 2048 + 2048
    omega
  | ⟨1, _⟩ =>
    show win6_5.index ⟨(i 0).val / 2048, ht⟩ (1 : Fin 2) * 64 ≤ (i 1).val
      ∧ (i 1).val < win6_5.index ⟨(i 0).val / 2048, ht⟩ (1 : Fin 2) * 64 + 64
    omega

/-- Launch 6: after it the output array is the stage of the arrays it found. -/
theorem stage6 (c : Dev nD) : (dat6 V c).arrAt 5 cfg6.N = Gnn.mlp (V c main_v101) (V c main_arg17) (Gnn.unrow (V c main_v102)) (V c main_arg19) (Gnn.unrow (V c main_v103)) :=
  (dat6 V c).arrAt_eq_of_cover 5 _ (fun t _ => flushed6 V c t) cover6

end Cert.KernelIdeal.Stages

end
-- ==== Proof.StageCls.lean ====
/-
  The classifier's launch: one grid point, every window whole. The output column is the classifier of the graph means and the
  peptide embedding, the first layer's weight matrix entering as its two halves.
-/
import proofs.«125701_j46669114638593_1_alg».proof.Proof.Gen.KernelIdeal.Frame
import proofs.«125701_j46669114638593_1_alg».proof.Proof.KernelBodies
import proofs.«125701_j46669114638593_1_alg».proof.Proof.SpecRows

set_option maxRecDepth 16384

noncomputable section

namespace Cert.KernelIdeal.Stages

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2c : (![0, 0] : Fin 2 → Nat) = fun _ => 0 := funext fun a => by fin_cases a <;> rfl

/-- Launch 9: where each window's block sits at grid point t. -/
theorem idx9 : ∀ t : Fin cfg9.N, win9_0.index t (0 : Fin 2) = 0
    ∧ win9_0.index t (1 : Fin 2) = 0
    ∧ win9_1.index t (0 : Fin 2) = 0
    ∧ win9_1.index t (1 : Fin 2) = 0
    ∧ win9_2.index t (0 : Fin 2) = 0
    ∧ win9_2.index t (1 : Fin 2) = 0
    ∧ win9_3.index t (0 : Fin 2) = 0
    ∧ win9_3.index t (1 : Fin 2) = 0
    ∧ win9_4.index t (0 : Fin 2) = 0
    ∧ win9_4.index t (1 : Fin 2) = 0
    ∧ win9_5.index t (0 : Fin 2) = 0
    ∧ win9_5.index t (1 : Fin 2) = 0
    ∧ win9_6.index t (0 : Fin 2) = 0
    ∧ win9_6.index t (1 : Fin 2) = 0
    ∧ win9_7.index t (0 : Fin 2) = 0
    ∧ win9_7.index t (1 : Fin 2) = 0
    ∧ win9_8.index t (0 : Fin 2) = 0
    ∧ win9_8.index t (1 : Fin 2) = 0
    ∧ win9_9.index t (0 : Fin 2) = 0
    ∧ win9_9.index t (1 : Fin 2) = 0 :=
  (by decide +kernel : ∀ t : Fin grid9.N, _)

/-- Launch 9, window 0: the block is the whole array. -/
theorem whole9_0 (c : Dev nD) (t : Fin cfg9.N) : (iblk9 V c 0 t : Vec Ideal S2048x64 .f32) = V c main_v159 := by
  obtain ⟨e0a, e0b, e1a, e1b, e2a, e2b, e3a, e3b, e4a, e4b, e5a, e5b, e6a, e6b, e7a, e7b, e8a, e8b, e9a, e9b⟩ := idx9 t
  funext y
  show V c main_v159 (((cfg9.win 0).blk t).view.emb y) = V c main_v159 y
  refine congrArg (V c main_v159) (funext fun a => Fin.ext ?_)
  match a with
  | ⟨0, _⟩ => show win9_0.index t (0 : Fin 2) * 2048 + 1 * (y 0).val = (y 0).val; omega
  | ⟨1, _⟩ => show win9_0.index t (1 : Fin 2) * 64 + 1 * (y 1).val = (y 1).val; omega

/-- Launch 9, window 1: the block is the whole array. -/
theorem whole9_1 (c : Dev nD) (t : Fin cfg9.N) : (iblk9 V c 1 t : Vec Ideal S2048x768 .f32) = V c main_arg4 := by
  obtain ⟨e0a, e0b, e1a, e1b, e2a, e2b, e3a, e3b, e4a, e4b, e5a, e5b, e6a, e6b, e7a, e7b, e8a, e8b, e9a, e9b⟩ := idx9 t
  funext y
  show V c main_arg4 (((cfg9.win 1).blk t).view.emb y) = V c main_arg4 y
  refine congrArg (V c main_arg4) (funext fun a => Fin.ext ?_)
  match a with
  | ⟨0, _⟩ => show win9_1.index t (0 : Fin 2) * 2048 + 1 * (y 0).val = (y 0).val; omega
  | ⟨1, _⟩ => show win9_1.index t (1 : Fin 2) * 768 + 1 * (y 1).val = (y 1).val; omega

/-- Launch 9, window 2: the block is the whole array. -/
theorem whole9_2 (c : Dev nD) (t : Fin cfg9.N) : (iblk9 V c 2 t : Vec Ideal S768x64 .f32) = V c main_arg21 := by
  obtain ⟨e0a, e0b, e1a, e1b, e2a, e2b, e3a, e3b, e4a, e4b, e5a, e5b, e6a, e6b, e7a, e7b, e8a, e8b, e9a, e9b⟩ := idx9 t
  funext y
  show V c main_arg21 (((cfg9.win 2).blk t).view.emb y) = V c main_arg21 y
  refine congrArg (V c main_arg21) (funext fun a => Fin.ext ?_)
  match a with
  | ⟨0, _⟩ => show win9_2.index t (0 : Fin 2) * 768 + 1 * (y 0).val = (y 0).val; omega
  | ⟨1, _⟩ => show win9_2.index t (1 : Fin 2) * 64 + 1 * (y 1).val = (y 1).val; omega

/-- Launch 9, window 3: the block is the whole array. -/
theorem whole9_3 (c : Dev nD) (t : Fin cfg9.N) : (iblk9 V c 3 t : Vec Ideal S1x64 .f32) = V c main_v162 := by
  obtain ⟨e0a, e0b, e1a, e1b, e2a, e2b, e3a, e3b, e4a, e4b, e5a, e5b, e6a, e6b, e7a, e7b, e8a, e8b, e9a, e9b⟩ := idx9 t
  funext y
  show V c main_v162 (((cfg9.win 3).blk t).view.emb y) = V c main_v162 y
  refine congrArg (V c main_v162) (funext fun a => Fin.ext ?_)
  match a with
  | ⟨0, _⟩ => show win9_3.index t (0 : Fin 2) * 1 + 1 * (y 0).val = (y 0).val; omega
  | ⟨1, _⟩ => show win9_3.index t (1 : Fin 2) * 64 + 1 * (y 1).val = (y 1).val; omega

/-- Launch 9, window 4: the block is the whole array. -/
theorem whole9_4 (c : Dev nD) (t : Fin cfg9.N) : (iblk9 V c 4 t : Vec Ideal S64x64 .f32) = V c main_v160 := by
  obtain ⟨e0a, e0b, e1a, e1b, e2a, e2b, e3a, e3b, e4a, e4b, e5a, e5b, e6a, e6b, e7a, e7b, e8a, e8b, e9a, e9b⟩ := idx9 t
  funext y
  show V c main_v160 (((cfg9.win 4).blk t).view.emb y) = V c main_v160 y
  refine congrArg (V c main_v160) (funext fun a => Fin.ext ?_)
  match a with
  | ⟨0, _⟩ => show win9_4.index t (0 : Fin 2) * 64 + 1 * (y 0).val = (y 0).val; omega
  | ⟨1, _⟩ => show win9_4.index t (1 : Fin 2) * 64 + 1 * (y 1).val = (y 1).val; omega

/-- Launch 9, window 5: the block is the whole array. -/
theorem whole9_5 (c : Dev nD) (t : Fin cfg9.N) : (iblk9 V c 5 t : Vec Ideal S64x64 .f32) = V c main_v161 := by
  obtain ⟨e0a, e0b, e1a, e1b, e2a, e2b, e3a, e3b, e4a, e4b, e5a, e5b, e6a, e6b, e7a, e7b, e8a, e8b, e9a, e9b⟩ := idx9 t
  funext y
  show V c main_v161 (((cfg9.win 5).blk t).view.emb y) = V c main_v161 y
  refine congrArg (V c main_v161) (funext fun a => Fin.ext ?_)
  match a with
  | ⟨0, _⟩ => show win9_5.index t (0 : Fin 2) * 64 + 1 * (y 0).val = (y 0).val; omega
  | ⟨1, _⟩ => show win9_5.index t (1 : Fin 2) * 64 + 1 * (y 1).val = (y 1).val; omega

/-- Launch 9, window 6: the block is the whole array. -/
theorem whole9_6 (c : Dev nD) (t : Fin cfg9.N) : (iblk9 V c 6 t : Vec Ideal S1x64 .f32) = V c main_v163 := by
  obtain ⟨e0a, e0b, e1a, e1b, e2a, e2b, e3a, e3b, e4a, e4b, e5a, e5b, e6a, e6b, e7a, e7b, e8a, e8b, e9a, e9b⟩ := idx9 t
  funext y
  show V c main_v163 (((cfg9.win 6).blk t).view.emb y) = V c main_v163 y
  refine congrArg (V c main_v163) (funext fun a => Fin.ext ?_)
  match a with
  | ⟨0, _⟩ => show win9_6.index t (0 : Fin 2) * 1 + 1 * (y 0).val = (y 0).val; omega
  | ⟨1, _⟩ => show win9_6.index t (1 : Fin 2) * 64 + 1 * (y 1).val = (y 1).val; omega

/-- Launch 9, window 7: the block is the whole array. -/
theorem whole9_7 (c : Dev nD) (t : Fin cfg9.N) : (iblk9 V c 7 t : Vec Ideal S64x1 .f32) = V c main_arg25 := by
  obtain ⟨e0a, e0b, e1a, e1b, e2a, e2b, e3a, e3b, e4a, e4b, e5a, e5b, e6a, e6b, e7a, e7b, e8a, e8b, e9a, e9b⟩ := idx9 t
  funext y
  show V c main_arg25 (((cfg9.win 7).blk t).view.emb y) = V c main_arg25 y
  refine congrArg (V c main_arg25) (funext fun a => Fin.ext ?_)
  match a with
  | ⟨0, _⟩ => show win9_7.index t (0 : Fin 2) * 64 + 1 * (y 0).val = (y 0).val; omega
  | ⟨1, _⟩ => show win9_7.index t (1 : Fin 2) * 1 + 1 * (y 1).val = (y 1).val; omega

/-- Launch 9, window 8: the block is the whole array. -/
theorem whole9_8 (c : Dev nD) (t : Fin cfg9.N) : (iblk9 V c 8 t : Vec Ideal S1x1 .f32) = V c main_v164 := by
  obtain ⟨e0a, e0b, e1a, e1b, e2a, e2b, e3a, e3b, e4a, e4b, e5a, e5b, e6a, e6b, e7a, e7b, e8a, e8b, e9a, e9b⟩ := idx9 t
  funext y
  show V c main_v164 (((cfg9.win 8).blk t).view.emb y) = V c main_v164 y
  refine congrArg (V c main_v164) (funext fun a => Fin.ext ?_)
  match a with
  | ⟨0, _⟩ => show win9_8.index t (0 : Fin 2) * 1 + 1 * (y 0).val = (y 0).val; omega
  | ⟨1, _⟩ => show win9_8.index t (1 : Fin 2) * 1 + 1 * (y 1).val = (y 1).val; omega

/-- Launch 9: what point t writes back is block t of the stage of the arrays the launch found. -/
theorem flushed9 (c : Dev nD) (t : Fin cfg9.N) :
    (dat9 V c).flushed 9 t = ((cfg9.win 9).blk t).view.read (Elt Ideal) (Gnn.clsSplit (V c main_v159) (V c main_arg4) (V c main_arg21) (Gnn.unrow (V c main_v162)) (V c main_v160) (V c main_v161) (Gnn.unrow (V c main_v163)) (V c main_arg25) (Gnn.unrow (V c main_v164))) := by
  show (cfg9.win 9).cut (grid9.coords t) ((dat9 V c).after 9 t) = _
  rw [after9_9]
  unfold out9_9
  rw [View.canon_unit_zero hz2c]
  simp only [View.ld_unit_zero (S := S2048x64) hz2c, View.ld_unit_zero (S := S2048x768) hz2c, View.ld_unit_zero (S := S768x64) hz2c, View.ld_unit_zero (S := S1x64) hz2c, View.ld_unit_zero (S := S64x64) hz2c, View.ld_unit_zero (S := S64x1) hz2c, View.ld_unit_zero (S := S1x1) hz2c]
  obtain ⟨e0a, e0b, e1a, e1b, e2a, e2b, e3a, e3b, e4a, e4b, e5a, e5b, e6a, e6b, e7a, e7b, e8a, e8b, e9a, e9b⟩ := idx9 t
  have ht : t.val < 1 := t.isLt
  funext j
  obtain ⟨p, q, rfl⟩ : ∃ (p : Fin 2048) (q : Fin 1), j = ix2 p q := ⟨j 0, j 1, eq_ix2 j⟩
  have hp : t.val * 2048 + p.val < 2048 := by have := p.isLt; omega
  have hemb : ((cfg9.win 9).blk t).view.emb (ix2 p q) = ix2 (⟨t.val * 2048 + p.val, hp⟩ : Fin 2048) q := by
    funext a; apply Fin.ext
    match a with
    | ⟨0, _⟩ => show win9_9.index t (0 : Fin 2) * 2048 + 1 * p.val = t.val * 2048 + p.val; omega
    | ⟨1, _⟩ => show win9_9.index t (1 : Fin 2) * 1 + 1 * q.val = q.val; omega
  show k9_pay1 (k9_pay2 (iblk9 V c 1 t) (iblk9 V c 2 t) (iblk9 V c 3 t) (iblk9 V c 0 t) (iblk9 V c 4 t) (iblk9 V c 5 t) (iblk9 V c 6 t) (iblk9 V c 7 t)) (iblk9 V c 8 t) (ix2 p q) = (Gnn.clsSplit (V c main_v159) (V c main_arg4) (V c main_arg21) (Gnn.unrow (V c main_v162)) (V c main_v160) (V c main_v161) (Gnn.unrow (V c main_v163)) (V c main_arg25) (Gnn.unrow (V c main_v164))) (((cfg9.win 9).blk t).view.emb (ix2 p q))
  rw [hemb, Bodies.cls_at9, whole9_0, whole9_1, whole9_2, whole9_3, whole9_4, whole9_5, whole9_6, whole9_7, whole9_8]
  have hpp : (⟨t.val * 2048 + p.val, hp⟩ : Fin 2048) = p := Fin.ext (by show t.val * 2048 + p.val = p.val; omega)
  rw [hpp]
  rfl

theorem mem_blk9 (t : Fin cfg9.N) (i : S2048x1.Idx) :
    i ∈ ((cfg9.win 9).blk t).view.set ↔ ∀ a : Fin 2, win9_9.index t a * S2048x1.size a ≤ (i a).val
      ∧ (i a).val < win9_9.index t a * S2048x1.size a + S2048x1.size a := by
  show i ∈ ((View.whole main_v165).slice (win9_9.rect t)).set ↔ _
  rw [View.set_slice_whole, Rect.mem_set_unit]
  exact Iff.rfl

/-- Launch 9: row r of the output lies in the block of point r / 2048. -/
theorem cover9 (i : S2048x1.Idx) : ∃ t : Fin cfg9.N, (cfg9.win 9).flush t = true ∧ i ∈ ((cfg9.win 9).blk t).view.set := by
  have hi0 : (i 0).val < 2048 := (i 0).isLt
  have hi1 : (i 1).val < 1 := (i 1).isLt
  have ht : (i 0).val / 2048 < 1 := by omega
  refine ⟨⟨(i 0).val / 2048, ht⟩, flush9_9 _, ?_⟩
  rw [mem_blk9]
  obtain ⟨e0a, e0b, e1a, e1b, e2a, e2b, e3a, e3b, e4a, e4b, e5a, e5b, e6a, e6b, e7a, e7b, e8a, e8b, e9a, e9b⟩ := idx9 ⟨(i 0).val / 2048, ht⟩
  have e' : win9_9.index ⟨(i 0).val / 2048, ht⟩ (0 : Fin 2) = 0 := e9a
  intro a
  match a with
  | ⟨0, _⟩ =>
    show win9_9.index ⟨(i 0).val / 2048, ht⟩ (0 : Fin 2) * 2048 ≤ (i 0).val
      ∧ (i 0).val < win9_9.index ⟨(i 0).val / 2048, ht⟩ (0 : Fin 2) * 2048 + 2048
    omega
  | ⟨1, _⟩ =>
    show win9_9.index ⟨(i 0).val / 2048, ht⟩ (1 : Fin 2) * 1 ≤ (i 1).val
      ∧ (i 1).val < win9_9.index ⟨(i 0).val / 2048, ht⟩ (1 : Fin 2) * 1 + 1
    omega

/-- Launch 9: after it the output array is the stage of the arrays it found. -/
theorem stage9 (c : Dev nD) : (dat9 V c).arrAt 9 cfg9.N = Gnn.clsSplit (V c main_v159) (V c main_arg4) (V c main_arg21) (Gnn.unrow (V c main_v162)) (V c main_v160) (V c main_v161) (Gnn.unrow (V c main_v163)) (V c main_arg25) (Gnn.unrow (V c main_v164)) :=
  (dat9 V c).arrAt_eq_of_cover 9 _ (fun t _ => flushed9 V c t) cover9

end Cert.KernelIdeal.Stages

end
-- ==== Proof.KernelFold.lean ====
/-
  The chain of valuations of the idealized kernel's run, read forwards.

  At each boundary between a stretch of host operations and a kernel launch, the buffers the rest of the program still
  reads hold named values of the model: the projected node table, each round's table with the virtual node's rows added,
  its rows gathered at the edges' sources, the messages, their sums into the target nodes, the updated table, its sums
  into the graphs, the virtual node's perceptron; at the end the graph means, the logits column, and the result, which
  is that column reshaped to a vector. A stretch's fact is read off its operations (the buffers it reads replaced by
  what they hold at its start); a launch's fact is the launch's stage applied to the arrays it was entered with.
-/
import proofs.«125701_j46669114638593_1_alg».proof.Proof.KernelHold
import proofs.«125701_j46669114638593_1_alg».proof.Proof.KernelModelDefs
import proofs.«125701_j46669114638593_1_alg».proof.Proof.StageProj
import proofs.«125701_j46669114638593_1_alg».proof.Proof.StageMsg
import proofs.«125701_j46669114638593_1_alg».proof.Proof.StageNode
import proofs.«125701_j46669114638593_1_alg».proof.Proof.StageMlp
import proofs.«125701_j46669114638593_1_alg».proof.Proof.StageCls

set_option maxRecDepth 16384
set_option maxHeartbeats 4000000

noncomputable section

namespace Cert.KernelIdeal.Fold

open Cert.KernelIdeal Cert.KernelIdeal.Gen Cert.KernelIdeal.Hold Cert.KernelIdeal.KerValue
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-- An argument array's launch contents on core c. -/
abbrev arg (r : Ref sig .tc) : Buf (Elt Ideal) ((c : Thread nD τ).loc r) := m ((c : Thread nD τ).loc r)

/-- This run's irregular maps and regular inputs. -/
abbrev I : Gnn.Irreg := irreg (arg m c main_arg1) (arg m c main_arg2)
abbrev P : Gnn.Params := params (arg m c main_arg0) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) (arg m c main_arg20) (arg m c main_arg21) (arg m c main_arg22) (arg m c main_arg23) (arg m c main_arg24) (arg m c main_arg25) (arg m c main_arg26)

/-! ## Before the first round -/

theorem v1_1 : W1 m ρ c (Proc.devRef .tc main_v1)
    = (shapeCast S1600000 (extractStridedSlice S1x1600000 ![0, 0] (arg m c main_arg1) slices_S2x1600000_S1x1600000_0_0) shapeCasts_S1x1600000_S1600000 : (⟨S1600000, .i32⟩ : BufTy).Contents (Elt Ideal)) := by
  after_results
  rfl
theorem v3_1 : W1 m ρ c (Proc.devRef .tc main_v3)
    = (shapeCast S1600000 (extractStridedSlice S1x1600000 ![1, 0] (arg m c main_arg1) slices_S2x1600000_S1x1600000_1_0) shapeCasts_S1x1600000_S1600000 : (⟨S1600000, .i32⟩ : BufTy).Contents (Elt Ideal)) := by
  after_results
  rfl
theorem v4_1 : W1 m ρ c (Proc.devRef .tc main_v4) = (shapeCast S1x64 (arg m c main_arg6) shapeCasts_S64_S1x64 : Vec Ideal S1x64 .f32) := by
  after_results
  rfl

/-- The input projection. -/
theorem v5_2 : W2 m ρ c (Proc.devRef .tc main_v5) = Gnn.h0 (P m c) := by
  refine (W2_arr m ρ c 3).trans ?_
  rw [Stages.stage0 (V1 m ρ) c]
  show Gnn.lin (W1 m ρ c (Proc.devRef .tc main_arg0)) (W1 m ρ c (Proc.devRef .tc main_arg5)) (Gnn.unrow (W1 m ρ c (Proc.devRef .tc main_v4))) = _
  rw [arg0_at1 m ρ c, arg5_at1 m ρ c, v4_1 m ρ c, Gnn.unrow_shapeCast]
  rfl

theorem v6_3 : W3 m ρ c (Proc.devRef .tc main_v6) = (P m c).vn0 := by
  after_results
  rfl
theorem v7_3 : W3 m ρ c (Proc.devRef .tc main_v7) = (shapeCast S1x64 (arg m c main_arg8) shapeCasts_S64_S1x64 : Vec Ideal S1x64 .f32) := by
  after_results
  rw [arg8_at2 m ρ c]
  rfl
theorem v15_3 : W3 m ρ c (Proc.devRef .tc main_v15) = Gnn.hin1 (I m c) (P m c) := by
  after_results
  rw [v5_2 m ρ c, arg2_at2 m ρ c]
  rfl
theorem v22_3 : W3 m ρ c (Proc.devRef .tc main_v22) = (I m c).bySource (Gnn.hin1 (I m c) (P m c)) := by
  after_results
  rw [v5_2 m ρ c, arg2_at2 m ρ c, v1_at2 m ρ c, v1_1 m ρ c]
  rfl

/-! ## Round 1 -/

/-- The message launch of round 1: relu (h[src] + (edge features · W + b)) on the gathered rows. -/
theorem v23_4 : W4 m ρ c (Proc.devRef .tc main_v23) = (Gnn.msg ((I m c).bySource (Gnn.hin1 (I m c) (P m c))) (P m c).ea (P m c).eW (P m c).eB) := by
  refine (W4_arr m ρ c 4).trans ?_
  rw [Stages.stage1 (V3 m ρ) c]
  show Gnn.msg (W3 m ρ c (Proc.devRef .tc main_v22)) (W3 m ρ c (Proc.devRef .tc main_arg3)) (W3 m ρ c (Proc.devRef .tc main_arg7)) (Gnn.unrow (W3 m ρ c (Proc.devRef .tc main_v7))) = _
  rw [v22_3 m ρ c, arg3_at3 m ρ c, arg7_at3 m ρ c, v7_3 m ρ c, Gnn.unrow_shapeCast]
  rfl

/-- The messages summed into their target nodes. -/
theorem v26_5 : W5 m ρ c (Proc.devRef .tc main_v26) = (I m c).toTarget (Gnn.msg ((I m c).bySource (Gnn.hin1 (I m c) (P m c))) (P m c).ea (P m c).eW (P m c).eB) := by
  after_results
  rw [v3_at4 m ρ c, v3_1 m ρ c, v23_4 m ρ c]
  rfl

theorem v28_5 : W5 m ρ c (Proc.devRef .tc main_v28) = (P m c).l1.w1 := by
  after_results
  rw [arg9_at4 m ρ c]
  rfl
theorem v31_5 : W5 m ρ c (Proc.devRef .tc main_v31) = (shapeCast S1x64 (P m c).l1.b1 shapeCasts_S64_S1x64 : Vec Ideal S1x64 .f32) := by
  after_results
  rw [arg10_at4 m ρ c]
  rfl
theorem v33_5 : W5 m ρ c (Proc.devRef .tc main_v33) = (P m c).l1.w2 := by
  after_results
  rw [arg11_at4 m ρ c]
  rfl
theorem v36_5 : W5 m ρ c (Proc.devRef .tc main_v36) = (shapeCast S1x64 (P m c).l1.b2 shapeCasts_S64_S1x64 : Vec Ideal S1x64 .f32) := by
  after_results
  rw [arg12_at4 m ρ c]
  rfl
theorem v39_5 : W5 m ρ c (Proc.devRef .tc main_v39) = (shapeCast S1x64 (P m c).l1.scale shapeCasts_S64_S1x64 : Vec Ideal S1x64 .f32) := by
  after_results
  rw [arg13_at4 m ρ c]
  rfl
theorem v42_5 : W5 m ρ c (Proc.devRef .tc main_v42) = (shapeCast S1x64 (P m c).l1.shift shapeCasts_S64_S1x64 : Vec Ideal S1x64 .f32) := by
  after_results
  rw [arg14_at4 m ρ c]
  rfl
theorem v45_5 : W5 m ρ c (Proc.devRef .tc main_v45) = (shapeCast S1x64 (P m c).l1.mean shapeCasts_S64_S1x64 : Vec Ideal S1x64 .f32) := by
  after_results
  rw [arg15_at4 m ρ c]
  rfl
theorem v48_5 : W5 m ρ c (Proc.devRef .tc main_v48) = (shapeCast S1x64 (P m c).l1.var shapeCasts_S64_S1x64 : Vec Ideal S1x64 .f32) := by
  after_results
  rw [arg16_at4 m ρ c]
  rfl

/-- The node update of round 1. -/
theorem v49_6 : W6 m ρ c (Proc.devRef .tc main_v49) = (Gnn.h1 (I m c) (P m c)) := by
  refine (W6_arr m ρ c 10).trans ?_
  rw [Stages.stage2 (V5 m ρ) c]
  show Gnn.node (W5 m ρ c (Proc.devRef .tc main_v15)) (W5 m ρ c (Proc.devRef .tc main_v26)) ⟨W5 m ρ c (Proc.devRef .tc main_v28), Gnn.unrow (W5 m ρ c (Proc.devRef .tc main_v31)), W5 m ρ c (Proc.devRef .tc main_v33), Gnn.unrow (W5 m ρ c (Proc.devRef .tc main_v36)), Gnn.unrow (W5 m ρ c (Proc.devRef .tc main_v39)), Gnn.unrow (W5 m ρ c (Proc.devRef .tc main_v42)), Gnn.unrow (W5 m ρ c (Proc.devRef .tc main_v45)), Gnn.unrow (W5 m ρ c (Proc.devRef .tc main_v48))⟩ = _
  rw [v15_at5 m ρ c, v15_3 m ρ c, v26_5 m ρ c, v28_5 m ρ c, v31_5 m ρ c, v33_5 m ρ c, v36_5 m ρ c, v39_5 m ρ c, v42_5 m ρ c, v45_5 m ρ c, v48_5 m ρ c]
  simp only [Gnn.unrow_shapeCast]
  rfl
/-- The rows of round 1's node table summed into their graphs, and the two bias rows of the virtual node's perceptron. -/
theorem v52_7 : W7 m ρ c (Proc.devRef .tc main_v52) = (I m c).toGraph (Gnn.h1 (I m c) (P m c)) := by
  after_results
  rw [arg2_at6 m ρ c, v49_6 m ρ c]
  rfl
theorem v53_7 : W7 m ρ c (Proc.devRef .tc main_v53) = (shapeCast S1x64 (P m c).vB1 shapeCasts_S64_S1x64 : Vec Ideal S1x64 .f32) := by
  after_results
  rw [arg18_at6 m ρ c]
  rfl
theorem v54_7 : W7 m ρ c (Proc.devRef .tc main_v54) = (shapeCast S1x64 (P m c).vB2 shapeCasts_S64_S1x64 : Vec Ideal S1x64 .f32) := by
  after_results
  rw [arg20_at6 m ρ c]
  rfl

/-- The virtual node's perceptron after round 1. -/
theorem v55_8 : W8 m ρ c (Proc.devRef .tc main_v55) = (Gnn.mlp ((I m c).toGraph (Gnn.h1 (I m c) (P m c))) (P m c).vW1 (P m c).vB1 (P m c).vW2 (P m c).vB2) := by
  refine (W8_arr m ρ c 5).trans ?_
  rw [Stages.stage3 (V7 m ρ) c]
  show Gnn.mlp (W7 m ρ c (Proc.devRef .tc main_v52)) (W7 m ρ c (Proc.devRef .tc main_arg17)) (Gnn.unrow (W7 m ρ c (Proc.devRef .tc main_v53))) (W7 m ρ c (Proc.devRef .tc main_arg19)) (Gnn.unrow (W7 m ρ c (Proc.devRef .tc main_v54))) = _
  rw [v52_7 m ρ c, arg17_at7 m ρ c, v53_7 m ρ c, arg19_at7 m ρ c, v54_7 m ρ c]
  simp only [Gnn.unrow_shapeCast]
  rfl

/-- The node table of round 2 with the virtual node's rows added, and its rows gathered at the edges' sources. -/
theorem v64_9 : W9 m ρ c (Proc.devRef .tc main_v64) = (Gnn.hin2 (I m c) (P m c)) := by
  after_results
  rw [v49_at8 m ρ c, v49_6 m ρ c, v6_at8 m ρ c, v6_3 m ρ c, v55_8 m ρ c, arg2_at8 m ρ c]
  rfl
theorem v71_9 : W9 m ρ c (Proc.devRef .tc main_v71) = (I m c).bySource (Gnn.hin2 (I m c) (P m c)) := by
  after_results
  rw [v49_at8 m ρ c, v49_6 m ρ c, v6_at8 m ρ c, v6_3 m ρ c, v55_8 m ρ c, arg2_at8 m ρ c, v1_at8 m ρ c, v1_1 m ρ c]
  rfl
/-- The virtual node after round 1. -/
theorem v56_9 : W9 m ρ c (Proc.devRef .tc main_v56) = Gnn.vn1 (I m c) (P m c) := by
  after_results
  rw [v6_at8 m ρ c, v6_3 m ρ c, v55_8 m ρ c]
  rfl
/-! ## Round 2 -/

/-- The message launch of round 2: relu (h[src] + (edge features · W + b)) on the gathered rows. -/
theorem v72_10 : W10 m ρ c (Proc.devRef .tc main_v72) = (Gnn.msg ((I m c).bySource (Gnn.hin2 (I m c) (P m c))) (P m c).ea (P m c).eW (P m c).eB) := by
  refine (W10_arr m ρ c 4).trans ?_
  rw [Stages.stage4 (V9 m ρ) c]
  show Gnn.msg (W9 m ρ c (Proc.devRef .tc main_v71)) (W9 m ρ c (Proc.devRef .tc main_arg3)) (W9 m ρ c (Proc.devRef .tc main_arg7)) (Gnn.unrow (W9 m ρ c (Proc.devRef .tc main_v7))) = _
  rw [v71_9 m ρ c, arg3_at9 m ρ c, arg7_at9 m ρ c, v7_at9 m ρ c, v7_3 m ρ c, Gnn.unrow_shapeCast]
  rfl

/-- The messages summed into their target nodes. -/
theorem v75_11 : W11 m ρ c (Proc.devRef .tc main_v75) = (I m c).toTarget (Gnn.msg ((I m c).bySource (Gnn.hin2 (I m c) (P m c))) (P m c).ea (P m c).eW (P m c).eB) := by
  after_results
  rw [v3_at10 m ρ c, v3_1 m ρ c, v72_10 m ρ c]
  rfl

theorem v77_11 : W11 m ρ c (Proc.devRef .tc main_v77) = (P m c).l2.w1 := by
  after_results
  rw [arg9_at10 m ρ c]
  rfl
theorem v80_11 : W11 m ρ c (Proc.devRef .tc main_v80) = (shapeCast S1x64 (P m c).l2.b1 shapeCasts_S64_S1x64 : Vec Ideal S1x64 .f32) := by
  after_results
  rw [arg10_at10 m ρ c]
  rfl
theorem v82_11 : W11 m ρ c (Proc.devRef .tc main_v82) = (P m c).l2.w2 := by
  after_results
  rw [arg11_at10 m ρ c]
  rfl
theorem v85_11 : W11 m ρ c (Proc.devRef .tc main_v85) = (shapeCast S1x64 (P m c).l2.b2 shapeCasts_S64_S1x64 : Vec Ideal S1x64 .f32) := by
  after_results
  rw [arg12_at10 m ρ c]
  rfl
theorem v88_11 : W11 m ρ c (Proc.devRef .tc main_v88) = (shapeCast S1x64 (P m c).l2.scale shapeCasts_S64_S1x64 : Vec Ideal S1x64 .f32) := by
  after_results
  rw [arg13_at10 m ρ c]
  rfl
theorem v91_11 : W11 m ρ c (Proc.devRef .tc main_v91) = (shapeCast S1x64 (P m c).l2.shift shapeCasts_S64_S1x64 : Vec Ideal S1x64 .f32) := by
  after_results
  rw [arg14_at10 m ρ c]
  rfl
theorem v94_11 : W11 m ρ c (Proc.devRef .tc main_v94) = (shapeCast S1x64 (P m c).l2.mean shapeCasts_S64_S1x64 : Vec Ideal S1x64 .f32) := by
  after_results
  rw [arg15_at10 m ρ c]
  rfl
theorem v97_11 : W11 m ρ c (Proc.devRef .tc main_v97) = (shapeCast S1x64 (P m c).l2.var shapeCasts_S64_S1x64 : Vec Ideal S1x64 .f32) := by
  after_results
  rw [arg16_at10 m ρ c]
  rfl

/-- The node update of round 2. -/
theorem v98_12 : W12 m ρ c (Proc.devRef .tc main_v98) = (Gnn.h2 (I m c) (P m c)) := by
  refine (W12_arr m ρ c 10).trans ?_
  rw [Stages.stage5 (V11 m ρ) c]
  show Gnn.node (W11 m ρ c (Proc.devRef .tc main_v64)) (W11 m ρ c (Proc.devRef .tc main_v75)) ⟨W11 m ρ c (Proc.devRef .tc main_v77), Gnn.unrow (W11 m ρ c (Proc.devRef .tc main_v80)), W11 m ρ c (Proc.devRef .tc main_v82), Gnn.unrow (W11 m ρ c (Proc.devRef .tc main_v85)), Gnn.unrow (W11 m ρ c (Proc.devRef .tc main_v88)), Gnn.unrow (W11 m ρ c (Proc.devRef .tc main_v91)), Gnn.unrow (W11 m ρ c (Proc.devRef .tc main_v94)), Gnn.unrow (W11 m ρ c (Proc.devRef .tc main_v97))⟩ = _
  rw [v64_at11 m ρ c, v64_9 m ρ c, v75_11 m ρ c, v77_11 m ρ c, v80_11 m ρ c, v82_11 m ρ c, v85_11 m ρ c, v88_11 m ρ c, v91_11 m ρ c, v94_11 m ρ c, v97_11 m ρ c]
  simp only [Gnn.unrow_shapeCast]
  rfl
/-- The rows of round 2's node table summed into their graphs, and the two bias rows of the virtual node's perceptron. -/
theorem v101_13 : W13 m ρ c (Proc.devRef .tc main_v101) = (I m c).toGraph (Gnn.h2 (I m c) (P m c)) := by
  after_results
  rw [arg2_at12 m ρ c, v98_12 m ρ c]
  rfl
theorem v102_13 : W13 m ρ c (Proc.devRef .tc main_v102) = (shapeCast S1x64 (P m c).vB1 shapeCasts_S64_S1x64 : Vec Ideal S1x64 .f32) := by
  after_results
  rw [arg18_at12 m ρ c]
  rfl
theorem v103_13 : W13 m ρ c (Proc.devRef .tc main_v103) = (shapeCast S1x64 (P m c).vB2 shapeCasts_S64_S1x64 : Vec Ideal S1x64 .f32) := by
  after_results
  rw [arg20_at12 m ρ c]
  rfl

/-- The virtual node's perceptron after round 2. -/
theorem v104_14 : W14 m ρ c (Proc.devRef .tc main_v104) = (Gnn.mlp ((I m c).toGraph (Gnn.h2 (I m c) (P m c))) (P m c).vW1 (P m c).vB1 (P m c).vW2 (P m c).vB2) := by
  refine (W14_arr m ρ c 5).trans ?_
  rw [Stages.stage6 (V13 m ρ) c]
  show Gnn.mlp (W13 m ρ c (Proc.devRef .tc main_v101)) (W13 m ρ c (Proc.devRef .tc main_arg17)) (Gnn.unrow (W13 m ρ c (Proc.devRef .tc main_v102))) (W13 m ρ c (Proc.devRef .tc main_arg19)) (Gnn.unrow (W13 m ρ c (Proc.devRef .tc main_v103))) = _
  rw [v101_13 m ρ c, arg17_at13 m ρ c, v102_13 m ρ c, arg19_at13 m ρ c, v103_13 m ρ c]
  simp only [Gnn.unrow_shapeCast]
  rfl

/-- The node table of round 3 with the virtual node's rows added, and its rows gathered at the edges' sources. -/
theorem v113_15 : W15 m ρ c (Proc.devRef .tc main_v113) = (Gnn.hin3 (I m c) (P m c)) := by
  after_results
  rw [v98_at14 m ρ c, v98_12 m ρ c, v56_at14 m ρ c, v56_9 m ρ c, v104_14 m ρ c, arg2_at14 m ρ c]
  rfl
theorem v120_15 : W15 m ρ c (Proc.devRef .tc main_v120) = (I m c).bySource (Gnn.hin3 (I m c) (P m c)) := by
  after_results
  rw [v98_at14 m ρ c, v98_12 m ρ c, v56_at14 m ρ c, v56_9 m ρ c, v104_14 m ρ c, arg2_at14 m ρ c, v1_at14 m ρ c, v1_1 m ρ c]
  rfl
/-! ## Round 3 -/

/-- The message launch of round 3: relu (h[src] + (edge features · W + b)) on the gathered rows. -/
theorem v121_16 : W16 m ρ c (Proc.devRef .tc main_v121) = (Gnn.msg ((I m c).bySource (Gnn.hin3 (I m c) (P m c))) (P m c).ea (P m c).eW (P m c).eB) := by
  refine (W16_arr m ρ c 4).trans ?_
  rw [Stages.stage7 (V15 m ρ) c]
  show Gnn.msg (W15 m ρ c (Proc.devRef .tc main_v120)) (W15 m ρ c (Proc.devRef .tc main_arg3)) (W15 m ρ c (Proc.devRef .tc main_arg7)) (Gnn.unrow (W15 m ρ c (Proc.devRef .tc main_v7))) = _
  rw [v120_15 m ρ c, arg3_at15 m ρ c, arg7_at15 m ρ c, v7_at15 m ρ c, v7_3 m ρ c, Gnn.unrow_shapeCast]
  rfl

/-- The messages summed into their target nodes. -/
theorem v124_17 : W17 m ρ c (Proc.devRef .tc main_v124) = (I m c).toTarget (Gnn.msg ((I m c).bySource (Gnn.hin3 (I m c) (P m c))) (P m c).ea (P m c).eW (P m c).eB) := by
  after_results
  rw [v3_at16 m ρ c, v3_1 m ρ c, v121_16 m ρ c]
  rfl

theorem v126_17 : W17 m ρ c (Proc.devRef .tc main_v126) = (P m c).l3.w1 := by
  after_results
  rw [arg9_at16 m ρ c]
  rfl
theorem v129_17 : W17 m ρ c (Proc.devRef .tc main_v129) = (shapeCast S1x64 (P m c).l3.b1 shapeCasts_S64_S1x64 : Vec Ideal S1x64 .f32) := by
  after_results
  rw [arg10_at16 m ρ c]
  rfl
theorem v131_17 : W17 m ρ c (Proc.devRef .tc main_v131) = (P m c).l3.w2 := by
  after_results
  rw [arg11_at16 m ρ c]
  rfl
theorem v134_17 : W17 m ρ c (Proc.devRef .tc main_v134) = (shapeCast S1x64 (P m c).l3.b2 shapeCasts_S64_S1x64 : Vec Ideal S1x64 .f32) := by
  after_results
  rw [arg12_at16 m ρ c]
  rfl
theorem v137_17 : W17 m ρ c (Proc.devRef .tc main_v137) = (shapeCast S1x64 (P m c).l3.scale shapeCasts_S64_S1x64 : Vec Ideal S1x64 .f32) := by
  after_results
  rw [arg13_at16 m ρ c]
  rfl
theorem v140_17 : W17 m ρ c (Proc.devRef .tc main_v140) = (shapeCast S1x64 (P m c).l3.shift shapeCasts_S64_S1x64 : Vec Ideal S1x64 .f32) := by
  after_results
  rw [arg14_at16 m ρ c]
  rfl
theorem v143_17 : W17 m ρ c (Proc.devRef .tc main_v143) = (shapeCast S1x64 (P m c).l3.mean shapeCasts_S64_S1x64 : Vec Ideal S1x64 .f32) := by
  after_results
  rw [arg15_at16 m ρ c]
  rfl
theorem v146_17 : W17 m ρ c (Proc.devRef .tc main_v146) = (shapeCast S1x64 (P m c).l3.var shapeCasts_S64_S1x64 : Vec Ideal S1x64 .f32) := by
  after_results
  rw [arg16_at16 m ρ c]
  rfl

/-- The node update of round 3. -/
theorem v147_18 : W18 m ρ c (Proc.devRef .tc main_v147) = (Gnn.h3 (I m c) (P m c)) := by
  refine (W18_arr m ρ c 10).trans ?_
  rw [Stages.stage8 (V17 m ρ) c]
  show Gnn.node (W17 m ρ c (Proc.devRef .tc main_v113)) (W17 m ρ c (Proc.devRef .tc main_v124)) ⟨W17 m ρ c (Proc.devRef .tc main_v126), Gnn.unrow (W17 m ρ c (Proc.devRef .tc main_v129)), W17 m ρ c (Proc.devRef .tc main_v131), Gnn.unrow (W17 m ρ c (Proc.devRef .tc main_v134)), Gnn.unrow (W17 m ρ c (Proc.devRef .tc main_v137)), Gnn.unrow (W17 m ρ c (Proc.devRef .tc main_v140)), Gnn.unrow (W17 m ρ c (Proc.devRef .tc main_v143)), Gnn.unrow (W17 m ρ c (Proc.devRef .tc main_v146))⟩ = _
  rw [v113_at17 m ρ c, v113_15 m ρ c, v124_17 m ρ c, v126_17 m ρ c, v129_17 m ρ c, v131_17 m ρ c, v134_17 m ρ c, v137_17 m ρ c, v140_17 m ρ c, v143_17 m ρ c, v146_17 m ρ c]
  simp only [Gnn.unrow_shapeCast]
  rfl
/-! ## After the third round -/

/-- Each graph's mean row. -/
theorem v159_19 : W19 m ρ c (Proc.devRef .tc main_v159) = Gnn.graphMean (I m c) (P m c) := by
  after_results
  rw [arg2_at18 m ρ c, v147_18 m ρ c]
  rfl
/-- The two halves of the classifier's first weight matrix, and its parameter rows. -/
theorem v160_19 : W19 m ρ c (Proc.devRef .tc main_v160)
    = (extractStridedSlice S64x64 ![0, 0] (P m c).cW1 slices_S128x64_S64x64_0_0 : Vec Ideal S64x64 .f32) := by
  after_results
  rw [arg23_at18 m ρ c]
  rfl
theorem v161_19 : W19 m ρ c (Proc.devRef .tc main_v161)
    = (extractStridedSlice S64x64 ![64, 0] (P m c).cW1 slices_S128x64_S64x64_64_0 : Vec Ideal S64x64 .f32) := by
  after_results
  rw [arg23_at18 m ρ c]
  rfl
theorem v162_19 : W19 m ρ c (Proc.devRef .tc main_v162) = (shapeCast S1x64 (P m c).pB shapeCasts_S64_S1x64 : Vec Ideal S1x64 .f32) := by
  after_results
  rw [arg22_at18 m ρ c]
  rfl
theorem v163_19 : W19 m ρ c (Proc.devRef .tc main_v163) = (shapeCast S1x64 (P m c).cB1 shapeCasts_S64_S1x64 : Vec Ideal S1x64 .f32) := by
  after_results
  rw [arg24_at18 m ρ c]
  rfl
theorem v164_19 : W19 m ρ c (Proc.devRef .tc main_v164) = (shapeCast S1x1 (P m c).cB2 shapeCasts_S1_S1x1 : Vec Ideal S1x1 .f32) := by
  after_results
  rw [arg26_at18 m ρ c]
  rfl

/-- Rows 0–63 of the first weight matrix. -/
theorem upper_at (X : Vec Ideal S128x64 .f32) (l k : Fin 64) :
    extractStridedSlice S64x64 ![0, 0] X slices_S128x64_S64x64_0_0 (ix2 l k) = X (ix2 (⟨l.val, by omega⟩ : Fin 128) k) :=
  extractStridedSlice_apply ![0, 0] X slices_S128x64_S64x64_0_0 (ix2 l k) (ix2 (⟨l.val, by omega⟩ : Fin 128) k) fun a => by
    match a with
    | ⟨0, _⟩ => show l.val = 0 + l.val; omega
    | ⟨1, _⟩ => show k.val = 0 + k.val; omega
/-- Rows 64–127 of the first weight matrix. -/
theorem lower_at (X : Vec Ideal S128x64 .f32) (l k : Fin 64) :
    extractStridedSlice S64x64 ![64, 0] X slices_S128x64_S64x64_64_0 (ix2 l k) = X (ix2 (⟨64 + l.val, by omega⟩ : Fin 128) k) :=
  extractStridedSlice_apply ![64, 0] X slices_S128x64_S64x64_64_0 (ix2 l k) (ix2 (⟨64 + l.val, by omega⟩ : Fin 128) k) fun a => by
    match a with
    | ⟨0, _⟩ => show 64 + l.val = 64 + l.val; rfl
    | ⟨1, _⟩ => show k.val = 0 + k.val; omega

/-- The logits column. -/
theorem v165_20 : W20 m ρ c (Proc.devRef .tc main_v165) = Gnn.logits (I m c) (P m c) := by
  refine (W20_arr m ρ c 9).trans ?_
  rw [Stages.stage9 (V19 m ρ) c]
  show Gnn.clsSplit (W19 m ρ c (Proc.devRef .tc main_v159)) (W19 m ρ c (Proc.devRef .tc main_arg4)) (W19 m ρ c (Proc.devRef .tc main_arg21)) (Gnn.unrow (W19 m ρ c (Proc.devRef .tc main_v162)))
      (W19 m ρ c (Proc.devRef .tc main_v160)) (W19 m ρ c (Proc.devRef .tc main_v161)) (Gnn.unrow (W19 m ρ c (Proc.devRef .tc main_v163))) (W19 m ρ c (Proc.devRef .tc main_arg25)) (Gnn.unrow (W19 m ρ c (Proc.devRef .tc main_v164))) = _
  rw [v159_19 m ρ c, arg4_at19 m ρ c, arg21_at19 m ρ c, v162_19 m ρ c, v160_19 m ρ c, v161_19 m ρ c, v163_19 m ρ c, arg25_at19 m ρ c, v164_19 m ρ c]
  simp only [Gnn.unrow_shapeCast]
  exact Gnn.clsSplit_eq _ _ _ _ (P m c).cW1 _ _ _ _ _ (upper_at _) (lower_at _)

/-- The result: the logits column as a vector. -/
theorem v166_21 : W21 m ρ c (Proc.devRef .tc main_v166)
    = (shapeCast S2048 (Gnn.logits (I m c) (P m c)) shapeCasts_S2048x1_S2048 : Vec Ideal S2048 .f32) := by
  after_results
  rw [v165_20 m ρ c]
  rfl

end Cert.KernelIdeal.Fold

end
-- ==== Proof.KernelValue.lean ====
/-
  The idealized kernel's run with its result named: every weakly fair execution terminates without a fault, the result
  buffer ends at the model's logits (this run's irregular maps and inputs), as a vector, and the argument arrays end as
  launched. It is the run over the chain of valuations, its last valuation read at the result buffer (the forward reading
  of the chain) and at each argument (no segment writes an argument).
-/
import proofs.«125701_j46669114638593_1_alg».proof.Proof.KernelRun
import proofs.«125701_j46669114638593_1_alg».proof.Proof.KernelFold

set_option maxRecDepth 16384

noncomputable section

namespace Cert.KernelIdeal.KerValue

open Cert.KernelIdeal Cert.KernelIdeal.Gen Idealize.ShloMosaic Idealize.ShloMosaic.TcCoe Idealize.SL.Sem

/-- What the result buffer ends holding on core c. -/
def result (m : (ℓ : Loc nD τ sig) → Buf (Elt Ideal) ℓ) (c : Dev nD) : Buf (Elt Ideal) ((c.tc : Thread nD τ).loc main_v166) :=
  (shapeCast S2048 (Gnn.logits (Fold.I m c) (Fold.P m c)) shapeCasts_S2048x1_S2048 : Vec Ideal S2048 .f32)

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v166) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  (θ_run defs _ _).mono (fun r h c =>
    ⟨(h c _ (mem_uc main_v166 (by decide))).trans (Fold.v166_21 m ρ c),
     (h c _ (mem_uc main_arg0 (by decide))).trans (W21_main_arg0 m ρ c),
     (h c _ (mem_uc main_arg1 (by decide))).trans (W21_main_arg1 m ρ c),
     (h c _ (mem_uc main_arg2 (by decide))).trans (W21_main_arg2 m ρ c),
     (h c _ (mem_uc main_arg3 (by decide))).trans (W21_main_arg3 m ρ c),
     (h c _ (mem_uc main_arg4 (by decide))).trans (W21_main_arg4 m ρ c),
     (h c _ (mem_uc main_arg5 (by decide))).trans (W21_main_arg5 m ρ c),
     (h c _ (mem_uc main_arg6 (by decide))).trans (W21_main_arg6 m ρ c),
     (h c _ (mem_uc main_arg7 (by decide))).trans (W21_main_arg7 m ρ c),
     (h c _ (mem_uc main_arg8 (by decide))).trans (W21_main_arg8 m ρ c),
     (h c _ (mem_uc main_arg9 (by decide))).trans (W21_main_arg9 m ρ c),
     (h c _ (mem_uc main_arg10 (by decide))).trans (W21_main_arg10 m ρ c),
     (h c _ (mem_uc main_arg11 (by decide))).trans (W21_main_arg11 m ρ c),
     (h c _ (mem_uc main_arg12 (by decide))).trans (W21_main_arg12 m ρ c),
     (h c _ (mem_uc main_arg13 (by decide))).trans (W21_main_arg13 m ρ c),
     (h c _ (mem_uc main_arg14 (by decide))).trans (W21_main_arg14 m ρ c),
     (h c _ (mem_uc main_arg15 (by decide))).trans (W21_main_arg15 m ρ c),
     (h c _ (mem_uc main_arg16 (by decide))).trans (W21_main_arg16 m ρ c),
     (h c _ (mem_uc main_arg17 (by decide))).trans (W21_main_arg17 m ρ c),
     (h c _ (mem_uc main_arg18 (by decide))).trans (W21_main_arg18 m ρ c),
     (h c _ (mem_uc main_arg19 (by decide))).trans (W21_main_arg19 m ρ c),
     (h c _ (mem_uc main_arg20 (by decide))).trans (W21_main_arg20 m ρ c),
     (h c _ (mem_uc main_arg21 (by decide))).trans (W21_main_arg21 m ρ c),
     (h c _ (mem_uc main_arg22 (by decide))).trans (W21_main_arg22 m ρ c),
     (h c _ (mem_uc main_arg23 (by decide))).trans (W21_main_arg23 m ρ c),
     (h c _ (mem_uc main_arg24 (by decide))).trans (W21_main_arg24 m ρ c),
     (h c _ (mem_uc main_arg25 (by decide))).trans (W21_main_arg25 m ρ c),
     (h c _ (mem_uc main_arg26 (by decide))).trans (W21_main_arg26 m ρ c)⟩)
    (Final.run (F := Ideal) m ρ)

end Cert.KernelIdeal.KerValue

end
-- ==== Proof.LibBroadcastInDim.lean ====
/-
  The host's `broadcast_in_dim` read at an index given by coordinates, in the shapes a row-wise or column-wise scale
  or bias takes: a vector of length `a` placed as an `[a, 1]` column (`dims = [0]`) or of length `b` as a `[1, b]`
  row (`dims = [1]`); an `[a, 1]` column repeated across `b` columns and a `[1, b]` row repeated down `a` rows
  (`dims = [0, 1]`); and a scalar spread over any shape (`dims = []`). Each reads the operand at the coordinates the
  result's index has on the axes `dims` names, and at `0` on the operand's unit axes. For every extent.
-/
import Idealize.ShloMosaic.Lib.Pipeline.Value
import Idealize.ShloMosaic.Lib.ValueIdx

namespace Idealize.ShloMosaic.BroadcastInDimAt

open Idealize.ShloMosaic Idealize.ShloMosaic.ValueIdx

variable {α : Type}

/-- A vector as a column: entry `(p, u)` is the vector's entry `p`. -/
theorem vec_col_apply {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ (![0] : Fin 1 → Fin 2) h v (ix2 p u) = v (ix1 p) :=
  broadcastInDim_apply _ h v (ix2 p u) (ix1 p) fun ax => by
    match ax with
    | ⟨0, _⟩ =>
      show p.val = if a = 1 then 0 else p.val
      split
      · have := p.isLt; omega
      · rfl

/-- A vector as a row: entry `(u, q)` is the vector's entry `q`. -/
theorem vec_row_apply {b : ℕ} (v : (⟨1, ![b]⟩ : Shape).Idx → α)
    (h : (⟨1, ![b]⟩ : Shape).BroadcastsInDim ⟨2, ![1, b]⟩ (![1] : Fin 1 → Fin 2)) (u : Fin 1) (q : Fin b) :
    broadcastInDim ⟨2, ![1, b]⟩ (![1] : Fin 1 → Fin 2) h v (ix2 u q) = v (ix1 q) :=
  broadcastInDim_apply _ h v (ix2 u q) (ix1 q) fun ax => by
    match ax with
    | ⟨0, _⟩ =>
      show q.val = if b = 1 then 0 else q.val
      split
      · have := q.isLt; omega
      · rfl

/-- A column repeated across the columns: entry `(p, q)` is the column's entry of row `p`. -/
theorem col_mat_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (q : Fin b) :
    broadcastInDim ⟨2, ![a, b]⟩ (![0, 1] : Fin 2 → Fin 2) h v (ix2 p q) = v (ix2 p (0 : Fin 1)) :=
  broadcastInDim_apply _ h v (ix2 p q) (ix2 p (0 : Fin 1)) fun ax => by
    match ax with
    | ⟨0, _⟩ =>
      show p.val = if a = 1 then 0 else p.val
      split
      · have := p.isLt; omega
      · rfl
    | ⟨1, _⟩ => rfl

/-- A row repeated down the rows: entry `(p, q)` is the row's entry of column `q`. -/
theorem row_mat_apply {a b : ℕ} (v : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim ⟨2, ![a, b]⟩ (![0, 1] : Fin 2 → Fin 2) h v (ix2 p q) = v (ix2 (0 : Fin 1) q) :=
  broadcastInDim_apply _ h v (ix2 p q) (ix2 (0 : Fin 1) q) fun ax => by
    match ax with
    | ⟨0, _⟩ => rfl
    | ⟨1, _⟩ =>
      show q.val = if b = 1 then 0 else q.val
      split
      · have := q.isLt; omega
      · rfl

/-- A scalar spread over a shape: every entry is the scalar. -/
theorem scalar_apply {t : Shape} (v : (⟨0, ![]⟩ : Shape).Idx → α)
    (h : (⟨0, ![]⟩ : Shape).BroadcastsInDim t (![] : Fin 0 → Fin t.rank)) (i : t.Idx) :
    broadcastInDim t (![] : Fin 0 → Fin t.rank) h v i = v ix0 :=
  broadcastInDim_apply _ h v i ix0 fun ax => ax.elim0

end Idealize.ShloMosaic.BroadcastInDimAt
-- ==== Proof.LibMatrixLayout.lean ====
/-
  Three layout facts about matrices, read at an index given by coordinates.

  * A vector of `n` numbers laid out as one row (`[n] → [1, n]`) and repeated down `R` rows reads, at `(r, j)`, its
    entry `j`: how a bias is added to every row of a matrix.
  * Two matrices with the same number of rows set side by side (`[R, a]`, `[R, b]` → `[R, c]`) read, at `(r, q)`,
    the left one at `(r, q)` when `q < a` and the right one at `(r, q - a)` otherwise.
  * Two matrices with the same number of columns set one above the other (`[a, C]`, `[b, C]` → `[c, C]`) read, at
    `(q, d)`, the upper one at `(q, d)` when `q < a` and the lower one at `(q - a, d)` otherwise.
-/
import Idealize.ShloMosaic.Lib.Pipeline.Value
import Idealize.ShloMosaic.Lib.ValueLayout

namespace Idealize.ShloMosaic.MatrixLayout

open Idealize.ShloMosaic Idealize.ShloMosaic.ValueIdx

variable {α : Type}

/-- One row repeated down the rows of a matrix. -/
theorem row_broadcast_apply {R n : ℕ} (v : (⟨1, ![n]⟩ : Shape).Idx → α)
    (h1 : (⟨1, ![n]⟩ : Shape).ShapeCasts ⟨2, ![1, n]⟩) (h2 : (⟨2, ![1, n]⟩ : Shape).Broadcasts ⟨2, ![R, n]⟩)
    (r : Fin R) (j : Fin n) :
    broadcastTo ⟨2, ![R, n]⟩ (shapeCast ⟨2, ![1, n]⟩ v h1) h2 (ix2 r j) = v (ix1 j) :=
  (broadcastTo_1b_ab_apply _ h2 r j).trans (shapeCast_a_1a_apply v h1 0 j)

/-- Side by side, left part. -/
theorem beside_left {R a b c : ℕ} (x₁ : (⟨2, ![R, a]⟩ : Shape).Idx → α) (x₂ : (⟨2, ![R, b]⟩ : Shape).Idx → α)
    (h : Shape.Concatenates [(⟨2, ![R, a]⟩ : Shape), ⟨2, ![R, b]⟩] ⟨2, ![R, c]⟩ 1) (r : Fin R) (q : Fin c) (hq : q.val < a) :
    concatenate ⟨2, ![R, c]⟩ 1 [⟨⟨2, ![R, a]⟩, x₁⟩, ⟨⟨2, ![R, b]⟩, x₂⟩] h (ix2 r q) = x₁ (ix2 r ⟨q.val, hq⟩) :=
  concatenate_pair_apply_left (1 : Fin 2) x₁ x₂ h (ix2 r q) rfl (ix2 r ⟨q.val, hq⟩) fun d => by
    match d with
    | ⟨0, _⟩ => rfl
    | ⟨1, _⟩ => rfl

/-- Side by side, right part. -/
theorem beside_right {R a b c : ℕ} (x₁ : (⟨2, ![R, a]⟩ : Shape).Idx → α) (x₂ : (⟨2, ![R, b]⟩ : Shape).Idx → α)
    (h : Shape.Concatenates [(⟨2, ![R, a]⟩ : Shape), ⟨2, ![R, b]⟩] ⟨2, ![R, c]⟩ 1) (r : Fin R) (q : Fin c) (hq : a ≤ q.val)
    (hb : q.val - a < b) :
    concatenate ⟨2, ![R, c]⟩ 1 [⟨⟨2, ![R, a]⟩, x₁⟩, ⟨⟨2, ![R, b]⟩, x₂⟩] h (ix2 r q) = x₂ (ix2 r ⟨q.val - a, hb⟩) :=
  concatenate_pair_apply_right (1 : Fin 2) x₁ x₂ h (ix2 r q) rfl rfl (ix2 r ⟨q.val - a, hb⟩)
    (fun d hd => by
      match d with
      | ⟨0, _⟩ => rfl
      | ⟨1, _⟩ => exact absurd rfl hd)
    (by show q.val - a + a = q.val; omega)

/-- One above the other, upper part. -/
theorem above_upper {C a b c : ℕ} (x₁ : (⟨2, ![a, C]⟩ : Shape).Idx → α) (x₂ : (⟨2, ![b, C]⟩ : Shape).Idx → α)
    (h : Shape.Concatenates [(⟨2, ![a, C]⟩ : Shape), ⟨2, ![b, C]⟩] ⟨2, ![c, C]⟩ 0) (q : Fin c) (d : Fin C) (hq : q.val < a) :
    concatenate ⟨2, ![c, C]⟩ 0 [⟨⟨2, ![a, C]⟩, x₁⟩, ⟨⟨2, ![b, C]⟩, x₂⟩] h (ix2 q d) = x₁ (ix2 ⟨q.val, hq⟩ d) :=
  concatenate_pair_apply_left (0 : Fin 2) x₁ x₂ h (ix2 q d) rfl (ix2 ⟨q.val, hq⟩ d) fun e => by
    match e with
    | ⟨0, _⟩ => rfl
    | ⟨1, _⟩ => rfl

/-- One above the other, lower part. -/
theorem above_lower {C a b c : ℕ} (x₁ : (⟨2, ![a, C]⟩ : Shape).Idx → α) (x₂ : (⟨2, ![b, C]⟩ : Shape).Idx → α)
    (h : Shape.Concatenates [(⟨2, ![a, C]⟩ : Shape), ⟨2, ![b, C]⟩] ⟨2, ![c, C]⟩ 0) (q : Fin c) (d : Fin C) (hq : a ≤ q.val)
    (hb : q.val - a < b) :
    concatenate ⟨2, ![c, C]⟩ 0 [⟨⟨2, ![a, C]⟩, x₁⟩, ⟨⟨2, ![b, C]⟩, x₂⟩] h (ix2 q d) = x₂ (ix2 ⟨q.val - a, hb⟩ d) :=
  concatenate_pair_apply_right (0 : Fin 2) x₁ x₂ h (ix2 q d) rfl rfl (ix2 ⟨q.val - a, hb⟩ d)
    (fun e he => by
      match e with
      | ⟨0, _⟩ => exact absurd rfl he
      | ⟨1, _⟩ => rfl)
    (by show q.val - a + a = q.val; omega)

end Idealize.ShloMosaic.MatrixLayout
-- ==== Proof.RefStage.lean ====
/-
  The dense stages of the network, each as an equation between whole arrays: the stage written with the host's
  operations (a matrix product, a bias row repeated down the rows, an entry-wise maximum against a zero array, ...)
  is the stage function of the specification. Extents are variables wherever the operations allow it; the
  dimension numbers of a product are any record equal to the plain `M × K` by `K × N` one.
-/
import proofs.«125701_j46669114638593_1_alg».proof.Proof.Spec
import proofs.«125701_j46669114638593_1_alg».proof.Proof.LibPlainDot
import proofs.«125701_j46669114638593_1_alg».proof.Proof.LibBroadcastInDim
import proofs.«125701_j46669114638593_1_alg».proof.Proof.LibMatrixLayout

noncomputable section

namespace Gnn.Stage

open Idealize.ShloMosaic Idealize.ShloMosaic.ValueIdx

/-- The zero array: the zero word spread over a shape. -/
abbrev zeros {t : Shape} (h : (⟨0, ![]⟩ : Shape).BroadcastsInDim t (![] : Fin 0 → Fin t.rank)) : FVec Ideal t .f32 :=
  broadcastInDim t (![] : Fin 0 → Fin t.rank) h (constant (F := Ideal) ⟨0, ![]⟩ .f32 0x00000000#32)

/-- A vector laid out as one row and repeated down the rows. -/
abbrev rows {n : ℕ} (R : ℕ) (h1 : (⟨1, ![n]⟩ : Shape).BroadcastsInDim ⟨2, ![1, n]⟩ (![1] : Fin 1 → Fin 2))
    (h2 : (⟨2, ![1, n]⟩ : Shape).BroadcastsInDim ⟨2, ![R, n]⟩ (![0, 1] : Fin 2 → Fin 2)) (b : Vct n) : Mat R n :=
  broadcastInDim ⟨2, ![R, n]⟩ (![0, 1] : Fin 2 → Fin 2) h2 (broadcastInDim ⟨2, ![1, n]⟩ (![1] : Fin 1 → Fin 2) h1 b)

/-- Entry `(r, j)` of a vector repeated down the rows is the vector's entry `j`. -/
theorem rows_apply {R n : ℕ} (h1 : (⟨1, ![n]⟩ : Shape).BroadcastsInDim ⟨2, ![1, n]⟩ (![1] : Fin 1 → Fin 2))
    (h2 : (⟨2, ![1, n]⟩ : Shape).BroadcastsInDim ⟨2, ![R, n]⟩ (![0, 1] : Fin 2 → Fin 2)) (b : Vct n) (r : Fin R) (j : Fin n) :
    rows R h1 h2 b (ix2 r j) = b (ix1 j) :=
  (BroadcastInDimAt.row_mat_apply _ h2 r j).trans (BroadcastInDimAt.vec_row_apply b h1 0 j)

/-- Every entry of the zero array is the zero word's value. -/
theorem zeros_apply {t : Shape} (h : (⟨0, ![]⟩ : Shape).BroadcastsInDim t (![] : Fin 0 → Fin t.rank)) (i : t.Idx) :
    zeros h i = Ideal.ofBits .f32 0x00000000#32 :=
  BroadcastInDimAt.scalar_apply _ h i

/-- The maximum against the zero array is the positive part, entry by entry. -/
theorem relu_apply {t : Shape} (h : (⟨0, ![]⟩ : Shape).BroadcastsInDim t (![] : Fin 0 → Fin t.rank)) (x : FVec Ideal t .f32)
    (i : t.Idx) : maximumf x (zeros h) i = relu (x i) := by
  rw [maximumf_apply, zeros_apply]; rfl

/-- `X · W + b` with the host's operations. -/
theorem lin_eq {R K N : ℕ} (D : DotDims ⟨2, ![R, K]⟩ ⟨2, ![K, N]⟩ ⟨2, ![R, N]⟩) (hD : D = DotDims.plain R K N)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2))
    (X : Mat R K) (W : Mat K N) (b : Vct N) :
    addf (Host.dotGeneral D none X W) (rows R h1 h2 b) = lin X W b := by
  subst hD
  funext i
  obtain ⟨r, j, rfl⟩ : ∃ (r : Fin R) (j : Fin N), i = ix2 r j := ⟨i 0, i 1, eq_ix2 i⟩
  rw [addf_apply, PlainDot.dotGeneral_apply, rows_apply]
  rfl

/-- An edge message: the positive part of the gathered rows plus the edge term. -/
theorem msg_eq {E : ℕ} (hz : (⟨0, ![]⟩ : Shape).BroadcastsInDim ⟨2, ![E, 64]⟩ (![] : Fin 0 → Fin 2))
    (Hs : Mat E 64) (EA : Mat E 2) (W : Mat 2 64) (b : Vct 64) :
    maximumf (addf Hs (lin EA W b)) (zeros hz) = msg Hs EA W b := by
  funext i
  obtain ⟨e, j, rfl⟩ : ∃ (e : Fin E) (j : Fin 64), i = ix2 e j := ⟨i 0, i 1, eq_ix2 i⟩
  rw [relu_apply, addf_apply]
  rfl

/-- The two-layer perceptron with the host's operations. -/
theorem mlp_eq {R : ℕ} (D : DotDims ⟨2, ![R, 64]⟩ ⟨2, ![64, 64]⟩ ⟨2, ![R, 64]⟩) (hD : D = DotDims.plain R 64 64)
    (h1 : (⟨1, ![64]⟩ : Shape).BroadcastsInDim ⟨2, ![1, 64]⟩ (![1] : Fin 1 → Fin 2))
    (h2 : (⟨2, ![1, 64]⟩ : Shape).BroadcastsInDim ⟨2, ![R, 64]⟩ (![0, 1] : Fin 2 → Fin 2))
    (hz : (⟨0, ![]⟩ : Shape).BroadcastsInDim ⟨2, ![R, 64]⟩ (![] : Fin 0 → Fin 2))
    (P : Mat R 64) (W1 : Mat 64 64) (b1 : Vct 64) (W2 : Mat 64 64) (b2 : Vct 64) :
    addf (Host.dotGeneral D none (maximumf (addf (Host.dotGeneral D none P W1) (rows R h1 h2 b1)) (zeros hz)) W2) (rows R h1 h2 b2)
      = mlp P W1 b1 W2 b2 := by
  rw [lin_eq D hD h1 h2 P W1 b1]
  subst hD
  funext i
  obtain ⟨r, j, rfl⟩ : ∃ (r : Fin R) (j : Fin 64), i = ix2 r j := ⟨i 0, i 1, eq_ix2 i⟩
  rw [addf_apply, PlainDot.dotGeneral_apply, rows_apply]
  refine congrArg (· + b2 (ix1 j)) (Finset.sum_congr rfl fun k _ => ?_)
  rw [relu_apply]
  rfl

/-- A virtual-node update: the perceptron of the pooled rows added to the virtual node's rows. -/
theorem vnext_eq {R : ℕ} (D : DotDims ⟨2, ![R, 64]⟩ ⟨2, ![64, 64]⟩ ⟨2, ![R, 64]⟩) (hD : D = DotDims.plain R 64 64)
    (h1 : (⟨1, ![64]⟩ : Shape).BroadcastsInDim ⟨2, ![1, 64]⟩ (![1] : Fin 1 → Fin 2))
    (h2 : (⟨2, ![1, 64]⟩ : Shape).BroadcastsInDim ⟨2, ![R, 64]⟩ (![0, 1] : Fin 2 → Fin 2))
    (hz : (⟨0, ![]⟩ : Shape).BroadcastsInDim ⟨2, ![R, 64]⟩ (![] : Fin 0 → Fin 2))
    (vn P : Mat R 64) (W1 : Mat 64 64) (b1 : Vct 64) (W2 : Mat 64 64) (b2 : Vct 64) :
    addf vn
        (addf (Host.dotGeneral D none (maximumf (addf (Host.dotGeneral D none P W1) (rows R h1 h2 b1)) (zeros hz)) W2)
          (rows R h1 h2 b2))
      = addf vn (mlp P W1 b1 W2 b2) := by
  rw [mlp_eq D hD h1 h2 hz P W1 b1 W2 b2]

/-- A word spread over a shape reads the word's value everywhere. -/
theorem splat_apply {t : Shape} (w : BitVec 32) (h : (⟨0, ![]⟩ : Shape).BroadcastsInDim t (![] : Fin 0 → Fin t.rank)) (i : t.Idx) :
    broadcastInDim t (![] : Fin 0 → Fin t.rank) h (constant (F := Ideal) ⟨0, ![]⟩ .f32 w) i = Ideal.ofBits .f32 w :=
  BroadcastInDimAt.scalar_apply _ h i

/-- A node update: the perceptron's rows normalised, scaled, shifted, then the positive part. -/
theorem node_eq {R : ℕ}
    (h1 : (⟨1, ![64]⟩ : Shape).BroadcastsInDim ⟨2, ![1, 64]⟩ (![1] : Fin 1 → Fin 2))
    (h2 : (⟨2, ![1, 64]⟩ : Shape).BroadcastsInDim ⟨2, ![R, 64]⟩ (![0, 1] : Fin 2 → Fin 2))
    (hz : (⟨0, ![]⟩ : Shape).BroadcastsInDim ⟨2, ![R, 64]⟩ (![] : Fin 0 → Fin 2))
    (hs : (⟨0, ![]⟩ : Shape).BroadcastsInDim ⟨1, ![64]⟩ (![] : Fin 0 → Fin 1))
    (H A : Mat R 64) (w1 : Mat 64 64) (b1 : Vct 64) (w2 : Mat 64 64) (b2 scale shift mean var : Vct 64) :
    maximumf
        (addf
          (mulf
            (mulf (subf (mlp (addf H A) w1 b1 w2 b2) (rows R h1 h2 mean))
              (rows R h1 h2
                (Host.rsqrt
                  (addf var
                    (broadcastInDim ⟨1, ![64]⟩ (![] : Fin 0 → Fin 1) hs (constant (F := Ideal) ⟨0, ![]⟩ .f32 0x3727C5AC#32))))))
            (rows R h1 h2 scale))
          (rows R h1 h2 shift))
        (zeros hz)
      = node H A ⟨w1, b1, w2, b2, scale, shift, mean, var⟩ := by
  funext i
  obtain ⟨r, j, rfl⟩ : ∃ (r : Fin R) (j : Fin 64), i = ix2 r j := ⟨i 0, i 1, eq_ix2 i⟩
  rw [relu_apply, addf_apply, mulf_apply, mulf_apply, subf_apply, rows_apply, rows_apply, rows_apply, rows_apply]
  have hr : Host.rsqrt (addf var (broadcastInDim ⟨1, ![64]⟩ (![] : Fin 0 → Fin 1) hs
      (constant (F := Ideal) ⟨0, ![]⟩ .f32 0x3727C5AC#32))) (ix1 j) = Ideal.rsqrt (var (ix1 j) + eps) := by
    show Ideal.rsqrt (var (ix1 j) + broadcastInDim ⟨1, ![64]⟩ (![] : Fin 0 → Fin 1) hs
      (constant (F := Ideal) ⟨0, ![]⟩ .f32 0x3727C5AC#32) (ix1 j)) = _
    rw [splat_apply]; rfl
  rw [hr]
  rfl

/-- The node update written out with the host's operations from the two matrix products on. -/
theorem node_host_eq {R : ℕ} (D : DotDims ⟨2, ![R, 64]⟩ ⟨2, ![64, 64]⟩ ⟨2, ![R, 64]⟩) (hD : D = DotDims.plain R 64 64)
    (h1 : (⟨1, ![64]⟩ : Shape).BroadcastsInDim ⟨2, ![1, 64]⟩ (![1] : Fin 1 → Fin 2))
    (h2 : (⟨2, ![1, 64]⟩ : Shape).BroadcastsInDim ⟨2, ![R, 64]⟩ (![0, 1] : Fin 2 → Fin 2))
    (hz : (⟨0, ![]⟩ : Shape).BroadcastsInDim ⟨2, ![R, 64]⟩ (![] : Fin 0 → Fin 2))
    (hs : (⟨0, ![]⟩ : Shape).BroadcastsInDim ⟨1, ![64]⟩ (![] : Fin 0 → Fin 1))
    (H A : Mat R 64) (w1 : Mat 64 64) (b1 : Vct 64) (w2 : Mat 64 64) (b2 scale shift mean var : Vct 64) :
    maximumf
        (addf
          (mulf
            (mulf
              (subf
                (addf
                  (Host.dotGeneral D none
                    (maximumf (addf (Host.dotGeneral D none (addf H A) w1) (rows R h1 h2 b1)) (zeros hz)) w2)
                  (rows R h1 h2 b2))
                (rows R h1 h2 mean))
              (rows R h1 h2
                (Host.rsqrt
                  (addf var
                    (broadcastInDim ⟨1, ![64]⟩ (![] : Fin 0 → Fin 1) hs (constant (F := Ideal) ⟨0, ![]⟩ .f32 0x3727C5AC#32))))))
            (rows R h1 h2 scale))
          (rows R h1 h2 shift))
        (zeros hz)
      = node H A ⟨w1, b1, w2, b2, scale, shift, mean, var⟩ := by
  rw [mlp_eq D hD h1 h2 hz (addf H A) w1 b1 w2 b2]
  exact node_eq h1 h2 hz hs H A w1 b1 w2 b2 scale shift mean var

/-- The classifier: the product of the row `[graph mean | peptide hidden]` with the 128-row weight matrix is the sum of the
    two 64-term products. -/
theorem cls_eq {G : ℕ}
    (D1 : DotDims ⟨2, ![G, 128]⟩ ⟨2, ![128, 64]⟩ ⟨2, ![G, 64]⟩) (hD1 : D1 = DotDims.plain G 128 64)
    (D2 : DotDims ⟨2, ![G, 64]⟩ ⟨2, ![64, 1]⟩ ⟨2, ![G, 1]⟩) (hD2 : D2 = DotDims.plain G 64 1)
    (hc : Shape.Concatenates [(⟨2, ![G, 64]⟩ : Shape), ⟨2, ![G, 64]⟩] ⟨2, ![G, 128]⟩ 1)
    (h1 : (⟨1, ![64]⟩ : Shape).BroadcastsInDim ⟨2, ![1, 64]⟩ (![1] : Fin 1 → Fin 2))
    (h2 : (⟨2, ![1, 64]⟩ : Shape).BroadcastsInDim ⟨2, ![G, 64]⟩ (![0, 1] : Fin 2 → Fin 2))
    (hz : (⟨0, ![]⟩ : Shape).BroadcastsInDim ⟨2, ![G, 64]⟩ (![] : Fin 0 → Fin 2))
    (g1 : (⟨1, ![1]⟩ : Shape).BroadcastsInDim ⟨2, ![1, 1]⟩ (![1] : Fin 1 → Fin 2))
    (g2 : (⟨2, ![1, 1]⟩ : Shape).BroadcastsInDim ⟨2, ![G, 1]⟩ (![0, 1] : Fin 2 → Fin 2))
    (GE : Mat G 64) (Pep : Mat G 768) (Wp : Mat 768 64) (bp : Vct 64) (W1 : Mat 128 64) (b1 : Vct 64)
    (W2 : Mat 64 1) (b2 : Vct 1) :
    addf
        (Host.dotGeneral D2 none
          (maximumf
            (addf
              (Host.dotGeneral D1 none
                (concatenate ⟨2, ![G, 128]⟩ 1 [⟨⟨2, ![G, 64]⟩, GE⟩, ⟨⟨2, ![G, 64]⟩, maximumf (lin Pep Wp bp) (zeros hz)⟩] hc) W1)
              (rows G h1 h2 b1))
            (zeros hz))
          W2)
        (rows G g1 g2 b2)
      = cls GE Pep Wp bp W1 b1 W2 b2 := by
  subst hD1 hD2
  funext i
  obtain ⟨g, u, rfl⟩ : ∃ (g : Fin G) (u : Fin 1), i = ix2 g u := ⟨i 0, i 1, eq_ix2 i⟩
  obtain rfl : u = 0 := Subsingleton.elim _ _
  rw [addf_apply, PlainDot.dotGeneral_apply, rows_apply]
  refine congrArg (· + b2 (ix1 (0 : Fin 1))) (Finset.sum_congr rfl fun k _ => ?_)
  rw [relu_apply, addf_apply, PlainDot.dotGeneral_apply, rows_apply]
  refine congrArg (fun s => relu (s + b1 (ix1 k)) * W2 (ix2 k (0 : Fin 1))) ?_
  refine (Fin.sum_univ_add (a := 64) (b := 64) _).trans ?_
  refine congrArg₂ (· + ·) (Finset.sum_congr rfl fun l _ => ?_) (Finset.sum_congr rfl fun l _ => ?_)
  · refine congrArg (· * W1 (ix2 (Fin.castAdd 64 l) k)) ?_
    exact MatrixLayout.beside_left GE _ hc g (Fin.castAdd 64 l) l.isLt
  · refine congrArg (· * W1 (ix2 (Fin.natAdd 64 l) k)) ?_
    refine (MatrixLayout.beside_right GE _ hc g (Fin.natAdd 64 l) (Nat.le_add_right 64 l.val)
      (by show 64 + l.val - 64 < 64; have := l.isLt; omega)).trans ?_
    have hl : (⟨(Fin.natAdd 64 l).val - 64, by show 64 + l.val - 64 < 64; have := l.isLt; omega⟩ : Fin 64) = l :=
      Fin.ext (by show 64 + l.val - 64 = l.val; omega)
    rw [hl, relu_apply]
    rfl

end Gnn.Stage

end
-- ==== Proof.RefModelDefs.lean ====
/-
  The reference program's irregular maps and regular inputs, in the program's own terms.

  The four irregular maps are the program's two gathers and two scatter-adds with their index operands as the program
  computes them from the edge index array and the graph numbers (a negative index is moved up by the table's length,
  then laid out as a one-column array). A per-round weight is the program's slice of the stacked weight array, reshaped;
  the virtual node starts at the zero array; the pooling divisor is the per-graph node count, at least one, repeated
  across the 64 columns.
-/
import proofs.«125701_j46669114638593_1_alg».proof.Proof.Gen.ReferenceIdeal
import proofs.«125701_j46669114638593_1_alg».proof.Proof.Spec

noncomputable section

namespace Cert.ReferenceIdeal.RefValue

open Cert.ReferenceIdeal Cert.ReferenceIdeal.Gen Idealize.ShloMosaic

/-- The reference's gathers and scatter-adds, each with the index operand the program builds. -/
def irreg (x1 : (⟨S2x1600000, .i32⟩ : BufTy).Contents (Elt Ideal)) (x2 : (⟨S100000, .i32⟩ : BufTy).Contents (Elt Ideal)) : Gnn.Irreg where
  byGraph t := Host.gather gather_S2048x64_S100000x1_S100000x64_1_0_n_n_0_1_164 t
    (broadcastInDim S100000x1 ![0] bcast_S100000_S100000x1_0 (select (cmpi .slt x2 (broadcastInDim S100000 ![] bcast_S_S100000 (constantI S_ 32 0#32))) (addi x2 (broadcastInDim S100000 ![] bcast_S_S100000 (constantI S_ 32 2048#32))) x2))
  bySource t := Host.gather gather_S100000x64_S1600000x1_S1600000x64_1_0_n_n_0_1_164 t
    (broadcastInDim S1600000x1 ![0] bcast_S1600000_S1600000x1_0 (select (cmpi .slt (shapeCast _ (extractStridedSlice S1x1600000 ![0, 0] x1 slices_S2x1600000_S1x1600000_0_0) shapeCasts_S1x1600000_S1600000) (broadcastInDim S1600000 ![] bcast_S_S1600000 (constantI S_ 32 0#32))) (addi (shapeCast _ (extractStridedSlice S1x1600000 ![0, 0] x1 slices_S2x1600000_S1x1600000_0_0) shapeCasts_S1x1600000_S1600000) (broadcastInDim S1600000 ![] bcast_S_S1600000 (constantI S_ 32 100000#32))) (shapeCast _ (extractStridedSlice S1x1600000 ![0, 0] x1 slices_S2x1600000_S1x1600000_0_0) shapeCasts_S1x1600000_S1600000)))
  toTarget u := Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 (shapeCast _ (extractStridedSlice S1x1600000 ![1, 0] x1 slices_S2x1600000_S1x1600000_1_0) shapeCasts_S1x1600000_S1600000)) u
  toGraph u := Host.scatterAdd scatter_S2048x64_S100000x1_S100000x64_1_0_0_1
    (broadcastInDim S2048x64 ![] bcast_S_S2048x64 (constant (F := Ideal) S_ .f32 0x00000000#32))
    (broadcastInDim S100000x1 ![0] bcast_S100000_S100000x1_0 x2) u

/-- Round 1's weights: slice 0 of each stacked weight array, as the program slices and reshapes it. -/
def layer1 (x9 : (⟨S3x64x64, .f32⟩ : BufTy).Contents (Elt Ideal)) (x10 : (⟨S3x64, .f32⟩ : BufTy).Contents (Elt Ideal)) (x11 : (⟨S3x64x64, .f32⟩ : BufTy).Contents (Elt Ideal))
    (x12 x13 x14 x15 x16 : (⟨S3x64, .f32⟩ : BufTy).Contents (Elt Ideal)) : Gnn.Layer where
  w1 := shapeCast _ (extractStridedSlice S1x64x64 ![0, 0, 0] x9 slices_S3x64x64_S1x64x64_0_0_0) shapeCasts_S1x64x64_S64x64
  b1 := shapeCast _ (extractStridedSlice S1x64 ![0, 0] x10 slices_S3x64_S1x64_0_0) shapeCasts_S1x64_S64
  w2 := shapeCast _ (extractStridedSlice S1x64x64 ![0, 0, 0] x11 slices_S3x64x64_S1x64x64_0_0_0) shapeCasts_S1x64x64_S64x64
  b2 := shapeCast _ (extractStridedSlice S1x64 ![0, 0] x12 slices_S3x64_S1x64_0_0) shapeCasts_S1x64_S64
  scale := shapeCast _ (extractStridedSlice S1x64 ![0, 0] x13 slices_S3x64_S1x64_0_0) shapeCasts_S1x64_S64
  shift := shapeCast _ (extractStridedSlice S1x64 ![0, 0] x14 slices_S3x64_S1x64_0_0) shapeCasts_S1x64_S64
  mean := shapeCast _ (extractStridedSlice S1x64 ![0, 0] x15 slices_S3x64_S1x64_0_0) shapeCasts_S1x64_S64
  var := shapeCast _ (extractStridedSlice S1x64 ![0, 0] x16 slices_S3x64_S1x64_0_0) shapeCasts_S1x64_S64

/-- Round 2's weights: slice 1 of each stacked weight array, as the program slices and reshapes it. -/
def layer2 (x9 : (⟨S3x64x64, .f32⟩ : BufTy).Contents (Elt Ideal)) (x10 : (⟨S3x64, .f32⟩ : BufTy).Contents (Elt Ideal)) (x11 : (⟨S3x64x64, .f32⟩ : BufTy).Contents (Elt Ideal))
    (x12 x13 x14 x15 x16 : (⟨S3x64, .f32⟩ : BufTy).Contents (Elt Ideal)) : Gnn.Layer where
  w1 := shapeCast _ (extractStridedSlice S1x64x64 ![1, 0, 0] x9 slices_S3x64x64_S1x64x64_1_0_0) shapeCasts_S1x64x64_S64x64
  b1 := shapeCast _ (extractStridedSlice S1x64 ![1, 0] x10 slices_S3x64_S1x64_1_0) shapeCasts_S1x64_S64
  w2 := shapeCast _ (extractStridedSlice S1x64x64 ![1, 0, 0] x11 slices_S3x64x64_S1x64x64_1_0_0) shapeCasts_S1x64x64_S64x64
  b2 := shapeCast _ (extractStridedSlice S1x64 ![1, 0] x12 slices_S3x64_S1x64_1_0) shapeCasts_S1x64_S64
  scale := shapeCast _ (extractStridedSlice S1x64 ![1, 0] x13 slices_S3x64_S1x64_1_0) shapeCasts_S1x64_S64
  shift := shapeCast _ (extractStridedSlice S1x64 ![1, 0] x14 slices_S3x64_S1x64_1_0) shapeCasts_S1x64_S64
  mean := shapeCast _ (extractStridedSlice S1x64 ![1, 0] x15 slices_S3x64_S1x64_1_0) shapeCasts_S1x64_S64
  var := shapeCast _ (extractStridedSlice S1x64 ![1, 0] x16 slices_S3x64_S1x64_1_0) shapeCasts_S1x64_S64

/-- Round 3's weights: slice 2 of each stacked weight array, as the program slices and reshapes it. -/
def layer3 (x9 : (⟨S3x64x64, .f32⟩ : BufTy).Contents (Elt Ideal)) (x10 : (⟨S3x64, .f32⟩ : BufTy).Contents (Elt Ideal)) (x11 : (⟨S3x64x64, .f32⟩ : BufTy).Contents (Elt Ideal))
    (x12 x13 x14 x15 x16 : (⟨S3x64, .f32⟩ : BufTy).Contents (Elt Ideal)) : Gnn.Layer where
  w1 := shapeCast _ (extractStridedSlice S1x64x64 ![2, 0, 0] x9 slices_S3x64x64_S1x64x64_2_0_0) shapeCasts_S1x64x64_S64x64
  b1 := shapeCast _ (extractStridedSlice S1x64 ![2, 0] x10 slices_S3x64_S1x64_2_0) shapeCasts_S1x64_S64
  w2 := shapeCast _ (extractStridedSlice S1x64x64 ![2, 0, 0] x11 slices_S3x64x64_S1x64x64_2_0_0) shapeCasts_S1x64x64_S64x64
  b2 := shapeCast _ (extractStridedSlice S1x64 ![2, 0] x12 slices_S3x64_S1x64_2_0) shapeCasts_S1x64_S64
  scale := shapeCast _ (extractStridedSlice S1x64 ![2, 0] x13 slices_S3x64_S1x64_2_0) shapeCasts_S1x64_S64
  shift := shapeCast _ (extractStridedSlice S1x64 ![2, 0] x14 slices_S3x64_S1x64_2_0) shapeCasts_S1x64_S64
  mean := shapeCast _ (extractStridedSlice S1x64 ![2, 0] x15 slices_S3x64_S1x64_2_0) shapeCasts_S1x64_S64
  var := shapeCast _ (extractStridedSlice S1x64 ![2, 0] x16 slices_S3x64_S1x64_2_0) shapeCasts_S1x64_S64

/-- The reference's regular inputs: its float arguments, the sliced per-round weights, the zero start of the virtual node
    and the mean pooling's divisor. -/
def params (x0 : (⟨S100000x32, .f32⟩ : BufTy).Contents (Elt Ideal)) (x2 : (⟨S100000, .i32⟩ : BufTy).Contents (Elt Ideal)) (x3 : (⟨S1600000x2, .f32⟩ : BufTy).Contents (Elt Ideal)) (x4 : (⟨S2048x768, .f32⟩ : BufTy).Contents (Elt Ideal)) (x5 : (⟨S32x64, .f32⟩ : BufTy).Contents (Elt Ideal)) (x6 : (⟨S64, .f32⟩ : BufTy).Contents (Elt Ideal)) (x7 : (⟨S2x64, .f32⟩ : BufTy).Contents (Elt Ideal)) (x8 : (⟨S64, .f32⟩ : BufTy).Contents (Elt Ideal)) (x9 : (⟨S3x64x64, .f32⟩ : BufTy).Contents (Elt Ideal)) (x10 : (⟨S3x64, .f32⟩ : BufTy).Contents (Elt Ideal)) (x11 : (⟨S3x64x64, .f32⟩ : BufTy).Contents (Elt Ideal))
    (x12 x13 x14 x15 x16 : (⟨S3x64, .f32⟩ : BufTy).Contents (Elt Ideal)) (x17 : (⟨S64x64, .f32⟩ : BufTy).Contents (Elt Ideal)) (x18 : (⟨S64, .f32⟩ : BufTy).Contents (Elt Ideal)) (x19 : (⟨S64x64, .f32⟩ : BufTy).Contents (Elt Ideal)) (x20 : (⟨S64, .f32⟩ : BufTy).Contents (Elt Ideal)) (x21 : (⟨S768x64, .f32⟩ : BufTy).Contents (Elt Ideal)) (x22 : (⟨S64, .f32⟩ : BufTy).Contents (Elt Ideal)) (x23 : (⟨S128x64, .f32⟩ : BufTy).Contents (Elt Ideal)) (x24 : (⟨S64, .f32⟩ : BufTy).Contents (Elt Ideal)) (x25 : (⟨S64x1, .f32⟩ : BufTy).Contents (Elt Ideal)) (x26 : (⟨S1, .f32⟩ : BufTy).Contents (Elt Ideal)) : Gnn.Params where
  x := x0
  ea := x3
  pep := x4
  inW := x5
  inB := x6
  eW := x7
  eB := x8
  l1 := layer1 x9 x10 x11 x12 x13 x14 x15 x16
  l2 := layer2 x9 x10 x11 x12 x13 x14 x15 x16
  l3 := layer3 x9 x10 x11 x12 x13 x14 x15 x16
  vW1 := x17
  vB1 := x18
  vW2 := x19
  vB2 := x20
  pW := x21
  pB := x22
  cW1 := x23
  cB1 := x24
  cW2 := x25
  cB2 := x26
  vn0 := broadcastInDim S2048x64 ![] bcast_S_S2048x64 (constant (F := Ideal) S_ .f32 0x00000000#32)
  den := broadcastInDim S2048x64 ![0, 1] bcast_S2048x1_S2048x64_0_1 (broadcastInDim S2048x1 ![0] bcast_S2048_S2048x1_0 (maximumf (Host.scatterAdd scatter_S2048_S100000x1_S100000_n_0_0_1 (broadcastInDim S2048 ![] bcast_S_S2048 (constant (F := Ideal) S_ .f32 0x00000000#32)) (broadcastInDim S100000x1 ![0] bcast_S100000_S100000x1_0 x2) (broadcastInDim S100000 ![] bcast_S_S100000 (constant (F := Ideal) S_ .f32 0x3F800000#32))) (broadcastInDim S2048 ![] bcast_S_S2048 (constant (F := Ideal) S_ .f32 0x3F800000#32))))

end Cert.ReferenceIdeal.RefValue

end
-- ==== Proof.RefModel.lean ====
/-
  The reference program computes the network of the specification.

  The program is read stage by stage. Each dense stage (a matrix product plus a bias row, a maximum against the zero
  array, the normalisation of a round) is the corresponding stage function of the specification, by the whole-array
  equations for the host's operations; each gather and scatter-add is one of the four irregular maps applied to the
  stage before it. Chaining the stages in program order gives the three rounds, the two virtual-node updates, the
  mean pooling and the classifier, and the program's result is the column of logits laid out as a vector.
-/
import proofs.«125701_j46669114638593_1_alg».proof.Proof.RefRead
import proofs.«125701_j46669114638593_1_alg».proof.Proof.RefStage
import proofs.«125701_j46669114638593_1_alg».proof.Proof.RefModelDefs

noncomputable section

namespace Cert.ReferenceIdeal.RefValue

open Cert.ReferenceIdeal Cert.ReferenceIdeal.Gen Cert.ReferenceIdeal.Read Idealize.ShloMosaic

variable (x0 : (⟨S100000x32, .f32⟩ : BufTy).Contents (Elt Ideal))
  (x1 : (⟨S2x1600000, .i32⟩ : BufTy).Contents (Elt Ideal))
  (x2 : (⟨S100000, .i32⟩ : BufTy).Contents (Elt Ideal))
  (x3 : (⟨S1600000x2, .f32⟩ : BufTy).Contents (Elt Ideal))
  (x4 : (⟨S2048x768, .f32⟩ : BufTy).Contents (Elt Ideal))
  (x5 : (⟨S32x64, .f32⟩ : BufTy).Contents (Elt Ideal))
  (x6 : (⟨S64, .f32⟩ : BufTy).Contents (Elt Ideal))
  (x7 : (⟨S2x64, .f32⟩ : BufTy).Contents (Elt Ideal))
  (x8 : (⟨S64, .f32⟩ : BufTy).Contents (Elt Ideal))
  (x9 : (⟨S3x64x64, .f32⟩ : BufTy).Contents (Elt Ideal))
  (x10 : (⟨S3x64, .f32⟩ : BufTy).Contents (Elt Ideal))
  (x11 : (⟨S3x64x64, .f32⟩ : BufTy).Contents (Elt Ideal))
  (x12 : (⟨S3x64, .f32⟩ : BufTy).Contents (Elt Ideal))
  (x13 : (⟨S3x64, .f32⟩ : BufTy).Contents (Elt Ideal))
  (x14 : (⟨S3x64, .f32⟩ : BufTy).Contents (Elt Ideal))
  (x15 : (⟨S3x64, .f32⟩ : BufTy).Contents (Elt Ideal))
  (x16 : (⟨S3x64, .f32⟩ : BufTy).Contents (Elt Ideal))
  (x17 : (⟨S64x64, .f32⟩ : BufTy).Contents (Elt Ideal))
  (x18 : (⟨S64, .f32⟩ : BufTy).Contents (Elt Ideal))
  (x19 : (⟨S64x64, .f32⟩ : BufTy).Contents (Elt Ideal))
  (x20 : (⟨S64, .f32⟩ : BufTy).Contents (Elt Ideal))
  (x21 : (⟨S768x64, .f32⟩ : BufTy).Contents (Elt Ideal))
  (x22 : (⟨S64, .f32⟩ : BufTy).Contents (Elt Ideal))
  (x23 : (⟨S128x64, .f32⟩ : BufTy).Contents (Elt Ideal))
  (x24 : (⟨S64, .f32⟩ : BufTy).Contents (Elt Ideal))
  (x25 : (⟨S64x1, .f32⟩ : BufTy).Contents (Elt Ideal))
  (x26 : (⟨S1, .f32⟩ : BufTy).Contents (Elt Ideal))

/-! ### The two input products -/

/-- The edge term `edge_attr · e_w + e_b`, computed once. -/
theorem e_eq : (val_main_v11 (F := Ideal) x3 x7 x8) = Gnn.lin x3 x7 x8 := by
  unfold val_main_v11 val_main_v8 val_main_v10 val_main_v9
  exact Gnn.Stage.lin_eq _ rfl _ _ x3 x7 x8

/-- The node table before the first round. -/
theorem h0_eq : (val_main_v7 (F := Ideal) x0 x5 x6) = Gnn.h0 (params x0 x2 x3 x4 x5 x6 x7 x8 x9 x10 x11 x12 x13 x14 x15 x16 x17 x18 x19 x20 x21 x22 x23 x24 x25 x26) := by
  unfold val_main_v7 val_main_v4 val_main_v6 val_main_v5
  exact Gnn.Stage.lin_eq _ rfl _ _ x0 x5 x6

/-- The table round 1 starts with. -/
theorem start1_eq : (val_main_v20 (F := Ideal) x0 x2 x5 x6) = Gnn.hin1 (irreg x1 x2) (params x0 x2 x3 x4 x5 x6 x7 x8 x9 x10 x11 x12 x13 x14 x15 x16 x17 x18 x19 x20 x21 x22 x23 x24 x25 x26) := by
  unfold val_main_v20 val_main_v19 val_main_v12 val_main_cst val_main_v18 val_main_v17 val_main_v14 val_main_v13 val_main_c val_main_v16 val_main_v15 val_main_c_0
  rw [h0_eq x0 x2 x3 x4 x5 x6 x7 x8 x9 x10 x11 x12 x13 x14 x15 x16 x17 x18 x19 x20 x21 x22 x23 x24 x25 x26]
  rfl

/-! ### Round 1 -/

/-- The edge messages of round 1. -/
theorem msg1_eq : (val_main_v29 (F := Ideal) x0 x1 x2 x3 x5 x6 x7 x8) = Gnn.msg ((irreg x1 x2).bySource (val_main_v20 (F := Ideal) x0 x2 x5 x6)) x3 x7 x8 := by
  unfold val_main_v29 val_main_v28 val_main_v27 val_main_v26 val_main_v25 val_main_v22 val_main_v1 val_main_v0 val_main_v21 val_main_c_1 val_main_v24 val_main_v23 val_main_c_2 val_main_call0_v0 val_main_call0_cst
  rw [e_eq x3 x7 x8]
  exact Gnn.Stage.msg_eq _ _ x3 x7 x8

/-- Round 1's node update, from the table the round starts with and the summed messages. -/
theorem upd1_eq : (val_main_v74 (F := Ideal) x0 x1 x2 x3 x5 x6 x7 x8 x9 x10 x11 x12 x13 x14 x15 x16) = Gnn.node (val_main_v20 (F := Ideal) x0 x2 x5 x6) ((irreg x1 x2).toTarget (val_main_v29 (F := Ideal) x0 x1 x2 x3 x5 x6 x7 x8)) (layer1 x9 x10 x11 x12 x13 x14 x15 x16) := by
  unfold val_main_v74 val_main_v73 val_main_v68 val_main_v63 val_main_v55 val_main_v50 val_main_v45 val_main_v42 val_main_v41 val_main_v36 val_main_v33 val_main_v32 val_main_v30 val_main_cst_3 val_main_v31 val_main_v3 val_main_v2 val_main_v35 val_main_v34 val_main_v40 val_main_v39 val_main_v38 val_main_v37 val_main_call1_v0 val_main_call1_cst val_main_v44 val_main_v43 val_main_v49 val_main_v48 val_main_v47 val_main_v46 val_main_v54 val_main_v53 val_main_v52 val_main_v51 val_main_v62 val_main_v61 val_main_v60 val_main_v59 val_main_v57 val_main_v56 val_main_v58 val_main_cst_4 val_main_v67 val_main_v66 val_main_v65 val_main_v64 val_main_v72 val_main_v71 val_main_v70 val_main_v69 val_main_call2_v0 val_main_call2_cst
  exact Gnn.Stage.node_host_eq _ rfl _ _ _ _ _ _ _ _ _ _ _ _ _ _

/-- The node table after round 1, from the table it starts with. -/
theorem node1_eq : (val_main_v74 (F := Ideal) x0 x1 x2 x3 x5 x6 x7 x8 x9 x10 x11 x12 x13 x14 x15 x16) = Gnn.round (irreg x1 x2) (params x0 x2 x3 x4 x5 x6 x7 x8 x9 x10 x11 x12 x13 x14 x15 x16 x17 x18 x19 x20 x21 x22 x23 x24 x25 x26) (params x0 x2 x3 x4 x5 x6 x7 x8 x9 x10 x11 x12 x13 x14 x15 x16 x17 x18 x19 x20 x21 x22 x23 x24 x25 x26).l1 (val_main_v20 (F := Ideal) x0 x2 x5 x6) := by
  rw [upd1_eq x0 x1 x2 x3 x5 x6 x7 x8 x9 x10 x11 x12 x13 x14 x15 x16, msg1_eq x0 x1 x2 x3 x5 x6 x7 x8]
  rfl

/-- The virtual node after round 1. -/
theorem vnode1_eq : (val_main_v87 (F := Ideal) x0 x1 x2 x3 x5 x6 x7 x8 x9 x10 x11 x12 x13 x14 x15 x16 x17 x18 x19 x20) = Gnn.vnNext (irreg x1 x2) (params x0 x2 x3 x4 x5 x6 x7 x8 x9 x10 x11 x12 x13 x14 x15 x16 x17 x18 x19 x20 x21 x22 x23 x24 x25 x26) (val_main_v12 (F := Ideal)) (val_main_v74 (F := Ideal) x0 x1 x2 x3 x5 x6 x7 x8 x9 x10 x11 x12 x13 x14 x15 x16) := by
  unfold val_main_v87 val_main_v86 val_main_v83 val_main_v82 val_main_v81 val_main_v78 val_main_v77 val_main_v75 val_main_cst_5 val_main_v76 val_main_v80 val_main_v79 val_main_call3_v0 val_main_call3_cst val_main_v85 val_main_v84
  exact Gnn.Stage.vnext_eq _ rfl _ _ _ (val_main_v12 (F := Ideal)) _ x17 x18 x19 x20

/-- The table round 2 starts with: round 1's result plus each node's virtual-node row. -/
theorem start2_eq : (val_main_v95 (F := Ideal) x0 x1 x2 x3 x5 x6 x7 x8 x9 x10 x11 x12 x13 x14 x15 x16 x17 x18 x19 x20) = addf (val_main_v74 (F := Ideal) x0 x1 x2 x3 x5 x6 x7 x8 x9 x10 x11 x12 x13 x14 x15 x16) ((irreg x1 x2).byGraph (val_main_v87 (F := Ideal) x0 x1 x2 x3 x5 x6 x7 x8 x9 x10 x11 x12 x13 x14 x15 x16 x17 x18 x19 x20)) := by
  unfold val_main_v95 val_main_v94 val_main_v93 val_main_v92 val_main_v89 val_main_v88 val_main_c_6 val_main_v91 val_main_v90 val_main_c_7
  rfl

/-! ### Round 2 -/

/-- The edge messages of round 2. -/
theorem msg2_eq : (val_main_v104 (F := Ideal) x0 x1 x2 x3 x5 x6 x7 x8 x9 x10 x11 x12 x13 x14 x15 x16 x17 x18 x19 x20) = Gnn.msg ((irreg x1 x2).bySource (val_main_v95 (F := Ideal) x0 x1 x2 x3 x5 x6 x7 x8 x9 x10 x11 x12 x13 x14 x15 x16 x17 x18 x19 x20)) x3 x7 x8 := by
  unfold val_main_v104 val_main_v103 val_main_v102 val_main_v101 val_main_v100 val_main_v97 val_main_v1 val_main_v0 val_main_v96 val_main_c_8 val_main_v99 val_main_v98 val_main_c_9 val_main_call4_v0 val_main_call4_cst
  rw [e_eq x3 x7 x8]
  exact Gnn.Stage.msg_eq _ _ x3 x7 x8

/-- Round 2's node update, from the table the round starts with and the summed messages. -/
theorem upd2_eq : (val_main_v149 (F := Ideal) x0 x1 x2 x3 x5 x6 x7 x8 x9 x10 x11 x12 x13 x14 x15 x16 x17 x18 x19 x20) = Gnn.node (val_main_v95 (F := Ideal) x0 x1 x2 x3 x5 x6 x7 x8 x9 x10 x11 x12 x13 x14 x15 x16 x17 x18 x19 x20) ((irreg x1 x2).toTarget (val_main_v104 (F := Ideal) x0 x1 x2 x3 x5 x6 x7 x8 x9 x10 x11 x12 x13 x14 x15 x16 x17 x18 x19 x20)) (layer2 x9 x10 x11 x12 x13 x14 x15 x16) := by
  unfold val_main_v149 val_main_v148 val_main_v143 val_main_v138 val_main_v130 val_main_v125 val_main_v120 val_main_v117 val_main_v116 val_main_v111 val_main_v108 val_main_v107 val_main_v105 val_main_cst_10 val_main_v106 val_main_v3 val_main_v2 val_main_v110 val_main_v109 val_main_v115 val_main_v114 val_main_v113 val_main_v112 val_main_call5_v0 val_main_call5_cst val_main_v119 val_main_v118 val_main_v124 val_main_v123 val_main_v122 val_main_v121 val_main_v129 val_main_v128 val_main_v127 val_main_v126 val_main_v137 val_main_v136 val_main_v135 val_main_v134 val_main_v132 val_main_v131 val_main_v133 val_main_cst_11 val_main_v142 val_main_v141 val_main_v140 val_main_v139 val_main_v147 val_main_v146 val_main_v145 val_main_v144 val_main_call6_v0 val_main_call6_cst
  exact Gnn.Stage.node_host_eq _ rfl _ _ _ _ _ _ _ _ _ _ _ _ _ _

/-- The node table after round 2, from the table it starts with. -/
theorem node2_eq : (val_main_v149 (F := Ideal) x0 x1 x2 x3 x5 x6 x7 x8 x9 x10 x11 x12 x13 x14 x15 x16 x17 x18 x19 x20) = Gnn.round (irreg x1 x2) (params x0 x2 x3 x4 x5 x6 x7 x8 x9 x10 x11 x12 x13 x14 x15 x16 x17 x18 x19 x20 x21 x22 x23 x24 x25 x26) (params x0 x2 x3 x4 x5 x6 x7 x8 x9 x10 x11 x12 x13 x14 x15 x16 x17 x18 x19 x20 x21 x22 x23 x24 x25 x26).l2 (val_main_v95 (F := Ideal) x0 x1 x2 x3 x5 x6 x7 x8 x9 x10 x11 x12 x13 x14 x15 x16 x17 x18 x19 x20) := by
  rw [upd2_eq x0 x1 x2 x3 x5 x6 x7 x8 x9 x10 x11 x12 x13 x14 x15 x16 x17 x18 x19 x20, msg2_eq x0 x1 x2 x3 x5 x6 x7 x8 x9 x10 x11 x12 x13 x14 x15 x16 x17 x18 x19 x20]
  rfl

/-- The virtual node after round 2. -/
theorem vnode2_eq : (val_main_v162 (F := Ideal) x0 x1 x2 x3 x5 x6 x7 x8 x9 x10 x11 x12 x13 x14 x15 x16 x17 x18 x19 x20) = Gnn.vnNext (irreg x1 x2) (params x0 x2 x3 x4 x5 x6 x7 x8 x9 x10 x11 x12 x13 x14 x15 x16 x17 x18 x19 x20 x21 x22 x23 x24 x25 x26) (val_main_v87 (F := Ideal) x0 x1 x2 x3 x5 x6 x7 x8 x9 x10 x11 x12 x13 x14 x15 x16 x17 x18 x19 x20) (val_main_v149 (F := Ideal) x0 x1 x2 x3 x5 x6 x7 x8 x9 x10 x11 x12 x13 x14 x15 x16 x17 x18 x19 x20) := by
  unfold val_main_v162 val_main_v161 val_main_v158 val_main_v157 val_main_v156 val_main_v153 val_main_v152 val_main_v150 val_main_cst_12 val_main_v151 val_main_v155 val_main_v154 val_main_call7_v0 val_main_call7_cst val_main_v160 val_main_v159
  exact Gnn.Stage.vnext_eq _ rfl _ _ _ (val_main_v87 (F := Ideal) x0 x1 x2 x3 x5 x6 x7 x8 x9 x10 x11 x12 x13 x14 x15 x16 x17 x18 x19 x20) _ x17 x18 x19 x20

/-- The table round 3 starts with: round 2's result plus each node's virtual-node row. -/
theorem start3_eq : (val_main_v170 (F := Ideal) x0 x1 x2 x3 x5 x6 x7 x8 x9 x10 x11 x12 x13 x14 x15 x16 x17 x18 x19 x20) = addf (val_main_v149 (F := Ideal) x0 x1 x2 x3 x5 x6 x7 x8 x9 x10 x11 x12 x13 x14 x15 x16 x17 x18 x19 x20) ((irreg x1 x2).byGraph (val_main_v162 (F := Ideal) x0 x1 x2 x3 x5 x6 x7 x8 x9 x10 x11 x12 x13 x14 x15 x16 x17 x18 x19 x20)) := by
  unfold val_main_v170 val_main_v169 val_main_v168 val_main_v167 val_main_v164 val_main_v163 val_main_c_13 val_main_v166 val_main_v165 val_main_c_14
  rfl

/-! ### Round 3 -/

/-- The edge messages of round 3. -/
theorem msg3_eq : (val_main_v179 (F := Ideal) x0 x1 x2 x3 x5 x6 x7 x8 x9 x10 x11 x12 x13 x14 x15 x16 x17 x18 x19 x20) = Gnn.msg ((irreg x1 x2).bySource (val_main_v170 (F := Ideal) x0 x1 x2 x3 x5 x6 x7 x8 x9 x10 x11 x12 x13 x14 x15 x16 x17 x18 x19 x20)) x3 x7 x8 := by
  unfold val_main_v179 val_main_v178 val_main_v177 val_main_v176 val_main_v175 val_main_v172 val_main_v1 val_main_v0 val_main_v171 val_main_c_15 val_main_v174 val_main_v173 val_main_c_16 val_main_call8_v0 val_main_call8_cst
  rw [e_eq x3 x7 x8]
  exact Gnn.Stage.msg_eq _ _ x3 x7 x8

/-- Round 3's node update, from the table the round starts with and the summed messages. -/
theorem upd3_eq : (val_main_v224 (F := Ideal) x0 x1 x2 x3 x5 x6 x7 x8 x9 x10 x11 x12 x13 x14 x15 x16 x17 x18 x19 x20) = Gnn.node (val_main_v170 (F := Ideal) x0 x1 x2 x3 x5 x6 x7 x8 x9 x10 x11 x12 x13 x14 x15 x16 x17 x18 x19 x20) ((irreg x1 x2).toTarget (val_main_v179 (F := Ideal) x0 x1 x2 x3 x5 x6 x7 x8 x9 x10 x11 x12 x13 x14 x15 x16 x17 x18 x19 x20)) (layer3 x9 x10 x11 x12 x13 x14 x15 x16) := by
  unfold val_main_v224 val_main_v223 val_main_v218 val_main_v213 val_main_v205 val_main_v200 val_main_v195 val_main_v192 val_main_v191 val_main_v186 val_main_v183 val_main_v182 val_main_v180 val_main_cst_17 val_main_v181 val_main_v3 val_main_v2 val_main_v185 val_main_v184 val_main_v190 val_main_v189 val_main_v188 val_main_v187 val_main_call9_v0 val_main_call9_cst val_main_v194 val_main_v193 val_main_v199 val_main_v198 val_main_v197 val_main_v196 val_main_v204 val_main_v203 val_main_v202 val_main_v201 val_main_v212 val_main_v211 val_main_v210 val_main_v209 val_main_v207 val_main_v206 val_main_v208 val_main_cst_18 val_main_v217 val_main_v216 val_main_v215 val_main_v214 val_main_v222 val_main_v221 val_main_v220 val_main_v219 val_main_call10_v0 val_main_call10_cst
  exact Gnn.Stage.node_host_eq _ rfl _ _ _ _ _ _ _ _ _ _ _ _ _ _

/-- The node table after round 3, from the table it starts with. -/
theorem node3_eq : (val_main_v224 (F := Ideal) x0 x1 x2 x3 x5 x6 x7 x8 x9 x10 x11 x12 x13 x14 x15 x16 x17 x18 x19 x20) = Gnn.round (irreg x1 x2) (params x0 x2 x3 x4 x5 x6 x7 x8 x9 x10 x11 x12 x13 x14 x15 x16 x17 x18 x19 x20 x21 x22 x23 x24 x25 x26) (params x0 x2 x3 x4 x5 x6 x7 x8 x9 x10 x11 x12 x13 x14 x15 x16 x17 x18 x19 x20 x21 x22 x23 x24 x25 x26).l3 (val_main_v170 (F := Ideal) x0 x1 x2 x3 x5 x6 x7 x8 x9 x10 x11 x12 x13 x14 x15 x16 x17 x18 x19 x20) := by
  rw [upd3_eq x0 x1 x2 x3 x5 x6 x7 x8 x9 x10 x11 x12 x13 x14 x15 x16 x17 x18 x19 x20, msg3_eq x0 x1 x2 x3 x5 x6 x7 x8 x9 x10 x11 x12 x13 x14 x15 x16 x17 x18 x19 x20]
  rfl

/-! ### The three rounds chained -/

theorem h1_eq : (val_main_v74 (F := Ideal) x0 x1 x2 x3 x5 x6 x7 x8 x9 x10 x11 x12 x13 x14 x15 x16) = Gnn.h1 (irreg x1 x2) (params x0 x2 x3 x4 x5 x6 x7 x8 x9 x10 x11 x12 x13 x14 x15 x16 x17 x18 x19 x20 x21 x22 x23 x24 x25 x26) := by
  rw [node1_eq x0 x1 x2 x3 x4 x5 x6 x7 x8 x9 x10 x11 x12 x13 x14 x15 x16 x17 x18 x19 x20 x21 x22 x23 x24 x25 x26, start1_eq x0 x1 x2 x3 x4 x5 x6 x7 x8 x9 x10 x11 x12 x13 x14 x15 x16 x17 x18 x19 x20 x21 x22 x23 x24 x25 x26]
  rfl

theorem vn1_eq : (val_main_v87 (F := Ideal) x0 x1 x2 x3 x5 x6 x7 x8 x9 x10 x11 x12 x13 x14 x15 x16 x17 x18 x19 x20) = Gnn.vn1 (irreg x1 x2) (params x0 x2 x3 x4 x5 x6 x7 x8 x9 x10 x11 x12 x13 x14 x15 x16 x17 x18 x19 x20 x21 x22 x23 x24 x25 x26) := by
  rw [vnode1_eq x0 x1 x2 x3 x4 x5 x6 x7 x8 x9 x10 x11 x12 x13 x14 x15 x16 x17 x18 x19 x20 x21 x22 x23 x24 x25 x26, h1_eq x0 x1 x2 x3 x4 x5 x6 x7 x8 x9 x10 x11 x12 x13 x14 x15 x16 x17 x18 x19 x20 x21 x22 x23 x24 x25 x26]
  rfl

theorem hin2_eq : (val_main_v95 (F := Ideal) x0 x1 x2 x3 x5 x6 x7 x8 x9 x10 x11 x12 x13 x14 x15 x16 x17 x18 x19 x20) = Gnn.hin2 (irreg x1 x2) (params x0 x2 x3 x4 x5 x6 x7 x8 x9 x10 x11 x12 x13 x14 x15 x16 x17 x18 x19 x20 x21 x22 x23 x24 x25 x26) := by
  rw [start2_eq x0 x1 x2 x3 x5 x6 x7 x8 x9 x10 x11 x12 x13 x14 x15 x16 x17 x18 x19 x20, h1_eq x0 x1 x2 x3 x4 x5 x6 x7 x8 x9 x10 x11 x12 x13 x14 x15 x16 x17 x18 x19 x20 x21 x22 x23 x24 x25 x26, vn1_eq x0 x1 x2 x3 x4 x5 x6 x7 x8 x9 x10 x11 x12 x13 x14 x15 x16 x17 x18 x19 x20 x21 x22 x23 x24 x25 x26]
  rfl

theorem h2_eq : (val_main_v149 (F := Ideal) x0 x1 x2 x3 x5 x6 x7 x8 x9 x10 x11 x12 x13 x14 x15 x16 x17 x18 x19 x20) = Gnn.h2 (irreg x1 x2) (params x0 x2 x3 x4 x5 x6 x7 x8 x9 x10 x11 x12 x13 x14 x15 x16 x17 x18 x19 x20 x21 x22 x23 x24 x25 x26) := by
  rw [node2_eq x0 x1 x2 x3 x4 x5 x6 x7 x8 x9 x10 x11 x12 x13 x14 x15 x16 x17 x18 x19 x20 x21 x22 x23 x24 x25 x26, hin2_eq x0 x1 x2 x3 x4 x5 x6 x7 x8 x9 x10 x11 x12 x13 x14 x15 x16 x17 x18 x19 x20 x21 x22 x23 x24 x25 x26]
  rfl

theorem vn2_eq : (val_main_v162 (F := Ideal) x0 x1 x2 x3 x5 x6 x7 x8 x9 x10 x11 x12 x13 x14 x15 x16 x17 x18 x19 x20) = Gnn.vn2 (irreg x1 x2) (params x0 x2 x3 x4 x5 x6 x7 x8 x9 x10 x11 x12 x13 x14 x15 x16 x17 x18 x19 x20 x21 x22 x23 x24 x25 x26) := by
  rw [vnode2_eq x0 x1 x2 x3 x4 x5 x6 x7 x8 x9 x10 x11 x12 x13 x14 x15 x16 x17 x18 x19 x20 x21 x22 x23 x24 x25 x26, h2_eq x0 x1 x2 x3 x4 x5 x6 x7 x8 x9 x10 x11 x12 x13 x14 x15 x16 x17 x18 x19 x20 x21 x22 x23 x24 x25 x26, vn1_eq x0 x1 x2 x3 x4 x5 x6 x7 x8 x9 x10 x11 x12 x13 x14 x15 x16 x17 x18 x19 x20 x21 x22 x23 x24 x25 x26]
  rfl

theorem hin3_eq : (val_main_v170 (F := Ideal) x0 x1 x2 x3 x5 x6 x7 x8 x9 x10 x11 x12 x13 x14 x15 x16 x17 x18 x19 x20) = Gnn.hin3 (irreg x1 x2) (params x0 x2 x3 x4 x5 x6 x7 x8 x9 x10 x11 x12 x13 x14 x15 x16 x17 x18 x19 x20 x21 x22 x23 x24 x25 x26) := by
  rw [start3_eq x0 x1 x2 x3 x5 x6 x7 x8 x9 x10 x11 x12 x13 x14 x15 x16 x17 x18 x19 x20, h2_eq x0 x1 x2 x3 x4 x5 x6 x7 x8 x9 x10 x11 x12 x13 x14 x15 x16 x17 x18 x19 x20 x21 x22 x23 x24 x25 x26, vn2_eq x0 x1 x2 x3 x4 x5 x6 x7 x8 x9 x10 x11 x12 x13 x14 x15 x16 x17 x18 x19 x20 x21 x22 x23 x24 x25 x26]
  rfl

theorem h3_eq : (val_main_v224 (F := Ideal) x0 x1 x2 x3 x5 x6 x7 x8 x9 x10 x11 x12 x13 x14 x15 x16 x17 x18 x19 x20) = Gnn.h3 (irreg x1 x2) (params x0 x2 x3 x4 x5 x6 x7 x8 x9 x10 x11 x12 x13 x14 x15 x16 x17 x18 x19 x20 x21 x22 x23 x24 x25 x26) := by
  rw [node3_eq x0 x1 x2 x3 x4 x5 x6 x7 x8 x9 x10 x11 x12 x13 x14 x15 x16 x17 x18 x19 x20 x21 x22 x23 x24 x25 x26, hin3_eq x0 x1 x2 x3 x4 x5 x6 x7 x8 x9 x10 x11 x12 x13 x14 x15 x16 x17 x18 x19 x20 x21 x22 x23 x24 x25 x26]
  rfl

/-! ### Pooling and the classifier -/

/-- Each graph's mean row. -/
theorem mean_eq : (val_main_v236 (F := Ideal) x0 x1 x2 x3 x5 x6 x7 x8 x9 x10 x11 x12 x13 x14 x15 x16 x17 x18 x19 x20) = Gnn.graphMean (irreg x1 x2) (params x0 x2 x3 x4 x5 x6 x7 x8 x9 x10 x11 x12 x13 x14 x15 x16 x17 x18 x19 x20 x21 x22 x23 x24 x25 x26) := by
  unfold val_main_v236 val_main_v231 val_main_v229 val_main_cst_21 val_main_v230
  rw [h3_eq x0 x1 x2 x3 x4 x5 x6 x7 x8 x9 x10 x11 x12 x13 x14 x15 x16 x17 x18 x19 x20 x21 x22 x23 x24 x25 x26]
  rfl

/-- The peptide's hidden layer before its positive part. -/
theorem pep_eq : (val_main_v240 (F := Ideal) x4 x21 x22) = Gnn.lin x4 x21 x22 := by
  unfold val_main_v240 val_main_v237 val_main_v239 val_main_v238
  exact Gnn.Stage.lin_eq _ rfl _ _ x4 x21 x22

/-- The column of logits. -/
theorem logits_eq : (val_main_v251 (F := Ideal) x0 x1 x2 x3 x4 x5 x6 x7 x8 x9 x10 x11 x12 x13 x14 x15 x16 x17 x18 x19 x20 x21 x22 x23 x24 x25 x26) = Gnn.logits (irreg x1 x2) (params x0 x2 x3 x4 x5 x6 x7 x8 x9 x10 x11 x12 x13 x14 x15 x16 x17 x18 x19 x20 x21 x22 x23 x24 x25 x26) := by
  unfold val_main_v251 val_main_v248 val_main_v247 val_main_v246 val_main_v243 val_main_v242 val_main_v241 val_main_call11_v0 val_main_call11_cst val_main_v245 val_main_v244 val_main_call12_v0 val_main_call12_cst val_main_v250 val_main_v249
  rw [mean_eq x0 x1 x2 x3 x4 x5 x6 x7 x8 x9 x10 x11 x12 x13 x14 x15 x16 x17 x18 x19 x20 x21 x22 x23 x24 x25 x26, pep_eq x4 x21 x22]
  exact Gnn.Stage.cls_eq _ rfl _ rfl _ _ _ _ _ _ _ x4 x21 x22 x23 x24 x25 x26

/-- The reference's result: the logits column laid out as a vector of length 2048. -/
theorem result_eq : (val_main_v252 (F := Ideal) x0 x1 x2 x3 x4 x5 x6 x7 x8 x9 x10 x11 x12 x13 x14 x15 x16 x17 x18 x19 x20 x21 x22 x23 x24 x25 x26) = shapeCast _ (Gnn.logits (irreg x1 x2) (params x0 x2 x3 x4 x5 x6 x7 x8 x9 x10 x11 x12 x13 x14 x15 x16 x17 x18 x19 x20 x21 x22 x23 x24 x25 x26)) shapeCasts_S2048x1_S2048 := by
  unfold val_main_v252
  rw [logits_eq x0 x1 x2 x3 x4 x5 x6 x7 x8 x9 x10 x11 x12 x13 x14 x15 x16 x17 x18 x19 x20 x21 x22 x23 x24 x25 x26]

end Cert.ReferenceIdeal.RefValue

end
-- ==== Proof.lean ====
/-
  Both programs compute one three-round message-passing network (the model of Proof/Spec.lean), so under the precondition
  they end with equal results over the extended reals.

  The kernel program is ten launches among stretches of host operations: the launches carry the regular stages (the input
  projection, each round's edge messages and node updates, the virtual node's perceptron, the classifier), the host
  operations the irregular ones (the gathers by graph and by edge source, the scatter-adds into target nodes and into
  graphs) and the glue. Its run is the chain of valuations of the generated frame with the last valuation kept; read
  forwards, the result buffer ends at the model's logits, as a vector. The reference is one straight line of host
  operations; read stage by stage it ends at the same function of its arguments, with its own copies of the same irregular
  maps. The reference forms the edge term once where the kernel recomputes it in each round, and multiplies the
  concatenation [graph mean | peptide hidden] by the classifier's whole first weight matrix where the kernel adds the
  products with its two halves: a sum over 128 terms split into two sums over 64, which needs only that addition of
  extended reals is commutative and associative. No step uses the finiteness of the inputs.

  The three frames are the generated ones (the reference's is its run with the result dropped); the idealization rewrote
  nothing, so the fourth conjunct is trivial.
-/
import proofs.«125701_j46669114638593_1_alg».proof.Defs
import proofs.«125701_j46669114638593_1_alg».proof.Proof.Gen.Kernel
import proofs.«125701_j46669114638593_1_alg».proof.Proof.Gen.Kernel.Skeleton
import proofs.«125701_j46669114638593_1_alg».proof.Proof.Gen.Kernel.Launch
import proofs.«125701_j46669114638593_1_alg».proof.Proof.Gen.Kernel.Points
import proofs.«125701_j46669114638593_1_alg».proof.Proof.Gen.Kernel.Frame
import proofs.«125701_j46669114638593_1_alg».proof.Proof.Gen.KernelIdeal
import proofs.«125701_j46669114638593_1_alg».proof.Proof.Gen.KernelIdeal.Skeleton
import proofs.«125701_j46669114638593_1_alg».proof.Proof.Gen.KernelIdeal.Launch
import proofs.«125701_j46669114638593_1_alg».proof.Proof.Gen.KernelIdeal.Points
import proofs.«125701_j46669114638593_1_alg».proof.Proof.Gen.KernelIdeal.Frame
import proofs.«125701_j46669114638593_1_alg».proof.Proof.Gen.ReferenceIdeal
import proofs.«125701_j46669114638593_1_alg».proof.Proof.Gen.Pre_finite_inputs
import proofs.«125701_j46669114638593_1_alg».proof.Proof.KernelValue
import proofs.«125701_j46669114638593_1_alg».proof.Proof.RefModel
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments, both runs end with the result buffer at the model's logits: the kernel's
    by the forward reading of its chain of valuations, the reference's by its stage-by-stage reading; the two copies of
    the irregular maps and of the inputs are the same terms once the arguments are identified. -/
theorem algebraic : Cert.algebraic_KernelIdeal_ReferenceIdeal := by
  intro m ρ m' ρ' _ hagree
  refine ⟨Cert.KernelIdeal.KerValue.result m, Cert.KernelIdeal.KerValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v252_eq, Cert.ReferenceIdeal.RefValue.result_eq]
  obtain ⟨h0, h1, h2, h3, h4, h5, h6, h7, h8, h9, h10, h11, h12, h13, h14, h15, h16, h17, h18, h19, h20, h21, h22, h23, h24, h25, h26⟩ := hagree c
  rw [h0, h1, h2, h3, h4, h5, h6, h7, h8, h9, h10, h11, h12, h13, h14, h15, h16, h17, h18, h19, h20, h21, h22, h23, h24, h25, h26]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
